-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v103)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v103) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v349) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S384x128 : Shape := ⟨2, ![384, 128]⟩
abbrev S384 : Shape := ⟨1, ![384]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg9 : FVec F S384 .f32) (main_arg10 : FVec F S384 .f32) (main_arg11 : FVec F S128x128 .f32) (main_arg12 : FVec F S128 .f32) (main_v33 : IVec S_ 1) : IVec S_ 1 :=
  let main_v34 : FVec F S384 .f32 := Host.absf main_arg9
  let main_cst_12 : FVec F S_ .f32 := constant S_ .f32 0x7F800000#32
  let main_v35 : FVec F S384 .f32 := broadcastInDim S384 ![] bcast_S_S384 main_cst_12
  let main_v36 : IVec S384 1 := cmpf .olt main_v34 main_v35
  let main_c_13 : IVec S_ 1 := constantI S_ 1 1#1
  let main_v37 : IVec S_ 1 := (fun x v => Host.reduce IntOp.andi x v reducesTo_S384_S_d0 h_S_) main_v36 main_c_13
  let main_v38 : IVec S_ 1 := andi main_v33 main_v37
  let main_v39 : FVec F S384 .f32 := Host.absf main_arg10
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg12
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg6 : FVec F S4x128 .f32) (main_arg7 : FVec F S384x128 .f32) (main_arg8 : FVec F S384x128 .f32) (main_arg9 : FVec F S384 .f32) (main_arg10 : FVec F S384 .f32) (main_arg11 : FVec F S128x128 .f32) (main_arg12 : FVec F S128 .f32) (main_v13 : IVec S_ 1) (main_v16 : IVec S4x128x128 1) : IVec S_ 1 :=
  let main_c_5 : IVec S_ 1 := constantI S_ 1 1#1
  let main_v17 : IVec S_ 1 := (fun x v => Host.reduce IntOp.andi x v reducesTo_S4x128x128_S_d0_1_2 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S384x128 .f32 := Host.absf main_arg7
  let main_cst_8 : FVec F S_ .f32 := constant S_ .f32 0x7F800000#32
  let main_v25 : FVec F S384x128 .f32 := broadcastInDim S384x128 ![] bcast_S_S384x128 main_cst_8
  let main_v26 : IVec S384x128 1 := cmpf .olt main_v24 main_v25
  let main_c_9 : IVec S_ 1 := constantI S_ 1 1#1
  let main_v27 : IVec S_ 1 := (fun x v => Host.reduce IntOp.andi x v reducesTo_S384x128_S_d0_1 h_S_) main_v26 main_c_9
  let main_v28 : IVec S_ 1 := andi main_v23 main_v27
  let main_v29 : FVec F S384x128 .f32 := Host.absf main_arg8
  let main_cst_10 : FVec F S_ .f32 := constant S_ .f32 0x7F800000#32
  let main_v30 : FVec F S384x128 .f32 := broadcastInDim S384x128 ![] bcast_S_S384x128 main_cst_10
  let main_v31 : IVec S384x128 1 := cmpf .olt main_v29 main_v30
  let main_c_11 : IVec S_ 1 := constantI S_ 1 1#1
  let main_v32 : IVec S_ 1 := (fun x v => Host.reduce IntOp.andi x v reducesTo_S384x128_S_d0_1 h_S_) main_v31 main_c_11
  let main_v33 : IVec S_ 1 := andi main_v28 main_v32
  fn_part2 (F := F) main_arg9 main_arg10 main_arg11 main_arg12 main_v33

def fn {F : FTy → Type} [FloatOps F] (main_arg0 : FVec F S50000x128 .f32) (main_arg1 : IVec S2x600000 32) (main_arg2 : IVec S50000 32) (main_arg3 : FVec F S128x128 .f32) (main_arg4 : FVec F S128 .f32) (main_arg5 : FVec F S4x128x128 .f32) (main_arg6 : FVec F S4x128 .f32) (main_arg7 : FVec F S384x128 .f32) (main_arg8 : FVec F S384x128 .f32) (main_arg9 : FVec F S384 .f32) (main_arg10 : FVec F S384 .f32) (main_arg11 : FVec F S128x128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S4x128x128 .f32 := Host.absf main_arg5
  let main_cst_4 : FVec F S_ .f32 := constant S_ .f32 0x7F800000#32
  let main_v15 : FVec F S4x128x128 .f32 := broadcastInDim S4x128x128 ![] bcast_S_S4x128x128 main_cst_4
  let main_v16 : IVec S4x128x128 1 := cmpf .olt main_v14 main_v15
  fn_part1 (F := F) main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S50000x1 : Shape := ⟨2, ![50000, 1]⟩
abbrev S1x128 : Shape := ⟨2, ![1, 128]⟩
abbrev S10000x128 : Shape := ⟨2, ![10000, 128]⟩
abbrev S128x384 : Shape := ⟨2, ![128, 384]⟩
abbrev S1x384 : Shape := ⟨2, ![1, 384]⟩
abbrev S1x128x128 : Shape := ⟨3, ![1, 128, 128]⟩
abbrev S10000x1 : Shape := ⟨2, ![10000, 1]⟩
abbrev S600000x128 : Shape := ⟨2, ![600000, 128]⟩
abbrev S10000x384 : Shape := ⟨2, ![10000, 384]⟩
abbrev S512 : Shape := ⟨1, ![512]⟩
abbrev S512x128 : Shape := ⟨2, ![512, 128]⟩
abbrev S512x1 : Shape := ⟨2, ![512, 1]⟩

abbrev nBuf : Space → Nat
  | .hbm => 136
  | .vmem => 98
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S384x128, .f32⟩
  | 8 => ⟨S384x128, .f32⟩
  | 9 => ⟨S384, .f32⟩
  | 10 => ⟨S384, .f32⟩
  | 11 => ⟨S128x128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S50000x1, .f32⟩
  | 28 => ⟨S1x128, .f32⟩
  | 29 => ⟨S50000x128, .f32⟩
  | 30 => ⟨S128x384, .f32⟩
  | 31 => ⟨S128x384, .f32⟩
  | 32 => ⟨S1x384, .f32⟩
  | 33 => ⟨S1x384, .f32⟩
  | 34 => ⟨S1x128x128, .f32⟩
  | 35 => ⟨S128x128, .f32⟩
  | 36 => ⟨S50000x128, .bf16⟩
  | 37 => ⟨S_, .i32⟩
  | 38 => ⟨S600000, .i32⟩
  | 39 => ⟨S600000, .i1⟩
  | 40 => ⟨S_, .i32⟩
  | 41 => ⟨S600000, .i32⟩
  | 42 => ⟨S600000, .i32⟩
  | 43 => ⟨S600000, .i32⟩
  | 44 => ⟨S600000x1, .i32⟩
  | 45 => ⟨S600000x128, .bf16⟩
  | 46 => ⟨S600000x128, .f32⟩
  | 47 => ⟨S_, .f32⟩
  | 48 => ⟨S50000x128, .f32⟩
  | 49 => ⟨S600000x1, .i32⟩
  | 50 => ⟨S50000x128, .f32⟩
  | 51 => ⟨S1x128, .f32⟩
  | 52 => ⟨S128, .f32⟩
  | 53 => ⟨S1x128, .f32⟩
  | 54 => ⟨S50000x128, .f32⟩
  | 55 => ⟨S1x128x128, .f32⟩
  | 56 => ⟨S128x128, .f32⟩
  | 57 => ⟨S50000x128, .bf16⟩
  | 58 => ⟨S_, .i32⟩
  | 59 => ⟨S600000, .i32⟩
  | 60 => ⟨S600000, .i1⟩
  | 61 => ⟨S_, .i32⟩
  | 62 => ⟨S600000, .i32⟩
  | 63 => ⟨S600000, .i32⟩
  | 64 => ⟨S600000, .i32⟩
  | 65 => ⟨S600000x1, .i32⟩
  | 66 => ⟨S600000x128, .bf16⟩
  | 67 => ⟨S600000x128, .f32⟩
  | 68 => ⟨S_, .f32⟩
  | 69 => ⟨S50000x128, .f32⟩
  | 70 => ⟨S600000x1, .i32⟩
  | 71 => ⟨S50000x128, .f32⟩
  | 72 => ⟨S1x128, .f32⟩
  | 73 => ⟨S128, .f32⟩
  | 74 => ⟨S1x128, .f32⟩
  | 75 => ⟨S50000x128, .f32⟩
  | 76 => ⟨S1x128x128, .f32⟩
  | 77 => ⟨S128x128, .f32⟩
  | 78 => ⟨S50000x128, .bf16⟩
  | 79 => ⟨S_, .i32⟩
  | 80 => ⟨S600000, .i32⟩
  | 81 => ⟨S600000, .i1⟩
  | 82 => ⟨S_, .i32⟩
  | 83 => ⟨S600000, .i32⟩
  | 84 => ⟨S600000, .i32⟩
  | 85 => ⟨S600000, .i32⟩
  | 86 => ⟨S600000x1, .i32⟩
  | 87 => ⟨S600000x128, .bf16⟩
  | 88 => ⟨S600000x128, .f32⟩
  | 89 => ⟨S_, .f32⟩
  | 90 => ⟨S50000x128, .f32⟩
  | 91 => ⟨S600000x1, .i32⟩
  | 92 => ⟨S50000x128, .f32⟩
  | 93 => ⟨S1x128, .f32⟩
  | 94 => ⟨S128, .f32⟩
  | 95 => ⟨S1x128, .f32⟩
  | 96 => ⟨S50000x128, .f32⟩
  | 97 => ⟨S1x128x128, .f32⟩
  | 98 => ⟨S128x128, .f32⟩
  | 99 => ⟨S50000x128, .bf16⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000x128, .bf16⟩
  | 109 => ⟨S600000x128, .f32⟩
  | 110 => ⟨S_, .f32⟩
  | 111 => ⟨S50000x128, .f32⟩
  | 112 => ⟨S600000x1, .i32⟩
  | 113 => ⟨S50000x128, .f32⟩
  | 114 => ⟨S1x128, .f32⟩
  | 115 => ⟨S128, .f32⟩
  | 116 => ⟨S1x128, .f32⟩
  | 117 => ⟨S50000x128, .f32⟩
  | 118 => ⟨S_, .f32⟩
  | 119 => ⟨S50000, .f32⟩
  | 120 => ⟨S_, .f32⟩
  | 121 => ⟨S512, .f32⟩
  | 122 => ⟨S50000x1, .i32⟩
  | 123 => ⟨S512, .f32⟩
  | 124 => ⟨S_, .f32⟩
  | 125 => ⟨S512x128, .f32⟩
  | 126 => ⟨S50000x1, .i32⟩
  | 127 => ⟨S512x128, .f32⟩
  | _ => ⟨S50000x128, .f32⟩

abbrev hbmTy0_1 (i : Nat) : BufTy := match i % 128 with
  | 0 => ⟨S_, .f32⟩
  | 1 => ⟨S512, .f32⟩
  | 2 => ⟨S512, .f32⟩
  | 3 => ⟨S512x1, .f32⟩
  | 4 => ⟨S512x128, .f32⟩
  | 5 => ⟨S512x128, .f32⟩
  | 6 => ⟨S1x128, .f32⟩
  | 7 => ⟨S512x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S1x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S128x128, .f32⟩
  | .local _ .vmem, ⟨9, _⟩ => ⟨S10000x1, .f32⟩
  | .local _ .vmem, ⟨10, _⟩ => ⟨S10000x1, .f32⟩
  | .local _ .vmem, ⟨11, _⟩ => ⟨S10000x128, .bf16⟩
  | .local _ .vmem, ⟨12, _⟩ => ⟨S10000x128, .bf16⟩
  | .local _ .vmem, ⟨13, _⟩ => ⟨S10000x128, .f32⟩
  | .local _ .vmem, ⟨14, _⟩ => ⟨S10000x128, .f32⟩
  | .local _ .vmem, ⟨15, _⟩ => ⟨S10000x128, .bf16⟩
  | .local _ .vmem, ⟨16, _⟩ => ⟨S10000x128, .bf16⟩
  | .local _ .vmem, ⟨17, _⟩ => ⟨S10000x1, .f32⟩
  | .local _ .vmem, ⟨18, _⟩ => ⟨S10000x1, .f32⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | .local _ .vmem, ⟨22, _⟩ => ⟨S128x384, .f32⟩
  | .local _ .vmem, ⟨23, _⟩ => ⟨S128x384, .f32⟩
  | .local _ .vmem, ⟨24, _⟩ => ⟨S1x384, .f32⟩
  | .local _ .vmem, ⟨25, _⟩ => ⟨S1x384, .f32⟩
  | .local _ .vmem, ⟨26, _⟩ => ⟨S10000x128, .f32⟩
  | .local _ .vmem, ⟨27, _⟩ => ⟨S10000x128, .f32⟩
  | .local _ .vmem, ⟨28, _⟩ => ⟨S10000x128, .f32⟩
  | .local _ .vmem, ⟨29, _⟩ => ⟨S10000x128, .f32⟩
  | .local _ .vmem, ⟨30, _⟩ => ⟨S128x128, .f32⟩
  | .local _ .vmem, ⟨31, _⟩ => ⟨S10000x1, .f32⟩
  | .local _ .vmem, ⟨32, _⟩ => ⟨S10000x1, .f32⟩
  | .local _ .vmem, ⟨33, _⟩ => ⟨S10000x128, .bf16⟩
  | .local _ .vmem, ⟨34, _⟩ => ⟨S10000x128, .bf16⟩
  | .local _ .vmem, ⟨35, _⟩ => ⟨S10000x128, .f32⟩
  | .local _ .vmem, ⟨36, _⟩ => ⟨S10000x128, .f32⟩
  | .local _ .vmem, ⟨37, _⟩ => ⟨S10000x128, .bf16⟩
  | .local _ .vmem, ⟨38, _⟩ => ⟨S10000x128, .bf16⟩
  | .local _ .vmem, ⟨39, _⟩ => ⟨S10000x1, .f32⟩
  | .local _ .vmem, ⟨40, _⟩ => ⟨S10000x1, .f32⟩
  | .local _ .vmem, ⟨41, _⟩ => ⟨S1x128, .f32⟩
  | .local _ .vmem, ⟨42, _⟩ => ⟨S10000x128, .f32⟩
  | .local _ .vmem, ⟨43, _⟩ => ⟨S10000x128, .f32⟩
  | .local _ .vmem, ⟨44, _⟩ => ⟨S128x384, .f32⟩
  | .local _ .vmem, ⟨45, _⟩ => ⟨S128x384, .f32⟩
  | .local _ .vmem, ⟨46, _⟩ => ⟨S1x384, .f32⟩
  | .local _ .vmem, ⟨47, _⟩ => ⟨S1x384, .f32⟩
  | .local _ .vmem, ⟨48, _⟩ => ⟨S10000x128, .f32⟩
  | .local _ .vmem, ⟨49, _⟩ => ⟨S10000x128, .f32⟩
  | .local _ .vmem, ⟨50, _⟩ => ⟨S10000x128, .f32⟩
  | .local _ .vmem, ⟨51, _⟩ => ⟨S10000x128, .f32⟩
  | .local _ .vmem, ⟨52, _⟩ => ⟨S128x128, .f32⟩
  | .local _ .vmem, ⟨53, _⟩ => ⟨S10000x1, .f32⟩
  | .local _ .vmem, ⟨54, _⟩ => ⟨S10000x1, .f32⟩
  | .local _ .vmem, ⟨55, _⟩ => ⟨S10000x128, .bf16⟩
  | .local _ .vmem, ⟨56, _⟩ => ⟨S10000x128, .bf16⟩
  | .local _ .vmem, ⟨57, _⟩ => ⟨S10000x128, .f32⟩
  | .local _ .vmem, ⟨58, _⟩ => ⟨S10000x128, .f32⟩
  | .local _ .vmem, ⟨59, _⟩ => ⟨S10000x128, .bf16⟩
  | .local _ .vmem, ⟨60, _⟩ => ⟨S10000x128, .bf16⟩
  | .local _ .vmem, ⟨61, _⟩ => ⟨S10000x1, .f32⟩
  | .local _ .vmem, ⟨62, _⟩ => ⟨S10000x1, .f32⟩
  | .local _ .vmem, ⟨63, _⟩ => ⟨S1x128, .f32⟩
  | .local _ .vmem, ⟨64, _⟩ => ⟨S10000x128, .f32⟩
  | .local _ .vmem, ⟨65, _⟩ => ⟨S10000x128, .f32⟩
  | .local _ .vmem, ⟨66, _⟩ => ⟨S128x384, .f32⟩
  | .local _ .vmem, ⟨67, _⟩ => ⟨S128x384, .f32⟩
  | .local _ .vmem, ⟨68, _⟩ => ⟨S1x384, .f32⟩
  | .local _ .vmem, ⟨69, _⟩ => ⟨S1x384, .f32⟩
  | .local _ .vmem, ⟨70, _⟩ => ⟨S10000x128, .f32⟩
  | .local _ .vmem, ⟨71, _⟩ => ⟨S10000x128, .f32⟩
  | .local _ .vmem, ⟨72, _⟩ => ⟨S10000x128, .f32⟩
  | .local _ .vmem, ⟨73, _⟩ => ⟨S10000x128, .f32⟩
  | .local _ .vmem, ⟨74, _⟩ => ⟨S128x128, .f32⟩
  | .local _ .vmem, ⟨75, _⟩ => ⟨S10000x1, .f32⟩
  | .local _ .vmem, ⟨76, _⟩ => ⟨S10000x1, .f32⟩
  | .local _ .vmem, ⟨77, _⟩ => ⟨S10000x128, .bf16⟩
  | .local _ .vmem, ⟨78, _⟩ => ⟨S10000x128, .bf16⟩
  | .local _ .vmem, ⟨79, _⟩ => ⟨S10000x128, .f32⟩
  | .local _ .vmem, ⟨80, _⟩ => ⟨S10000x128, .f32⟩
  | .local _ .vmem, ⟨81, _⟩ => ⟨S10000x128, .bf16⟩
  | .local _ .vmem, ⟨82, _⟩ => ⟨S10000x128, .bf16⟩
  | .local _ .vmem, ⟨83, _⟩ => ⟨S10000x1, .f32⟩
  | .local _ .vmem, ⟨84, _⟩ => ⟨S10000x1, .f32⟩
  | .local _ .vmem, ⟨85, _⟩ => ⟨S1x128, .f32⟩
  | .local _ .vmem, ⟨86, _⟩ => ⟨S10000x128, .f32⟩
  | .local _ .vmem, ⟨87, _⟩ => ⟨S10000x128, .f32⟩
  | .local _ .vmem, ⟨88, _⟩ => ⟨S128x384, .f32⟩
  | .local _ .vmem, ⟨89, _⟩ => ⟨S128x384, .f32⟩
  | .local _ .vmem, ⟨90, _⟩ => ⟨S1x384, .f32⟩
  | .local _ .vmem, ⟨91, _⟩ => ⟨S1x384, .f32⟩
  | .local _ .vmem, ⟨92, _⟩ => ⟨S10000x128, .f32⟩
  | .local _ .vmem, ⟨93, _⟩ => ⟨S10000x128, .f32⟩
  | .local _ .vmem, ⟨94, _⟩ => ⟨S512x128, .f32⟩
  | .local _ .vmem, ⟨95, _⟩ => ⟨S128x128, .f32⟩
  | .local _ .vmem, ⟨96, _⟩ => ⟨S1x128, .f32⟩
  | .local _ .vmem, ⟨97, _⟩ => ⟨S512x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | _, _ => false

abbrev semScoped : Fin 0 → Bool
  | ⟨_, h⟩ => absurd h (Nat.not_lt_zero _)

abbrev dmaSemScoped : Fin 98 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | _ => false

abbrev sig : RefSig :=
  ofTc nBuf bufTy 0 98 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c : Ref sig .tc := ⟨.hbm, 37, rfl⟩
abbrev main_v21 : Ref sig .tc := ⟨.hbm, 38, rfl⟩
abbrev main_v22 : Ref sig .tc := ⟨.hbm, 39, rfl⟩
abbrev main_c_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_cst_3 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_c_4 : Ref sig .tc := ⟨.hbm, 58, rfl⟩
abbrev main_v39 : Ref sig .tc := ⟨.hbm, 59, rfl⟩
abbrev main_v40 : Ref sig .tc := ⟨.hbm, 60, rfl⟩
abbrev main_c_5 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_9 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c_10 : Ref sig .tc := ⟨.hbm, 100, rfl⟩
abbrev main_v75 : Ref sig .tc := ⟨.hbm, 101, rfl⟩
abbrev main_v76 : Ref sig .tc := ⟨.hbm, 102, rfl⟩
abbrev main_c_11 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_cst_12 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_13 : Ref sig .tc := ⟨.hbm, 118, rfl⟩
abbrev main_v90 : Ref sig .tc := ⟨.hbm, 119, rfl⟩
abbrev main_cst_14 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_cst_15 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_cst_16 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg4_1 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg9_1 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg3_1 : Ref sig .tc := ⟨.vmem, 34, rfl⟩
abbrev cc4_stg0_0 : Ref sig .tc := ⟨.vmem, 35, rfl⟩
abbrev cc4_stg0_1 : Ref sig .tc := ⟨.vmem, 36, rfl⟩
abbrev cc4_stg1_0 : Ref sig .tc := ⟨.vmem, 37, rfl⟩
abbrev cc4_stg1_1 : Ref sig .tc := ⟨.vmem, 38, rfl⟩
abbrev cc4_stg2_0 : Ref sig .tc := ⟨.vmem, 39, rfl⟩
abbrev cc4_stg2_1 : Ref sig .tc := ⟨.vmem, 40, rfl⟩
abbrev cc4_stg3_0 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg6_0 : Ref sig .tc := ⟨.vmem, 45, rfl⟩
abbrev cc4_stg7_0 : Ref sig .tc := ⟨.vmem, 46, rfl⟩
abbrev cc4_stg8_0 : Ref sig .tc := ⟨.vmem, 47, rfl⟩
abbrev cc4_stg9_0 : Ref sig .tc := ⟨.vmem, 48, rfl⟩
abbrev cc4_stg9_1 : Ref sig .tc := ⟨.vmem, 49, rfl⟩
abbrev cc5_stg0_0 : Ref sig .tc := ⟨.vmem, 50, rfl⟩
abbrev cc5_stg0_1 : Ref sig .tc := ⟨.vmem, 51, rfl⟩
abbrev cc5_stg1_0 : Ref sig .tc := ⟨.vmem, 52, rfl⟩
abbrev cc5_stg2_0 : Ref sig .tc := ⟨.vmem, 53, rfl⟩
abbrev cc5_stg2_1 : Ref sig .tc := ⟨.vmem, 54, rfl⟩
abbrev cc5_stg3_0 : Ref sig .tc := ⟨.vmem, 55, rfl⟩
abbrev cc5_stg3_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg1_1 : Ref sig .tc := ⟨.vmem, 60, rfl⟩
abbrev cc6_stg2_0 : Ref sig .tc := ⟨.vmem, 61, rfl⟩
abbrev cc6_stg2_1 : Ref sig .tc := ⟨.vmem, 62, rfl⟩
abbrev cc6_stg3_0 : Ref sig .tc := ⟨.vmem, 63, rfl⟩
abbrev cc6_stg4_0 : Ref sig .tc := ⟨.vmem, 64, rfl⟩
abbrev cc6_stg4_1 : Ref sig .tc := ⟨.vmem, 65, rfl⟩
abbrev cc6_stg5_0 : Ref sig .tc := ⟨.vmem, 66, rfl⟩
abbrev cc6_stg6_0 : Ref sig .tc := ⟨.vmem, 67, rfl⟩
abbrev cc6_stg7_0 : Ref sig .tc := ⟨.vmem, 68, rfl⟩
abbrev cc6_stg8_0 : Ref sig .tc := ⟨.vmem, 69, rfl⟩
abbrev cc6_stg9_0 : Ref sig .tc := ⟨.vmem, 70, rfl⟩
abbrev cc6_stg9_1 : Ref sig .tc := ⟨.vmem, 71, rfl⟩
abbrev cc7_stg0_0 : Ref sig .tc := ⟨.vmem, 72, rfl⟩
abbrev cc7_stg0_1 : Ref sig .tc := ⟨.vmem, 73, rfl⟩
abbrev cc7_stg1_0 : Ref sig .tc := ⟨.vmem, 74, rfl⟩
abbrev cc7_stg2_0 : Ref sig .tc := ⟨.vmem, 75, rfl⟩
abbrev cc7_stg2_1 : Ref sig .tc := ⟨.vmem, 76, rfl⟩
abbrev cc7_stg3_0 : Ref sig .tc := ⟨.vmem, 77, rfl⟩
abbrev cc7_stg3_1 : Ref sig .tc := ⟨.vmem, 78, rfl⟩
abbrev cc8_stg0_0 : Ref sig .tc := ⟨.vmem, 79, rfl⟩
abbrev cc8_stg0_1 : Ref sig .tc := ⟨.vmem, 80, rfl⟩
abbrev cc8_stg1_0 : Ref sig .tc := ⟨.vmem, 81, rfl⟩
abbrev cc8_stg1_1 : Ref sig .tc := ⟨.vmem, 82, rfl⟩
abbrev cc8_stg2_0 : Ref sig .tc := ⟨.vmem, 83, rfl⟩
abbrev cc8_stg2_1 : Ref sig .tc := ⟨.vmem, 84, rfl⟩
abbrev cc8_stg3_0 : Ref sig .tc := ⟨.vmem, 85, rfl⟩
abbrev cc8_stg4_0 : Ref sig .tc := ⟨.vmem, 86, rfl⟩
abbrev cc8_stg4_1 : Ref sig .tc := ⟨.vmem, 87, rfl⟩
abbrev cc8_stg5_0 : Ref sig .tc := ⟨.vmem, 88, rfl⟩
abbrev cc8_stg6_0 : Ref sig .tc := ⟨.vmem, 89, rfl⟩
abbrev cc8_stg7_0 : Ref sig .tc := ⟨.vmem, 90, rfl⟩
abbrev cc8_stg8_0 : Ref sig .tc := ⟨.vmem, 91, rfl⟩
abbrev cc8_stg9_0 : Ref sig .tc := ⟨.vmem, 92, rfl⟩
abbrev cc8_stg9_1 : Ref sig .tc := ⟨.vmem, 93, rfl⟩
abbrev cc9_stg0_0 : Ref sig .tc := ⟨.vmem, 94, rfl⟩
abbrev cc9_stg1_0 : Ref sig .tc := ⟨.vmem, 95, rfl⟩
abbrev cc9_stg2_0 : Ref sig .tc := ⟨.vmem, 96, rfl⟩
abbrev cc9_stg3_0 : Ref sig .tc := ⟨.vmem, 97, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc2_sem3_0 : DmaSem sig := 19
abbrev cc2_sem4_0 : DmaSem sig := 20
abbrev cc2_sem4_1 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem9_1 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem2_1 : DmaSem sig := 32
abbrev cc3_sem3_0 : DmaSem sig := 33
abbrev cc3_sem3_1 : DmaSem sig := 34
abbrev cc4_sem0_0 : DmaSem sig := 35
abbrev cc4_sem0_1 : DmaSem sig := 36
abbrev cc4_sem1_0 : DmaSem sig := 37
abbrev cc4_sem1_1 : DmaSem sig := 38
abbrev cc4_sem2_0 : DmaSem sig := 39
abbrev cc4_sem2_1 : DmaSem sig := 40
abbrev cc4_sem3_0 : DmaSem sig := 41
abbrev cc4_sem4_0 : DmaSem sig := 42
abbrev cc4_sem4_1 : DmaSem sig := 43
abbrev cc4_sem5_0 : DmaSem sig := 44
abbrev cc4_sem6_0 : DmaSem sig := 45
abbrev cc4_sem7_0 : DmaSem sig := 46
abbrev cc4_sem8_0 : DmaSem sig := 47
abbrev cc4_sem9_0 : DmaSem sig := 48
abbrev cc4_sem9_1 : DmaSem sig := 49
abbrev cc5_sem0_0 : DmaSem sig := 50
abbrev cc5_sem0_1 : DmaSem sig := 51
abbrev cc5_sem1_0 : DmaSem sig := 52
abbrev cc5_sem2_0 : DmaSem sig := 53
abbrev cc5_sem2_1 : DmaSem sig := 54
abbrev cc5_sem3_0 : DmaSem sig := 55
abbrev cc5_sem3_1 : DmaSem sig := 56
abbrev cc6_sem0_0 : DmaSem sig := 57
abbrev cc6_sem0_1 : DmaSem sig := 58
abbrev cc6_sem1_0 : DmaSem sig := 59
abbrev cc6_sem1_1 : DmaSem sig := 60
abbrev cc6_sem2_0 : DmaSem sig := 61
abbrev cc6_sem2_1 : DmaSem sig := 62
abbrev cc6_sem3_0 : DmaSem sig := 63
abbrev cc6_sem4_0 : DmaSem sig := 64
abbrev cc6_sem4_1 : DmaSem sig := 65
abbrev cc6_sem5_0 : DmaSem sig := 66
abbrev cc6_sem6_0 : DmaSem sig := 67
abbrev cc6_sem7_0 : DmaSem sig := 68
abbrev cc6_sem8_0 : DmaSem sig := 69
abbrev cc6_sem9_0 : DmaSem sig := 70
abbrev cc6_sem9_1 : DmaSem sig := 71
abbrev cc7_sem0_0 : DmaSem sig := 72
abbrev cc7_sem0_1 : DmaSem sig := 73
abbrev cc7_sem1_0 : DmaSem sig := 74
abbrev cc7_sem2_0 : DmaSem sig := 75
abbrev cc7_sem2_1 : DmaSem sig := 76
abbrev cc7_sem3_0 : DmaSem sig := 77
abbrev cc7_sem3_1 : DmaSem sig := 78
abbrev cc8_sem0_0 : DmaSem sig := 79
abbrev cc8_sem0_1 : DmaSem sig := 80
abbrev cc8_sem1_0 : DmaSem sig := 81
abbrev cc8_sem1_1 : DmaSem sig := 82
abbrev cc8_sem2_0 : DmaSem sig := 83
abbrev cc8_sem2_1 : DmaSem sig := 84
abbrev cc8_sem3_0 : DmaSem sig := 85
abbrev cc8_sem4_0 : DmaSem sig := 86
abbrev cc8_sem4_1 : DmaSem sig := 87
abbrev cc8_sem5_0 : DmaSem sig := 88
abbrev cc8_sem6_0 : DmaSem sig := 89
abbrev cc8_sem7_0 : DmaSem sig := 90
abbrev cc8_sem8_0 : DmaSem sig := 91
abbrev cc8_sem9_0 : DmaSem sig := 92
abbrev cc8_sem9_1 : DmaSem sig := 93
abbrev cc9_sem0_0 : DmaSem sig := 94
abbrev cc9_sem1_0 : DmaSem sig := 95
abbrev cc9_sem2_0 : DmaSem sig := 96
abbrev cc9_sem3_0 : DmaSem sig := 97

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S10000x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x128 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S10000x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S128x384 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x384 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x384 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x384 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 2 → Memref sig .tc .vmem S10000x128 .f32 := fun | 0 => Memref.whole cc2_stg9_0 | 1 => Memref.whole cc2_stg9_1 | ⟨_ + 2, h⟩ => absurd h (Nat.not_lt.2 (Nat.le_add_left _ _))
abbrev sem2_9 : Fin 2 → DmaSem sig := fun | 0 => cc2_sem9_0 | 1 => cc2_sem9_1 | ⟨_ + 2, h⟩ => absurd h (Nat.not_lt.2 (Nat.le_add_left _ _))
abbrev reads2_9 : Fin grid2.rank → Bool := ![true]

abbrev grid3 : Pipeline.Grid := ⟨1, ![5], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S10000x128 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![5], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_8 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_9 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x128 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S10000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S128x384 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S128x384 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S1x384 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

abbrev stage4_8 : Fin 1 → Memref sig .tc .vmem S1x384 .f32 := fun | 0 => Memref.whole cc4_stg8_0 | ⟨_ + 1, h⟩ => absurd h (Nat.not_lt.2 (Nat.le_add_left _ _))
abbrev sem4_8 : Fin 1 → DmaSem sig := fun | 0 => cc4_sem8_0 | ⟨_ + 1, h⟩ => absurd h (Nat.not_lt.2 (Nat.le_add_left _ _))
abbrev reads4_8 : Fin grid4.rank → Bool := ![false]

abbrev stage4_9 : Fin 2 → Memref sig .tc .vmem S10000x128 .f32 := fun | 0 => Memref.whole cc4_stg9_0 | 1 => Memref.whole cc4_stg9_1 | ⟨_ + 2, h⟩ => absurd h (Nat.not_lt.2 (Nat.le_add_left _ _))
abbrev sem4_9 : Fin 2 → DmaSem sig := fun | 0 => cc4_sem9_0 | 1 => cc4_sem9_1 | ⟨_ + 2, h⟩ => absurd h (Nat.not_lt.2 (Nat.le_add_left _ _))
abbrev reads4_9 : Fin grid4.rank → Bool := ![true]

abbrev grid5 : Pipeline.Grid := ⟨1, ![5], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S10000x128 .bf16 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x128 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 2 → Memref sig .tc .vmem S10000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 2 → Memref sig .tc .vmem S10000x128 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true]

abbrev stage6_5 : Fin 1 → Memref sig .tc .vmem S128x384 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S128x384 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x384 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S1x384 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 2 → Memref sig .tc .vmem S10000x128 .f32 := fun | 0 => Memref.whole cc6_stg9_0 | 1 => Memref.whole cc6_stg9_1 | ⟨_ + 2, h⟩ => absurd h (Nat.not_lt.2 (Nat.le_add_left _ _))
abbrev sem6_9 : Fin 2 → DmaSem sig := fun | 0 => cc6_sem9_0 | 1 => cc6_sem9_1 | ⟨_ + 2, h⟩ => absurd h (Nat.not_lt.2 (Nat.le_add_left _ _))
abbrev reads6_9 : Fin grid6.rank → Bool := ![true]

abbrev grid7 : Pipeline.Grid := ⟨1, ![5], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 2 → Memref sig .tc .vmem S10000x128 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![5], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_7 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_8 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_9 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S10000x128 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S10000x1 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S10000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S128x384 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S128x384 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev stage8_7 : Fin 1 → Memref sig .tc .vmem S1x384 .f32 := fun | 0 => Memref.whole cc8_stg7_0 | ⟨_ + 1, h⟩ => absurd h (Nat.not_lt.2 (Nat.le_add_left _ _))
abbrev sem8_7 : Fin 1 → DmaSem sig := fun | 0 => cc8_sem7_0 | ⟨_ + 1, h⟩ => absurd h (Nat.not_lt.2 (Nat.le_add_left _ _))
abbrev reads8_7 : Fin grid8.rank → Bool := ![false]

abbrev stage8_8 : Fin 1 → Memref sig .tc .vmem S1x384 .f32 := fun | 0 => Memref.whole cc8_stg8_0 | ⟨_ + 1, h⟩ => absurd h (Nat.not_lt.2 (Nat.le_add_left _ _))
abbrev sem8_8 : Fin 1 → DmaSem sig := fun | 0 => cc8_sem8_0 | ⟨_ + 1, h⟩ => absurd h (Nat.not_lt.2 (Nat.le_add_left _ _))
abbrev reads8_8 : Fin grid8.rank → Bool := ![false]

abbrev stage8_9 : Fin 2 → Memref sig .tc .vmem S10000x128 .f32 := fun | 0 => Memref.whole cc8_stg9_0 | 1 => Memref.whole cc8_stg9_1 | ⟨_ + 2, h⟩ => absurd h (Nat.not_lt.2 (Nat.le_add_left _ _))
abbrev sem8_9 : Fin 2 → DmaSem sig := fun | 0 => cc8_sem9_0 | 1 => cc8_sem9_1 | ⟨_ + 2, h⟩ => absurd h (Nat.not_lt.2 (Nat.le_add_left _ _))
abbrev reads8_9 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 1 → Memref sig .tc .vmem S512x128 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![false]

abbrev stage9_1 : Fin 1 → Memref sig .tc .vmem S128x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S512x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  shapeCasts_S50000_S50000x1 : S50000.ShapeCasts S50000x1
  shapeCasts_S128_S1x128 : S128.ShapeCasts S1x128
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  transposes_S384x128_S128x384_1_0 : S384x128.Transposes [1, 0] S128x384
  shapeCasts_S384_S1x384 : S384.ShapeCasts S1x384
  slices_S4x128x128_S1x128x128_0_0_0 : S4x128x128.Slices ![0, 0, 0] S1x128x128
  shapeCasts_S1x128x128_S128x128 : S1x128x128.ShapeCasts S128x128
  shapeCasts_S10000x128_S10000x128 : S10000x128.ShapeCasts S10000x128
  shapeCasts_S128x128_S128x128 : S128x128.ShapeCasts S128x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  packedbf16_S10000x128_S10000x128_0_0 : (Rect.unit (s := S10000x128) ![0, 0] S10000x128.size inb_S10000x128_S10000x128_0_0).PackedRows (EltTy.packing .bf16)
  bcast_S_S50000x128 : S_.BroadcastsInDim S50000x128 (![] : Fin 0 → Fin S50000x128.rank)
  slices_S4x128_S1x128_0_0 : S4x128.Slices ![0, 0] S1x128
  shapeCasts_S1x128_S128 : S1x128.ShapeCasts S128
  inb_S128x384_S128x384_0_0 : ∀ a, (![0, 0] : Fin 2 → Nat) a + S128x384.size a ≤ S128x384.size a
  h_S128x384 : 0 < S128x384.numel
  shapeCasts_S128x384_S128x384 : S128x384.ShapeCasts S128x384
  inb_S1x384_S1x384_0_0 : ∀ a, (![0, 0] : Fin 2 → Nat) a + S1x384.size a ≤ S1x384.size a
  h_S1x384 : 0 < S1x384.numel
  shapeCasts_S1x384_S1x384 : S1x384.ShapeCasts S1x384
  broadcasts_S1x384_S10000x384 : S1x384.Broadcasts S10000x384
  slices_S10000x384_o0_0_S10000x128 : S10000x384.Slices ![0, 0] S10000x128
  slices_S10000x384_o0_128_S10000x128 : S10000x384.Slices ![0, 128] S10000x128
  slices_S10000x384_o0_256_S10000x128 : S10000x384.Slices ![0, 256] S10000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S50000_S50000x1_0 : S50000.BroadcastsInDim S50000x1 (![0] : Fin 1 → Fin S50000x1.rank)
  bcast_S_S512x128 : S_.BroadcastsInDim S512x128 (![] : Fin 0 → Fin S512x128.rank)
  shapeCasts_S512_S512x1 : S512.ShapeCasts S512x1
  bcast_S512x1_S512x128_0_1 : S512x1.BroadcastsInDim S512x128 (![0, 1] : Fin 2 → Fin S512x128.rank)
  inb_S512x128_S512x128_0_0 : ∀ a, (![0, 0] : Fin 2 → Nat) a + S512x128.size a ≤ S512x128.size a
  h_S512x128 : 0 < S512x128.numel
  shapeCasts_S512x128_S512x128 : S512x128.ShapeCasts S512x128
  broadcasts_S1x128_S512x128 : S1x128.Broadcasts S512x128
  scatter_S50000_S600000x1_S600000_n_0_0_1_wf : ScatterDims.WF S50000 S600000x1 S600000 [] [0] [0] 1
  dot_S10000x128_S128x128_S10000x128_1_0_0_1_n_n_wf : DotDims.WF S10000x128 S128x128 S10000x128 [1] [0] [0] [1] [] []
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S10000x128_S128x384_S10000x384_1_0_0_1_n_n_wf : DotDims.WF S10000x128 S128x384 S10000x384 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S50000x128.size a
  hwx0_0 : ∀ i : grid0.Coords, EltTy.bits .f32 = 32 ∨ (Rect.block (s := S50000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S50000x128.size a
  hwx0_3 : ∀ i : grid0.Coords, EltTy.bits .f32 = 32 ∨ (Rect.block (s := S50000x128) S10000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S50000x128.size a
  hwx1_0 : ∀ i : grid1.Coords, EltTy.bits .f32 = 32 ∨ (Rect.block (s := S50000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .f32 = 32 ∨ (Rect.block (s := S128x128) S128x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S50000x1.size a
  hwx1_2 : ∀ i : grid1.Coords, EltTy.bits .f32 = 32 ∨ (Rect.block (s := S50000x1) S10000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x128.size a ≤ S50000x128.size a
  hwx1_3 : ∀ i : grid1.Coords, EltTy.bits .bf16 = 32 ∨ (Rect.block (s := S50000x128) S10000x128.size (cc1_transform_3 i) (hinb1_3 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S50000x128.size a
  hwx2_0 : ∀ i : grid2.Coords, EltTy.bits .f32 = 32 ∨ (Rect.block (s := S50000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S50000x128.size a
  hwx2_1 : ∀ i : grid2.Coords, EltTy.bits .bf16 = 32 ∨ (Rect.block (s := S50000x128) S10000x128.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x1.size a ≤ S50000x1.size a
  hwx2_2 : ∀ i : grid2.Coords, EltTy.bits .f32 = 32 ∨ (Rect.block (s := S50000x1) S10000x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S10000x128.size a ≤ S50000x128.size a
  hwx2_4 : ∀ i : grid2.Coords, EltTy.bits .f32 = 32 ∨ (Rect.block (s := S50000x128) S10000x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x384.size a ≤ S128x384.size a
  hwx2_5 : ∀ i : grid2.Coords, EltTy.bits .f32 = 32 ∨ (Rect.block (s := S128x384) S128x384.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x384.size a ≤ S128x384.size a
  hwx2_6 : ∀ i : grid2.Coords, EltTy.bits .f32 = 32 ∨ (Rect.block (s := S128x384) S128x384.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x384.size a ≤ S1x384.size a
  hwx2_7 : ∀ i : grid2.Coords, EltTy.bits .f32 = 32 ∨ (Rect.block (s := S1x384) S1x384.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x384.size a ≤ S1x384.size a
  hwx2_8 : ∀ i : grid2.Coords, EltTy.bits .f32 = 32 ∨ (Rect.block (s := S1x384) S1x384.size (cc2_transform_8 i) (hinb2_8 i)).WholeWords (EltTy.packing .f32)
  hstage2_9 : ∀ j, (stage2_9 j).IsWhole
  nbuf2_9 : grid2.bufCount reads2_9 false = 2
  hreads2_9 : ∀ i i' : grid2.Coords, (∀ a, reads2_9 a = true → i a = i' a) → cc2_transform_9 i = cc2_transform_9 i'
  hinb2_9 : ∀ (i : grid2.Coords) a, (cc2_transform_9 i a + 1) * S10000x128.size a ≤ S50000x128.size a
  hwx2_9 : ∀ i : grid2.Coords, EltTy.bits .f32 = 32 ∨ (Rect.block (s := S50000x128) S10000x128.size (cc2_transform_9 i) (hinb2_9 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S50000x128.size a
  hwx3_0 : ∀ i : grid3.Coords, EltTy.bits .f32 = 32 ∨ (Rect.block (s := S50000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .f32 = 32 ∨ (Rect.block (s := S128x128) S128x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x1.size a ≤ S50000x1.size a
  hwx3_2 : ∀ i : grid3.Coords, EltTy.bits .f32 = 32 ∨ (Rect.block (s := S50000x1) S10000x1.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S10000x128.size a ≤ S50000x128.size a
  hwx3_3 : ∀ i : grid3.Coords, EltTy.bits .bf16 = 32 ∨ (Rect.block (s := S50000x128) S10000x128.size (cc3_transform_3 i) (hinb3_3 i)).WholeWords (EltTy.packing .bf16)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S50000x128.size a
  hwx4_0 : ∀ i : grid4.Coords, EltTy.bits .f32 = 32 ∨ (Rect.block (s := S50000x128) S10000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x128.size a ≤ S50000x128.size a
  hwx4_1 : ∀ i : grid4.Coords, EltTy.bits .bf16 = 32 ∨ (Rect.block (s := S50000x128) S10000x128.size (cc4_transform_1 i) (hinb4_1 i)).WholeWords (EltTy.packing .bf16)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x1.size a ≤ S50000x1.size a
  hwx4_2 : ∀ i : grid4.Coords, EltTy.bits .f32 = 32 ∨ (Rect.block (s := S50000x1) S10000x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S10000x128.size a ≤ S50000x128.size a
  hwx4_4 : ∀ i : grid4.Coords, EltTy.bits .f32 = 32 ∨ (Rect.block (s := S50000x128) S10000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x384.size a ≤ S128x384.size a
  hwx4_5 : ∀ i : grid4.Coords, EltTy.bits .f32 = 32 ∨ (Rect.block (s := S128x384) S128x384.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S128x384.size a ≤ S128x384.size a
  hwx4_6 : ∀ i : grid4.Coords, EltTy.bits .f32 = 32 ∨ (Rect.block (s := S128x384) S128x384.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S1x384.size a ≤ S1x384.size a
  hwx4_7 : ∀ i : grid4.Coords, EltTy.bits .f32 = 32 ∨ (Rect.block (s := S1x384) S1x384.size (cc4_transform_7 i) (hinb4_7 i)).WholeWords (EltTy.packing .f32)
  hstage4_8 : ∀ j, (stage4_8 j).IsWhole
  nbuf4_8 : grid4.bufCount reads4_8 true = 1
  hreads4_8 : ∀ i i' : grid4.Coords, (∀ a, reads4_8 a = true → i a = i' a) → cc4_transform_8 i = cc4_transform_8 i'
  hinb4_8 : ∀ (i : grid4.Coords) a, (cc4_transform_8 i a + 1) * S1x384.size a ≤ S1x384.size a
  hwx4_8 : ∀ i : grid4.Coords, EltTy.bits .f32 = 32 ∨ (Rect.block (s := S1x384) S1x384.size (cc4_transform_8 i) (hinb4_8 i)).WholeWords (EltTy.packing .f32)
  hstage4_9 : ∀ j, (stage4_9 j).IsWhole
  nbuf4_9 : grid4.bufCount reads4_9 false = 2
  hreads4_9 : ∀ i i' : grid4.Coords, (∀ a, reads4_9 a = true → i a = i' a) → cc4_transform_9 i = cc4_transform_9 i'
  hinb4_9 : ∀ (i : grid4.Coords) a, (cc4_transform_9 i a + 1) * S10000x128.size a ≤ S50000x128.size a
  hwx4_9 : ∀ i : grid4.Coords, EltTy.bits .f32 = 32 ∨ (Rect.block (s := S50000x128) S10000x128.size (cc4_transform_9 i) (hinb4_9 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x128.size a ≤ S50000x128.size a
  hwx5_0 : ∀ i : grid5.Coords, EltTy.bits .f32 = 32 ∨ (Rect.block (s := S50000x128) S10000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .f32 = 32 ∨ (Rect.block (s := S128x128) S128x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x1.size a ≤ S50000x1.size a
  hwx5_2 : ∀ i : grid5.Coords, EltTy.bits .f32 = 32 ∨ (Rect.block (s := S50000x1) S10000x1.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S10000x128.size a ≤ S50000x128.size a
  hwx5_3 : ∀ i : grid5.Coords, EltTy.bits .bf16 = 32 ∨ (Rect.block (s := S50000x128) S10000x128.size (cc5_transform_3 i) (hinb5_3 i)).WholeWords (EltTy.packing .bf16)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x128.size a ≤ S50000x128.size a
  hwx6_0 : ∀ i : grid6.Coords, EltTy.bits .f32 = 32 ∨ (Rect.block (s := S50000x128) S10000x128.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x128.size a ≤ S50000x128.size a
  hwx6_1 : ∀ i : grid6.Coords, EltTy.bits .bf16 = 32 ∨ (Rect.block (s := S50000x128) S10000x128.size (cc6_transform_1 i) (hinb6_1 i)).WholeWords (EltTy.packing .bf16)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S10000x1.size a ≤ S50000x1.size a
  hwx6_2 : ∀ i : grid6.Coords, EltTy.bits .f32 = 32 ∨ (Rect.block (s := S50000x1) S10000x1.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 false = 2
  hreads6_4 : ∀ i i' : grid6.Coords, (∀ a, reads6_4 a = true → i a = i' a) → cc6_transform_4 i = cc6_transform_4 i'
  hinb6_4 : ∀ (i : grid6.Coords) a, (cc6_transform_4 i a + 1) * S10000x128.size a ≤ S50000x128.size a
  hwx6_4 : ∀ i : grid6.Coords, EltTy.bits .f32 = 32 ∨ (Rect.block (s := S50000x128) S10000x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S128x384.size a ≤ S128x384.size a
  hwx6_5 : ∀ i : grid6.Coords, EltTy.bits .f32 = 32 ∨ (Rect.block (s := S128x384) S128x384.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S128x384.size a ≤ S128x384.size a
  hwx6_6 : ∀ i : grid6.Coords, EltTy.bits .f32 = 32 ∨ (Rect.block (s := S128x384) S128x384.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x384.size a ≤ S1x384.size a
  hwx6_7 : ∀ i : grid6.Coords, EltTy.bits .f32 = 32 ∨ (Rect.block (s := S1x384) S1x384.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S1x384.size a ≤ S1x384.size a
  hwx6_8 : ∀ i : grid6.Coords, EltTy.bits .f32 = 32 ∨ (Rect.block (s := S1x384) S1x384.size (cc6_transform_8 i) (hinb6_8 i)).WholeWords (EltTy.packing .f32)
  hstage6_9 : ∀ j, (stage6_9 j).IsWhole
  nbuf6_9 : grid6.bufCount reads6_9 false = 2
  hreads6_9 : ∀ i i' : grid6.Coords, (∀ a, reads6_9 a = true → i a = i' a) → cc6_transform_9 i = cc6_transform_9 i'
  hinb6_9 : ∀ (i : grid6.Coords) a, (cc6_transform_9 i a + 1) * S10000x128.size a ≤ S50000x128.size a
  hwx6_9 : ∀ i : grid6.Coords, EltTy.bits .f32 = 32 ∨ (Rect.block (s := S50000x128) S10000x128.size (cc6_transform_9 i) (hinb6_9 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S50000x128.size a
  hwx7_0 : ∀ i : grid7.Coords, EltTy.bits .f32 = 32 ∨ (Rect.block (s := S50000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x128.size a ≤ S128x128.size a
  hwx7_1 : ∀ i : grid7.Coords, EltTy.bits .f32 = 32 ∨ (Rect.block (s := S128x128) S128x128.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x1.size a ≤ S50000x1.size a
  hwx7_2 : ∀ i : grid7.Coords, EltTy.bits .f32 = 32 ∨ (Rect.block (s := S50000x1) S10000x1.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S10000x128.size a ≤ S50000x128.size a
  hwx7_3 : ∀ i : grid7.Coords, EltTy.bits .bf16 = 32 ∨ (Rect.block (s := S50000x128) S10000x128.size (cc7_transform_3 i) (hinb7_3 i)).WholeWords (EltTy.packing .bf16)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x128.size a ≤ S50000x128.size a
  hwx8_0 : ∀ i : grid8.Coords, EltTy.bits .f32 = 32 ∨ (Rect.block (s := S50000x128) S10000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S10000x128.size a ≤ S50000x128.size a
  hwx8_1 : ∀ i : grid8.Coords, EltTy.bits .bf16 = 32 ∨ (Rect.block (s := S50000x128) S10000x128.size (cc8_transform_1 i) (hinb8_1 i)).WholeWords (EltTy.packing .bf16)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x1.size a ≤ S50000x1.size a
  hwx8_2 : ∀ i : grid8.Coords, EltTy.bits .f32 = 32 ∨ (Rect.block (s := S50000x1) S10000x1.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S10000x128.size a ≤ S50000x128.size a
  hwx8_4 : ∀ i : grid8.Coords, EltTy.bits .f32 = 32 ∨ (Rect.block (s := S50000x128) S10000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S128x384.size a ≤ S128x384.size a
  hwx8_5 : ∀ i : grid8.Coords, EltTy.bits .f32 = 32 ∨ (Rect.block (s := S128x384) S128x384.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S128x384.size a ≤ S128x384.size a
  hwx8_6 : ∀ i : grid8.Coords, EltTy.bits .f32 = 32 ∨ (Rect.block (s := S128x384) S128x384.size (cc8_transform_6 i) (hinb8_6 i)).WholeWords (EltTy.packing .f32)
  hstage8_7 : ∀ j, (stage8_7 j).IsWhole
  nbuf8_7 : grid8.bufCount reads8_7 true = 1
  hreads8_7 : ∀ i i' : grid8.Coords, (∀ a, reads8_7 a = true → i a = i' a) → cc8_transform_7 i = cc8_transform_7 i'
  hinb8_7 : ∀ (i : grid8.Coords) a, (cc8_transform_7 i a + 1) * S1x384.size a ≤ S1x384.size a
  hwx8_7 : ∀ i : grid8.Coords, EltTy.bits .f32 = 32 ∨ (Rect.block (s := S1x384) S1x384.size (cc8_transform_7 i) (hinb8_7 i)).WholeWords (EltTy.packing .f32)
  hstage8_8 : ∀ j, (stage8_8 j).IsWhole
  nbuf8_8 : grid8.bufCount reads8_8 true = 1
  hreads8_8 : ∀ i i' : grid8.Coords, (∀ a, reads8_8 a = true → i a = i' a) → cc8_transform_8 i = cc8_transform_8 i'
  hinb8_8 : ∀ (i : grid8.Coords) a, (cc8_transform_8 i a + 1) * S1x384.size a ≤ S1x384.size a
  hwx8_8 : ∀ i : grid8.Coords, EltTy.bits .f32 = 32 ∨ (Rect.block (s := S1x384) S1x384.size (cc8_transform_8 i) (hinb8_8 i)).WholeWords (EltTy.packing .f32)
  hstage8_9 : ∀ j, (stage8_9 j).IsWhole
  nbuf8_9 : grid8.bufCount reads8_9 false = 2
  hreads8_9 : ∀ i i' : grid8.Coords, (∀ a, reads8_9 a = true → i a = i' a) → cc8_transform_9 i = cc8_transform_9 i'
  hinb8_9 : ∀ (i : grid8.Coords) a, (cc8_transform_9 i a + 1) * S10000x128.size a ≤ S50000x128.size a
  hwx8_9 : ∀ i : grid8.Coords, EltTy.bits .f32 = 32 ∨ (Rect.block (s := S50000x128) S10000x128.size (cc8_transform_9 i) (hinb8_9 i)).WholeWords (EltTy.packing .f32)
  hrank9 : 0 < grid9.rank
  hstage9_0 : ∀ j, (stage9_0 j).IsWhole
  nbuf9_0 : grid9.bufCount reads9_0 true = 1
  hreads9_0 : ∀ i i' : grid9.Coords, (∀ a, reads9_0 a = true → i a = i' a) → cc9_transform_0 i = cc9_transform_0 i'
  hinb9_0 : ∀ (i : grid9.Coords) a, (cc9_transform_0 i a + 1) * S512x128.size a ≤ S512x128.size a
  hwx9_0 : ∀ i : grid9.Coords, EltTy.bits .f32 = 32 ∨ (Rect.block (s := S512x128) S512x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S128x128.size a ≤ S128x128.size a
  hwx9_1 : ∀ i : grid9.Coords, EltTy.bits .f32 = 32 ∨ (Rect.block (s := S128x128) S128x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S512x128.size a ≤ S512x128.size a
  hwx9_3 : ∀ i : grid9.Coords, EltTy.bits .f32 = 32 ∨ (Rect.block (s := S512x128) S512x128.size (cc9_transform_3 i) (hinb9_3 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S10000x128_S128x384_S10000x384_1_0_0_1_n_n : DotDims S10000x128 S128x384 S10000x384 where
  lhsContracting := [1]
  rhsContracting := [0]
  lhsNonContracting := [0]
  rhsNonContracting := [1]
  lhsBatch := []
  rhsBatch := []
  wf := dot_S10000x128_S128x384_S10000x384_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v12) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v19) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S10000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v31) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v11) S10000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v34) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v13) S10000x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v14) S128x384.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v15) S128x384.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v16) S1x384.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v17) S1x384.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v35) S10000x128.size cc2_transform_9 reads2_9 true false 2 stage2_9 sem2_9
    hrank2 hreads2_9 hinb2_9 nbuf2_9 (Memref.isWhole_whole _) hwx2_9 hstage2_9

abbrev win2 : Fin 10 → Pipeline.Window sig grid2 := fun | 0 => win2_0 | 1 => win2_1 | 2 => win2_2 | 3 => win2_3 | 4 => win2_4 | 5 => win2_5 | 6 => win2_6 | 7 => win2_7 | 8 => win2_8 | 9 => win2_9 | ⟨_ + 10, h⟩ => absurd h (Nat.not_lt.2 (Nat.le_add_left _ _))
abbrev spec2 : Fin 10 → Pipeline.WinSpec sig grid2.rank := fun w => (win2 w).toWinSpec

abbrev win3_0 : Pipeline.Window sig grid3 :=
  Pipeline.Window.ofSpec (Memref.whole main_v35) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v37) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v11) S10000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v38) S10000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v49) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v38) S10000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v11) S10000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v52) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v35) S10000x128.size cc4_transform_4 reads4_4 false false 2 stage4_4 sem4_4
    hrank4 hreads4_4 hinb4_4 nbuf4_4 (Memref.isWhole_whole _) hwx4_4 hstage4_4

abbrev win4_5 : Pipeline.Window sig grid4 :=
  Pipeline.Window.ofSpec (Memref.whole main_v14) S128x384.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v15) S128x384.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v16) S1x384.size cc4_transform_7 reads4_7 false true 1 stage4_7 sem4_7
    hrank4 hreads4_7 hinb4_7 nbuf4_7 (Memref.isWhole_whole _) hwx4_7 hstage4_7

abbrev win4_8 : Pipeline.Window sig grid4 :=
  Pipeline.Window.ofSpec (Memref.whole main_v17) S1x384.size cc4_transform_8 reads4_8 false true 1 stage4_8 sem4_8
    hrank4 hreads4_8 hinb4_8 nbuf4_8 (Memref.isWhole_whole _) hwx4_8 hstage4_8

abbrev win4_9 : Pipeline.Window sig grid4 :=
  Pipeline.Window.ofSpec (Memref.whole main_v53) S10000x128.size cc4_transform_9 reads4_9 true false 2 stage4_9 sem4_9
    hrank4 hreads4_9 hinb4_9 nbuf4_9 (Memref.isWhole_whole _) hwx4_9 hstage4_9

abbrev win4 : Fin 10 → Pipeline.Window sig grid4 := fun | 0 => win4_0 | 1 => win4_1 | 2 => win4_2 | 3 => win4_3 | 4 => win4_4 | 5 => win4_5 | 6 => win4_6 | 7 => win4_7 | 8 => win4_8 | 9 => win4_9 | ⟨_ + 10, h⟩ => absurd h (Nat.not_lt.2 (Nat.le_add_left _ _))
abbrev spec4 : Fin 10 → Pipeline.WinSpec sig grid4.rank := fun w => (win4 w).toWinSpec

abbrev win5_0 : Pipeline.Window sig grid5 :=
  Pipeline.Window.ofSpec (Memref.whole main_v53) S10000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v11) S10000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v56) S10000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v67) S10000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v56) S10000x128.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v11) S10000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v70) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v53) S10000x128.size cc6_transform_4 reads6_4 false false 2 stage6_4 sem6_4
    hrank6 hreads6_4 hinb6_4 nbuf6_4 (Memref.isWhole_whole _) hwx6_4 hstage6_4

abbrev win6_5 : Pipeline.Window sig grid6 :=
  Pipeline.Window.ofSpec (Memref.whole main_v14) S128x384.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v15) S128x384.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v16) S1x384.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v17) S1x384.size cc6_transform_8 reads6_8 false true 1 stage6_8 sem6_8
    hrank6 hreads6_8 hinb6_8 nbuf6_8 (Memref.isWhole_whole _) hwx6_8 hstage6_8

abbrev win6_9 : Pipeline.Window sig grid6 :=
  Pipeline.Window.ofSpec (Memref.whole main_v71) S10000x128.size cc6_transform_9 reads6_9 true false 2 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

abbrev win7_0 : Pipeline.Window sig grid7 :=
  Pipeline.Window.ofSpec (Memref.whole main_v71) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v73) S128x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v11) S10000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v74) S10000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v85) S10000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v74) S10000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v11) S10000x1.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v88) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v71) S10000x128.size cc8_transform_4 reads8_4 false false 2 stage8_4 sem8_4
    hrank8 hreads8_4 hinb8_4 nbuf8_4 (Memref.isWhole_whole _) hwx8_4 hstage8_4

abbrev win8_5 : Pipeline.Window sig grid8 :=
  Pipeline.Window.ofSpec (Memref.whole main_v14) S128x384.size cc8_transform_5 reads8_5 false true 1 stage8_5 sem8_5
    hrank8 hreads8_5 hinb8_5 nbuf8_5 (Memref.isWhole_whole _) hwx8_5 hstage8_5

abbrev win8_6 : Pipeline.Window sig grid8 :=
  Pipeline.Window.ofSpec (Memref.whole main_v15) S128x384.size cc8_transform_6 reads8_6 false true 1 stage8_6 sem8_6
    hrank8 hreads8_6 hinb8_6 nbuf8_6 (Memref.isWhole_whole _) hwx8_6 hstage8_6

abbrev win8_7 : Pipeline.Window sig grid8 :=
  Pipeline.Window.ofSpec (Memref.whole main_v16) S1x384.size cc8_transform_7 reads8_7 false true 1 stage8_7 sem8_7
    hrank8 hreads8_7 hinb8_7 nbuf8_7 (Memref.isWhole_whole _) hwx8_7 hstage8_7

abbrev win8_8 : Pipeline.Window sig grid8 :=
  Pipeline.Window.ofSpec (Memref.whole main_v17) S1x384.size cc8_transform_8 reads8_8 false true 1 stage8_8 sem8_8
    hrank8 hreads8_8 hinb8_8 nbuf8_8 (Memref.isWhole_whole _) hwx8_8 hstage8_8

abbrev win8_9 : Pipeline.Window sig grid8 :=
  Pipeline.Window.ofSpec (Memref.whole main_v89) S10000x128.size cc8_transform_9 reads8_9 true false 2 stage8_9 sem8_9
    hrank8 hreads8_9 hinb8_9 nbuf8_9 (Memref.isWhole_whole _) hwx8_9 hstage8_9

abbrev win8 : Fin 10 → Pipeline.Window sig grid8 := fun | 0 => win8_0 | 1 => win8_1 | 2 => win8_2 | 3 => win8_3 | 4 => win8_4 | 5 => win8_5 | 6 => win8_6 | 7 => win8_7 | 8 => win8_8 | 9 => win8_9 | ⟨_ + 10, h⟩ => absurd h (Nat.not_lt.2 (Nat.le_add_left _ _))
abbrev spec8 : Fin 10 → Pipeline.WinSpec sig grid8.rank := fun w => (win8 w).toWinSpec

abbrev win9_0 : Pipeline.Window sig grid9 :=
  Pipeline.Window.ofSpec (Memref.whole main_v101) S512x128.size cc9_transform_0 reads9_0 false true 1 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S128x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v102) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v103) S512x128.size cc9_transform_3 reads9_3 true true 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S50000 : Shape := ⟨1, ![50000]⟩
abbrev S128x128 : Shape := ⟨2, ![128, 128]⟩
abbrev S128 : Shape := ⟨1, ![128]⟩
abbrev S4x128x128 : Shape := ⟨3, ![4, 128, 128]⟩
abbrev S4x128 : Shape := ⟨2, ![4, 128]⟩
abbrev S384x128 : Shape := ⟨2, ![384, 128]⟩
abbrev S384 : Shape := ⟨1, ![384]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S1x128 : Shape := ⟨2, ![1, 128]⟩
abbrev S1x128x128 : Shape := ⟨3, ![1, 128, 128]⟩
abbrev S600000x128 : Shape := ⟨2, ![600000, 128]⟩
abbrev S50000x1 : Shape := ⟨2, ![50000, 1]⟩
abbrev S128x384 : Shape := ⟨2, ![128, 384]⟩
abbrev S50000x384 : Shape := ⟨2, ![50000, 384]⟩
abbrev S1x384 : Shape := ⟨2, ![1, 384]⟩
abbrev S512 : Shape := ⟨1, ![512]⟩
abbrev S512x128 : Shape := ⟨2, ![512, 128]⟩
abbrev S512x1 : Shape := ⟨2, ![512, 1]⟩

abbrev nBuf : Space → Nat
  | .hbm => 429
  | .vmem => 0
  | .smem => 0
  | _ => 0

abbrev hbmTy0_0 (i : Nat) : BufTy := match i % 128 with
  | 0 => ⟨S50000x128, .f32⟩
  | 1 => ⟨S2x600000, .i32⟩
  | 2 => ⟨S50000, .i32⟩
  | 3 => ⟨S128x128, .f32⟩
  | 4 => ⟨S128, .f32⟩
  | 5 => ⟨S4x128x128, .f32⟩
  | 6 => ⟨S4x128, .f32⟩
  | 7 => ⟨S384x128, .f32⟩
  | 8 => ⟨S384x128, .f32⟩
  | 9 => ⟨S384, .f32⟩
  | 10 => ⟨S384, .f32⟩
  | 11 => ⟨S128x128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S_, .f32⟩
  | 18 => ⟨S600000, .f32⟩
  | 19 => ⟨S_, .f32⟩
  | 20 => ⟨S50000, .f32⟩
  | 21 => ⟨S600000x1, .i32⟩
  | 22 => ⟨S50000, .f32⟩
  | 23 => ⟨S_, .f32⟩
  | 24 => ⟨S50000, .f32⟩
  | 25 => ⟨S50000, .f32⟩
  | 26 => ⟨S50000, .f32⟩
  | 27 => ⟨S_, .f32⟩
  | 28 => ⟨S50000, .f32⟩
  | 29 => ⟨S50000, .f32⟩
  | 30 => ⟨S50000x128, .f32⟩
  | 31 => ⟨S1x128, .f32⟩
  | 32 => ⟨S50000x128, .f32⟩
  | 33 => ⟨S50000x128, .f32⟩
  | 34 => ⟨S_, .f32⟩
  | 35 => ⟨S50000x128, .f32⟩
  | 36 => ⟨S50000x128, .f32⟩
  | 37 => ⟨S1x128x128, .f32⟩
  | 38 => ⟨S128x128, .f32⟩
  | 39 => ⟨S1x128, .f32⟩
  | 40 => ⟨S128, .f32⟩
  | 41 => ⟨S50000x128, .f32⟩
  | 42 => ⟨S_, .i32⟩
  | 43 => ⟨S600000, .i32⟩
  | 44 => ⟨S600000, .i1⟩
  | 45 => ⟨S_, .i32⟩
  | 46 => ⟨S600000, .i32⟩
  | 47 => ⟨S600000, .i32⟩
  | 48 => ⟨S600000, .i32⟩
  | 49 => ⟨S600000x1, .i32⟩
  | 50 => ⟨S600000, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000, .f32⟩
  | 60 => ⟨S600000, .f32⟩
  | 61 => ⟨S_, .i32⟩
  | 62 => ⟨S600000, .i32⟩
  | 63 => ⟨S600000, .i1⟩
  | 64 => ⟨S_, .i32⟩
  | 65 => ⟨S600000, .i32⟩
  | 66 => ⟨S600000, .i32⟩
  | 67 => ⟨S600000, .i32⟩
  | 68 => ⟨S600000x1, .i32⟩
  | 69 => ⟨S600000x128, .f32⟩
  | 70 => ⟨S600000x1, .f32⟩
  | 71 => ⟨S600000x128, .f32⟩
  | 72 => ⟨S600000x128, .f32⟩
  | 73 => ⟨S_, .f32⟩
  | 74 => ⟨S50000x128, .f32⟩
  | 75 => ⟨S600000x1, .i32⟩
  | 76 => ⟨S50000x128, .f32⟩
  | 77 => ⟨S50000x1, .f32⟩
  | 78 => ⟨S50000x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .f32⟩
  | 85 => ⟨S50000x128, .f32⟩
  | 86 => ⟨S50000x128, .f32⟩
  | 87 => ⟨S128x384, .f32⟩
  | 88 => ⟨S50000x384, .f32⟩
  | 89 => ⟨S1x384, .f32⟩
  | 90 => ⟨S50000x384, .f32⟩
  | 91 => ⟨S50000x384, .f32⟩
  | 92 => ⟨S128x384, .f32⟩
  | 93 => ⟨S50000x384, .f32⟩
  | 94 => ⟨S1x384, .f32⟩
  | 95 => ⟨S50000x384, .f32⟩
  | 96 => ⟨S50000x384, .f32⟩
  | 97 => ⟨S50000x128, .f32⟩
  | 98 => ⟨S50000x128, .f32⟩
  | 99 => ⟨S50000x128, .f32⟩
  | 100 => ⟨S50000x128, .f32⟩
  | 101 => ⟨S50000x128, .f32⟩
  | 102 => ⟨S_, .f32⟩
  | 103 => ⟨S50000x128, .f32⟩
  | 104 => ⟨S50000x128, .f32⟩
  | 105 => ⟨S_, .f32⟩
  | 106 => ⟨S50000x128, .f32⟩
  | 107 => ⟨S50000x128, .f32⟩
  | 108 => ⟨S50000x128, .f32⟩
  | 109 => ⟨S50000x128, .f32⟩
  | 110 => ⟨S50000x128, .f32⟩
  | 111 => ⟨S50000x128, .f32⟩
  | 112 => ⟨S50000x128, .f32⟩
  | 113 => ⟨S_, .f32⟩
  | 114 => ⟨S50000x128, .f32⟩
  | 115 => ⟨S50000x128, .f32⟩
  | 116 => ⟨S_, .f32⟩
  | 117 => ⟨S50000x128, .f32⟩
  | 118 => ⟨S50000x128, .f32⟩
  | 119 => ⟨S50000x128, .f32⟩
  | 120 => ⟨S50000x128, .f32⟩
  | 121 => ⟨S50000x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S1x128x128, .f32⟩
  | 3 => ⟨S128x128, .f32⟩
  | 4 => ⟨S1x128, .f32⟩
  | 5 => ⟨S128, .f32⟩
  | 6 => ⟨S50000x128, .f32⟩
  | 7 => ⟨S_, .i32⟩
  | 8 => ⟨S600000, .i32⟩
  | 9 => ⟨S600000, .i1⟩
  | 10 => ⟨S_, .i32⟩
  | 11 => ⟨S600000, .i32⟩
  | 12 => ⟨S600000, .i32⟩
  | 13 => ⟨S600000, .i32⟩
  | 14 => ⟨S600000x1, .i32⟩
  | 15 => ⟨S600000, .f32⟩
  | 16 => ⟨S_, .i32⟩
  | 17 => ⟨S600000, .i32⟩
  | 18 => ⟨S600000, .i1⟩
  | 19 => ⟨S_, .i32⟩
  | 20 => ⟨S600000, .i32⟩
  | 21 => ⟨S600000, .i32⟩
  | 22 => ⟨S600000, .i32⟩
  | 23 => ⟨S600000x1, .i32⟩
  | 24 => ⟨S600000, .f32⟩
  | 25 => ⟨S600000, .f32⟩
  | 26 => ⟨S_, .i32⟩
  | 27 => ⟨S600000, .i32⟩
  | 28 => ⟨S600000, .i1⟩
  | 29 => ⟨S_, .i32⟩
  | 30 => ⟨S600000, .i32⟩
  | 31 => ⟨S600000, .i32⟩
  | 32 => ⟨S600000, .i32⟩
  | 33 => ⟨S600000x1, .i32⟩
  | 34 => ⟨S600000x128, .f32⟩
  | 35 => ⟨S600000x1, .f32⟩
  | 36 => ⟨S600000x128, .f32⟩
  | 37 => ⟨S600000x128, .f32⟩
  | 38 => ⟨S_, .f32⟩
  | 39 => ⟨S50000x128, .f32⟩
  | 40 => ⟨S600000x1, .i32⟩
  | 41 => ⟨S50000x128, .f32⟩
  | 42 => ⟨S50000x1, .f32⟩
  | 43 => ⟨S50000x128, .f32⟩
  | 44 => ⟨S50000x128, .f32⟩
  | 45 => ⟨S50000x128, .f32⟩
  | 46 => ⟨S1x128, .f32⟩
  | 47 => ⟨S50000x128, .f32⟩
  | 48 => ⟨S50000x128, .f32⟩
  | 49 => ⟨S_, .f32⟩
  | 50 => ⟨S50000x128, .f32⟩
  | 51 => ⟨S50000x128, .f32⟩
  | 52 => ⟨S128x384, .f32⟩
  | 53 => ⟨S50000x384, .f32⟩
  | 54 => ⟨S1x384, .f32⟩
  | 55 => ⟨S50000x384, .f32⟩
  | 56 => ⟨S50000x384, .f32⟩
  | 57 => ⟨S128x384, .f32⟩
  | 58 => ⟨S50000x384, .f32⟩
  | 59 => ⟨S1x384, .f32⟩
  | 60 => ⟨S50000x384, .f32⟩
  | 61 => ⟨S50000x384, .f32⟩
  | 62 => ⟨S50000x128, .f32⟩
  | 63 => ⟨S50000x128, .f32⟩
  | 64 => ⟨S50000x128, .f32⟩
  | 65 => ⟨S50000x128, .f32⟩
  | 66 => ⟨S50000x128, .f32⟩
  | 67 => ⟨S_, .f32⟩
  | 68 => ⟨S50000x128, .f32⟩
  | 69 => ⟨S50000x128, .f32⟩
  | 70 => ⟨S_, .f32⟩
  | 71 => ⟨S50000x128, .f32⟩
  | 72 => ⟨S50000x128, .f32⟩
  | 73 => ⟨S50000x128, .f32⟩
  | 74 => ⟨S50000x128, .f32⟩
  | 75 => ⟨S50000x128, .f32⟩
  | 76 => ⟨S50000x128, .f32⟩
  | 77 => ⟨S50000x128, .f32⟩
  | 78 => ⟨S_, .f32⟩
  | 79 => ⟨S50000x128, .f32⟩
  | 80 => ⟨S50000x128, .f32⟩
  | 81 => ⟨S_, .f32⟩
  | 82 => ⟨S50000x128, .f32⟩
  | 83 => ⟨S50000x128, .f32⟩
  | 84 => ⟨S50000x128, .f32⟩
  | 85 => ⟨S50000x128, .f32⟩
  | 86 => ⟨S50000x128, .f32⟩
  | 87 => ⟨S50000x128, .f32⟩
  | 88 => ⟨S50000x128, .f32⟩
  | 89 => ⟨S_, .f32⟩
  | 90 => ⟨S50000x128, .f32⟩
  | 91 => ⟨S50000x128, .f32⟩
  | 92 => ⟨S50000x128, .f32⟩
  | 93 => ⟨S50000x128, .f32⟩
  | 94 => ⟨S50000x128, .f32⟩
  | 95 => ⟨S1x128x128, .f32⟩
  | 96 => ⟨S128x128, .f32⟩
  | 97 => ⟨S1x128, .f32⟩
  | 98 => ⟨S128, .f32⟩
  | 99 => ⟨S50000x128, .f32⟩
  | 100 => ⟨S_, .i32⟩
  | 101 => ⟨S600000, .i32⟩
  | 102 => ⟨S600000, .i1⟩
  | 103 => ⟨S_, .i32⟩
  | 104 => ⟨S600000, .i32⟩
  | 105 => ⟨S600000, .i32⟩
  | 106 => ⟨S600000, .i32⟩
  | 107 => ⟨S600000x1, .i32⟩
  | 108 => ⟨S600000, .f32⟩
  | 109 => ⟨S_, .i32⟩
  | 110 => ⟨S600000, .i32⟩
  | 111 => ⟨S600000, .i1⟩
  | 112 => ⟨S_, .i32⟩
  | 113 => ⟨S600000, .i32⟩
  | 114 => ⟨S600000, .i32⟩
  | 115 => ⟨S600000, .i32⟩
  | 116 => ⟨S600000x1, .i32⟩
  | 117 => ⟨S600000, .f32⟩
  | 118 => ⟨S600000, .f32⟩
  | 119 => ⟨S_, .i32⟩
  | 120 => ⟨S600000, .i32⟩
  | 121 => ⟨S600000, .i1⟩
  | 122 => ⟨S_, .i32⟩
  | 123 => ⟨S600000, .i32⟩
  | 124 => ⟨S600000, .i32⟩
  | 125 => ⟨S600000, .i32⟩
  | 126 => ⟨S600000x1, .i32⟩
  | 127 => ⟨S600000x128, .f32⟩
  | _ => ⟨S50000x128, .f32⟩

abbrev hbmTy0_2 (i : Nat) : BufTy := match i % 128 with
  | 0 => ⟨S600000x1, .f32⟩
  | 1 => ⟨S600000x128, .f32⟩
  | 2 => ⟨S600000x128, .f32⟩
  | 3 => ⟨S_, .f32⟩
  | 4 => ⟨S50000x128, .f32⟩
  | 5 => ⟨S600000x1, .i32⟩
  | 6 => ⟨S50000x128, .f32⟩
  | 7 => ⟨S50000x1, .f32⟩
  | 8 => ⟨S50000x128, .f32⟩
  | 9 => ⟨S50000x128, .f32⟩
  | 10 => ⟨S50000x128, .f32⟩
  | 11 => ⟨S1x128, .f32⟩
  | 12 => ⟨S50000x128, .f32⟩
  | 13 => ⟨S50000x128, .f32⟩
  | 14 => ⟨S_, .f32⟩
  | 15 => ⟨S50000x128, .f32⟩
  | 16 => ⟨S50000x128, .f32⟩
  | 17 => ⟨S128x384, .f32⟩
  | 18 => ⟨S50000x384, .f32⟩
  | 19 => ⟨S1x384, .f32⟩
  | 20 => ⟨S50000x384, .f32⟩
  | 21 => ⟨S50000x384, .f32⟩
  | 22 => ⟨S128x384, .f32⟩
  | 23 => ⟨S50000x384, .f32⟩
  | 24 => ⟨S1x384, .f32⟩
  | 25 => ⟨S50000x384, .f32⟩
  | 26 => ⟨S50000x384, .f32⟩
  | 27 => ⟨S50000x128, .f32⟩
  | 28 => ⟨S50000x128, .f32⟩
  | 29 => ⟨S50000x128, .f32⟩
  | 30 => ⟨S50000x128, .f32⟩
  | 31 => ⟨S50000x128, .f32⟩
  | 32 => ⟨S_, .f32⟩
  | 33 => ⟨S50000x128, .f32⟩
  | 34 => ⟨S50000x128, .f32⟩
  | 35 => ⟨S_, .f32⟩
  | 36 => ⟨S50000x128, .f32⟩
  | 37 => ⟨S50000x128, .f32⟩
  | 38 => ⟨S50000x128, .f32⟩
  | 39 => ⟨S50000x128, .f32⟩
  | 40 => ⟨S50000x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S_, .f32⟩
  | 47 => ⟨S50000x128, .f32⟩
  | 48 => ⟨S50000x128, .f32⟩
  | 49 => ⟨S50000x128, .f32⟩
  | 50 => ⟨S50000x128, .f32⟩
  | 51 => ⟨S50000x128, .f32⟩
  | 52 => ⟨S50000x128, .f32⟩
  | 53 => ⟨S50000x128, .f32⟩
  | 54 => ⟨S_, .f32⟩
  | 55 => ⟨S50000x128, .f32⟩
  | 56 => ⟨S50000x128, .f32⟩
  | 57 => ⟨S50000x128, .f32⟩
  | 58 => ⟨S50000x128, .f32⟩
  | 59 => ⟨S50000x128, .f32⟩
  | 60 => ⟨S1x128x128, .f32⟩
  | 61 => ⟨S128x128, .f32⟩
  | 62 => ⟨S1x128, .f32⟩
  | 63 => ⟨S128, .f32⟩
  | 64 => ⟨S50000x128, .f32⟩
  | 65 => ⟨S_, .i32⟩
  | 66 => ⟨S600000, .i32⟩
  | 67 => ⟨S600000, .i1⟩
  | 68 => ⟨S_, .i32⟩
  | 69 => ⟨S600000, .i32⟩
  | 70 => ⟨S600000, .i32⟩
  | 71 => ⟨S600000, .i32⟩
  | 72 => ⟨S600000x1, .i32⟩
  | 73 => ⟨S600000, .f32⟩
  | 74 => ⟨S_, .i32⟩
  | 75 => ⟨S600000, .i32⟩
  | 76 => ⟨S600000, .i1⟩
  | 77 => ⟨S_, .i32⟩
  | 78 => ⟨S600000, .i32⟩
  | 79 => ⟨S600000, .i32⟩
  | 80 => ⟨S600000, .i32⟩
  | 81 => ⟨S600000x1, .i32⟩
  | 82 => ⟨S600000, .f32⟩
  | 83 => ⟨S600000, .f32⟩
  | 84 => ⟨S_, .i32⟩
  | 85 => ⟨S600000, .i32⟩
  | 86 => ⟨S600000, .i1⟩
  | 87 => ⟨S_, .i32⟩
  | 88 => ⟨S600000, .i32⟩
  | 89 => ⟨S600000, .i32⟩
  | 90 => ⟨S600000, .i32⟩
  | 91 => ⟨S600000x1, .i32⟩
  | 92 => ⟨S600000x128, .f32⟩
  | 93 => ⟨S600000x1, .f32⟩
  | 94 => ⟨S600000x128, .f32⟩
  | 95 => ⟨S600000x128, .f32⟩
  | 96 => ⟨S_, .f32⟩
  | 97 => ⟨S50000x128, .f32⟩
  | 98 => ⟨S600000x1, .i32⟩
  | 99 => ⟨S50000x128, .f32⟩
  | 100 => ⟨S50000x1, .f32⟩
  | 101 => ⟨S50000x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S128x384, .f32⟩
  | 111 => ⟨S50000x384, .f32⟩
  | 112 => ⟨S1x384, .f32⟩
  | 113 => ⟨S50000x384, .f32⟩
  | 114 => ⟨S50000x384, .f32⟩
  | 115 => ⟨S128x384, .f32⟩
  | 116 => ⟨S50000x384, .f32⟩
  | 117 => ⟨S1x384, .f32⟩
  | 118 => ⟨S50000x384, .f32⟩
  | 119 => ⟨S50000x384, .f32⟩
  | 120 => ⟨S50000x128, .f32⟩
  | 121 => ⟨S50000x128, .f32⟩
  | 122 => ⟨S50000x128, .f32⟩
  | 123 => ⟨S50000x128, .f32⟩
  | 124 => ⟨S50000x128, .f32⟩
  | 125 => ⟨S_, .f32⟩
  | 126 => ⟨S50000x128, .f32⟩
  | 127 => ⟨S50000x128, .f32⟩
  | _ => ⟨S50000x128, .f32⟩

abbrev hbmTy0_3 (i : Nat) : BufTy := match i % 128 with
  | 0 => ⟨S_, .f32⟩
  | 1 => ⟨S50000x128, .f32⟩
  | 2 => ⟨S50000x128, .f32⟩
  | 3 => ⟨S50000x128, .f32⟩
  | 4 => ⟨S50000x128, .f32⟩
  | 5 => ⟨S50000x128, .f32⟩
  | 6 => ⟨S50000x128, .f32⟩
  | 7 => ⟨S50000x128, .f32⟩
  | 8 => ⟨S_, .f32⟩
  | 9 => ⟨S50000x128, .f32⟩
  | 10 => ⟨S50000x128, .f32⟩
  | 11 => ⟨S_, .f32⟩
  | 12 => ⟨S50000x128, .f32⟩
  | 13 => ⟨S50000x128, .f32⟩
  | 14 => ⟨S50000x128, .f32⟩
  | 15 => ⟨S50000x128, .f32⟩
  | 16 => ⟨S50000x128, .f32⟩
  | 17 => ⟨S50000x128, .f32⟩
  | 18 => ⟨S50000x128, .f32⟩
  | 19 => ⟨S_, .f32⟩
  | 20 => ⟨S50000x128, .f32⟩
  | 21 => ⟨S50000x128, .f32⟩
  | 22 => ⟨S50000x128, .f32⟩
  | 23 => ⟨S50000x128, .f32⟩
  | 24 => ⟨S50000x128, .f32⟩
  | 25 => ⟨S_, .f32⟩
  | 26 => ⟨S50000, .f32⟩
  | 27 => ⟨S_, .f32⟩
  | 28 => ⟨S512, .f32⟩
  | 29 => ⟨S50000x1, .i32⟩
  | 30 => ⟨S512, .f32⟩
  | 31 => ⟨S_, .f32⟩
  | 32 => ⟨S512x128, .f32⟩
  | 33 => ⟨S50000x1, .i32⟩
  | 34 => ⟨S512x128, .f32⟩
  | 35 => ⟨S_, .f32⟩
  | 36 => ⟨S512, .f32⟩
  | 37 => ⟨S512, .f32⟩
  | 38 => ⟨S512x1, .f32⟩
  | 39 => ⟨S512x128, .f32⟩
  | 40 => ⟨S512x128, .f32⟩
  | 41 => ⟨S512x128, .f32⟩
  | 42 => ⟨S1x128, .f32⟩
  | 43 => ⟨S512x128, .f32⟩
  | 44 => ⟨S512x128, .f32⟩
  | _ => ⟨S50000x128, .f32⟩

abbrev hbmTy (i : Nat) : BufTy := match i / 128 with
  | 0 => hbmTy0_0 i
  | 1 => hbmTy0_1 i
  | 2 => hbmTy0_2 i
  | 3 => hbmTy0_3 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_2 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_call0_cst : Ref sig .tc := ⟨.hbm, 34, rfl⟩
abbrev main_call0_v0 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_3 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_6 : Ref sig .tc := ⟨.hbm, 61, rfl⟩
abbrev main_v38 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_8 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_call1_cst : Ref sig .tc := ⟨.hbm, 84, rfl⟩
abbrev main_call1_v0 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_9 : Ref sig .tc := ⟨.hbm, 102, rfl⟩
abbrev main_v74 : Ref sig .tc := ⟨.hbm, 103, rfl⟩
abbrev main_v75 : Ref sig .tc := ⟨.hbm, 104, rfl⟩
abbrev main_cst_10 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_cst_11 : Ref sig .tc := ⟨.hbm, 113, rfl⟩
abbrev main_v83 : Ref sig .tc := ⟨.hbm, 114, rfl⟩
abbrev main_v84 : Ref sig .tc := ⟨.hbm, 115, rfl⟩
abbrev main_cst_12 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_cst_13 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_c_14 : Ref sig .tc := ⟨.hbm, 135, rfl⟩
abbrev main_v102 : Ref sig .tc := ⟨.hbm, 136, rfl⟩
abbrev main_v103 : Ref sig .tc := ⟨.hbm, 137, rfl⟩
abbrev main_c_15 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_c_16 : Ref sig .tc := ⟨.hbm, 144, rfl⟩
abbrev main_v109 : Ref sig .tc := ⟨.hbm, 145, rfl⟩
abbrev main_v110 : Ref sig .tc := ⟨.hbm, 146, rfl⟩
abbrev main_c_17 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_18 : Ref sig .tc := ⟨.hbm, 154, rfl⟩
abbrev main_v117 : Ref sig .tc := ⟨.hbm, 155, rfl⟩
abbrev main_v118 : Ref sig .tc := ⟨.hbm, 156, rfl⟩
abbrev main_c_19 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_v126 : Ref sig .tc := ⟨.hbm, 165, rfl⟩
abbrev main_cst_20 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_call2_cst : Ref sig .tc := ⟨.hbm, 177, rfl⟩
abbrev main_call2_v0 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_v141 : Ref sig .tc := ⟨.hbm, 183, rfl⟩
abbrev main_v142 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_cst_21 : Ref sig .tc := ⟨.hbm, 195, rfl⟩
abbrev main_v153 : Ref sig .tc := ⟨.hbm, 196, rfl⟩
abbrev main_v154 : Ref sig .tc := ⟨.hbm, 197, rfl⟩
abbrev main_cst_22 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_cst_23 : Ref sig .tc := ⟨.hbm, 206, rfl⟩
abbrev main_v162 : Ref sig .tc := ⟨.hbm, 207, rfl⟩
abbrev main_v163 : Ref sig .tc := ⟨.hbm, 208, rfl⟩
abbrev main_cst_24 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_cst_25 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_c_26 : Ref sig .tc := ⟨.hbm, 228, rfl⟩
abbrev main_v181 : Ref sig .tc := ⟨.hbm, 229, rfl⟩
abbrev main_v182 : Ref sig .tc := ⟨.hbm, 230, rfl⟩
abbrev main_c_27 : Ref sig .tc := ⟨.hbm, 231, rfl⟩
abbrev main_v183 : Ref sig .tc := ⟨.hbm, 232, rfl⟩
abbrev main_v184 : Ref sig .tc := ⟨.hbm, 233, rfl⟩
abbrev main_v185 : Ref sig .tc := ⟨.hbm, 234, rfl⟩
abbrev main_v186 : Ref sig .tc := ⟨.hbm, 235, rfl⟩
abbrev main_v187 : Ref sig .tc := ⟨.hbm, 236, rfl⟩
abbrev main_c_28 : Ref sig .tc := ⟨.hbm, 237, rfl⟩
abbrev main_v188 : Ref sig .tc := ⟨.hbm, 238, rfl⟩
abbrev main_v189 : Ref sig .tc := ⟨.hbm, 239, rfl⟩
abbrev main_c_29 : Ref sig .tc := ⟨.hbm, 240, rfl⟩
abbrev main_v190 : Ref sig .tc := ⟨.hbm, 241, rfl⟩
abbrev main_v191 : Ref sig .tc := ⟨.hbm, 242, rfl⟩
abbrev main_v192 : Ref sig .tc := ⟨.hbm, 243, rfl⟩
abbrev main_v193 : Ref sig .tc := ⟨.hbm, 244, rfl⟩
abbrev main_v194 : Ref sig .tc := ⟨.hbm, 245, rfl⟩
abbrev main_v195 : Ref sig .tc := ⟨.hbm, 246, rfl⟩
abbrev main_c_30 : Ref sig .tc := ⟨.hbm, 247, rfl⟩
abbrev main_v196 : Ref sig .tc := ⟨.hbm, 248, rfl⟩
abbrev main_v197 : Ref sig .tc := ⟨.hbm, 249, rfl⟩
abbrev main_c_31 : Ref sig .tc := ⟨.hbm, 250, rfl⟩
abbrev main_v198 : Ref sig .tc := ⟨.hbm, 251, rfl⟩
abbrev main_v199 : Ref sig .tc := ⟨.hbm, 252, rfl⟩
abbrev main_v200 : Ref sig .tc := ⟨.hbm, 253, rfl⟩
abbrev main_v201 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_cst_32 : Ref sig .tc := ⟨.hbm, 259, rfl⟩
abbrev main_v206 : Ref sig .tc := ⟨.hbm, 260, rfl⟩
abbrev main_v207 : Ref sig .tc := ⟨.hbm, 261, rfl⟩
abbrev main_v208 : Ref sig .tc := ⟨.hbm, 262, rfl⟩
abbrev main_v209 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_call3_cst : Ref sig .tc := ⟨.hbm, 270, rfl⟩
abbrev main_call3_v0 : Ref sig .tc := ⟨.hbm, 271, rfl⟩
abbrev main_v216 : Ref sig .tc := ⟨.hbm, 272, rfl⟩
abbrev main_v217 : Ref sig .tc := ⟨.hbm, 273, rfl⟩
abbrev main_v218 : Ref sig .tc := ⟨.hbm, 274, rfl⟩
abbrev main_v219 : Ref sig .tc := ⟨.hbm, 275, rfl⟩
abbrev main_v220 : Ref sig .tc := ⟨.hbm, 276, rfl⟩
abbrev main_v221 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_v226 : Ref sig .tc := ⟨.hbm, 282, rfl⟩
abbrev main_v227 : Ref sig .tc := ⟨.hbm, 283, rfl⟩
abbrev main_v228 : Ref sig .tc := ⟨.hbm, 284, rfl⟩
abbrev main_v229 : Ref sig .tc := ⟨.hbm, 285, rfl⟩
abbrev main_v230 : Ref sig .tc := ⟨.hbm, 286, rfl⟩
abbrev main_v231 : Ref sig .tc := ⟨.hbm, 287, rfl⟩
abbrev main_cst_33 : Ref sig .tc := ⟨.hbm, 288, rfl⟩
abbrev main_v232 : Ref sig .tc := ⟨.hbm, 289, rfl⟩
abbrev main_v233 : Ref sig .tc := ⟨.hbm, 290, rfl⟩
abbrev main_cst_34 : Ref sig .tc := ⟨.hbm, 291, rfl⟩
abbrev main_v234 : Ref sig .tc := ⟨.hbm, 292, rfl⟩
abbrev main_v235 : Ref sig .tc := ⟨.hbm, 293, rfl⟩
abbrev main_v236 : Ref sig .tc := ⟨.hbm, 294, rfl⟩
abbrev main_v237 : Ref sig .tc := ⟨.hbm, 295, rfl⟩
abbrev main_v238 : Ref sig .tc := ⟨.hbm, 296, rfl⟩
abbrev main_v239 : Ref sig .tc := ⟨.hbm, 297, rfl⟩
abbrev main_v240 : Ref sig .tc := ⟨.hbm, 298, rfl⟩
abbrev main_cst_35 : Ref sig .tc := ⟨.hbm, 299, rfl⟩
abbrev main_v241 : Ref sig .tc := ⟨.hbm, 300, rfl⟩
abbrev main_v242 : Ref sig .tc := ⟨.hbm, 301, rfl⟩
abbrev main_cst_36 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_v249 : Ref sig .tc := ⟨.hbm, 309, rfl⟩
abbrev main_cst_37 : Ref sig .tc := ⟨.hbm, 310, rfl⟩
abbrev main_v250 : Ref sig .tc := ⟨.hbm, 311, rfl⟩
abbrev main_v251 : Ref sig .tc := ⟨.hbm, 312, rfl⟩
abbrev main_v252 : Ref sig .tc := ⟨.hbm, 313, rfl⟩
abbrev main_v253 : Ref sig .tc := ⟨.hbm, 314, rfl⟩
abbrev main_v254 : Ref sig .tc := ⟨.hbm, 315, rfl⟩
abbrev main_v255 : Ref sig .tc := ⟨.hbm, 316, rfl⟩
abbrev main_v256 : Ref sig .tc := ⟨.hbm, 317, rfl⟩
abbrev main_v257 : Ref sig .tc := ⟨.hbm, 318, rfl⟩
abbrev main_v258 : Ref sig .tc := ⟨.hbm, 319, rfl⟩
abbrev main_v259 : Ref sig .tc := ⟨.hbm, 320, rfl⟩
abbrev main_c_38 : Ref sig .tc := ⟨.hbm, 321, rfl⟩
abbrev main_v260 : Ref sig .tc := ⟨.hbm, 322, rfl⟩
abbrev main_v261 : Ref sig .tc := ⟨.hbm, 323, rfl⟩
abbrev main_c_39 : Ref sig .tc := ⟨.hbm, 324, rfl⟩
abbrev main_v262 : Ref sig .tc := ⟨.hbm, 325, rfl⟩
abbrev main_v263 : Ref sig .tc := ⟨.hbm, 326, rfl⟩
abbrev main_v264 : Ref sig .tc := ⟨.hbm, 327, rfl⟩
abbrev main_v265 : Ref sig .tc := ⟨.hbm, 328, rfl⟩
abbrev main_v266 : Ref sig .tc := ⟨.hbm, 329, rfl⟩
abbrev main_c_40 : Ref sig .tc := ⟨.hbm, 330, rfl⟩
abbrev main_v267 : Ref sig .tc := ⟨.hbm, 331, rfl⟩
abbrev main_v268 : Ref sig .tc := ⟨.hbm, 332, rfl⟩
abbrev main_c_41 : Ref sig .tc := ⟨.hbm, 333, rfl⟩
abbrev main_v269 : Ref sig .tc := ⟨.hbm, 334, rfl⟩
abbrev main_v270 : Ref sig .tc := ⟨.hbm, 335, rfl⟩
abbrev main_v271 : Ref sig .tc := ⟨.hbm, 336, rfl⟩
abbrev main_v272 : Ref sig .tc := ⟨.hbm, 337, rfl⟩
abbrev main_v273 : Ref sig .tc := ⟨.hbm, 338, rfl⟩
abbrev main_v274 : Ref sig .tc := ⟨.hbm, 339, rfl⟩
abbrev main_c_42 : Ref sig .tc := ⟨.hbm, 340, rfl⟩
abbrev main_v275 : Ref sig .tc := ⟨.hbm, 341, rfl⟩
abbrev main_v276 : Ref sig .tc := ⟨.hbm, 342, rfl⟩
abbrev main_c_43 : Ref sig .tc := ⟨.hbm, 343, rfl⟩
abbrev main_v277 : Ref sig .tc := ⟨.hbm, 344, rfl⟩
abbrev main_v278 : Ref sig .tc := ⟨.hbm, 345, rfl⟩
abbrev main_v279 : Ref sig .tc := ⟨.hbm, 346, rfl⟩
abbrev main_v280 : Ref sig .tc := ⟨.hbm, 347, rfl⟩
abbrev main_v281 : Ref sig .tc := ⟨.hbm, 348, rfl⟩
abbrev main_v282 : Ref sig .tc := ⟨.hbm, 349, rfl⟩
abbrev main_v283 : Ref sig .tc := ⟨.hbm, 350, rfl⟩
abbrev main_v284 : Ref sig .tc := ⟨.hbm, 351, rfl⟩
abbrev main_cst_44 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_call4_cst : Ref sig .tc := ⟨.hbm, 363, rfl⟩
abbrev main_call4_v0 : Ref sig .tc := ⟨.hbm, 364, rfl⟩
abbrev main_v295 : Ref sig .tc := ⟨.hbm, 365, rfl⟩
abbrev main_v296 : Ref sig .tc := ⟨.hbm, 366, rfl⟩
abbrev main_v297 : Ref sig .tc := ⟨.hbm, 367, rfl⟩
abbrev main_v298 : Ref sig .tc := ⟨.hbm, 368, rfl⟩
abbrev main_v299 : Ref sig .tc := ⟨.hbm, 369, rfl⟩
abbrev main_v300 : Ref sig .tc := ⟨.hbm, 370, rfl⟩
abbrev main_v301 : Ref sig .tc := ⟨.hbm, 371, rfl⟩
abbrev main_v302 : Ref sig .tc := ⟨.hbm, 372, rfl⟩
abbrev main_v303 : Ref sig .tc := ⟨.hbm, 373, rfl⟩
abbrev main_v304 : Ref sig .tc := ⟨.hbm, 374, rfl⟩
abbrev main_v305 : Ref sig .tc := ⟨.hbm, 375, rfl⟩
abbrev main_v306 : Ref sig .tc := ⟨.hbm, 376, rfl⟩
abbrev main_v307 : Ref sig .tc := ⟨.hbm, 377, rfl⟩
abbrev main_v308 : Ref sig .tc := ⟨.hbm, 378, rfl⟩
abbrev main_v309 : Ref sig .tc := ⟨.hbm, 379, rfl⟩
abbrev main_v310 : Ref sig .tc := ⟨.hbm, 380, rfl⟩
abbrev main_cst_45 : Ref sig .tc := ⟨.hbm, 381, rfl⟩
abbrev main_v311 : Ref sig .tc := ⟨.hbm, 382, rfl⟩
abbrev main_v312 : Ref sig .tc := ⟨.hbm, 383, rfl⟩
abbrev main_cst_46 : Ref sig .tc := ⟨.hbm, 384, rfl⟩
abbrev main_v313 : Ref sig .tc := ⟨.hbm, 385, rfl⟩
abbrev main_v314 : Ref sig .tc := ⟨.hbm, 386, rfl⟩
abbrev main_v315 : Ref sig .tc := ⟨.hbm, 387, rfl⟩
abbrev main_v316 : Ref sig .tc := ⟨.hbm, 388, rfl⟩
abbrev main_v317 : Ref sig .tc := ⟨.hbm, 389, rfl⟩
abbrev main_v318 : Ref sig .tc := ⟨.hbm, 390, rfl⟩
abbrev main_v319 : Ref sig .tc := ⟨.hbm, 391, rfl⟩
abbrev main_cst_47 : Ref sig .tc := ⟨.hbm, 392, rfl⟩
abbrev main_v320 : Ref sig .tc := ⟨.hbm, 393, rfl⟩
abbrev main_v321 : Ref sig .tc := ⟨.hbm, 394, rfl⟩
abbrev main_cst_48 : Ref sig .tc := ⟨.hbm, 395, rfl⟩
abbrev main_v322 : Ref sig .tc := ⟨.hbm, 396, rfl⟩
abbrev main_v323 : Ref sig .tc := ⟨.hbm, 397, rfl⟩
abbrev main_v324 : Ref sig .tc := ⟨.hbm, 398, rfl⟩
abbrev main_v325 : Ref sig .tc := ⟨.hbm, 399, rfl⟩
abbrev main_v326 : Ref sig .tc := ⟨.hbm, 400, rfl⟩
abbrev main_v327 : Ref sig .tc := ⟨.hbm, 401, rfl⟩
abbrev main_v328 : Ref sig .tc := ⟨.hbm, 402, rfl⟩
abbrev main_cst_49 : Ref sig .tc := ⟨.hbm, 403, rfl⟩
abbrev main_v329 : Ref sig .tc := ⟨.hbm, 404, rfl⟩
abbrev main_v330 : Ref sig .tc := ⟨.hbm, 405, rfl⟩
abbrev main_v331 : Ref sig .tc := ⟨.hbm, 406, rfl⟩
abbrev main_v332 : Ref sig .tc := ⟨.hbm, 407, rfl⟩
abbrev main_v333 : Ref sig .tc := ⟨.hbm, 408, rfl⟩
abbrev main_cst_50 : Ref sig .tc := ⟨.hbm, 409, rfl⟩
abbrev main_v334 : Ref sig .tc := ⟨.hbm, 410, rfl⟩
abbrev main_cst_51 : Ref sig .tc := ⟨.hbm, 411, rfl⟩
abbrev main_v335 : Ref sig .tc := ⟨.hbm, 412, rfl⟩
abbrev main_v336 : Ref sig .tc := ⟨.hbm, 413, rfl⟩
abbrev main_v337 : Ref sig .tc := ⟨.hbm, 414, rfl⟩
abbrev main_cst_52 : Ref sig .tc := ⟨.hbm, 415, rfl⟩
abbrev main_v338 : Ref sig .tc := ⟨.hbm, 416, rfl⟩
abbrev main_v339 : Ref sig .tc := ⟨.hbm, 417, rfl⟩
abbrev main_v340 : Ref sig .tc := ⟨.hbm, 418, rfl⟩
abbrev main_cst_53 : Ref sig .tc := ⟨.hbm, 419, rfl⟩
abbrev main_v341 : Ref sig .tc := ⟨.hbm, 420, rfl⟩
abbrev main_v342 : Ref sig .tc := ⟨.hbm, 421, rfl⟩
abbrev main_v343 : Ref sig .tc := ⟨.hbm, 422, rfl⟩
abbrev main_v344 : Ref sig .tc := ⟨.hbm, 423, rfl⟩
abbrev main_v345 : Ref sig .tc := ⟨.hbm, 424, rfl⟩
abbrev main_v346 : Ref sig .tc := ⟨.hbm, 425, rfl⟩
abbrev main_v347 : Ref sig .tc := ⟨.hbm, 426, rfl⟩
abbrev main_v348 : Ref sig .tc := ⟨.hbm, 427, rfl⟩
abbrev main_v349 : Ref sig .tc := ⟨.hbm, 428, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S50000x128 : S_.BroadcastsInDim S50000x128 (![] : Fin 0 → Fin S50000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S600000x1_S600000x128_0_1 : S600000x1.BroadcastsInDim S600000x128 (![0, 1] : Fin 2 → Fin S600000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S384x128_S128x384_1_0 : S384x128.Transposes [1, 0] S128x384
  bcast_S384_S1x384_1 : S384.BroadcastsInDim S1x384 (![1] : Fin 1 → Fin S1x384.rank)
  bcast_S1x384_S50000x384_0_1 : S1x384.BroadcastsInDim S50000x384 (![0, 1] : Fin 2 → Fin S50000x384.rank)
  slices_S50000x384_S50000x128_0_0 : S50000x384.Slices ![0, 0] S50000x128
  slices_S50000x384_S50000x128_0_128 : S50000x384.Slices ![0, 128] S50000x128
  slices_S50000x384_S50000x128_0_256 : S50000x384.Slices ![0, 256] S50000x128
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512 : S_.BroadcastsInDim S512 (![] : Fin 0 → Fin S512.rank)
  bcast_S_S512x128 : S_.BroadcastsInDim S512x128 (![] : Fin 0 → Fin S512x128.rank)
  bcast_S512_S512x1_0 : S512.BroadcastsInDim S512x1 (![0] : Fin 1 → Fin S512x1.rank)
  bcast_S512x1_S512x128_0_1 : S512x1.BroadcastsInDim S512x128 (![0, 1] : Fin 2 → Fin S512x128.rank)
  bcast_S1x128_S512x128_0_1 : S1x128.BroadcastsInDim S512x128 (![0, 1] : Fin 2 → Fin S512x128.rank)
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  gather_S50000_S600000x1_S600000_n_0_n_n_0_1_1_wf : GatherDims.WF S50000 S600000x1 S600000 [] [0] [] [0] [] 1 ![1]
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S50000x128_S128x384_S50000x384_1_0_0_1_n_n_wf : DotDims.WF S50000x128 S128x384 S50000x384 [1] [0] [0] [1] [] []
  scatter_S512_S50000x1_S50000_n_0_0_1_wf : ScatterDims.WF S512 S50000x1 S50000 [] [0] [0] 1
  scatter_S512x128_S50000x1_S50000x128_1_0_0_1_wf : ScatterDims.WF S512x128 S50000x1 S50000x128 [1] [0] [0] 1
  dot_S512x128_S128x128_S512x128_1_0_0_1_n_n_wf : DotDims.WF S512x128 S128x128 S512x128 [1] [0] [0] [1] [] []

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S600000x1_S600000_n_0_n_n_0_1_1 : GatherDims S50000 S600000x1 S600000 where
  offsetDims := []
  collapsedSliceDims := [0]
  operandBatchingDims := []
  startIndicesBatchingDims := []
  startIndexMap := [0]
  indexVectorDim := 1
  sliceSizes := ![1]
  wf := gather_S50000_S600000x1_S600000_n_0_n_n_0_1_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S50000x128_S128x384_S50000x384_1_0_0_1_n_n : DotDims S50000x128 S128x384 S50000x384 where
  lhsContracting := [1]
  rhsContracting := [0]
  lhsNonContracting := [0]
  rhsNonContracting := [1]
  lhsBatch := []
  rhsBatch := []
  wf := dot_S50000x128_S128x384_S50000x384_1_0_0_1_n_n_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x128_S50000x1_S50000x128_1_0_0_1 : ScatterDims S512x128 S50000x1 S50000x128 where
  updateWindowDims := [1]
  insertedWindowDims := [0]
  scatterDimsToOperandDims := [0]
  indexVectorDim := 1
  wf := scatter_S512x128_S50000x1_S50000x128_1_0_0_1_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

class Facts : Prop extends Facts₀ where

variable [Facts]
-- ==== Proof.Spec.lean ====
import Idealize.ShloMosaic.PureOps.Ideal
import Idealize.ShloMosaic.Lib.ValueIdx

/-!
# The network both programs compute, as one function of the argument arrays

Nodes n : Fin 50000, features j : Fin 128, edges e : Fin 600000, graphs g : Fin 512, over the extended reals.
An embedding max (x W + b) 0; four rounds of a graph convolution followed by a gated recurrent update; a mean over
each graph's nodes; a last linear map. Everything is stated entry by entry over explicit coordinates.

The two programs differ only in how a round's convolution is arranged (stepK and stepR below): one scales the
projected features by the inverse square root of the degree of the source node before the edge sum and by that of the
target node after it, the other multiplies each edge's message by the product of the two factors and adds the self
term with one over the degree.
-/

noncomputable section

namespace Cert.Spec

open Idealize.ShloMosaic Idealize.ShloMosaic.ValueIdx
open scoped BigOperators

/-! ## Arrays of literal shape -/

abbrev A1 (a : Nat) : Type := (⟨1, ![a]⟩ : Shape).Idx → EReal
abbrev A2 (a b : Nat) : Type := (⟨2, ![a, b]⟩ : Shape).Idx → EReal
abbrev A3 (a b c : Nat) : Type := (⟨3, ![a, b, c]⟩ : Shape).Idx → EReal
abbrev I1 (a : Nat) : Type := (⟨1, ![a]⟩ : Shape).Idx → BitVec 32
abbrev I2 (a b : Nat) : Type := (⟨2, ![a, b]⟩ : Shape).Idx → BitVec 32

/-- The array whose entry (n, j) is f n j. -/
def arr2 {a b : Nat} (f : Fin a → Fin b → EReal) : A2 a b := fun i => f ⟨(i 0).val, idx2_lt0 i⟩ ⟨(i 1).val, idx2_lt1 i⟩

theorem arr2_ix2 {a b : Nat} (f : Fin a → Fin b → EReal) (n : Fin a) (j : Fin b) : arr2 f (ix2 n j) = f n j := rfl

/-- A vector as a one-row matrix. -/
def rowOf {a : Nat} (v : A1 a) : A2 1 a := fun i => v (ix1 ⟨(i 1).val, idx2_lt1 i⟩)
/-- The transposed matrix. -/
def tr {a b : Nat} (W : A2 a b) : A2 b a := fun i => W (ix2 ⟨(i 1).val, idx2_lt1 i⟩ ⟨(i 0).val, idx2_lt0 i⟩)
/-- Layer r of a stack of matrices. -/
def layer (cW : A3 4 128 128) (r : Fin 4) : A2 128 128 := fun i => cW (ix3 r ⟨(i 0).val, idx2_lt0 i⟩ ⟨(i 1).val, idx2_lt1 i⟩)
/-- Row r of a matrix, as a one-row matrix. -/
def layerRow (cb : A2 4 128) (r : Fin 4) : A2 1 128 := fun i => cb (ix2 r ⟨(i 1).val, idx2_lt1 i⟩)

/-- The float words 0.0 and 1.0, as the programs spell them. -/
abbrev zeroF : EReal := Ideal.ofBits .f32 0x00000000#32
abbrev oneF : EReal := Ideal.ofBits .f32 0x3F800000#32

/-! ## The dense stages -/

/-- (x W) (n, j): the sum over the 128 contracted lanes. -/
def mm {a b : Nat} (x : A2 a 128) (W : A2 128 b) (n : Fin a) (j : Fin b) : EReal := ∑ k : Fin 128, x (ix2 n k) * W (ix2 k j)

/-- The embedding: max (x W + b) 0. -/
def embed (x : A2 50000 128) (W : A2 128 128) (b : A2 1 128) (n : Fin 50000) (j : Fin 128) : EReal :=
  max (mm x W n j + b (ix2 0 j)) zeroF

/-- The projection scaled by the node's factor: (x W) (n, j) · ds n. -/
def proj (x : A2 50000 128) (W : A2 128 128) (ds : A2 50000 1) (n : Fin 50000) (j : Fin 128) : EReal :=
  mm x W n j * ds (ix2 n 0)

/-- The convolution's output from the raw edge sum agg and the scaled projection xs:
    max (ds n · (agg + xs) + b) 0. -/
def xnK (agg xs : A2 50000 128) (ds : A2 50000 1) (b : A2 1 128) (n : Fin 50000) (k : Fin 128) : EReal :=
  max (ds (ix2 n 0) * (agg (ix2 n k) + xs (ix2 n k)) + b (ix2 0 k)) zeroF

/-- One affine map into the 384 gate lanes: (x WT) (n, q) + b q. -/
def lin (x : A2 50000 128) (WT : A2 128 384) (b : A2 1 384) (n : Fin 50000) (q : Fin 384) : EReal :=
  mm x WT n q + b (ix2 0 q)

/-- Lane j of the reset, update and candidate thirds of the 384 gate lanes. -/
def q0 (j : Fin 128) : Fin 384 := ⟨j.val, by omega⟩
def q1 (j : Fin 128) : Fin 384 := ⟨128 + j.val, by omega⟩
def q2 (j : Fin 128) : Fin 384 := ⟨256 + j.val, by omega⟩

/-- The reset gate. -/
def gateR (xn h : A2 50000 128) (WT UT : A2 128 384) (bi bh : A2 1 384) (n : Fin 50000) (j : Fin 128) : EReal :=
  Ideal.logistic (lin xn WT bi n (q0 j) + lin h UT bh n (q0 j))
/-- The update gate. -/
def gateZ (xn h : A2 50000 128) (WT UT : A2 128 384) (bi bh : A2 1 384) (n : Fin 50000) (j : Fin 128) : EReal :=
  Ideal.logistic (lin xn WT bi n (q1 j) + lin h UT bh n (q1 j))
/-- The candidate state. -/
def cand (xn h : A2 50000 128) (WT UT : A2 128 384) (bi bh : A2 1 384) (n : Fin 50000) (j : Fin 128) : EReal :=
  Ideal.tanh (lin xn WT bi n (q2 j) + gateR xn h WT UT bi bh n j * lin h UT bh n (q2 j))
/-- The gated recurrent update: (1 - z) · c + z · h. -/
def gru (xn h : A2 50000 128) (WT UT : A2 128 384) (bi bh : A2 1 384) (n : Fin 50000) (j : Fin 128) : EReal :=
  (oneF - gateZ xn h WT UT bi bh n j) * cand xn h WT UT bi bh n j + gateZ xn h WT UT bi bh n j * h (ix2 n j)

/-- The last linear map. -/
def outp (g : A2 512 128) (W : A2 128 128) (b : A2 1 128) (r : Fin 512) (j : Fin 128) : EReal :=
  mm g W r j + b (ix2 0 j)

/-! ## Index words -/

/-- A scatter reads its index word signed, neither wrapped nor clamped: the update lands on row n exactly when the
    word is n; any other word drops it. -/
def lands {N : Nat} (w : BitVec 32) (n : Fin N) : Prop := w.toInt = (n.val : Int)

instance {N : Nat} (w : BitVec 32) (n : Fin N) : Decidable (lands w n) := by unfold lands; infer_instance

/-- The wrap applied to an index word before a gather: a negative word has the extent 50000 added. -/
def wrap (w : BitVec 32) : BitVec 32 := Scalar.select (IntOp.cmpi .slt w 0#32) (IntOp.addi w 50000#32) w

/-- The row a gather reads for index word w: the word read signed and clamped into [0, 49999]. -/
def node (w : BitVec 32) : Fin 50000 := ⟨min w.toInt.toNat 49999, by omega⟩

/-! ## The graph stages -/

section Graph
variable (src dst : Fin 600000 → BitVec 32)

/-- The degree with the self loop: the number of edges landing on n, plus one. -/
def deg (n : Fin 50000) : EReal :=
  (zeroF + ∑ _e ∈ Finset.univ.filter (fun e : Fin 600000 => lands (dst e) n), oneF) + oneF

/-- The inverse square root of the degree. -/
def dsq (n : Fin 50000) : EReal := Ideal.rsqrt (deg dst n)

/-- The same as a column. -/
def dsCol : A2 50000 1 := fun i => dsq dst ⟨(i 0).val, idx2_lt0 i⟩

/-- The raw edge sum of the scaled projection: over the edges landing on n, the source row of xs. -/
def aggK (xs : A2 50000 128) (n : Fin 50000) (j : Fin 128) : EReal :=
  zeroF + ∑ e ∈ Finset.univ.filter (fun e : Fin 600000 => lands (dst e) n), xs (ix2 (node (wrap (src e))) j)

/-- A round's convolution, scaled before and after the edge sum. -/
def stepK (h : A2 50000 128) (W : A2 128 128) (b : A2 1 128) : Fin 50000 → Fin 128 → EReal :=
  xnK (arr2 (aggK src dst (arr2 (proj h W (dsCol dst))))) (arr2 (proj h W (dsCol dst))) (dsCol dst) b

/-- A round's convolution, each message scaled by both factors, the self term by one over the degree. -/
def stepR (h : A2 50000 128) (W : A2 128 128) (b : A2 1 128) (n : Fin 50000) (j : Fin 128) : EReal :=
  max (((zeroF + ∑ e ∈ Finset.univ.filter (fun e : Fin 600000 => lands (dst e) n),
            mm h W (node (wrap (src e))) j * (dsq dst (node (wrap (src e))) * dsq dst (node (wrap (dst e)))))
          + mm h W n j * Ideal.div oneF (deg dst n))
        + b (ix2 0 j)) zeroF

end Graph

/-- The mean over a graph's nodes: the sum of the rows landing on g over max count 1. -/
def pool (batch : Fin 50000 → BitVec 32) (h : A2 50000 128) (g : Fin 512) (j : Fin 128) : EReal :=
  Ideal.div (zeroF + ∑ n ∈ Finset.univ.filter (fun n : Fin 50000 => lands (batch n) g), h (ix2 n j))
    (max (zeroF + ∑ _n ∈ Finset.univ.filter (fun n : Fin 50000 => lands (batch n) g), oneF) oneF)

/-! ## The whole network, over a round's convolution -/

/-- The type of a round's convolution. -/
abbrev Step : Type := A2 50000 128 → A2 128 128 → A2 1 128 → Fin 50000 → Fin 128 → EReal

/-- One round: the convolution of the state, then the gated update of the state by it. -/
def round (step : Step) (W : A2 128 128) (b : A2 1 128) (WT UT : A2 128 384) (bi bh : A2 1 384) (h : A2 50000 128) : A2 50000 128 :=
  arr2 (gru (arr2 (step h W b)) h WT UT bi bh)

/-- The source and target words of edge e. -/
def srcOf (ei : I2 2 600000) (e : Fin 600000) : BitVec 32 := ei (ix2 0 e)
def dstOf (ei : I2 2 600000) (e : Fin 600000) : BitVec 32 := ei (ix2 1 e)

/-- The state after k rounds: the embedding, then rounds 0, 1, 2, 3 in order, each with its own layer of weights. -/
def state (step : (Fin 600000 → BitVec 32) → (Fin 600000 → BitVec 32) → Step)
    (x : A2 50000 128) (ei : I2 2 600000) (Win : A2 128 128) (bin : A1 128) (cW : A3 4 128 128) (cb : A2 4 128)
    (Wih Whh : A2 384 128) (bih bhh : A1 384) : Nat → A2 50000 128
  | 0 => arr2 (embed x Win (rowOf bin))
  | k + 1 => round (step (srcOf ei) (dstOf ei)) (layer cW ⟨k % 4, Nat.mod_lt _ (by decide)⟩) (layerRow cb ⟨k % 4, Nat.mod_lt _ (by decide)⟩)
      (tr Wih) (tr Whh) (rowOf bih) (rowOf bhh) (state step x ei Win bin cW cb Wih Whh bih bhh k)

/-- The network's result. -/
def model (step : (Fin 600000 → BitVec 32) → (Fin 600000 → BitVec 32) → Step)
    (x : A2 50000 128) (ei : I2 2 600000) (batch : I1 50000) (Win : A2 128 128) (bin : A1 128) (cW : A3 4 128 128) (cb : A2 4 128)
    (Wih Whh : A2 384 128) (bih bhh : A1 384) (Wout : A2 128 128) (bout : A1 128) : A2 512 128 :=
  arr2 (outp (arr2 (pool (fun n => batch (ix1 n)) (state step x ei Win bin cW cb Wih Whh bih bhh 4))) Wout (rowOf bout))

end Cert.Spec

end
-- ==== Proof.StepEq.lean ====
import proofs.«171838_j74071005987300_2_alg».proof.Proof.Spec
import Idealize.ShloMosaic.Lib.IdealHost

/-!
# The two arrangements of a round's convolution agree

At a node n with degree d (a natural number plus one, so a real number at least 1) and s = 1/√d, the first
arrangement computes max (s · ((0 + Σ a_e) + m n · s) + b) 0 with a_e = m (p e) · s (p e), the second
max (((0 + Σ m (p e) · (s (p e) · s (t e))) + m n · (1/d)) + b) 0, the sums over the edges that land on n.
An edge that lands on n has target row n, so s (t e) = s; a nonnegative real factor distributes over sums of
extended reals; and s · s = 1/d.
-/

noncomputable section

namespace Cert.Spec

open Idealize.ShloMosaic Idealize.ShloMosaic.ValueIdx
open scoped BigOperators

/-- A nonnegative real factor distributes over a sum of two extended reals. -/
theorem nonneg_mul_add (a : ℝ) (ha : 0 ≤ a) (y z : EReal) : (a : EReal) * (y + z) = a * y + a * z :=
  EReal.left_distrib_of_nonneg_of_ne_top (by exact_mod_cast ha) (EReal.coe_ne_top a) y z

/-- A nonnegative real factor distributes over a finite sum of extended reals. -/
theorem nonneg_mul_sum {ι : Type} (a : ℝ) (ha : 0 ≤ a) (S : Finset ι) (f : ι → EReal) :
    (a : EReal) * ∑ e ∈ S, f e = ∑ e ∈ S, (a : EReal) * f e := by
  induction S using Finset.cons_induction with
  | empty => simp
  | cons e S he ih => rw [Finset.sum_cons, Finset.sum_cons, nonneg_mul_add a ha, ih]

/-- The rearrangement over abstract data: a nonnegative real s, messages m e · q e, a target factor t e equal to s
    on the summed edges, and r = s · s. -/
theorem conv_arrange {ι : Type} (S : Finset ι) (a : ℝ) (ha : 0 ≤ a) (m q t : ι → EReal)
    (ht : ∀ e ∈ S, t e = (a : EReal)) (mn r : EReal) (hr : (a : EReal) * (a : EReal) = r) :
    (a : EReal) * ((0 + ∑ e ∈ S, m e * q e) + mn * (a : EReal))
      = (0 + ∑ e ∈ S, m e * (q e * t e)) + mn * r := by
  rw [nonneg_mul_add a ha, nonneg_mul_add a ha, mul_zero, nonneg_mul_sum a ha, mul_left_comm, hr]
  congr 2
  refine Finset.sum_congr rfl fun e he => ?_
  rw [ht e he, mul_left_comm, mul_comm (a : EReal) (q e)]

/-- For a natural number c, the inverse square root of c + 1 is a nonnegative real. -/
theorem rsqrt_succ (c : ℕ) :
    Ideal.rsqrt ((((c : ℝ) + 1 : ℝ)) : EReal) = (((Real.sqrt ((c : ℝ) + 1))⁻¹ : ℝ) : EReal) := by
  have hpos : (0 : ℝ) < (c : ℝ) + 1 := by positivity
  rw [Ideal.rsqrt_coe, if_neg (not_lt.mpr hpos.le), if_neg hpos.ne']

/-- Its square is one over c + 1. -/
theorem rsqrt_sq (c : ℕ) :
    (((Real.sqrt ((c : ℝ) + 1))⁻¹ : ℝ) : EReal) * (((Real.sqrt ((c : ℝ) + 1))⁻¹ : ℝ) : EReal)
      = Ideal.div 1 ((((c : ℝ) + 1 : ℝ)) : EReal) := by
  have hpos : (0 : ℝ) < (c : ℝ) + 1 := by positivity
  rw [Ideal.div_coe hpos.ne', one_mul, ← EReal.coe_mul, ← mul_inv, Real.mul_self_sqrt hpos.le, one_div]

/-- The float words 0.0 and 1.0 denote 0 and 1. -/
theorem zeroF_eq : zeroF = 0 := Ideal.ofBits_zero_f32
theorem oneF_eq : oneF = 1 := Ideal.ofBits_one_f32

/-- The degree is a natural number plus one. -/
theorem deg_eq_coe (dst : Fin 600000 → BitVec 32) (n : Fin 50000) :
    ∃ c : ℕ, deg dst n = ((((c : ℝ) + 1 : ℝ)) : EReal) := by
  refine ⟨(Finset.univ.filter (fun e : Fin 600000 => lands (dst e) n)).card, ?_⟩
  unfold deg
  rw [zeroF_eq, oneF_eq, Finset.sum_const, nsmul_one, zero_add]
  norm_cast

/-- The word of an edge that lands on n is read by a gather as row n. -/
theorem node_wrap_of_lands (w : BitVec 32) (n : Fin 50000) (hw : lands w n) : node (wrap w) = n := by
  have hw' : w.toInt = (n.val : Int) := hw
  have hn : n.val < 50000 := n.isLt
  have hslt : IntOp.cmpi .slt w 0#32 = 0#1 := by
    have : w.slt 0#32 = false := by
      rw [BitVec.slt_eq_decide, BitVec.toInt_zero, hw']
      exact decide_eq_false (by omega)
    show BitVec.ofBool (w.slt 0#32) = 0#1
    rw [this]; rfl
  have hwrap : wrap w = w := by
    unfold wrap; rw [hslt, ValueIdx.select_zero]
  rw [hwrap]
  apply Fin.ext
  show min w.toInt.toNat 49999 = n.val
  rw [hw']; omega

/-- The two arrangements of a round's convolution agree entry by entry. -/
theorem step_eq (src dst : Fin 600000 → BitVec 32) (h : A2 50000 128) (W : A2 128 128) (b : A2 1 128)
    (n : Fin 50000) (j : Fin 128) : stepK src dst h W b n j = stepR src dst h W b n j := by
  obtain ⟨c, hc⟩ := deg_eq_coe dst n
  have ha : (0 : ℝ) ≤ (Real.sqrt ((c : ℝ) + 1))⁻¹ := inv_nonneg.mpr (Real.sqrt_nonneg _)
  have hs : dsq dst n = (((Real.sqrt ((c : ℝ) + 1))⁻¹ : ℝ) : EReal) := by
    unfold dsq; rw [hc, rsqrt_succ]
  have hr : (((Real.sqrt ((c : ℝ) + 1))⁻¹ : ℝ) : EReal) * (((Real.sqrt ((c : ℝ) + 1))⁻¹ : ℝ) : EReal)
      = Ideal.div oneF (deg dst n) := by
    rw [hc, oneF_eq]; exact rsqrt_sq c
  have key : dsq dst n * ((zeroF + ∑ e ∈ Finset.univ.filter (fun e : Fin 600000 => lands (dst e) n),
          mm h W (node (wrap (src e))) j * dsq dst (node (wrap (src e)))) + mm h W n j * dsq dst n)
      = (zeroF + ∑ e ∈ Finset.univ.filter (fun e : Fin 600000 => lands (dst e) n),
            mm h W (node (wrap (src e))) j
              * (dsq dst (node (wrap (src e))) * dsq dst (node (wrap (dst e)))))
          + mm h W n j * Ideal.div oneF (deg dst n) := by
    rw [hs, zeroF_eq]
    exact conv_arrange (Finset.univ.filter (fun e : Fin 600000 => lands (dst e) n)) _ ha
      (fun e => mm h W (node (wrap (src e))) j) (fun e => dsq dst (node (wrap (src e))))
      (fun e => dsq dst (node (wrap (dst e))))
      (fun e he => by
        show dsq dst (node (wrap (dst e))) = _
        rw [node_wrap_of_lands (dst e) n (Finset.mem_filter.mp he).2]; exact hs)
      (mm h W n j) _ hr
  exact congrArg (fun x => max (x + b (ix2 0 j)) zeroF) key

theorem stepK_eq_stepR :
    (stepK : (Fin 600000 → BitVec 32) → (Fin 600000 → BitVec 32) → Step) = stepR := by
  funext src dst h W b n j
  exact step_eq src dst h W b n j

theorem model_eq (x : A2 50000 128) (ei : I2 2 600000) (batch : I1 50000) (Win : A2 128 128) (bin : A1 128)
    (cW : A3 4 128 128) (cb : A2 4 128) (Wih Whh : A2 384 128) (bih bhh : A1 384) (Wout : A2 128 128)
    (bout : A1 128) :
    model stepK x ei batch Win bin cW cb Wih Whh bih bhh Wout bout
      = model stepR x ei batch Win bin cW cb Wih Whh bih bhh Wout bout := by
  rw [stepK_eq_stepR]

end Cert.Spec

end
-- ==== Proof.KRun.lean ====
import proofs.«171838_j74071005987300_2_alg».proof.Proof.Gen.KernelIdeal.Frame

/-!
# The idealized kernel program's run, with its result buffer named

Every weakly fair execution of the program terminates without a fault; the result buffer then holds the contents the
last segment boundary assigns to it, and every argument array is as launched.
-/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the launch over the program's twenty segments, the last thread state read against the final state; the
    result buffer is an unscoped buffer, so it ends at the last boundary's contents. -/
theorem run_value : θ_run defs (onTc (τ := τ) (main (F := F))) ⟨m, fun _ => 0, ρ⟩ (fun r => ∀ c : Dev nD,
      r.2.mem ((c.tc : Thread nD τ).loc main_v103) = W20 m ρ c (Proc.devRef .tc main_v103)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v103 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c)⟩)

end Cert.KernelIdeal.KRun

end
-- ==== Proof.GraphOps.lean ====
import proofs.«171838_j74071005987300_2_alg».proof.Proof.Spec
import Idealize.ShloMosaic.PureOps.Ideal
import Idealize.ShloMosaic.PureOps.Contract
import Idealize.ShloMosaic.Lib.ValueIdx

/-!
# A gather and a scatter-add read at an index

Four dimension-number patterns: the rows of a matrix and the entries of a vector, gathered at, or scattered to, the
positions a column of index words names. A gather reads its word signed and clamps it into the operand; a scatter reads
it signed and drops the update when the word names no row.
-/

noncomputable section

namespace Cert.GraphOps

open Idealize.ShloMosaic Idealize.ShloMosaic.ValueIdx
open scoped BigOperators

/-! ## Gathers -/

/-- Rows of a matrix: operand `[N, C]`, start indices `[E, 1]`, result `[E, C]`. -/
abbrev rowsG (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- Result element `(e, j)` is the operand's row named by word `(e, 0)`, read signed and clamped into `[0, N − 1]`,
    at column `j`: on the row axis the clamped start, no batch and no offset coordinate; on the column axis start 0
    and the offset coordinate `j`. -/
theorem gather_rows_apply {α : Type} {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (j : Fin C) :
    Host.gather (rowsG N E C wf) x idx (ix2 e j)
      = x (ix2 ⟨min (idx (ix2 e 0)).toInt.toNat (N - 1), by omega⟩ j) := by
  unfold Host.gather
  congr 1
  funext a
  refine Fin.ext ?_
  match a with
  | ⟨0, _⟩ =>
    show (rowsG N E C wf).start (ix2 e j) idx 0 + (rowsG N E C wf).batchCoord (ix2 e j) 0
        + (rowsG N E C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsG N E C wf).startIndexMap from List.mem_singleton.mpr rfl)]
    have hsi : (rowsG N E C wf).siIdx (ix2 e j) ⟨List.idxOf (0 : Fin 2) (rowsG N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (rowsG N E C wf).start (ix2 e j) idx 1 + (rowsG N E C wf).batchCoord (ix2 e j) 1
        + (rowsG N E C wf).offCoord (ix2 e j) 1 = _
    rw [GatherDims.batchCoord_eq_zero _ _ _ List.not_mem_nil]
    unfold GatherDims.start
    rw [dif_neg (show (1 : Fin 2) ∉ (rowsG N E C wf).startIndexMap from
      fun h => absurd (List.mem_singleton.mp h) (show (1 : Fin 2) ≠ 0 by decide))]
    simp only [Nat.add_zero, Nat.zero_add]
    unfold GatherDims.offCoord
    rw [dif_pos (show (1 : Fin 2) ∈ (rowsG N E C wf).sKept from (GatherDims.mem_sKept _ _).2
      ⟨fun h => absurd (List.mem_singleton.mp h) (show (1 : Fin 2) ≠ 0 by decide), List.not_mem_nil⟩)]
    rfl

/-- Entries of a vector: operand `[N]`, start indices `[E, 1]`, result `[E]`. -/
abbrev vecG (N E : Nat)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- Result element `e` is the operand's entry named by word `(e, 0)`, read signed and clamped into `[0, N − 1]`. -/
theorem gather_vec_apply {α : Type} {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (vecG N E wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecG N E wf).start (ix1 e) idx 0 + (vecG N E wf).batchCoord (ix1 e) 0 + (vecG N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecG N E wf).startIndexMap from List.mem_singleton.mpr rfl)]
  have hsi : (vecG N E wf).siIdx (ix1 e) ⟨List.idxOf (0 : Fin 1) (vecG N E wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## Scatter-adds

An update lands where its start plus its window coordinate points, on every axis, when that is inside the operand. With
one scattered axis, inserted, the start there is the index word read signed and the window coordinate 0; a window axis
starts at 0 and carries the update's own coordinate. So update `(e, c)` lands on `(n, j)` exactly when the word of `e`
is `n` and `c = j`, and the sum over the updates landing on `(n, j)` is, through `e ↦ (e, j)`, the sum over the edges
whose word is `n`. -/

/-- Every rank-2 index has two coordinates. -/
theorem exists_ix2 {n0 n1 : Nat} (u : (⟨2, ![n0, n1]⟩ : Shape).Idx) : ∃ (a : Fin n0) (b : Fin n1), u = ix2 a b :=
  ⟨u 0, u 1, eq_ix2 u⟩

/-- Every rank-1 index has one coordinate. -/
theorem exists_ix1 {n0 : Nat} (u : (⟨1, ![n0]⟩ : Shape).Idx) : ∃ a : Fin n0, u = ix1 a := ⟨u 0, eq_ix1 u⟩

/-- A rank-1 index's coordinate is below the extent, written as the extent itself. -/
theorem idx1_lt0 {n0 : Nat} (u : (⟨1, ![n0]⟩ : Shape).Idx) : (u 0).val < n0 := (u 0).isLt

/-- At the extended reals the host's accumulating scatter is the exact sum of the updates landing on each element. -/
theorem scatterAdd_ideal {s si u : Shape} {φ : FTy} {w : Nat} (d : ScatterDims s si u) (x : FVec Ideal s φ)
    (idx : IVec si w) (upd : FVec Ideal u φ) :
    Host.scatterAdd d x idx upd = Ideal.hostScatterAdd d x idx upd := rfl

/-- An update lands on operand index `i` exactly when, on every axis, its start plus its window coordinate is `i`'s
    coordinate: inside the operand the sum is a coordinate, and a coordinate is inside the operand. -/
theorem resultIdx?_eq_some_iff {s si u : Shape} (d : ScatterDims s si u) {w : Nat} (k : u.Idx) (idx : IVec si w)
    (i : s.Idx) :
    d.resultIdx? k idx = some i ↔ ∀ a, d.start k idx a + (d.window k a : Int) = ((i a).val : Int) := by
  unfold ScatterDims.resultIdx?
  split
  · rename_i h
    constructor
    · intro he a
      have hi := Option.some.inj he
      rw [← hi]
      show d.start k idx a + (d.window k a : Int) = (((d.start k idx a + (d.window k a : Int)).toNat : Nat) : Int)
      rw [Int.toNat_of_nonneg (h a).1]
    · intro hall
      congr 1
      funext a
      refine Fin.ext ?_
      show (d.start k idx a + (d.window k a : Int)).toNat = (i a).val
      rw [hall a, Int.toNat_natCast]
  · rename_i h
    constructor
    · intro he
      exact absurd he (by simp)
    · intro hall
      exact absurd (fun a => by rw [hall a]; exact ⟨Int.natCast_nonneg _, Int.ofNat_lt.2 (i a).isLt⟩) h

/-- Rows of a matrix: operand `[N, C]`, scatter indices `[E, 1]`, updates `[E, C]`. -/
abbrev rowsS (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

section Rows
variable {N E C : Nat} (wf : ScatterDims.WF ⟨2, ![N, C]⟩ ⟨2, ![E, 1]⟩ ⟨2, ![E, C]⟩ [1] [0] [0] 1)
  (idx : IVec ⟨2, ![E, 1]⟩ 32) (e : Fin E) (c : Fin C)

/-- On the row axis the window starts at the word `(e, 0)` read signed … -/
theorem rowsS_start0 : (rowsS N E C wf).start (ix2 e c) idx 0 = (idx (ix2 e 0)).toInt := by
  unfold ScatterDims.start
  rw [dif_pos (show (0 : Fin 2) ∈ (rowsS N E C wf).scatterDimsToOperandDims from List.mem_singleton.mpr rfl)]
  have hsi : (rowsS N E C wf).siIdx (ix2 e c) ⟨List.idxOf (0 : Fin 2) (rowsS N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and on the column axis at 0. -/
theorem rowsS_start1 : (rowsS N E C wf).start (ix2 e c) idx 1 = 0 := by
  unfold ScatterDims.start
  rw [dif_neg (show (1 : Fin 2) ∉ (rowsS N E C wf).scatterDimsToOperandDims from
    fun h => absurd (List.mem_singleton.mp h) (show (1 : Fin 2) ≠ 0 by decide))]

/-- The row axis is inserted: its window coordinate is 0 … -/
theorem rowsS_window0 : (rowsS N E C wf).window (ix2 e c) 0 = 0 := by
  unfold ScatterDims.window
  rw [dif_neg (show (0 : Fin 2) ∉ (rowsS N E C wf).sKept from
    fun h => (of_decide_eq_true (List.mem_filter.1 h).2) (List.mem_singleton.mpr rfl))]

/-- … and the column axis carries the update's column. -/
theorem rowsS_window1 : (rowsS N E C wf).window (ix2 e c) 1 = c.val := by
  unfold ScatterDims.window
  rw [dif_pos (show (1 : Fin 2) ∈ (rowsS N E C wf).sKept from List.mem_filter.2 ⟨List.mem_finRange _,
    decide_eq_true (fun h => absurd (List.mem_singleton.mp h) (show (1 : Fin 2) ≠ 0 by decide))⟩)]
  rfl

/-- Update `(e, c)` lands on operand `(n, j)` exactly when the word `(e, 0)` is `n` and `c = j`. -/
theorem rowsS_lands_iff (n : Fin N) (j : Fin C) :
    (rowsS N E C wf).resultIdx? (ix2 e c) idx = some (ix2 n j) ↔ Cert.Spec.lands (idx (ix2 e 0)) n ∧ c = j := by
  rw [resultIdx?_eq_some_iff]
  constructor
  · intro h
    have h0 := h 0
    have h1 := h 1
    rw [rowsS_start0, rowsS_window0] at h0
    rw [rowsS_start1, rowsS_window1] at h1
    refine ⟨?_, Fin.ext ?_⟩
    · show (idx (ix2 e 0)).toInt = (n.val : Int)
      have : ((ix2 n j : (⟨2, ![N, C]⟩ : Shape).Idx) 0).val = n.val := rfl
      rw [this] at h0
      simpa using h0
    · have : ((ix2 n j : (⟨2, ![N, C]⟩ : Shape).Idx) 1).val = j.val := rfl
      rw [this] at h1
      omega
  · rintro ⟨hl, rfl⟩ a
    match a with
    | ⟨0, _⟩ =>
      show (rowsS N E C wf).start (ix2 e c) idx 0 + ((rowsS N E C wf).window (ix2 e c) 0 : Int) = (n.val : Int)
      rw [rowsS_start0, rowsS_window0]
      have hl' : (idx (ix2 e 0)).toInt = (n.val : Int) := hl
      rw [hl']; simp
    | ⟨1, _⟩ =>
      show (rowsS N E C wf).start (ix2 e c) idx 1 + ((rowsS N E C wf).window (ix2 e c) 1 : Int) = (c.val : Int)
      rw [rowsS_start1, rowsS_window1]; simp

end Rows

/-- Operand element `(n, j)` receives column `j` of every update row whose word is `n`. -/
theorem scatter_rows_apply {N E C : Nat}
    (wf : ScatterDims.WF ⟨2, ![N, C]⟩ ⟨2, ![E, 1]⟩ ⟨2, ![E, C]⟩ [1] [0] [0] 1)
    (x : (⟨2, ![N, C]⟩ : Shape).Idx → EReal) (idx : IVec ⟨2, ![E, 1]⟩ 32)
    (upd : (⟨2, ![E, C]⟩ : Shape).Idx → EReal) (n : Fin N) (j : Fin C) :
    Ideal.hostScatterAdd (rowsS N E C wf) x idx upd (ix2 n j)
      = x (ix2 n j) + ∑ e ∈ Finset.univ.filter (fun e : Fin E => Cert.Spec.lands (idx (ix2 e 0)) n), upd (ix2 e j) := by
  unfold Ideal.hostScatterAdd
  congr 1
  refine Finset.sum_nbij' (fun u => (⟨(u 0).val, idx2_lt0 u⟩ : Fin E)) (fun e => ix2 e j) ?_ ?_ ?_ ?_ ?_
  · intro u hu
    obtain ⟨a, b, rfl⟩ := exists_ix2 u
    rw [Finset.mem_filter] at hu ⊢
    exact ⟨Finset.mem_univ _, ((rowsS_lands_iff wf idx a b n j).1 hu.2).1⟩
  · intro e he
    rw [Finset.mem_filter] at he ⊢
    exact ⟨Finset.mem_univ _, (rowsS_lands_iff wf idx e j n j).2 ⟨he.2, rfl⟩⟩
  · intro u hu
    obtain ⟨a, b, rfl⟩ := exists_ix2 u
    rw [Finset.mem_filter] at hu
    obtain rfl : b = j := ((rowsS_lands_iff wf idx a b n j).1 hu.2).2
    rfl
  · intro e _
    rfl
  · intro u hu
    obtain ⟨a, b, rfl⟩ := exists_ix2 u
    rw [Finset.mem_filter] at hu
    obtain rfl : b = j := ((rowsS_lands_iff wf idx a b n j).1 hu.2).2
    rfl

/-- Entries of a vector: operand `[N]`, scatter indices `[E, 1]`, updates `[E]`. -/
abbrev vecS (N E : Nat)
    (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

section Entries
variable {N E : Nat} (wf : ScatterDims.WF ⟨1, ![N]⟩ ⟨2, ![E, 1]⟩ ⟨1, ![E]⟩ [] [0] [0] 1)
  (idx : IVec ⟨2, ![E, 1]⟩ 32) (e : Fin E)

/-- On the one axis the window starts at the word `(e, 0)` read signed … -/
theorem vecS_start0 : (vecS N E wf).start (ix1 e) idx 0 = (idx (ix2 e 0)).toInt := by
  unfold ScatterDims.start
  rw [dif_pos (show (0 : Fin 1) ∈ (vecS N E wf).scatterDimsToOperandDims from List.mem_singleton.mpr rfl)]
  have hsi : (vecS N E wf).siIdx (ix1 e) ⟨List.idxOf (0 : Fin 1) (vecS N E wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- … and, the axis being inserted, its window coordinate is 0. -/
theorem vecS_window0 : (vecS N E wf).window (ix1 e) 0 = 0 := by
  unfold ScatterDims.window
  rw [dif_neg (show (0 : Fin 1) ∉ (vecS N E wf).sKept from
    fun h => (of_decide_eq_true (List.mem_filter.1 h).2) (List.mem_singleton.mpr rfl))]

/-- Update `e` lands on operand `n` exactly when the word `(e, 0)` is `n`. -/
theorem vecS_lands_iff (n : Fin N) :
    (vecS N E wf).resultIdx? (ix1 e) idx = some (ix1 n) ↔ Cert.Spec.lands (idx (ix2 e 0)) n := by
  rw [resultIdx?_eq_some_iff]
  constructor
  · intro h
    have h0 := h 0
    rw [vecS_start0, vecS_window0] at h0
    show (idx (ix2 e 0)).toInt = (n.val : Int)
    have : ((ix1 n : (⟨1, ![N]⟩ : Shape).Idx) 0).val = n.val := rfl
    rw [this] at h0
    simpa using h0
  · intro hl a
    obtain rfl : a = 0 := Subsingleton.elim _ _
    show (vecS N E wf).start (ix1 e) idx 0 + ((vecS N E wf).window (ix1 e) 0 : Int) = (n.val : Int)
    rw [vecS_start0, vecS_window0]
    have hl' : (idx (ix2 e 0)).toInt = (n.val : Int) := hl
    rw [hl']; simp

end Entries

/-- Operand element `n` receives every update whose word is `n`. -/
theorem scatter_vec_apply {N E : Nat}
    (wf : ScatterDims.WF ⟨1, ![N]⟩ ⟨2, ![E, 1]⟩ ⟨1, ![E]⟩ [] [0] [0] 1)
    (x : (⟨1, ![N]⟩ : Shape).Idx → EReal) (idx : IVec ⟨2, ![E, 1]⟩ 32)
    (upd : (⟨1, ![E]⟩ : Shape).Idx → EReal) (n : Fin N) :
    Ideal.hostScatterAdd (vecS N E wf) x idx upd (ix1 n)
      = x (ix1 n) + ∑ e ∈ Finset.univ.filter (fun e : Fin E => Cert.Spec.lands (idx (ix2 e 0)) n), upd (ix1 e) := by
  unfold Ideal.hostScatterAdd
  congr 1
  refine Finset.sum_nbij' (fun u => (⟨(u 0).val, idx1_lt0 u⟩ : Fin E)) (fun e => ix1 e) ?_ ?_ ?_ ?_ ?_
  · intro u hu
    obtain ⟨a, rfl⟩ := exists_ix1 u
    rw [Finset.mem_filter] at hu ⊢
    exact ⟨Finset.mem_univ _, (vecS_lands_iff wf idx a n).1 hu.2⟩
  · intro e he
    rw [Finset.mem_filter] at he ⊢
    exact ⟨Finset.mem_univ _, (vecS_lands_iff wf idx e n).2 he.2⟩
  · intro u _
    obtain ⟨a, rfl⟩ := exists_ix1 u
    rfl
  · intro e _
    rfl
  · intro u _
    obtain ⟨a, rfl⟩ := exists_ix1 u
    rfl

/-! ## The clamped row, as the specification writes it -/

/-- The clamped row of a gather over 50000 rows is the specification's. -/
theorem node_eq (w : BitVec 32) :
    (⟨min w.toInt.toNat (50000 - 1), by omega⟩ : Fin 50000) = Cert.Spec.node w := rfl

end Cert.GraphOps

end
-- ==== Proof.KHost.lean ====
import proofs.«171838_j74071005987300_2_alg».proof.KernelIdeal
import proofs.«171838_j74071005987300_2_alg».proof.Proof.Gen.KernelIdeal
import proofs.«171838_j74071005987300_2_alg».proof.Proof.Spec
import proofs.«171838_j74071005987300_2_alg».proof.Proof.GraphOps
import Idealize.ShloMosaic.Lib.Pipeline.Value
import Idealize.ShloMosaic.Lib.ValueIdx
import Idealize.ShloMosaic.Lib.ValueLayout
import Idealize.ShloMosaic.PureOps.Ideal

/-!
# The host-side chains of the kernel program, read as the specification's arrays

Each chain is the composition of host operations the program applies to its arguments between kernel launches: slices
and reshapes of the edge list and of the stacked weights, the degree column, the edge sum of a round, and the mean over
each graph. Read entry by entry at the extended reals, each is one of the specification's arrays.
-/

noncomputable section

namespace Cert.KernelIdeal.KHost

open Cert.KernelIdeal Cert.KernelIdeal.Facts₀ Idealize.ShloMosaic Idealize.ShloMosaic.ValueIdx
open scoped BigOperators

/-! ## Small readings used below -/

/-- A vector broadcast to a column reads its own entry on every row. -/
theorem bcastCol_apply {α : Type} {E : Nat} (hE : E ≠ 1)
    (h : (⟨1, ![E]⟩ : Shape).BroadcastsInDim ⟨2, ![E, 1]⟩ (![0] : Fin 1 → Fin 2))
    (x : (⟨1, ![E]⟩ : Shape).Idx → α) (e : Fin E) (z : Fin 1) :
    broadcastInDim ⟨2, ![E, 1]⟩ ![0] h x (ix2 e z) = x (ix1 e) :=
  broadcastInDim_apply _ h x (ix2 e z) (ix1 e) (fun a => match a with
    | ⟨0, _⟩ => by show e.val = if E = 1 then 0 else e.val; rw [if_neg hE])

/-- A broadcast float scalar reads the extended real its word encodes, everywhere. -/
theorem bcastF_apply {t : Shape} (h : S_.BroadcastsInDim t (![] : Fin 0 → Fin t.rank)) (b : BitVec 32) (i : t.Idx) :
    broadcastInDim t ![] h (constant (F := Ideal) S_ .f32 b) i = Ideal.ofBits .f32 b := rfl

/-- A broadcast integer scalar reads its word everywhere. -/
theorem bcastI_apply {t : Shape} (h : S_.BroadcastsInDim t (![] : Fin 0 → Fin t.rank)) (b : BitVec 32) (i : t.Idx) :
    broadcastInDim t ![] h (constantI S_ 32 b) i = b := rfl

/-- At the extended reals the accumulating scatter is the exact sum of the updates landing on each element. -/
theorem scatterAdd_eq {s si u : Shape} {φ : FTy} {w : Nat} (d : ScatterDims s si u) (x : FVec Ideal s φ)
    (idx : IVec si w) (upd : FVec Ideal u φ) :
    Host.scatterAdd d x idx upd = Ideal.hostScatterAdd d x idx upd := rfl

/-- The host's inverse square root and quotient, entry by entry. -/
theorem rsqrt_apply {s : Shape} {φ : FTy} (v : FVec Ideal s φ) (i : s.Idx) : Host.rsqrt v i = Ideal.rsqrt (v i) := rfl
theorem hdivf_apply {s : Shape} {φ : FTy} (a b : FVec Ideal s φ) (i : s.Idx) :
    Host.divf a b i = Ideal.div (a i) (b i) := rfl

/-- The program's four scatters and its gather carry the dimension numbers of rows and of entries. -/
theorem dimsS_edges_rows : scatter_S50000x128_S600000x1_S600000x128_1_0_0_1
    = Cert.GraphOps.rowsS 50000 600000 128 scatter_S50000x128_S600000x1_S600000x128_1_0_0_1_wf := rfl
theorem dimsS_edges_vec : scatter_S50000_S600000x1_S600000_n_0_0_1
    = Cert.GraphOps.vecS 50000 600000 scatter_S50000_S600000x1_S600000_n_0_0_1_wf := rfl
theorem dimsS_nodes_rows : scatter_S512x128_S50000x1_S50000x128_1_0_0_1
    = Cert.GraphOps.rowsS 512 50000 128 scatter_S512x128_S50000x1_S50000x128_1_0_0_1_wf := rfl
theorem dimsS_nodes_vec : scatter_S512_S50000x1_S50000_n_0_0_1
    = Cert.GraphOps.vecS 512 50000 scatter_S512_S50000x1_S50000_n_0_0_1_wf := rfl
theorem dimsG_rows : gather_S50000x128_S600000x1_S600000x128_1_0_n_n_0_1_1128
    = Cert.GraphOps.rowsG 50000 600000 128 gather_S50000x128_S600000x1_S600000x128_1_0_n_n_0_1_1128_wf := rfl

/-! ## The two rows of the edge list -/

/-- The source words: row 0 of the edge list, as a vector. -/
def srcWords (ei : S2x600000.Idx → BitVec 32) : S600000.Idx → BitVec 32 :=
  shapeCast _ (extractStridedSlice S1x600000 ![0, 0] ei slices_S2x600000_S1x600000_0_0) shapeCasts_S1x600000_S600000

/-- The target words: row 1 of the edge list, as a vector. -/
def dstWords (ei : S2x600000.Idx → BitVec 32) : S600000.Idx → BitVec 32 :=
  shapeCast _ (extractStridedSlice S1x600000 ![1, 0] ei slices_S2x600000_S1x600000_1_0) shapeCasts_S1x600000_S600000

theorem srcWords_apply (ei : S2x600000.Idx → BitVec 32) (e : Fin 600000) :
    srcWords ei (ix1 e) = Cert.Spec.srcOf ei e := by
  unfold srcWords Cert.Spec.srcOf
  refine (shapeCast_apply _ shapeCasts_S1x600000_S600000 (ix1 e) (ix2 0 e) ?_).trans ?_
  · rewrite [Shape.rowMajor_val_two, Shape.rowMajor_val_one]
    show 0 * 600000 + e.val = e.val
    omega
  · exact extractStridedSlice_apply ![0, 0] ei slices_S2x600000_S1x600000_0_0 (ix2 0 e) (ix2 0 e) (fun a => match a with
      | ⟨0, _⟩ => by show 0 = 0 + 0; rfl
      | ⟨1, _⟩ => by show e.val = 0 + e.val; omega)

theorem dstWords_apply (ei : S2x600000.Idx → BitVec 32) (e : Fin 600000) :
    dstWords ei (ix1 e) = Cert.Spec.dstOf ei e := by
  unfold dstWords Cert.Spec.dstOf
  refine (shapeCast_apply _ shapeCasts_S1x600000_S600000 (ix1 e) (ix2 0 e) ?_).trans ?_
  · rewrite [Shape.rowMajor_val_two, Shape.rowMajor_val_one]
    show 0 * 600000 + e.val = e.val
    omega
  · exact extractStridedSlice_apply ![1, 0] ei slices_S2x600000_S1x600000_1_0 (ix2 0 e) (ix2 1 e) (fun a => match a with
      | ⟨0, _⟩ => by show 1 = 1 + 0; rfl
      | ⟨1, _⟩ => by show e.val = 0 + e.val; omega)

/-! ## The degree column -/

/-- The inverse square root of the degree, as a column: ones scattered to the target words over zeros, plus one, under
    the inverse square root. -/
def dsColChain (ei : S2x600000.Idx → BitVec 32) : S50000x1.Idx → EReal :=
  shapeCast _ (Host.rsqrt (F := Ideal) (addf (F := Ideal)
    (Host.scatterAdd (F := Ideal) scatter_S50000_S600000x1_S600000_n_0_0_1
      (broadcastInDim S50000 ![] bcast_S_S50000 (constant (F := Ideal) S_ .f32 0x00000000#32))
      (broadcastInDim S600000x1 ![0] bcast_S600000_S600000x1_0 (dstWords ei))
      (broadcastInDim S600000 ![] bcast_S_S600000 (constant (F := Ideal) S_ .f32 0x3F800000#32)))
    (broadcastInDim S50000 ![] bcast_S_S50000 (constant (F := Ideal) S_ .f32 0x3F800000#32)))) shapeCasts_S50000_S50000x1

theorem dsColChain_eq (ei : S2x600000.Idx → BitVec 32) :
    dsColChain ei = Cert.Spec.dsCol (Cert.Spec.dstOf ei) := by
  funext i
  obtain ⟨n, z, rfl⟩ : ∃ (n : Fin 50000) (z : Fin 1), i = ix2 n z := ⟨i 0, i 1, eq_ix2 i⟩
  unfold dsColChain
  refine (shapeCast_apply _ shapeCasts_S50000_S50000x1 (ix2 n z) (ix1 n) ?_).trans ?_
  · rewrite [Shape.rowMajor_val_one, Shape.rowMajor_val_two]
    have hz : z.val < 1 := z.isLt
    show n.val = n.val * 1 + z.val
    omega
  rw [rsqrt_apply, addf_apply, scatterAdd_eq, dimsS_edges_vec, Cert.GraphOps.scatter_vec_apply, bcastF_apply,
    bcastF_apply]
  show _ = Cert.Spec.dsq (Cert.Spec.dstOf ei) n
  unfold Cert.Spec.dsq Cert.Spec.deg
  refine congrArg Ideal.rsqrt (congrArg₂ (· + ·) (congrArg₂ (· + ·) rfl
    (Finset.sum_congr (Finset.filter_congr fun e _ => ?_) fun e _ => ?_)) rfl)
  · rw [bcastCol_apply (E := 600000) (by decide), dstWords_apply]
  · exact bcastF_apply _ _ _

/-! ## Vectors as one-row matrices, and the transposed gate weights -/

theorem row128 (v : S128.Idx → EReal) :
    (shapeCast _ v shapeCasts_S128_S1x128 : S1x128.Idx → EReal) = Cert.Spec.rowOf v := by
  funext i
  refine (shapeCast_apply v shapeCasts_S128_S1x128 i (ix1 ⟨(i 1).val, idx2_lt1 i⟩) ?_).trans rfl
  rewrite [Shape.rowMajor_val_one, Shape.rowMajor_val_two]
  have h0 : (i 0).val < 1 := idx2_lt0 i
  show (i 1).val = (i 0).val * 128 + (i 1).val
  omega

theorem row384 (v : S384.Idx → EReal) :
    (shapeCast _ v shapeCasts_S384_S1x384 : S1x384.Idx → EReal) = Cert.Spec.rowOf v := by
  funext i
  refine (shapeCast_apply v shapeCasts_S384_S1x384 i (ix1 ⟨(i 1).val, idx2_lt1 i⟩) ?_).trans rfl
  rewrite [Shape.rowMajor_val_one, Shape.rowMajor_val_two]
  have h0 : (i 0).val < 1 := idx2_lt0 i
  show (i 1).val = (i 0).val * 384 + (i 1).val
  omega

theorem tr384 (W : S384x128.Idx → EReal) :
    (transpose S128x384 [1, 0] W transposes_S384x128_S128x384_1_0 : S128x384.Idx → EReal) = Cert.Spec.tr W := by
  funext i
  exact transpose_apply [1, 0] W transposes_S384x128_S128x384_1_0 i
    (ix2 ⟨(i 1).val, idx2_lt1 i⟩ ⟨(i 0).val, idx2_lt0 i⟩) (fun b => match b with
    | ⟨0, _⟩ => rfl
    | ⟨1, _⟩ => rfl)

/-! ## The layers of the stacked convolution weights and biases -/

theorem layer0 (cW : S4x128x128.Idx → EReal) :
    (shapeCast _ (extractStridedSlice S1x128x128 ![0, 0, 0] cW slices_S4x128x128_S1x128x128_0_0_0)
      shapeCasts_S1x128x128_S128x128 : S128x128.Idx → EReal) = Cert.Spec.layer cW 0 := by
  funext i
  refine (shapeCast_apply _ shapeCasts_S1x128x128_S128x128 i
    (ix3 0 ⟨(i 0).val, idx2_lt0 i⟩ ⟨(i 1).val, idx2_lt1 i⟩) ?_).trans ?_
  · rewrite [Shape.rowMajor_val_three, Shape.rowMajor_val_two]
    show (0 * 128 + (i 0).val) * 128 + (i 1).val = (i 0).val * 128 + (i 1).val
    omega
  · exact extractStridedSlice_apply ![0, 0, 0] cW slices_S4x128x128_S1x128x128_0_0_0
      (ix3 0 ⟨(i 0).val, idx2_lt0 i⟩ ⟨(i 1).val, idx2_lt1 i⟩)
      (ix3 0 ⟨(i 0).val, idx2_lt0 i⟩ ⟨(i 1).val, idx2_lt1 i⟩) (fun a => match a with
      | ⟨0, _⟩ => by show 0 = 0 + 0; rfl
      | ⟨1, _⟩ => by show (i 0).val = 0 + (i 0).val; omega
      | ⟨2, _⟩ => by show (i 1).val = 0 + (i 1).val; omega)

theorem layer1 (cW : S4x128x128.Idx → EReal) :
    (shapeCast _ (extractStridedSlice S1x128x128 ![1, 0, 0] cW slices_S4x128x128_S1x128x128_1_0_0)
      shapeCasts_S1x128x128_S128x128 : S128x128.Idx → EReal) = Cert.Spec.layer cW 1 := by
  funext i
  refine (shapeCast_apply _ shapeCasts_S1x128x128_S128x128 i
    (ix3 0 ⟨(i 0).val, idx2_lt0 i⟩ ⟨(i 1).val, idx2_lt1 i⟩) ?_).trans ?_
  · rewrite [Shape.rowMajor_val_three, Shape.rowMajor_val_two]
    show (0 * 128 + (i 0).val) * 128 + (i 1).val = (i 0).val * 128 + (i 1).val
    omega
  · exact extractStridedSlice_apply ![1, 0, 0] cW slices_S4x128x128_S1x128x128_1_0_0
      (ix3 0 ⟨(i 0).val, idx2_lt0 i⟩ ⟨(i 1).val, idx2_lt1 i⟩)
      (ix3 1 ⟨(i 0).val, idx2_lt0 i⟩ ⟨(i 1).val, idx2_lt1 i⟩) (fun a => match a with
      | ⟨0, _⟩ => by show 1 = 1 + 0; rfl
      | ⟨1, _⟩ => by show (i 0).val = 0 + (i 0).val; omega
      | ⟨2, _⟩ => by show (i 1).val = 0 + (i 1).val; omega)

theorem layer2 (cW : S4x128x128.Idx → EReal) :
    (shapeCast _ (extractStridedSlice S1x128x128 ![2, 0, 0] cW slices_S4x128x128_S1x128x128_2_0_0)
      shapeCasts_S1x128x128_S128x128 : S128x128.Idx → EReal) = Cert.Spec.layer cW 2 := by
  funext i
  refine (shapeCast_apply _ shapeCasts_S1x128x128_S128x128 i
    (ix3 0 ⟨(i 0).val, idx2_lt0 i⟩ ⟨(i 1).val, idx2_lt1 i⟩) ?_).trans ?_
  · rewrite [Shape.rowMajor_val_three, Shape.rowMajor_val_two]
    show (0 * 128 + (i 0).val) * 128 + (i 1).val = (i 0).val * 128 + (i 1).val
    omega
  · exact extractStridedSlice_apply ![2, 0, 0] cW slices_S4x128x128_S1x128x128_2_0_0
      (ix3 0 ⟨(i 0).val, idx2_lt0 i⟩ ⟨(i 1).val, idx2_lt1 i⟩)
      (ix3 2 ⟨(i 0).val, idx2_lt0 i⟩ ⟨(i 1).val, idx2_lt1 i⟩) (fun a => match a with
      | ⟨0, _⟩ => by show 2 = 2 + 0; rfl
      | ⟨1, _⟩ => by show (i 0).val = 0 + (i 0).val; omega
      | ⟨2, _⟩ => by show (i 1).val = 0 + (i 1).val; omega)

theorem layer3 (cW : S4x128x128.Idx → EReal) :
    (shapeCast _ (extractStridedSlice S1x128x128 ![3, 0, 0] cW slices_S4x128x128_S1x128x128_3_0_0)
      shapeCasts_S1x128x128_S128x128 : S128x128.Idx → EReal) = Cert.Spec.layer cW 3 := by
  funext i
  refine (shapeCast_apply _ shapeCasts_S1x128x128_S128x128 i
    (ix3 0 ⟨(i 0).val, idx2_lt0 i⟩ ⟨(i 1).val, idx2_lt1 i⟩) ?_).trans ?_
  · rewrite [Shape.rowMajor_val_three, Shape.rowMajor_val_two]
    show (0 * 128 + (i 0).val) * 128 + (i 1).val = (i 0).val * 128 + (i 1).val
    omega
  · exact extractStridedSlice_apply ![3, 0, 0] cW slices_S4x128x128_S1x128x128_3_0_0
      (ix3 0 ⟨(i 0).val, idx2_lt0 i⟩ ⟨(i 1).val, idx2_lt1 i⟩)
      (ix3 3 ⟨(i 0).val, idx2_lt0 i⟩ ⟨(i 1).val, idx2_lt1 i⟩) (fun a => match a with
      | ⟨0, _⟩ => by show 3 = 3 + 0; rfl
      | ⟨1, _⟩ => by show (i 0).val = 0 + (i 0).val; omega
      | ⟨2, _⟩ => by show (i 1).val = 0 + (i 1).val; omega)

theorem layerRow0 (cb : S4x128.Idx → EReal) :
    (shapeCast _ (shapeCast _ (extractStridedSlice S1x128 ![0, 0] cb slices_S4x128_S1x128_0_0) shapeCasts_S1x128_S128)
      shapeCasts_S128_S1x128 : S1x128.Idx → EReal) = Cert.Spec.layerRow cb 0 := by
  funext i
  refine (shapeCast_apply _ shapeCasts_S128_S1x128 i (ix1 ⟨(i 1).val, idx2_lt1 i⟩) ?_).trans ?_
  · rewrite [Shape.rowMajor_val_one, Shape.rowMajor_val_two]
    have h0 : (i 0).val < 1 := idx2_lt0 i
    show (i 1).val = (i 0).val * 128 + (i 1).val
    omega
  refine (shapeCast_apply _ shapeCasts_S1x128_S128 (ix1 ⟨(i 1).val, idx2_lt1 i⟩) (ix2 0 ⟨(i 1).val, idx2_lt1 i⟩) ?_).trans ?_
  · rewrite [Shape.rowMajor_val_two, Shape.rowMajor_val_one]
    show 0 * 128 + (i 1).val = (i 1).val
    omega
  · exact extractStridedSlice_apply ![0, 0] cb slices_S4x128_S1x128_0_0 (ix2 0 ⟨(i 1).val, idx2_lt1 i⟩)
      (ix2 0 ⟨(i 1).val, idx2_lt1 i⟩) (fun a => match a with
      | ⟨0, _⟩ => by show 0 = 0 + 0; rfl
      | ⟨1, _⟩ => by show (i 1).val = 0 + (i 1).val; omega)

theorem layerRow1 (cb : S4x128.Idx → EReal) :
    (shapeCast _ (shapeCast _ (extractStridedSlice S1x128 ![1, 0] cb slices_S4x128_S1x128_1_0) shapeCasts_S1x128_S128)
      shapeCasts_S128_S1x128 : S1x128.Idx → EReal) = Cert.Spec.layerRow cb 1 := by
  funext i
  refine (shapeCast_apply _ shapeCasts_S128_S1x128 i (ix1 ⟨(i 1).val, idx2_lt1 i⟩) ?_).trans ?_
  · rewrite [Shape.rowMajor_val_one, Shape.rowMajor_val_two]
    have h0 : (i 0).val < 1 := idx2_lt0 i
    show (i 1).val = (i 0).val * 128 + (i 1).val
    omega
  refine (shapeCast_apply _ shapeCasts_S1x128_S128 (ix1 ⟨(i 1).val, idx2_lt1 i⟩) (ix2 0 ⟨(i 1).val, idx2_lt1 i⟩) ?_).trans ?_
  · rewrite [Shape.rowMajor_val_two, Shape.rowMajor_val_one]
    show 0 * 128 + (i 1).val = (i 1).val
    omega
  · exact extractStridedSlice_apply ![1, 0] cb slices_S4x128_S1x128_1_0 (ix2 0 ⟨(i 1).val, idx2_lt1 i⟩)
      (ix2 1 ⟨(i 1).val, idx2_lt1 i⟩) (fun a => match a with
      | ⟨0, _⟩ => by show 1 = 1 + 0; rfl
      | ⟨1, _⟩ => by show (i 1).val = 0 + (i 1).val; omega)

theorem layerRow2 (cb : S4x128.Idx → EReal) :
    (shapeCast _ (shapeCast _ (extractStridedSlice S1x128 ![2, 0] cb slices_S4x128_S1x128_2_0) shapeCasts_S1x128_S128)
      shapeCasts_S128_S1x128 : S1x128.Idx → EReal) = Cert.Spec.layerRow cb 2 := by
  funext i
  refine (shapeCast_apply _ shapeCasts_S128_S1x128 i (ix1 ⟨(i 1).val, idx2_lt1 i⟩) ?_).trans ?_
  · rewrite [Shape.rowMajor_val_one, Shape.rowMajor_val_two]
    have h0 : (i 0).val < 1 := idx2_lt0 i
    show (i 1).val = (i 0).val * 128 + (i 1).val
    omega
  refine (shapeCast_apply _ shapeCasts_S1x128_S128 (ix1 ⟨(i 1).val, idx2_lt1 i⟩) (ix2 0 ⟨(i 1).val, idx2_lt1 i⟩) ?_).trans ?_
  · rewrite [Shape.rowMajor_val_two, Shape.rowMajor_val_one]
    show 0 * 128 + (i 1).val = (i 1).val
    omega
  · exact extractStridedSlice_apply ![2, 0] cb slices_S4x128_S1x128_2_0 (ix2 0 ⟨(i 1).val, idx2_lt1 i⟩)
      (ix2 2 ⟨(i 1).val, idx2_lt1 i⟩) (fun a => match a with
      | ⟨0, _⟩ => by show 2 = 2 + 0; rfl
      | ⟨1, _⟩ => by show (i 1).val = 0 + (i 1).val; omega)

theorem layerRow3 (cb : S4x128.Idx → EReal) :
    (shapeCast _ (shapeCast _ (extractStridedSlice S1x128 ![3, 0] cb slices_S4x128_S1x128_3_0) shapeCasts_S1x128_S128)
      shapeCasts_S128_S1x128 : S1x128.Idx → EReal) = Cert.Spec.layerRow cb 3 := by
  funext i
  refine (shapeCast_apply _ shapeCasts_S128_S1x128 i (ix1 ⟨(i 1).val, idx2_lt1 i⟩) ?_).trans ?_
  · rewrite [Shape.rowMajor_val_one, Shape.rowMajor_val_two]
    have h0 : (i 0).val < 1 := idx2_lt0 i
    show (i 1).val = (i 0).val * 128 + (i 1).val
    omega
  refine (shapeCast_apply _ shapeCasts_S1x128_S128 (ix1 ⟨(i 1).val, idx2_lt1 i⟩) (ix2 0 ⟨(i 1).val, idx2_lt1 i⟩) ?_).trans ?_
  · rewrite [Shape.rowMajor_val_two, Shape.rowMajor_val_one]
    show 0 * 128 + (i 1).val = (i 1).val
    omega
  · exact extractStridedSlice_apply ![3, 0] cb slices_S4x128_S1x128_3_0 (ix2 0 ⟨(i 1).val, idx2_lt1 i⟩)
      (ix2 3 ⟨(i 1).val, idx2_lt1 i⟩) (fun a => match a with
      | ⟨0, _⟩ => by show 3 = 3 + 0; rfl
      | ⟨1, _⟩ => by show (i 1).val = 0 + (i 1).val; omega)

/-! ## A round's edge sum -/

/-- The edge sum of a round: the rows of the scaled projection gathered at the wrapped source words, scattered to the
    target words over zeros. -/
def aggChain (xs : S50000x128.Idx → EReal) (sw dw : S600000.Idx → BitVec 32) : S50000x128.Idx → EReal :=
  Host.scatterAdd (F := Ideal) scatter_S50000x128_S600000x1_S600000x128_1_0_0_1
    (broadcastInDim S50000x128 ![] bcast_S_S50000x128 (constant (F := Ideal) S_ .f32 0x00000000#32))
    (broadcastInDim S600000x1 ![0] bcast_S600000_S600000x1_0 dw)
    (extf (F := Ideal) .f32 (Host.gather gather_S50000x128_S600000x1_S600000x128_1_0_n_n_0_1_1128 xs
      (broadcastInDim S600000x1 ![0] bcast_S600000_S600000x1_0
        (select (cmpi .slt sw (broadcastInDim S600000 ![] bcast_S_S600000 (constantI S_ 32 0#32)))
          (addi sw (broadcastInDim S600000 ![] bcast_S_S600000 (constantI S_ 32 50000#32))) sw))) bitsLt_bf16_f32)

theorem aggChain_eq (xs : S50000x128.Idx → EReal) (sw dw : S600000.Idx → BitVec 32) :
    aggChain xs sw dw = Cert.Spec.arr2 (Cert.Spec.aggK (fun e => sw (ix1 e)) (fun e => dw (ix1 e)) xs) := by
  funext i
  obtain ⟨n, j, rfl⟩ : ∃ (n : Fin 50000) (j : Fin 128), i = ix2 n j := ⟨i 0, i 1, eq_ix2 i⟩
  rw [Cert.Spec.arr2_ix2]
  unfold aggChain Cert.Spec.aggK
  rw [scatterAdd_eq, dimsS_edges_rows, dimsG_rows, Cert.GraphOps.scatter_rows_apply, bcastF_apply]
  refine congrArg₂ (· + ·) rfl (Finset.sum_congr (Finset.filter_congr fun e _ => ?_) fun e _ => ?_)
  · rw [bcastCol_apply (E := 600000) (by decide)]
  · -- the update row of edge e: the gathered row of the wrapped source word
    have hw : (broadcastInDim S600000x1 ![0] bcast_S600000_S600000x1_0
        (select (cmpi .slt sw (broadcastInDim S600000 ![] bcast_S_S600000 (constantI S_ 32 0#32)))
          (addi sw (broadcastInDim S600000 ![] bcast_S_S600000 (constantI S_ 32 50000#32))) sw)) (ix2 e 0)
        = Cert.Spec.wrap (sw (ix1 e)) := by
      rw [bcastCol_apply (E := 600000) (by decide)]
      rfl
    rw [extf_apply]
    exact (Cert.GraphOps.gather_rows_apply (N := 50000) (by decide) _ xs _ e j).trans
      (congrArg (fun w => xs (ix2 (Cert.Spec.node w) j)) hw)

/-! ## The mean over each graph -/

/-- The mean over each graph's nodes: the rows scattered to the graph words over zeros, over the count of the graph's
    nodes, at least one. -/
def poolChain (h : S50000x128.Idx → EReal) (bt : S50000.Idx → BitVec 32) : S512x128.Idx → EReal :=
  Host.divf (F := Ideal)
    (Host.scatterAdd (F := Ideal) scatter_S512x128_S50000x1_S50000x128_1_0_0_1
      (broadcastInDim S512x128 ![] bcast_S_S512x128 (constant (F := Ideal) S_ .f32 0x00000000#32))
      (broadcastInDim S50000x1 ![0] bcast_S50000_S50000x1_0 bt) h)
    (broadcastInDim S512x128 ![0, 1] bcast_S512x1_S512x128_0_1
      (shapeCast _ (maximumf (F := Ideal)
        (Host.scatterAdd (F := Ideal) scatter_S512_S50000x1_S50000_n_0_0_1
          (broadcastInDim S512 ![] bcast_S_S512 (constant (F := Ideal) S_ .f32 0x00000000#32))
          (broadcastInDim S50000x1 ![0] bcast_S50000_S50000x1_0 bt)
          (broadcastInDim S50000 ![] bcast_S_S50000 (constant (F := Ideal) S_ .f32 0x3F800000#32)))
        (broadcastInDim S512 ![] bcast_S_S512 (constant (F := Ideal) S_ .f32 0x3F800000#32))) shapeCasts_S512_S512x1))

theorem poolChain_eq (h : S50000x128.Idx → EReal) (bt : S50000.Idx → BitVec 32) :
    poolChain h bt = Cert.Spec.arr2 (Cert.Spec.pool (fun n => bt (ix1 n)) h) := by
  funext i
  obtain ⟨g, j, rfl⟩ : ∃ (g : Fin 512) (j : Fin 128), i = ix2 g j := ⟨i 0, i 1, eq_ix2 i⟩
  rw [Cert.Spec.arr2_ix2]
  unfold poolChain Cert.Spec.pool
  -- the count column, broadcast along the features
  have hden : (broadcastInDim S512x128 ![0, 1] bcast_S512x1_S512x128_0_1
      (shapeCast _ (maximumf (F := Ideal)
        (Host.scatterAdd (F := Ideal) scatter_S512_S50000x1_S50000_n_0_0_1
          (broadcastInDim S512 ![] bcast_S_S512 (constant (F := Ideal) S_ .f32 0x00000000#32))
          (broadcastInDim S50000x1 ![0] bcast_S50000_S50000x1_0 bt)
          (broadcastInDim S50000 ![] bcast_S_S50000 (constant (F := Ideal) S_ .f32 0x3F800000#32)))
        (broadcastInDim S512 ![] bcast_S_S512 (constant (F := Ideal) S_ .f32 0x3F800000#32))) shapeCasts_S512_S512x1))
      (ix2 g j)
      = max (Cert.Spec.zeroF + ∑ _n ∈ Finset.univ.filter (fun n : Fin 50000 => Cert.Spec.lands (bt (ix1 n)) g),
          Cert.Spec.oneF) Cert.Spec.oneF := by
    refine (broadcastInDim_apply _ bcast_S512x1_S512x128_0_1 _ (ix2 g j) (ix2 g 0) (fun a => match a with
      | ⟨0, _⟩ => by show g.val = if (512 : Nat) = 1 then 0 else g.val; rw [if_neg (by decide)]
      | ⟨1, _⟩ => by show 0 = if (1 : Nat) = 1 then 0 else j.val; rw [if_pos rfl])).trans ?_
    refine (shapeCast_apply _ shapeCasts_S512_S512x1 (ix2 g 0) (ix1 g) ?_).trans ?_
    · rewrite [Shape.rowMajor_val_one, Shape.rowMajor_val_two]
      show g.val = g.val * 1 + 0
      omega
    rw [maximumf_apply, scatterAdd_eq, dimsS_nodes_vec, Cert.GraphOps.scatter_vec_apply, bcastF_apply, bcastF_apply]
    refine congrArg₂ max (congrArg₂ (· + ·) rfl
      (Finset.sum_congr (Finset.filter_congr fun m _ => ?_) fun m _ => ?_)) rfl
    · rw [bcastCol_apply (E := 50000) (by decide)]
    · exact bcastF_apply _ _ _
  rw [hdivf_apply, hden, scatterAdd_eq, dimsS_nodes_rows, Cert.GraphOps.scatter_rows_apply, bcastF_apply]
  refine congrArg₂ Ideal.div (congrArg₂ (· + ·) rfl
    (Finset.sum_congr (Finset.filter_congr fun m _ => ?_) fun _ _ => rfl)) rfl
  rw [bcastCol_apply (E := 50000) (by decide)]

end Cert.KernelIdeal.KHost

end
-- ==== Proof.KReg0.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384
noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 0: the embedding, max (x W + b) 0, block by block and as one array -/

example : Pipeline.arrRef spec0 0 = main_arg0 := rfl
example : Pipeline.arrRef spec0 1 = main_arg3 := rfl
example : Pipeline.arrRef spec0 2 = main_v12 := rfl
example : Pipeline.arrRef spec0 3 = main_v13 := rfl

theorem hz0 : (![0, 0] : Fin 2 → Nat) = fun _ => 0 := funext fun a => by fin_cases a <;> rfl

theorem lhs0_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs0_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs0_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs0_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000×128 block by a 128×128 matrix into the zero accumulator, at an entry: the sum over the 128 contracted lanes. -/
theorem mm0 (a : FVec Ideal S10000x128 .bf16) (w : FVec Ideal S128x128 .bf16) (r : Fin 10000) (j : Fin 128) :
    matmul dot_S10000x128_S128x128_S10000x128_1_0_0_1_n_n none a w (constant S10000x128 .f32 0x00000000#32) (ix2 r j)
      = ∑ k : Fin 128, a (ix2 r k) * w (ix2 k j) := by
  refine (Ideal.matmul_constant_zero_apply dot_S10000x128_S128x128_S10000x128_1_0_0_1_n_n none a w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun b => Fin.ext (by
    match b with
    | ⟨0, _⟩ => exact lhs0_0 _ _
    | ⟨1, _⟩ => exact (lhs0_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun b => Fin.ext (by
    match b with
    | ⟨0, _⟩ => exact (rhs0_0 _ _).trans hk
    | ⟨1, _⟩ => exact rhs0_1 _ _)
  rw [el, er]

/-- A one-row vector broadcast down the rows reads its lane. -/
theorem bcastRow0 (v : FVec Ideal S1x128 .f32) (h : S1x128.Broadcasts S10000x128) (r : Fin 10000) (j : Fin 128) :
    broadcastTo S10000x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- The stored block, entry by entry: max (Σ_k x(r,k) W(k,j) + b(0,j)) 0. -/
theorem pay0 (v0 : Vec Ideal S10000x128 .f32) (v2 : Vec Ideal S128x128 .f32) (v5 : Vec Ideal S1x128 .f32) (r : Fin 10000) (j : Fin 128) :
    k0_pay1 v0 v2 v5 (ix2 r j) = max ((∑ k : Fin 128, v0 (ix2 r k) * v2 (ix2 k j)) + v5 (ix2 0 j)) Spec.zeroF := by
  unfold k0_pay1
  refine (maximumf_apply _ _ _).trans (congrArg₂ max ((addf_apply _ _ _).trans (congrArg₂ (· + ·) ?_ ?_)) rfl)
  · exact mm0 _ _ r j
  · refine (bcastRow0 _ _ r j).trans ?_
    rw [shapeCast_self]

/-- The index maps over the grid: the node arrays' block row is the point, every other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Row p of the input block at point t is row 10000 t + p of the node features. -/
theorem iblk0_0_apply (c : Dev nD) (t : Fin cfg0.N) (p : Fin 10000) (k : Fin 128) (n : Fin 50000) (hn : n.val = t.val * 10000 + p.val) :
    (iblk0 V c 0 t : Vec Ideal S10000x128 .f32) (ix2 p k) = (V c main_arg0 : S50000x128.Idx → EReal) (ix2 n k) := by
  obtain ⟨e00, e01, -⟩ := idx0 t
  unfold iblk0
  rw [View.read_apply]
  show V c main_arg0 _ = V c main_arg0 _
  congr 1
  funext a
  apply Fin.ext
  match a with
  | ⟨0, _⟩ => show win0_0.index t 0 * 10000 + 1 * p.val = n.val; rw [e00, hn]; omega
  | ⟨1, _⟩ => show win0_0.index t 1 * 128 + 1 * k.val = k.val; rw [e01]; omega

/-- The weight block at every point is the whole weight matrix. -/
theorem iblk0_1_eq (c : Dev nD) (t : Fin cfg0.N) :
    (iblk0 V c 1 t : Vec Ideal S128x128 .f32) = (V c main_arg3 : S128x128.Idx → EReal) := by
  obtain ⟨-, -, e10, e11, -⟩ := idx0 t
  unfold iblk0
  funext z
  rw [View.read_apply]
  show V c main_arg3 _ = V c main_arg3 _
  congr 1
  funext a
  apply Fin.ext
  match a with
  | ⟨0, _⟩ => show win0_1.index t 0 * 128 + 1 * (z 0).val = (z 0).val; rw [e10]; omega
  | ⟨1, _⟩ => show win0_1.index t 1 * 128 + 1 * (z 1).val = (z 1).val; rw [e11]; omega

/-- The bias block at every point is the whole bias row. -/
theorem iblk0_2_eq (c : Dev nD) (t : Fin cfg0.N) :
    (iblk0 V c 2 t : Vec Ideal S1x128 .f32) = (V c main_v12 : S1x128.Idx → EReal) := by
  obtain ⟨-, -, -, -, e20, e21, -⟩ := idx0 t
  unfold iblk0
  funext z
  rw [View.read_apply]
  show V c main_v12 _ = V c main_v12 _
  congr 1
  funext a
  apply Fin.ext
  match a with
  | ⟨0, _⟩ => show win0_2.index t 0 * 1 + 1 * (z 0).val = (z 0).val; rw [e20]; omega
  | ⟨1, _⟩ => show win0_2.index t 1 * 128 + 1 * (z 1).val = (z 1).val; rw [e21]; omega

/-- What point t writes back is block t of the embedding of the whole arrays. -/
theorem flushed0 (c : Dev nD) (t : Fin cfg0.N) :
    (dat0 (F := Ideal) V c).flushed 3 t = ((cfg0.win 3).blk t).view.read (Elt Ideal)
      (Spec.arr2 (Spec.embed (V c main_arg0) (V c main_arg3) (V c main_v12))) := by
  show (cfg0.win 3).cut (grid0.coords t) ((dat0 V c).after 3 t) = _
  rw [after0_3]
  unfold out0_3
  rw [View.canon_unit_zero hz0]
  simp only [View.ld_unit_zero (S := S10000x128) hz0, View.ld_unit_zero (S := S128x128) hz0, View.ld_unit_zero (S := S1x128) hz0]
  funext y
  obtain ⟨p, q, rfl⟩ : ∃ (p : Fin 10000) (q : Fin 128), y = ix2 p q := ⟨y 0, y 1, eq_ix2 y⟩
  have hN : cfg0.N = 5 := N_0
  have ht : t.val < 5 := by have := t.isLt; omega
  obtain ⟨n, hn⟩ : ∃ n : Fin 50000, n.val = t.val * 10000 + p.val := ⟨⟨t.val * 10000 + p.val, by omega⟩, rfl⟩
  obtain ⟨-, -, -, -, -, -, e30, e31⟩ := idx0 t
  refine (pay0 (iblk0 V c 0 t) (iblk0 V c 1 t) (iblk0 V c 2 t) p q).trans ?_
  refine Eq.trans (congrArg₂ max (congrArg₂ (· + ·) (Finset.sum_congr rfl fun k _ =>
      congrArg₂ (· * ·) (iblk0_0_apply V c t p k n hn) (congrFun (iblk0_1_eq V c t) (ix2 k q)))
    (congrFun (iblk0_2_eq V c t) (ix2 0 q))) rfl) ?_
  rw [View.read_apply]
  have he : ((View.whole main_v13).slice ((win0 3).rect t)).emb (ix2 p q) = (ix2 n q : S50000x128.Idx) := by
    funext a
    apply Fin.ext
    match a with
    | ⟨0, _⟩ => show win0_3.index t 0 * 10000 + 1 * p.val = n.val; rw [e30, hn]; omega
    | ⟨1, _⟩ => show win0_3.index t 1 * 128 + 1 * q.val = q.val; rw [e31]; omega
  exact (congrArg (Spec.arr2 (Spec.embed (V c main_arg0) (V c main_arg3) (V c main_v12))) he).symm

/-- An index of the array is in point t's block iff each coordinate is in the block's range on its axis. -/
theorem mem_blk0 (t : Fin cfg0.N) (i : S50000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v13).slice (win0_3.rect t)).set ↔ _
  rw [View.set_slice_whole, Rect.mem_set_unit]
  exact Iff.rfl

/-- Every row lies in the block of the point row / 10000. -/
theorem cover0 (i : S50000x128.Idx) : ∃ t : Fin cfg0.N, (cfg0.win 3).flush t = true ∧ i ∈ ((cfg0.win 3).blk t).view.set := by
  have hN : cfg0.N = 5 := N_0
  have h0 : (i 0).val < 50000 := idx2_lt0 i
  have h1 : (i 1).val < 128 := idx2_lt1 i
  refine ⟨⟨(i 0).val / 10000, by omega⟩, flush0_3 _, ?_⟩
  obtain ⟨-, -, -, -, -, -, e30, e31⟩ := idx0 ⟨(i 0).val / 10000, by omega⟩
  rw [mem_blk0]
  intro a
  match a with
  | ⟨0, _⟩ => show win0_3.index _ (0 : Fin 2) * 10000 ≤ (i 0).val ∧ (i 0).val < win0_3.index _ (0 : Fin 2) * 10000 + 10000; rw [e30]; show (i 0).val / 10000 * 10000 ≤ (i 0).val ∧ (i 0).val < (i 0).val / 10000 * 10000 + 10000; omega
  | ⟨1, _⟩ => show win0_3.index _ (1 : Fin 2) * 128 ≤ (i 1).val ∧ (i 1).val < win0_3.index _ (1 : Fin 2) * 128 + 128; rw [e31]; omega

/-- The array region 0 leaves: the embedding of the node features, entry by entry. -/
theorem final0 (c : Dev nD) : ((dat0 (F := Ideal) V c).arrAt 3 cfg0.N : S50000x128.Idx → EReal)
    = Spec.arr2 (Spec.embed (V c main_arg0) (V c main_arg3) (V c main_v12)) :=
  (dat0 (F := Ideal) V c).arrAt_eq_of_cover 3 _ (fun t _ => flushed0 V c t) cover0

end Cert.KernelIdeal.KRegions

end
-- ==== Proof.KProj1.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 1: the projection scaled by the node's factor, (x W)(n, j) · ds n, block by block and as one array -/

example : Pipeline.arrRef spec1 0 = main_v13 := rfl
example : Pipeline.arrRef spec1 1 = main_v19 := rfl
example : Pipeline.arrRef spec1 2 = main_v11 := rfl
example : Pipeline.arrRef spec1 3 = main_v20 := rfl

theorem hz1 : (![0, 0] : Fin 2 → Nat) = fun _ => 0 := funext fun a => by fin_cases a <;> rfl

theorem lhs1_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs1_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs1_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs1_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000×128 block by a 128×128 matrix into the zero accumulator, at an entry: the sum over the 128 contracted lanes. -/
theorem mm1 (a : FVec Ideal S10000x128 .bf16) (w : FVec Ideal S128x128 .bf16) (r : Fin 10000) (j : Fin 128) :
    matmul dot_S10000x128_S128x128_S10000x128_1_0_0_1_n_n none a w (constant S10000x128 .f32 0x00000000#32) (ix2 r j)
      = ∑ k : Fin 128, a (ix2 r k) * w (ix2 k j) := by
  refine (Ideal.matmul_constant_zero_apply dot_S10000x128_S128x128_S10000x128_1_0_0_1_n_n none a w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun b => Fin.ext (by
    match b with
    | ⟨0, _⟩ => exact lhs1_0 _ _
    | ⟨1, _⟩ => exact (lhs1_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun b => Fin.ext (by
    match b with
    | ⟨0, _⟩ => exact (rhs1_0 _ _).trans hk
    | ⟨1, _⟩ => exact rhs1_1 _ _)
  rw [el, er]

/-- A one-column vector broadcast along the lanes reads its row. -/
theorem bcastCol1 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The stored block, entry by entry: (Σ_k x(r,k) W(k,j)) · ds(r,0). -/
theorem pay1 (v0 : Vec Ideal S10000x128 .f32) (v3 : Vec Ideal S128x128 .f32) (v7 : Vec Ideal S10000x1 .f32) (r : Fin 10000) (j : Fin 128) :
    k1_pay1 v0 v3 v7 (ix2 r j) = (∑ k : Fin 128, v0 (ix2 r k) * v3 (ix2 k j)) * v7 (ix2 r 0) := by
  unfold k1_pay1
  simp only [shapeCast_self]
  refine (truncf_apply (ψ := .bf16) _ bitsLt_bf16_f32 (ix2 r j)).trans ((mulf_apply _ _ _).trans (congrArg₂ (· * ·) ?_ ?_))
  · exact mm1 _ _ r j
  · exact bcastCol1 _ _ r j

/-- The index maps over the grid: the node arrays' block row is the point, every other block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0
    ∧ win1_3.index t (0 : Fin 2) = t.val ∧ win1_3.index t (1 : Fin 2) = 0 :=
  (by decide +kernel : ∀ t : Fin grid1.N, _)

/-- Row p of the state block at point t is row 10000 t + p of the state. -/
theorem iblk1_0_apply (c : Dev nD) (t : Fin cfg1.N) (p : Fin 10000) (k : Fin 128) (n : Fin 50000) (hn : n.val = t.val * 10000 + p.val) :
    (iblk1 V c 0 t : Vec Ideal S10000x128 .f32) (ix2 p k) = (V c main_v13 : S50000x128.Idx → EReal) (ix2 n k) := by
  obtain ⟨e00, e01, -⟩ := idx1 t
  unfold iblk1
  rw [View.read_apply]
  show V c main_v13 _ = V c main_v13 _
  congr 1
  funext a
  apply Fin.ext
  match a with
  | ⟨0, _⟩ => show win1_0.index t 0 * 10000 + 1 * p.val = n.val; rw [e00, hn]; omega
  | ⟨1, _⟩ => show win1_0.index t 1 * 128 + 1 * k.val = k.val; rw [e01]; omega

/-- The weight block at every point is the whole weight matrix. -/
theorem iblk1_1_eq (c : Dev nD) (t : Fin cfg1.N) :
    (iblk1 V c 1 t : Vec Ideal S128x128 .f32) = (V c main_v19 : S128x128.Idx → EReal) := by
  obtain ⟨-, -, e10, e11, -⟩ := idx1 t
  unfold iblk1
  funext z
  rw [View.read_apply]
  show V c main_v19 _ = V c main_v19 _
  congr 1
  funext a
  apply Fin.ext
  match a with
  | ⟨0, _⟩ => show win1_1.index t 0 * 128 + 1 * (z 0).val = (z 0).val; rw [e10]; omega
  | ⟨1, _⟩ => show win1_1.index t 1 * 128 + 1 * (z 1).val = (z 1).val; rw [e11]; omega

/-- Row p of the factor column's block at point t is row 10000 t + p of the column. -/
theorem iblk1_2_apply (c : Dev nD) (t : Fin cfg1.N) (p : Fin 10000) (n : Fin 50000) (hn : n.val = t.val * 10000 + p.val) :
    (iblk1 V c 2 t : Vec Ideal S10000x1 .f32) (ix2 p 0) = (V c main_v11 : S50000x1.Idx → EReal) (ix2 n 0) := by
  obtain ⟨-, -, -, -, e20, e21, -⟩ := idx1 t
  unfold iblk1
  rw [View.read_apply]
  show V c main_v11 _ = V c main_v11 _
  congr 1
  funext a
  apply Fin.ext
  match a with
  | ⟨0, _⟩ => show win1_2.index t 0 * 10000 + 1 * p.val = n.val; rw [e20, hn]; omega
  | ⟨1, _⟩ => show win1_2.index t 1 * 1 + 1 * 0 = 0; rw [e21]

/-- What point t writes back is block t of the scaled projection of the whole arrays. -/
theorem flushed1 (c : Dev nD) (t : Fin cfg1.N) :
    (dat1 (F := Ideal) V c).flushed 3 t = ((cfg1.win 3).blk t).view.read (Elt Ideal)
      (Spec.arr2 (Spec.proj (V c main_v13) (V c main_v19) (V c main_v11))) := by
  show (cfg1.win 3).cut (grid1.coords t) ((dat1 V c).after 3 t) = _
  rw [after1_3]
  unfold out1_3
  rw [View.canon_unit_zero hz1]
  simp only [View.ld_unit_zero (S := S10000x128) hz1, View.ld_unit_zero (S := S128x128) hz1, View.ld_unit_zero (S := S10000x1) hz1]
  funext y
  obtain ⟨p, q, rfl⟩ : ∃ (p : Fin 10000) (q : Fin 128), y = ix2 p q := ⟨y 0, y 1, eq_ix2 y⟩
  have hN : cfg1.N = 5 := N_1
  have ht : t.val < 5 := by have := t.isLt; omega
  obtain ⟨n, hn⟩ : ∃ n : Fin 50000, n.val = t.val * 10000 + p.val := ⟨⟨t.val * 10000 + p.val, by omega⟩, rfl⟩
  obtain ⟨-, -, -, -, -, -, e30, e31⟩ := idx1 t
  refine (pay1 (iblk1 V c 0 t) (iblk1 V c 1 t) (iblk1 V c 2 t) p q).trans ?_
  refine Eq.trans (congrArg₂ (· * ·) (Finset.sum_congr rfl fun k _ =>
      congrArg₂ (· * ·) (iblk1_0_apply V c t p k n hn) (congrFun (iblk1_1_eq V c t) (ix2 k q)))
    (iblk1_2_apply V c t p n hn)) ?_
  rw [View.read_apply]
  have he : ((View.whole main_v20).slice ((win1 3).rect t)).emb (ix2 p q) = (ix2 n q : S50000x128.Idx) := by
    funext a
    apply Fin.ext
    match a with
    | ⟨0, _⟩ => show win1_3.index t 0 * 10000 + 1 * p.val = n.val; rw [e30, hn]; omega
    | ⟨1, _⟩ => show win1_3.index t 1 * 128 + 1 * q.val = q.val; rw [e31]; omega
  exact (congrArg (Spec.arr2 (Spec.proj (V c main_v13) (V c main_v19) (V c main_v11))) he).symm

/-- An index of the array is in point t's block iff each coordinate is in the block's range on its axis. -/
theorem mem_blk1 (t : Fin cfg1.N) (i : S50000x128.Idx) :
    i ∈ ((cfg1.win 3).blk t).view.set ↔ ∀ a : Fin 2, win1_3.index t a * S10000x128.size a ≤ (i a).val ∧ (i a).val < win1_3.index t a * S10000x128.size a + S10000x128.size a := by
  show i ∈ ((View.whole main_v20).slice (win1_3.rect t)).set ↔ _
  rw [View.set_slice_whole, Rect.mem_set_unit]
  exact Iff.rfl

/-- Every row lies in the block of the point row / 10000. -/
theorem cover1 (i : S50000x128.Idx) : ∃ t : Fin cfg1.N, (cfg1.win 3).flush t = true ∧ i ∈ ((cfg1.win 3).blk t).view.set := by
  have hN : cfg1.N = 5 := N_1
  have h0 : (i 0).val < 50000 := idx2_lt0 i
  have h1 : (i 1).val < 128 := idx2_lt1 i
  refine ⟨⟨(i 0).val / 10000, by omega⟩, flush1_3 _, ?_⟩
  obtain ⟨-, -, -, -, -, -, e30, e31⟩ := idx1 ⟨(i 0).val / 10000, by omega⟩
  rw [mem_blk1]
  intro a
  match a with
  | ⟨0, _⟩ => show win1_3.index _ (0 : Fin 2) * 10000 ≤ (i 0).val ∧ (i 0).val < win1_3.index _ (0 : Fin 2) * 10000 + 10000; rw [e30]; show (i 0).val / 10000 * 10000 ≤ (i 0).val ∧ (i 0).val < (i 0).val / 10000 * 10000 + 10000; omega
  | ⟨1, _⟩ => show win1_3.index _ (1 : Fin 2) * 128 ≤ (i 1).val ∧ (i 1).val < win1_3.index _ (1 : Fin 2) * 128 + 128; rw [e31]; omega

/-- The array region 1 leaves: the scaled projection of the state, entry by entry. -/
theorem final1 (c : Dev nD) : ((dat1 (F := Ideal) V c).arrAt 3 cfg1.N : S50000x128.Idx → EReal)
    = Spec.arr2 (Spec.proj (V c main_v13) (V c main_v19) (V c main_v11)) :=
  (dat1 (F := Ideal) V c).arrAt_eq_of_cover 3 _ (fun t _ => flushed1 V c t) cover1

end Cert.KernelIdeal.KRegions

end
-- ==== Proof.KProj3.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 3: the projection scaled by the node's factor, (x W)(n, j) · ds n, block by block and as one array -/

example : Pipeline.arrRef spec3 0 = main_v35 := rfl
example : Pipeline.arrRef spec3 1 = main_v37 := rfl
example : Pipeline.arrRef spec3 2 = main_v11 := rfl
example : Pipeline.arrRef spec3 3 = main_v38 := rfl

theorem hz3 : (![0, 0] : Fin 2 → Nat) = fun _ => 0 := funext fun a => by fin_cases a <;> rfl

theorem lhs3_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs3_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs3_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs3_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000×128 block by a 128×128 matrix into the zero accumulator, at an entry: the sum over the 128 contracted lanes. -/
theorem mm3 (a : FVec Ideal S10000x128 .bf16) (w : FVec Ideal S128x128 .bf16) (r : Fin 10000) (j : Fin 128) :
    matmul dot_S10000x128_S128x128_S10000x128_1_0_0_1_n_n none a w (constant S10000x128 .f32 0x00000000#32) (ix2 r j)
      = ∑ k : Fin 128, a (ix2 r k) * w (ix2 k j) := by
  refine (Ideal.matmul_constant_zero_apply dot_S10000x128_S128x128_S10000x128_1_0_0_1_n_n none a w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun b => Fin.ext (by
    match b with
    | ⟨0, _⟩ => exact lhs3_0 _ _
    | ⟨1, _⟩ => exact (lhs3_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun b => Fin.ext (by
    match b with
    | ⟨0, _⟩ => exact (rhs3_0 _ _).trans hk
    | ⟨1, _⟩ => exact rhs3_1 _ _)
  rw [el, er]

/-- A one-column vector broadcast along the lanes reads its row. -/
theorem bcastCol3 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The stored block, entry by entry: (Σ_k x(r,k) W(k,j)) · ds(r,0). -/
theorem pay3 (v0 : Vec Ideal S10000x128 .f32) (v3 : Vec Ideal S128x128 .f32) (v7 : Vec Ideal S10000x1 .f32) (r : Fin 10000) (j : Fin 128) :
    k3_pay1 v0 v3 v7 (ix2 r j) = (∑ k : Fin 128, v0 (ix2 r k) * v3 (ix2 k j)) * v7 (ix2 r 0) := by
  unfold k3_pay1
  simp only [shapeCast_self]
  refine (truncf_apply (ψ := .bf16) _ bitsLt_bf16_f32 (ix2 r j)).trans ((mulf_apply _ _ _).trans (congrArg₂ (· * ·) ?_ ?_))
  · exact mm3 _ _ r j
  · exact bcastCol3 _ _ r j

/-- The index maps over the grid: the node arrays' block row is the point, every other block index is zero. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- Row p of the state block at point t is row 10000 t + p of the state. -/
theorem iblk3_0_apply (c : Dev nD) (t : Fin cfg3.N) (p : Fin 10000) (k : Fin 128) (n : Fin 50000) (hn : n.val = t.val * 10000 + p.val) :
    (iblk3 V c 0 t : Vec Ideal S10000x128 .f32) (ix2 p k) = (V c main_v35 : S50000x128.Idx → EReal) (ix2 n k) := by
  obtain ⟨e00, e01, -⟩ := idx3 t
  unfold iblk3
  rw [View.read_apply]
  show V c main_v35 _ = V c main_v35 _
  congr 1
  funext a
  apply Fin.ext
  match a with
  | ⟨0, _⟩ => show win3_0.index t 0 * 10000 + 1 * p.val = n.val; rw [e00, hn]; omega
  | ⟨1, _⟩ => show win3_0.index t 1 * 128 + 1 * k.val = k.val; rw [e01]; omega

/-- The weight block at every point is the whole weight matrix. -/
theorem iblk3_1_eq (c : Dev nD) (t : Fin cfg3.N) :
    (iblk3 V c 1 t : Vec Ideal S128x128 .f32) = (V c main_v37 : S128x128.Idx → EReal) := by
  obtain ⟨-, -, e10, e11, -⟩ := idx3 t
  unfold iblk3
  funext z
  rw [View.read_apply]
  show V c main_v37 _ = V c main_v37 _
  congr 1
  funext a
  apply Fin.ext
  match a with
  | ⟨0, _⟩ => show win3_1.index t 0 * 128 + 1 * (z 0).val = (z 0).val; rw [e10]; omega
  | ⟨1, _⟩ => show win3_1.index t 1 * 128 + 1 * (z 1).val = (z 1).val; rw [e11]; omega

/-- Row p of the factor column's block at point t is row 10000 t + p of the column. -/
theorem iblk3_2_apply (c : Dev nD) (t : Fin cfg3.N) (p : Fin 10000) (n : Fin 50000) (hn : n.val = t.val * 10000 + p.val) :
    (iblk3 V c 2 t : Vec Ideal S10000x1 .f32) (ix2 p 0) = (V c main_v11 : S50000x1.Idx → EReal) (ix2 n 0) := by
  obtain ⟨-, -, -, -, e20, e21, -⟩ := idx3 t
  unfold iblk3
  rw [View.read_apply]
  show V c main_v11 _ = V c main_v11 _
  congr 1
  funext a
  apply Fin.ext
  match a with
  | ⟨0, _⟩ => show win3_2.index t 0 * 10000 + 1 * p.val = n.val; rw [e20, hn]; omega
  | ⟨1, _⟩ => show win3_2.index t 1 * 1 + 1 * 0 = 0; rw [e21]

/-- What point t writes back is block t of the scaled projection of the whole arrays. -/
theorem flushed3 (c : Dev nD) (t : Fin cfg3.N) :
    (dat3 (F := Ideal) V c).flushed 3 t = ((cfg3.win 3).blk t).view.read (Elt Ideal)
      (Spec.arr2 (Spec.proj (V c main_v35) (V c main_v37) (V c main_v11))) := by
  show (cfg3.win 3).cut (grid3.coords t) ((dat3 V c).after 3 t) = _
  rw [after3_3]
  unfold out3_3
  rw [View.canon_unit_zero hz3]
  simp only [View.ld_unit_zero (S := S10000x128) hz3, View.ld_unit_zero (S := S128x128) hz3, View.ld_unit_zero (S := S10000x1) hz3]
  funext y
  obtain ⟨p, q, rfl⟩ : ∃ (p : Fin 10000) (q : Fin 128), y = ix2 p q := ⟨y 0, y 1, eq_ix2 y⟩
  have hN : cfg3.N = 5 := N_3
  have ht : t.val < 5 := by have := t.isLt; omega
  obtain ⟨n, hn⟩ : ∃ n : Fin 50000, n.val = t.val * 10000 + p.val := ⟨⟨t.val * 10000 + p.val, by omega⟩, rfl⟩
  obtain ⟨-, -, -, -, -, -, e30, e31⟩ := idx3 t
  refine (pay3 (iblk3 V c 0 t) (iblk3 V c 1 t) (iblk3 V c 2 t) p q).trans ?_
  refine Eq.trans (congrArg₂ (· * ·) (Finset.sum_congr rfl fun k _ =>
      congrArg₂ (· * ·) (iblk3_0_apply V c t p k n hn) (congrFun (iblk3_1_eq V c t) (ix2 k q)))
    (iblk3_2_apply V c t p n hn)) ?_
  rw [View.read_apply]
  have he : ((View.whole main_v38).slice ((win3 3).rect t)).emb (ix2 p q) = (ix2 n q : S50000x128.Idx) := by
    funext a
    apply Fin.ext
    match a with
    | ⟨0, _⟩ => show win3_3.index t 0 * 10000 + 1 * p.val = n.val; rw [e30, hn]; omega
    | ⟨1, _⟩ => show win3_3.index t 1 * 128 + 1 * q.val = q.val; rw [e31]; omega
  exact (congrArg (Spec.arr2 (Spec.proj (V c main_v35) (V c main_v37) (V c main_v11))) he).symm

/-- An index of the array is in point t's block iff each coordinate is in the block's range on its axis. -/
theorem mem_blk3 (t : Fin cfg3.N) (i : S50000x128.Idx) :
    i ∈ ((cfg3.win 3).blk t).view.set ↔ ∀ a : Fin 2, win3_3.index t a * S10000x128.size a ≤ (i a).val ∧ (i a).val < win3_3.index t a * S10000x128.size a + S10000x128.size a := by
  show i ∈ ((View.whole main_v38).slice (win3_3.rect t)).set ↔ _
  rw [View.set_slice_whole, Rect.mem_set_unit]
  exact Iff.rfl

/-- Every row lies in the block of the point row / 10000. -/
theorem cover3 (i : S50000x128.Idx) : ∃ t : Fin cfg3.N, (cfg3.win 3).flush t = true ∧ i ∈ ((cfg3.win 3).blk t).view.set := by
  have hN : cfg3.N = 5 := N_3
  have h0 : (i 0).val < 50000 := idx2_lt0 i
  have h1 : (i 1).val < 128 := idx2_lt1 i
  refine ⟨⟨(i 0).val / 10000, by omega⟩, flush3_3 _, ?_⟩
  obtain ⟨-, -, -, -, -, -, e30, e31⟩ := idx3 ⟨(i 0).val / 10000, by omega⟩
  rw [mem_blk3]
  intro a
  match a with
  | ⟨0, _⟩ => show win3_3.index _ (0 : Fin 2) * 10000 ≤ (i 0).val ∧ (i 0).val < win3_3.index _ (0 : Fin 2) * 10000 + 10000; rw [e30]; show (i 0).val / 10000 * 10000 ≤ (i 0).val ∧ (i 0).val < (i 0).val / 10000 * 10000 + 10000; omega
  | ⟨1, _⟩ => show win3_3.index _ (1 : Fin 2) * 128 ≤ (i 1).val ∧ (i 1).val < win3_3.index _ (1 : Fin 2) * 128 + 128; rw [e31]; omega

/-- The array region 3 leaves: the scaled projection of the state, entry by entry. -/
theorem final3 (c : Dev nD) : ((dat3 (F := Ideal) V c).arrAt 3 cfg3.N : S50000x128.Idx → EReal)
    = Spec.arr2 (Spec.proj (V c main_v35) (V c main_v37) (V c main_v11)) :=
  (dat3 (F := Ideal) V c).arrAt_eq_of_cover 3 _ (fun t _ => flushed3 V c t) cover3

end Cert.KernelIdeal.KRegions

end
-- ==== Proof.KProj5.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 5: the projection scaled by the node's factor, (x W)(n, j) · ds n, block by block and as one array -/

example : Pipeline.arrRef spec5 0 = main_v53 := rfl
example : Pipeline.arrRef spec5 1 = main_v55 := rfl
example : Pipeline.arrRef spec5 2 = main_v11 := rfl
example : Pipeline.arrRef spec5 3 = main_v56 := rfl

theorem hz5 : (![0, 0] : Fin 2 → Nat) = fun _ => 0 := funext fun a => by fin_cases a <;> rfl

theorem lhs5_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs5_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs5_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs5_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000×128 block by a 128×128 matrix into the zero accumulator, at an entry: the sum over the 128 contracted lanes. -/
theorem mm5 (a : FVec Ideal S10000x128 .bf16) (w : FVec Ideal S128x128 .bf16) (r : Fin 10000) (j : Fin 128) :
    matmul dot_S10000x128_S128x128_S10000x128_1_0_0_1_n_n none a w (constant S10000x128 .f32 0x00000000#32) (ix2 r j)
      = ∑ k : Fin 128, a (ix2 r k) * w (ix2 k j) := by
  refine (Ideal.matmul_constant_zero_apply dot_S10000x128_S128x128_S10000x128_1_0_0_1_n_n none a w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun b => Fin.ext (by
    match b with
    | ⟨0, _⟩ => exact lhs5_0 _ _
    | ⟨1, _⟩ => exact (lhs5_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun b => Fin.ext (by
    match b with
    | ⟨0, _⟩ => exact (rhs5_0 _ _).trans hk
    | ⟨1, _⟩ => exact rhs5_1 _ _)
  rw [el, er]

/-- A one-column vector broadcast along the lanes reads its row. -/
theorem bcastCol5 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The stored block, entry by entry: (Σ_k x(r,k) W(k,j)) · ds(r,0). -/
theorem pay5 (v0 : Vec Ideal S10000x128 .f32) (v3 : Vec Ideal S128x128 .f32) (v7 : Vec Ideal S10000x1 .f32) (r : Fin 10000) (j : Fin 128) :
    k5_pay1 v0 v3 v7 (ix2 r j) = (∑ k : Fin 128, v0 (ix2 r k) * v3 (ix2 k j)) * v7 (ix2 r 0) := by
  unfold k5_pay1
  simp only [shapeCast_self]
  refine (truncf_apply (ψ := .bf16) _ bitsLt_bf16_f32 (ix2 r j)).trans ((mulf_apply _ _ _).trans (congrArg₂ (· * ·) ?_ ?_))
  · exact mm5 _ _ r j
  · exact bcastCol5 _ _ r j

/-- The index maps over the grid: the node arrays' block row is the point, every other block index is zero. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0
    ∧ win5_3.index t (0 : Fin 2) = t.val ∧ win5_3.index t (1 : Fin 2) = 0 :=
  (by decide +kernel : ∀ t : Fin grid5.N, _)

/-- Row p of the state block at point t is row 10000 t + p of the state. -/
theorem iblk5_0_apply (c : Dev nD) (t : Fin cfg5.N) (p : Fin 10000) (k : Fin 128) (n : Fin 50000) (hn : n.val = t.val * 10000 + p.val) :
    (iblk5 V c 0 t : Vec Ideal S10000x128 .f32) (ix2 p k) = (V c main_v53 : S50000x128.Idx → EReal) (ix2 n k) := by
  obtain ⟨e00, e01, -⟩ := idx5 t
  unfold iblk5
  rw [View.read_apply]
  show V c main_v53 _ = V c main_v53 _
  congr 1
  funext a
  apply Fin.ext
  match a with
  | ⟨0, _⟩ => show win5_0.index t 0 * 10000 + 1 * p.val = n.val; rw [e00, hn]; omega
  | ⟨1, _⟩ => show win5_0.index t 1 * 128 + 1 * k.val = k.val; rw [e01]; omega

/-- The weight block at every point is the whole weight matrix. -/
theorem iblk5_1_eq (c : Dev nD) (t : Fin cfg5.N) :
    (iblk5 V c 1 t : Vec Ideal S128x128 .f32) = (V c main_v55 : S128x128.Idx → EReal) := by
  obtain ⟨-, -, e10, e11, -⟩ := idx5 t
  unfold iblk5
  funext z
  rw [View.read_apply]
  show V c main_v55 _ = V c main_v55 _
  congr 1
  funext a
  apply Fin.ext
  match a with
  | ⟨0, _⟩ => show win5_1.index t 0 * 128 + 1 * (z 0).val = (z 0).val; rw [e10]; omega
  | ⟨1, _⟩ => show win5_1.index t 1 * 128 + 1 * (z 1).val = (z 1).val; rw [e11]; omega

/-- Row p of the factor column's block at point t is row 10000 t + p of the column. -/
theorem iblk5_2_apply (c : Dev nD) (t : Fin cfg5.N) (p : Fin 10000) (n : Fin 50000) (hn : n.val = t.val * 10000 + p.val) :
    (iblk5 V c 2 t : Vec Ideal S10000x1 .f32) (ix2 p 0) = (V c main_v11 : S50000x1.Idx → EReal) (ix2 n 0) := by
  obtain ⟨-, -, -, -, e20, e21, -⟩ := idx5 t
  unfold iblk5
  rw [View.read_apply]
  show V c main_v11 _ = V c main_v11 _
  congr 1
  funext a
  apply Fin.ext
  match a with
  | ⟨0, _⟩ => show win5_2.index t 0 * 10000 + 1 * p.val = n.val; rw [e20, hn]; omega
  | ⟨1, _⟩ => show win5_2.index t 1 * 1 + 1 * 0 = 0; rw [e21]

/-- What point t writes back is block t of the scaled projection of the whole arrays. -/
theorem flushed5 (c : Dev nD) (t : Fin cfg5.N) :
    (dat5 (F := Ideal) V c).flushed 3 t = ((cfg5.win 3).blk t).view.read (Elt Ideal)
      (Spec.arr2 (Spec.proj (V c main_v53) (V c main_v55) (V c main_v11))) := by
  show (cfg5.win 3).cut (grid5.coords t) ((dat5 V c).after 3 t) = _
  rw [after5_3]
  unfold out5_3
  rw [View.canon_unit_zero hz5]
  simp only [View.ld_unit_zero (S := S10000x128) hz5, View.ld_unit_zero (S := S128x128) hz5, View.ld_unit_zero (S := S10000x1) hz5]
  funext y
  obtain ⟨p, q, rfl⟩ : ∃ (p : Fin 10000) (q : Fin 128), y = ix2 p q := ⟨y 0, y 1, eq_ix2 y⟩
  have hN : cfg5.N = 5 := N_5
  have ht : t.val < 5 := by have := t.isLt; omega
  obtain ⟨n, hn⟩ : ∃ n : Fin 50000, n.val = t.val * 10000 + p.val := ⟨⟨t.val * 10000 + p.val, by omega⟩, rfl⟩
  obtain ⟨-, -, -, -, -, -, e30, e31⟩ := idx5 t
  refine (pay5 (iblk5 V c 0 t) (iblk5 V c 1 t) (iblk5 V c 2 t) p q).trans ?_
  refine Eq.trans (congrArg₂ (· * ·) (Finset.sum_congr rfl fun k _ =>
      congrArg₂ (· * ·) (iblk5_0_apply V c t p k n hn) (congrFun (iblk5_1_eq V c t) (ix2 k q)))
    (iblk5_2_apply V c t p n hn)) ?_
  rw [View.read_apply]
  have he : ((View.whole main_v56).slice ((win5 3).rect t)).emb (ix2 p q) = (ix2 n q : S50000x128.Idx) := by
    funext a
    apply Fin.ext
    match a with
    | ⟨0, _⟩ => show win5_3.index t 0 * 10000 + 1 * p.val = n.val; rw [e30, hn]; omega
    | ⟨1, _⟩ => show win5_3.index t 1 * 128 + 1 * q.val = q.val; rw [e31]; omega
  exact (congrArg (Spec.arr2 (Spec.proj (V c main_v53) (V c main_v55) (V c main_v11))) he).symm

/-- An index of the array is in point t's block iff each coordinate is in the block's range on its axis. -/
theorem mem_blk5 (t : Fin cfg5.N) (i : S50000x128.Idx) :
    i ∈ ((cfg5.win 3).blk t).view.set ↔ ∀ a : Fin 2, win5_3.index t a * S10000x128.size a ≤ (i a).val ∧ (i a).val < win5_3.index t a * S10000x128.size a + S10000x128.size a := by
  show i ∈ ((View.whole main_v56).slice (win5_3.rect t)).set ↔ _
  rw [View.set_slice_whole, Rect.mem_set_unit]
  exact Iff.rfl

/-- Every row lies in the block of the point row / 10000. -/
theorem cover5 (i : S50000x128.Idx) : ∃ t : Fin cfg5.N, (cfg5.win 3).flush t = true ∧ i ∈ ((cfg5.win 3).blk t).view.set := by
  have hN : cfg5.N = 5 := N_5
  have h0 : (i 0).val < 50000 := idx2_lt0 i
  have h1 : (i 1).val < 128 := idx2_lt1 i
  refine ⟨⟨(i 0).val / 10000, by omega⟩, flush5_3 _, ?_⟩
  obtain ⟨-, -, -, -, -, -, e30, e31⟩ := idx5 ⟨(i 0).val / 10000, by omega⟩
  rw [mem_blk5]
  intro a
  match a with
  | ⟨0, _⟩ => show win5_3.index _ (0 : Fin 2) * 10000 ≤ (i 0).val ∧ (i 0).val < win5_3.index _ (0 : Fin 2) * 10000 + 10000; rw [e30]; show (i 0).val / 10000 * 10000 ≤ (i 0).val ∧ (i 0).val < (i 0).val / 10000 * 10000 + 10000; omega
  | ⟨1, _⟩ => show win5_3.index _ (1 : Fin 2) * 128 ≤ (i 1).val ∧ (i 1).val < win5_3.index _ (1 : Fin 2) * 128 + 128; rw [e31]; omega

/-- The array region 5 leaves: the scaled projection of the state, entry by entry. -/
theorem final5 (c : Dev nD) : ((dat5 (F := Ideal) V c).arrAt 3 cfg5.N : S50000x128.Idx → EReal)
    = Spec.arr2 (Spec.proj (V c main_v53) (V c main_v55) (V c main_v11)) :=
  (dat5 (F := Ideal) V c).arrAt_eq_of_cover 3 _ (fun t _ => flushed5 V c t) cover5

end Cert.KernelIdeal.KRegions

end
-- ==== Proof.KProj7.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 7: the projection scaled by the node's factor, (x W)(n, j) · ds n, block by block and as one array -/

example : Pipeline.arrRef spec7 0 = main_v71 := rfl
example : Pipeline.arrRef spec7 1 = main_v73 := rfl
example : Pipeline.arrRef spec7 2 = main_v11 := rfl
example : Pipeline.arrRef spec7 3 = main_v74 := rfl

theorem hz7 : (![0, 0] : Fin 2 → Nat) = fun _ => 0 := funext fun a => by fin_cases a <;> rfl

theorem lhs7_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem lhs7_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
theorem rhs7_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
theorem rhs7_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- The product of a 10000×128 block by a 128×128 matrix into the zero accumulator, at an entry: the sum over the 128 contracted lanes. -/
theorem mm7 (a : FVec Ideal S10000x128 .bf16) (w : FVec Ideal S128x128 .bf16) (r : Fin 10000) (j : Fin 128) :
    matmul dot_S10000x128_S128x128_S10000x128_1_0_0_1_n_n none a w (constant S10000x128 .f32 0x00000000#32) (ix2 r j)
      = ∑ k : Fin 128, a (ix2 r k) * w (ix2 k j) := by
  refine (Ideal.matmul_constant_zero_apply dot_S10000x128_S128x128_S10000x128_1_0_0_1_n_n none a w (ix2 r j)).trans ?_
  rw [← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r j) ((contrEquiv1 dot_S10000x128_S128x128_S10000x128_1_0_0_1_n_n 128 rfl rfl).symm k) = ix2 r k := funext fun b => Fin.ext (by
    match b with
    | ⟨0, _⟩ => exact lhs7_0 _ _
    | ⟨1, _⟩ => exact (lhs7_1 _ _).trans hk)
  have er : dot_S10000x128_S128x128_S10000x128_1_0_0_1_n_n.rhsIdx (ix2 r j) ((contrEquiv1 dot_S10000x128_S128x128_S10000x128_1_0_0_1_n_n 128 rfl rfl).symm k) = ix2 k j := funext fun b => Fin.ext (by
    match b with
    | ⟨0, _⟩ => exact (rhs7_0 _ _).trans hk
    | ⟨1, _⟩ => exact rhs7_1 _ _)
  rw [el, er]

/-- A one-column vector broadcast along the lanes reads its row. -/
theorem bcastCol7 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The stored block, entry by entry: (Σ_k x(r,k) W(k,j)) · ds(r,0). -/
theorem pay7 (v0 : Vec Ideal S10000x128 .f32) (v3 : Vec Ideal S128x128 .f32) (v7 : Vec Ideal S10000x1 .f32) (r : Fin 10000) (j : Fin 128) :
    k7_pay1 v0 v3 v7 (ix2 r j) = (∑ k : Fin 128, v0 (ix2 r k) * v3 (ix2 k j)) * v7 (ix2 r 0) := by
  unfold k7_pay1
  simp only [shapeCast_self]
  refine (truncf_apply (ψ := .bf16) _ bitsLt_bf16_f32 (ix2 r j)).trans ((mulf_apply _ _ _).trans (congrArg₂ (· * ·) ?_ ?_))
  · exact mm7 _ _ r j
  · exact bcastCol7 _ _ r j

/-- The index maps over the grid: the node arrays' block row is the point, every other block index is zero. -/
theorem idx7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0
    ∧ win7_3.index t (0 : Fin 2) = t.val ∧ win7_3.index t (1 : Fin 2) = 0 :=
  (by decide +kernel : ∀ t : Fin grid7.N, _)

/-- Row p of the state block at point t is row 10000 t + p of the state. -/
theorem iblk7_0_apply (c : Dev nD) (t : Fin cfg7.N) (p : Fin 10000) (k : Fin 128) (n : Fin 50000) (hn : n.val = t.val * 10000 + p.val) :
    (iblk7 V c 0 t : Vec Ideal S10000x128 .f32) (ix2 p k) = (V c main_v71 : S50000x128.Idx → EReal) (ix2 n k) := by
  obtain ⟨e00, e01, -⟩ := idx7 t
  unfold iblk7
  rw [View.read_apply]
  show V c main_v71 _ = V c main_v71 _
  congr 1
  funext a
  apply Fin.ext
  match a with
  | ⟨0, _⟩ => show win7_0.index t 0 * 10000 + 1 * p.val = n.val; rw [e00, hn]; omega
  | ⟨1, _⟩ => show win7_0.index t 1 * 128 + 1 * k.val = k.val; rw [e01]; omega

/-- The weight block at every point is the whole weight matrix. -/
theorem iblk7_1_eq (c : Dev nD) (t : Fin cfg7.N) :
    (iblk7 V c 1 t : Vec Ideal S128x128 .f32) = (V c main_v73 : S128x128.Idx → EReal) := by
  obtain ⟨-, -, e10, e11, -⟩ := idx7 t
  unfold iblk7
  funext z
  rw [View.read_apply]
  show V c main_v73 _ = V c main_v73 _
  congr 1
  funext a
  apply Fin.ext
  match a with
  | ⟨0, _⟩ => show win7_1.index t 0 * 128 + 1 * (z 0).val = (z 0).val; rw [e10]; omega
  | ⟨1, _⟩ => show win7_1.index t 1 * 128 + 1 * (z 1).val = (z 1).val; rw [e11]; omega

/-- Row p of the factor column's block at point t is row 10000 t + p of the column. -/
theorem iblk7_2_apply (c : Dev nD) (t : Fin cfg7.N) (p : Fin 10000) (n : Fin 50000) (hn : n.val = t.val * 10000 + p.val) :
    (iblk7 V c 2 t : Vec Ideal S10000x1 .f32) (ix2 p 0) = (V c main_v11 : S50000x1.Idx → EReal) (ix2 n 0) := by
  obtain ⟨-, -, -, -, e20, e21, -⟩ := idx7 t
  unfold iblk7
  rw [View.read_apply]
  show V c main_v11 _ = V c main_v11 _
  congr 1
  funext a
  apply Fin.ext
  match a with
  | ⟨0, _⟩ => show win7_2.index t 0 * 10000 + 1 * p.val = n.val; rw [e20, hn]; omega
  | ⟨1, _⟩ => show win7_2.index t 1 * 1 + 1 * 0 = 0; rw [e21]

/-- What point t writes back is block t of the scaled projection of the whole arrays. -/
theorem flushed7 (c : Dev nD) (t : Fin cfg7.N) :
    (dat7 (F := Ideal) V c).flushed 3 t = ((cfg7.win 3).blk t).view.read (Elt Ideal)
      (Spec.arr2 (Spec.proj (V c main_v71) (V c main_v73) (V c main_v11))) := by
  show (cfg7.win 3).cut (grid7.coords t) ((dat7 V c).after 3 t) = _
  rw [after7_3]
  unfold out7_3
  rw [View.canon_unit_zero hz7]
  simp only [View.ld_unit_zero (S := S10000x128) hz7, View.ld_unit_zero (S := S128x128) hz7, View.ld_unit_zero (S := S10000x1) hz7]
  funext y
  obtain ⟨p, q, rfl⟩ : ∃ (p : Fin 10000) (q : Fin 128), y = ix2 p q := ⟨y 0, y 1, eq_ix2 y⟩
  have hN : cfg7.N = 5 := N_7
  have ht : t.val < 5 := by have := t.isLt; omega
  obtain ⟨n, hn⟩ : ∃ n : Fin 50000, n.val = t.val * 10000 + p.val := ⟨⟨t.val * 10000 + p.val, by omega⟩, rfl⟩
  obtain ⟨-, -, -, -, -, -, e30, e31⟩ := idx7 t
  refine (pay7 (iblk7 V c 0 t) (iblk7 V c 1 t) (iblk7 V c 2 t) p q).trans ?_
  refine Eq.trans (congrArg₂ (· * ·) (Finset.sum_congr rfl fun k _ =>
      congrArg₂ (· * ·) (iblk7_0_apply V c t p k n hn) (congrFun (iblk7_1_eq V c t) (ix2 k q)))
    (iblk7_2_apply V c t p n hn)) ?_
  rw [View.read_apply]
  have he : ((View.whole main_v74).slice ((win7 3).rect t)).emb (ix2 p q) = (ix2 n q : S50000x128.Idx) := by
    funext a
    apply Fin.ext
    match a with
    | ⟨0, _⟩ => show win7_3.index t 0 * 10000 + 1 * p.val = n.val; rw [e30, hn]; omega
    | ⟨1, _⟩ => show win7_3.index t 1 * 128 + 1 * q.val = q.val; rw [e31]; omega
  exact (congrArg (Spec.arr2 (Spec.proj (V c main_v71) (V c main_v73) (V c main_v11))) he).symm

/-- An index of the array is in point t's block iff each coordinate is in the block's range on its axis. -/
theorem mem_blk7 (t : Fin cfg7.N) (i : S50000x128.Idx) :
    i ∈ ((cfg7.win 3).blk t).view.set ↔ ∀ a : Fin 2, win7_3.index t a * S10000x128.size a ≤ (i a).val ∧ (i a).val < win7_3.index t a * S10000x128.size a + S10000x128.size a := by
  show i ∈ ((View.whole main_v74).slice (win7_3.rect t)).set ↔ _
  rw [View.set_slice_whole, Rect.mem_set_unit]
  exact Iff.rfl

/-- Every row lies in the block of the point row / 10000. -/
theorem cover7 (i : S50000x128.Idx) : ∃ t : Fin cfg7.N, (cfg7.win 3).flush t = true ∧ i ∈ ((cfg7.win 3).blk t).view.set := by
  have hN : cfg7.N = 5 := N_7
  have h0 : (i 0).val < 50000 := idx2_lt0 i
  have h1 : (i 1).val < 128 := idx2_lt1 i
  refine ⟨⟨(i 0).val / 10000, by omega⟩, flush7_3 _, ?_⟩
  obtain ⟨-, -, -, -, -, -, e30, e31⟩ := idx7 ⟨(i 0).val / 10000, by omega⟩
  rw [mem_blk7]
  intro a
  match a with
  | ⟨0, _⟩ => show win7_3.index _ (0 : Fin 2) * 10000 ≤ (i 0).val ∧ (i 0).val < win7_3.index _ (0 : Fin 2) * 10000 + 10000; rw [e30]; show (i 0).val / 10000 * 10000 ≤ (i 0).val ∧ (i 0).val < (i 0).val / 10000 * 10000 + 10000; omega
  | ⟨1, _⟩ => show win7_3.index _ (1 : Fin 2) * 128 ≤ (i 1).val ∧ (i 1).val < win7_3.index _ (1 : Fin 2) * 128 + 128; rw [e31]; omega

/-- The array region 7 leaves: the scaled projection of the state, entry by entry. -/
theorem final7 (c : Dev nD) : ((dat7 (F := Ideal) V c).arrAt 3 cfg7.N : S50000x128.Idx → EReal)
    = Spec.arr2 (Spec.proj (V c main_v71) (V c main_v73) (V c main_v11)) :=
  (dat7 (F := Ideal) V c).arrAt_eq_of_cover 3 _ (fun t _ => flushed7 V c t) cover7

end Cert.KernelIdeal.KRegions

end
-- ==== Proof.KGru2.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 2: the convolution's output and the gated recurrent update of the state, block by block and as one array -/

theorem hz2 : (![0, 0] : Fin 2 → Nat) = fun _ => 0 := funext fun a => by fin_cases a <;> rfl

theorem lhs2_0 (i : S10000x384.Idx) (q : dot_S10000x128_S128x384_S10000x384_1_0_0_1_n_n.contr.Idx) :
    (dot_S10000x128_S128x384_S10000x384_1_0_0_1_n_n.lhsIdx i q 0).val = (i 0).val := by
  unfold DotDims.lhsIdx
  rw [dif_neg (show ¬(0 : Fin S10000x128.rank) ∈ dot_S10000x128_S128x384_S10000x384_1_0_0_1_n_n.lhsBatch by decide), dif_pos (show (0 : Fin S10000x128.rank) ∈ dot_S10000x128_S128x384_S10000x384_1_0_0_1_n_n.lhsNonContracting by decide)]
  rfl
theorem lhs2_1 (i : S10000x384.Idx) (q : dot_S10000x128_S128x384_S10000x384_1_0_0_1_n_n.contr.Idx) :
    (dot_S10000x128_S128x384_S10000x384_1_0_0_1_n_n.lhsIdx i q 1).val = (q ⟨0, by decide⟩).val :=
  dot_S10000x128_S128x384_S10000x384_1_0_0_1_n_n.lhsIdx_val_of_single rfl i q
theorem rhs2_0 (i : S10000x384.Idx) (q : dot_S10000x128_S128x384_S10000x384_1_0_0_1_n_n.contr.Idx) :
    (dot_S10000x128_S128x384_S10000x384_1_0_0_1_n_n.rhsIdx i q 0).val = (q ⟨0, by decide⟩).val :=
  dot_S10000x128_S128x384_S10000x384_1_0_0_1_n_n.rhsIdx_val_of_single rfl i q
theorem rhs2_1 (i : S10000x384.Idx) (q : dot_S10000x128_S128x384_S10000x384_1_0_0_1_n_n.contr.Idx) :
    (dot_S10000x128_S128x384_S10000x384_1_0_0_1_n_n.rhsIdx i q 1).val = (i 1).val := by
  unfold DotDims.rhsIdx
  rw [dif_neg (show ¬(1 : Fin S128x384.rank) ∈ dot_S10000x128_S128x384_S10000x384_1_0_0_1_n_n.rhsBatch by decide), dif_pos (show (1 : Fin S128x384.rank) ∈ dot_S10000x128_S128x384_S10000x384_1_0_0_1_n_n.rhsNonContracting by decide)]
  rfl

/-- The product of a 10000×128 block by a 128×384 matrix into the zero accumulator, at an entry: the sum over the 128 contracted lanes. -/
theorem mm2 (a : FVec Ideal S10000x128 .bf16) (w : FVec Ideal S128x384 .bf16) (r : Fin 10000) (j : Fin 384) :
    matmul dot_S10000x128_S128x384_S10000x384_1_0_0_1_n_n none a w (constant S10000x384 .f32 0x00000000#32) (ix2 r j)
      = ∑ k : Fin 128, a (ix2 r k) * w (ix2 k j) := by
  refine (Ideal.matmul_constant_zero_apply dot_S10000x128_S128x384_S10000x384_1_0_0_1_n_n none a w (ix2 r j)).trans ?_
  rw [← Equiv.sum_comp (contrEquiv1 dot_S10000x128_S128x384_S10000x384_1_0_0_1_n_n 128 rfl rfl).symm]
  refine Finset.sum_congr rfl fun k _ => ?_
  have hk := contrEquiv1_symm_val dot_S10000x128_S128x384_S10000x384_1_0_0_1_n_n 128 rfl rfl k
  have el : dot_S10000x128_S128x384_S10000x384_1_0_0_1_n_n.lhsIdx (ix2 r j) ((contrEquiv1 dot_S10000x128_S128x384_S10000x384_1_0_0_1_n_n 128 rfl rfl).symm k) = ix2 r k := funext fun b => Fin.ext (by
    match b with
    | ⟨0, _⟩ => exact lhs2_0 _ _
    | ⟨1, _⟩ => exact (lhs2_1 _ _).trans hk)
  have er : dot_S10000x128_S128x384_S10000x384_1_0_0_1_n_n.rhsIdx (ix2 r j) ((contrEquiv1 dot_S10000x128_S128x384_S10000x384_1_0_0_1_n_n 128 rfl rfl).symm k) = ix2 k j := funext fun b => Fin.ext (by
    match b with
    | ⟨0, _⟩ => exact (rhs2_0 _ _).trans hk
    | ⟨1, _⟩ => exact rhs2_1 _ _)
  rw [el, er]

/-- A one-row vector of 128 lanes broadcast down the rows reads its lane. -/
theorem bcastRow2 (v : FVec Ideal S1x128 .f32) (h : S1x128.Broadcasts S10000x128) (r : Fin 10000) (j : Fin 128) :
    broadcastTo S10000x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A one-row vector of 384 lanes broadcast down the rows reads its lane. -/
theorem bcastGate2 (v : FVec Ideal S1x384 .f32) (h : S1x384.Broadcasts S10000x384) (r : Fin 10000) (q : Fin 384) :
    broadcastTo S10000x384 v h (ix2 r q) = v (ix2 0 q) :=
  broadcastTo_apply v h (ix2 r q) (ix2 0 q) (fun a => match a with
    | ⟨0, _⟩ => by show 0 = if (1 : Nat) = 1 then 0 else r.val; rw [if_pos rfl]
    | ⟨1, _⟩ => by show q.val = if (384 : Nat) = 1 then 0 else q.val; rw [if_neg (by decide)])

/-- A one-column vector broadcast along the lanes reads its row. -/
theorem bcastCol2 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The three lane slices of the 384 gate lanes: lanes j, 128 + j, 256 + j. -/
theorem slice0_2 (v : FVec Ideal S10000x384 .f32) (h : S10000x384.Slices ![0, 0] S10000x128) (r : Fin 10000) (j : Fin 128) :
    extractStridedSlice S10000x128 ![0, 0] v h (ix2 r j) = v (ix2 r (Spec.q0 j)) :=
  extractStridedSlice_apply ![0, 0] v h (ix2 r j) (ix2 r (Spec.q0 j)) (fun a => match a with
    | ⟨0, _⟩ => by show r.val = 0 + r.val; omega
    | ⟨1, _⟩ => by show j.val = 0 + j.val; omega)
theorem slice1_2 (v : FVec Ideal S10000x384 .f32) (h : S10000x384.Slices ![0, 128] S10000x128) (r : Fin 10000) (j : Fin 128) :
    extractStridedSlice S10000x128 ![0, 128] v h (ix2 r j) = v (ix2 r (Spec.q1 j)) :=
  extractStridedSlice_apply ![0, 128] v h (ix2 r j) (ix2 r (Spec.q1 j)) (fun a => match a with
    | ⟨0, _⟩ => by show r.val = 0 + r.val; omega
    | ⟨1, _⟩ => by show 128 + j.val = 128 + j.val; rfl)
theorem slice2_2 (v : FVec Ideal S10000x384 .f32) (h : S10000x384.Slices ![0, 256] S10000x128) (r : Fin 10000) (j : Fin 128) :
    extractStridedSlice S10000x128 ![0, 256] v h (ix2 r j) = v (ix2 r (Spec.q2 j)) :=
  extractStridedSlice_apply ![0, 256] v h (ix2 r j) (ix2 r (Spec.q2 j)) (fun a => match a with
    | ⟨0, _⟩ => by show r.val = 0 + r.val; omega
    | ⟨1, _⟩ => by show 256 + j.val = 256 + j.val; rfl)

/-- The input-side gate lanes, entry by entry: (Σ_k xn(r,k) WT(k,q)) + bi(0,q), where xn(r,k) = max (ds(r,0) · (agg(r,k) + xs(r,k)) + b(0,k)) 0
    is the convolution's output. -/
theorem payI2 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (q : Fin 384) :
    k2_pay3 v0 v3 v5 v10 v20 v27 (ix2 r q)
      = (∑ k : Fin 128, max (v3 (ix2 r 0) * (v5 (ix2 r k) + v0 (ix2 r k)) + v10 (ix2 0 k)) Spec.zeroF * v20 (ix2 k q)) + v27 (ix2 0 q) := by
  unfold k2_pay3
  simp only [shapeCast_self]
  refine (addf_apply _ _ _).trans (congrArg₂ (· + ·) ?_ (bcastGate2 _ _ r q))
  refine (mm2 _ _ r q).trans (Finset.sum_congr rfl fun k _ => congrArg₂ (· * ·) ?_ rfl)
  refine (truncf_apply (ψ := .bf16) _ bitsLt_bf16_f32 (ix2 r k)).trans ((maximumf_apply _ _ _).trans (congrArg₂ max ?_ rfl))
  refine (addf_apply _ _ _).trans (congrArg₂ (· + ·) ?_ (bcastRow2 _ _ r k))
  exact (mulf_apply _ _ _).trans (congrArg₂ (· * ·) (bcastCol2 _ _ r k) rfl)

/-- The state-side gate lanes, entry by entry: (Σ_k h(r,k) UT(k,q)) + bh(0,q). -/
theorem payH2 (v16 : Vec Ideal S10000x128 .f32) (v23 : Vec Ideal S128x384 .f32) (v32 : Vec Ideal S1x384 .f32) (r : Fin 10000) (q : Fin 384) :
    k2_pay4 v16 v23 v32 (ix2 r q) = (∑ k : Fin 128, v16 (ix2 r k) * v23 (ix2 k q)) + v32 (ix2 0 q) := by
  unfold k2_pay4 k2_pay2
  simp only [shapeCast_self]
  exact (addf_apply _ _ _).trans (congrArg₂ (· + ·) (mm2 _ _ r q) (bcastGate2 _ _ r q))

/-- The state as the body carries it is the state. -/
theorem payS2 (v16 : Vec Ideal S10000x128 .f32) : k2_pay2 v16 = v16 := by
  unfold k2_pay2
  exact shapeCast_self _ _

/-- The reset lanes of the two sides are lanes j of the gate lanes. -/
theorem payI0_2 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (j : Fin 128) :
    k2_pay5 v0 v3 v5 v10 v20 v27 (ix2 r j) = k2_pay3 v0 v3 v5 v10 v20 v27 (ix2 r (Spec.q0 j)) := by
  unfold k2_pay5
  exact slice0_2 _ _ r j
theorem payH0_2 (v16 : Vec Ideal S10000x128 .f32) (v23 : Vec Ideal S128x384 .f32) (v32 : Vec Ideal S1x384 .f32) (r : Fin 10000) (j : Fin 128) :
    k2_pay6 v16 v23 v32 (ix2 r j) = k2_pay4 v16 v23 v32 (ix2 r (Spec.q0 j)) := by
  unfold k2_pay6
  exact slice0_2 _ _ r j

/-- The stored block from the state h, the gate lanes gi and gh and their reset lanes ri, rh, entry by entry:
    (1 - z) · tanh (gi₂ + logistic (ri + rh) · gh₂) + z · h with z = logistic (gi₁ + gh₁). -/
theorem payG2 (v17 : FVec Ideal S10000x128 .f32) (v30 v35 : FVec Ideal S10000x384 .f32) (v36 v37 : FVec Ideal S10000x128 .f32) (r : Fin 10000) (j : Fin 128) :
    k2_pay1 v17 v30 v35 v36 v37 (ix2 r j)
      = (Spec.oneF - Ideal.logistic (v30 (ix2 r (Spec.q1 j)) + v35 (ix2 r (Spec.q1 j))))
          * Ideal.tanh (v30 (ix2 r (Spec.q2 j)) + Ideal.logistic (v36 (ix2 r j) + v37 (ix2 r j)) * v35 (ix2 r (Spec.q2 j)))
        + Ideal.logistic (v30 (ix2 r (Spec.q1 j)) + v35 (ix2 r (Spec.q1 j))) * v17 (ix2 r j) := by
  unfold k2_pay1
  have a1 := slice1_2 v30 slices_S10000x384_o0_128_S10000x128 r j
  have b1 := slice1_2 v35 slices_S10000x384_o0_128_S10000x128 r j
  have a2 := slice2_2 v30 slices_S10000x384_o0_256_S10000x128 r j
  have b2 := slice2_2 v35 slices_S10000x384_o0_256_S10000x128 r j
  show (Spec.oneF - Ideal.logistic (extractStridedSlice S10000x128 ![0, 128] v30 slices_S10000x384_o0_128_S10000x128 (ix2 r j)
            + extractStridedSlice S10000x128 ![0, 128] v35 slices_S10000x384_o0_128_S10000x128 (ix2 r j)))
        * Ideal.tanh (extractStridedSlice S10000x128 ![0, 256] v30 slices_S10000x384_o0_256_S10000x128 (ix2 r j)
            + Ideal.logistic (v36 (ix2 r j) + v37 (ix2 r j)) * extractStridedSlice S10000x128 ![0, 256] v35 slices_S10000x384_o0_256_S10000x128 (ix2 r j))
      + Ideal.logistic (extractStridedSlice S10000x128 ![0, 128] v30 slices_S10000x384_o0_128_S10000x128 (ix2 r j)
            + extractStridedSlice S10000x128 ![0, 128] v35 slices_S10000x384_o0_128_S10000x128 (ix2 r j)) * v17 (ix2 r j) = _
  rw [a1, b1, a2, b2]

example : Pipeline.arrRef spec2 0 = main_v31 := rfl
example : Pipeline.arrRef spec2 1 = main_v20 := rfl
example : Pipeline.arrRef spec2 2 = main_v11 := rfl
example : Pipeline.arrRef spec2 3 = main_v34 := rfl
example : Pipeline.arrRef spec2 4 = main_v13 := rfl
example : Pipeline.arrRef spec2 5 = main_v14 := rfl
example : Pipeline.arrRef spec2 6 = main_v15 := rfl
example : Pipeline.arrRef spec2 7 = main_v16 := rfl
example : Pipeline.arrRef spec2 8 = main_v17 := rfl
example : Pipeline.arrRef spec2 9 = main_v35 := rfl

/-- The block-level identity: at row p of a block whose node rows are rows n of the arrays, the stored entry is the gated
    update of the state by the convolution's output, at (n, j). -/
theorem gruAt2 (x0 : Vec Ideal S10000x128 .f32) (x1 : Vec Ideal S10000x128 .bf16) (x2 : Vec Ideal S10000x1 .f32) (x3 : Vec Ideal S1x128 .f32)
    (x4 : Vec Ideal S10000x128 .f32) (x5 x6 : Vec Ideal S128x384 .f32) (x7 x8 : Vec Ideal S1x384 .f32)
    (agg xs : Spec.A2 50000 128) (ds : Spec.A2 50000 1) (b : Spec.A2 1 128) (h : Spec.A2 50000 128) (WT UT : Spec.A2 128 384) (bi bh : Spec.A2 1 384)
    (p : Fin 10000) (n : Fin 50000) (j : Fin 128)
    (h0 : ∀ k : Fin 128, x0 (ix2 p k) = agg (ix2 n k)) (h1 : ∀ k : Fin 128, x1 (ix2 p k) = xs (ix2 n k))
    (h2 : x2 (ix2 p 0) = ds (ix2 n 0)) (h3 : x3 = b) (h4 : ∀ k : Fin 128, x4 (ix2 p k) = h (ix2 n k))
    (h5 : x5 = WT) (h6 : x6 = UT) (h7 : x7 = bi) (h8 : x8 = bh) :
    k2_pay1 (k2_pay2 x4) (k2_pay3 x1 x2 x0 x3 x5 x7) (k2_pay4 x4 x6 x8) (k2_pay5 x1 x2 x0 x3 x5 x7) (k2_pay6 x4 x6 x8) (ix2 p j)
      = Spec.gru (Spec.arr2 (Spec.xnK agg xs ds b)) h WT UT bi bh n j := by
  subst h3 h5 h6 h7 h8
  refine (payG2 _ _ _ _ _ p j).trans ?_
  rw [payI0_2, payH0_2, payS2]
  simp only [payI2, payH2, h0, h1, h2, h4]
  rfl

/-- The index maps over the grid: the node arrays' block row is the point, every other block index is zero. -/
theorem imap2_0 : ∀ t : Fin cfg2.N, win2_0.index t (0 : Fin 2) = t.val ∧ win2_0.index t (1 : Fin 2) = 0 :=
  (by decide +kernel : ∀ t : Fin grid2.N, _)
theorem imap2_1 : ∀ t : Fin cfg2.N, win2_1.index t (0 : Fin 2) = t.val ∧ win2_1.index t (1 : Fin 2) = 0 :=
  (by decide +kernel : ∀ t : Fin grid2.N, _)
theorem imap2_2 : ∀ t : Fin cfg2.N, win2_2.index t (0 : Fin 2) = t.val ∧ win2_2.index t (1 : Fin 2) = 0 :=
  (by decide +kernel : ∀ t : Fin grid2.N, _)
theorem imap2_3 : ∀ t : Fin cfg2.N, win2_3.index t (0 : Fin 2) = 0 ∧ win2_3.index t (1 : Fin 2) = 0 :=
  (by decide +kernel : ∀ t : Fin grid2.N, _)
theorem imap2_4 : ∀ t : Fin cfg2.N, win2_4.index t (0 : Fin 2) = t.val ∧ win2_4.index t (1 : Fin 2) = 0 :=
  (by decide +kernel : ∀ t : Fin grid2.N, _)
theorem imap2_5 : ∀ t : Fin cfg2.N, win2_5.index t (0 : Fin 2) = 0 ∧ win2_5.index t (1 : Fin 2) = 0 :=
  (by decide +kernel : ∀ t : Fin grid2.N, _)
theorem imap2_6 : ∀ t : Fin cfg2.N, win2_6.index t (0 : Fin 2) = 0 ∧ win2_6.index t (1 : Fin 2) = 0 :=
  (by decide +kernel : ∀ t : Fin grid2.N, _)
theorem imap2_7 : ∀ t : Fin cfg2.N, win2_7.index t (0 : Fin 2) = 0 ∧ win2_7.index t (1 : Fin 2) = 0 :=
  (by decide +kernel : ∀ t : Fin grid2.N, _)
theorem imap2_8 : ∀ t : Fin cfg2.N, win2_8.index t (0 : Fin 2) = 0 ∧ win2_8.index t (1 : Fin 2) = 0 :=
  (by decide +kernel : ∀ t : Fin grid2.N, _)
theorem imap2_9 : ∀ t : Fin cfg2.N, win2_9.index t (0 : Fin 2) = t.val ∧ win2_9.index t (1 : Fin 2) = 0 :=
  (by decide +kernel : ∀ t : Fin grid2.N, _)

/-- Row p of the edge-sum block at point t is row 10000 t + p of the edge sum. -/
theorem iblk2_0_apply (c : Dev nD) (t : Fin cfg2.N) (p : Fin 10000) (k : Fin 128) (n : Fin 50000) (hn : n.val = t.val * 10000 + p.val) :
    (iblk2 V c 0 t : Vec Ideal S10000x128 .f32) (ix2 p k) = (V c main_v31 : S50000x128.Idx → EReal) (ix2 n k) := by
  obtain ⟨e0, e1⟩ := imap2_0 t
  unfold iblk2
  rw [View.read_apply]
  show V c main_v31 _ = V c main_v31 _
  congr 1
  funext a
  apply Fin.ext
  match a with
  | ⟨0, _⟩ => show win2_0.index t 0 * 10000 + 1 * p.val = n.val; rw [e0, hn]; omega
  | ⟨1, _⟩ => show win2_0.index t 1 * 128 + 1 * k.val = k.val; rw [e1]; omega

/-- Row p of the scaled-projection block at point t is row 10000 t + p of the scaled projection. -/
theorem iblk2_1_apply (c : Dev nD) (t : Fin cfg2.N) (p : Fin 10000) (k : Fin 128) (n : Fin 50000) (hn : n.val = t.val * 10000 + p.val) :
    (iblk2 V c 1 t : Vec Ideal S10000x128 .bf16) (ix2 p k) = (V c main_v20 : S50000x128.Idx → EReal) (ix2 n k) := by
  obtain ⟨e0, e1⟩ := imap2_1 t
  unfold iblk2
  rw [View.read_apply]
  show V c main_v20 _ = V c main_v20 _
  congr 1
  funext a
  apply Fin.ext
  match a with
  | ⟨0, _⟩ => show win2_1.index t 0 * 10000 + 1 * p.val = n.val; rw [e0, hn]; omega
  | ⟨1, _⟩ => show win2_1.index t 1 * 128 + 1 * k.val = k.val; rw [e1]; omega

/-- Row p of the factor column's block at point t is row 10000 t + p of the column. -/
theorem iblk2_2_apply (c : Dev nD) (t : Fin cfg2.N) (p : Fin 10000) (n : Fin 50000) (hn : n.val = t.val * 10000 + p.val) :
    (iblk2 V c 2 t : Vec Ideal S10000x1 .f32) (ix2 p 0) = (V c main_v11 : S50000x1.Idx → EReal) (ix2 n 0) := by
  obtain ⟨e0, e1⟩ := imap2_2 t
  unfold iblk2
  rw [View.read_apply]
  show V c main_v11 _ = V c main_v11 _
  congr 1
  funext a
  apply Fin.ext
  match a with
  | ⟨0, _⟩ => show win2_2.index t 0 * 10000 + 1 * p.val = n.val; rw [e0, hn]; omega
  | ⟨1, _⟩ => show win2_2.index t 1 * 1 + 1 * 0 = 0; rw [e1]

/-- The convolution bias block at every point is the whole bias row. -/
theorem iblk2_3_eq (c : Dev nD) (t : Fin cfg2.N) :
    (iblk2 V c 3 t : Vec Ideal S1x128 .f32) = (V c main_v34 : S1x128.Idx → EReal) := by
  obtain ⟨e0, e1⟩ := imap2_3 t
  unfold iblk2
  funext z
  rw [View.read_apply]
  show V c main_v34 _ = V c main_v34 _
  congr 1
  funext a
  apply Fin.ext
  match a with
  | ⟨0, _⟩ => show win2_3.index t 0 * 1 + 1 * (z 0).val = (z 0).val; rw [e0]; omega
  | ⟨1, _⟩ => show win2_3.index t 1 * 128 + 1 * (z 1).val = (z 1).val; rw [e1]; omega

/-- Row p of the state block at point t is row 10000 t + p of the state. -/
theorem iblk2_4_apply (c : Dev nD) (t : Fin cfg2.N) (p : Fin 10000) (k : Fin 128) (n : Fin 50000) (hn : n.val = t.val * 10000 + p.val) :
    (iblk2 V c 4 t : Vec Ideal S10000x128 .f32) (ix2 p k) = (V c main_v13 : S50000x128.Idx → EReal) (ix2 n k) := by
  obtain ⟨e0, e1⟩ := imap2_4 t
  unfold iblk2
  rw [View.read_apply]
  show V c main_v13 _ = V c main_v13 _
  congr 1
  funext a
  apply Fin.ext
  match a with
  | ⟨0, _⟩ => show win2_4.index t 0 * 10000 + 1 * p.val = n.val; rw [e0, hn]; omega
  | ⟨1, _⟩ => show win2_4.index t 1 * 128 + 1 * k.val = k.val; rw [e1]; omega

/-- The input-side gate weights' block at every point is the whole matrix. -/
theorem iblk2_5_eq (c : Dev nD) (t : Fin cfg2.N) :
    (iblk2 V c 5 t : Vec Ideal S128x384 .f32) = (V c main_v14 : S128x384.Idx → EReal) := by
  obtain ⟨e0, e1⟩ := imap2_5 t
  unfold iblk2
  funext z
  rw [View.read_apply]
  show V c main_v14 _ = V c main_v14 _
  congr 1
  funext a
  apply Fin.ext
  match a with
  | ⟨0, _⟩ => show win2_5.index t 0 * 128 + 1 * (z 0).val = (z 0).val; rw [e0]; omega
  | ⟨1, _⟩ => show win2_5.index t 1 * 384 + 1 * (z 1).val = (z 1).val; rw [e1]; omega

/-- The state-side gate weights' block at every point is the whole matrix. -/
theorem iblk2_6_eq (c : Dev nD) (t : Fin cfg2.N) :
    (iblk2 V c 6 t : Vec Ideal S128x384 .f32) = (V c main_v15 : S128x384.Idx → EReal) := by
  obtain ⟨e0, e1⟩ := imap2_6 t
  unfold iblk2
  funext z
  rw [View.read_apply]
  show V c main_v15 _ = V c main_v15 _
  congr 1
  funext a
  apply Fin.ext
  match a with
  | ⟨0, _⟩ => show win2_6.index t 0 * 128 + 1 * (z 0).val = (z 0).val; rw [e0]; omega
  | ⟨1, _⟩ => show win2_6.index t 1 * 384 + 1 * (z 1).val = (z 1).val; rw [e1]; omega

/-- The input-side gate bias block at every point is the whole row. -/
theorem iblk2_7_eq (c : Dev nD) (t : Fin cfg2.N) :
    (iblk2 V c 7 t : Vec Ideal S1x384 .f32) = (V c main_v16 : S1x384.Idx → EReal) := by
  obtain ⟨e0, e1⟩ := imap2_7 t
  unfold iblk2
  funext z
  rw [View.read_apply]
  show V c main_v16 _ = V c main_v16 _
  congr 1
  funext a
  apply Fin.ext
  match a with
  | ⟨0, _⟩ => show win2_7.index t 0 * 1 + 1 * (z 0).val = (z 0).val; rw [e0]; omega
  | ⟨1, _⟩ => show win2_7.index t 1 * 384 + 1 * (z 1).val = (z 1).val; rw [e1]; omega

/-- The state-side gate bias block at every point is the whole row. -/
theorem iblk2_8_eq (c : Dev nD) (t : Fin cfg2.N) :
    (iblk2 V c 8 t : Vec Ideal S1x384 .f32) = (V c main_v17 : S1x384.Idx → EReal) := by
  obtain ⟨e0, e1⟩ := imap2_8 t
  unfold iblk2
  funext z
  rw [View.read_apply]
  show V c main_v17 _ = V c main_v17 _
  congr 1
  funext a
  apply Fin.ext
  match a with
  | ⟨0, _⟩ => show win2_8.index t 0 * 1 + 1 * (z 0).val = (z 0).val; rw [e0]; omega
  | ⟨1, _⟩ => show win2_8.index t 1 * 384 + 1 * (z 1).val = (z 1).val; rw [e1]; omega

/-- What point t writes back is block t of the gated update of the whole arrays. -/
theorem flushed2 (c : Dev nD) (t : Fin cfg2.N) :
    (dat2 (F := Ideal) V c).flushed 9 t = ((cfg2.win 9).blk t).view.read (Elt Ideal)
      (Spec.arr2 (Spec.gru (Spec.arr2 (Spec.xnK (V c main_v31) (V c main_v20) (V c main_v11) (V c main_v34))) (V c main_v13) (V c main_v14) (V c main_v15) (V c main_v16) (V c main_v17))) := by
  show (cfg2.win 9).cut (grid2.coords t) ((dat2 V c).after 9 t) = _
  rw [after2_9]
  unfold out2_9
  rw [View.canon_unit_zero hz2]
  simp only [View.ld_unit_zero (S := S10000x128) hz2, View.ld_unit_zero (S := S10000x1) hz2, View.ld_unit_zero (S := S1x128) hz2,
    View.ld_unit_zero (S := S128x384) hz2, View.ld_unit_zero (S := S1x384) hz2]
  funext y
  obtain ⟨p, q, rfl⟩ : ∃ (p : Fin 10000) (q : Fin 128), y = ix2 p q := ⟨y 0, y 1, eq_ix2 y⟩
  have hN : cfg2.N = 5 := N_2
  have ht : t.val < 5 := by have := t.isLt; omega
  obtain ⟨n, hn⟩ : ∃ n : Fin 50000, n.val = t.val * 10000 + p.val := ⟨⟨t.val * 10000 + p.val, by omega⟩, rfl⟩
  obtain ⟨e90, e91⟩ := imap2_9 t
  refine (gruAt2 (iblk2 V c 0 t) (iblk2 V c 1 t) (iblk2 V c 2 t) (iblk2 V c 3 t) (iblk2 V c 4 t) (iblk2 V c 5 t)
    (iblk2 V c 6 t) (iblk2 V c 7 t) (iblk2 V c 8 t)
    (V c main_v31) (V c main_v20) (V c main_v11) (V c main_v34) (V c main_v13) (V c main_v14) (V c main_v15) (V c main_v16) (V c main_v17) p n q
    (fun k => iblk2_0_apply V c t p k n hn) (fun k => iblk2_1_apply V c t p k n hn) (iblk2_2_apply V c t p n hn) (iblk2_3_eq V c t)
    (fun k => iblk2_4_apply V c t p k n hn) (iblk2_5_eq V c t) (iblk2_6_eq V c t) (iblk2_7_eq V c t) (iblk2_8_eq V c t)).trans ?_
  rw [View.read_apply]
  have he : ((View.whole main_v35).slice ((win2 9).rect t)).emb (ix2 p q) = (ix2 n q : S50000x128.Idx) := by
    funext a
    apply Fin.ext
    match a with
    | ⟨0, _⟩ => show win2_9.index t 0 * 10000 + 1 * p.val = n.val; rw [e90, hn]; omega
    | ⟨1, _⟩ => show win2_9.index t 1 * 128 + 1 * q.val = q.val; rw [e91]; omega
  exact (congrArg (Spec.arr2 (Spec.gru (Spec.arr2 (Spec.xnK (V c main_v31) (V c main_v20) (V c main_v11) (V c main_v34))) (V c main_v13) (V c main_v14) (V c main_v15) (V c main_v16) (V c main_v17))) he).symm

/-- An index of the array is in point t's block iff each coordinate is in the block's range on its axis. -/
theorem mem_blk2 (t : Fin cfg2.N) (i : S50000x128.Idx) :
    i ∈ ((cfg2.win 9).blk t).view.set ↔ ∀ a : Fin 2, win2_9.index t a * S10000x128.size a ≤ (i a).val ∧ (i a).val < win2_9.index t a * S10000x128.size a + S10000x128.size a := by
  show i ∈ ((View.whole main_v35).slice (win2_9.rect t)).set ↔ _
  rw [View.set_slice_whole, Rect.mem_set_unit]
  exact Iff.rfl

/-- Every row lies in the block of the point row / 10000. -/
theorem cover2 (i : S50000x128.Idx) : ∃ t : Fin cfg2.N, (cfg2.win 9).flush t = true ∧ i ∈ ((cfg2.win 9).blk t).view.set := by
  have hN : cfg2.N = 5 := N_2
  have h0 : (i 0).val < 50000 := idx2_lt0 i
  have h1 : (i 1).val < 128 := idx2_lt1 i
  refine ⟨⟨(i 0).val / 10000, by omega⟩, flush2_9 _, ?_⟩
  obtain ⟨e90, e91⟩ := imap2_9 ⟨(i 0).val / 10000, by omega⟩
  rw [mem_blk2]
  intro a
  match a with
  | ⟨0, _⟩ => show win2_9.index _ (0 : Fin 2) * 10000 ≤ (i 0).val ∧ (i 0).val < win2_9.index _ (0 : Fin 2) * 10000 + 10000; rw [e90]; show (i 0).val / 10000 * 10000 ≤ (i 0).val ∧ (i 0).val < (i 0).val / 10000 * 10000 + 10000; omega
  | ⟨1, _⟩ => show win2_9.index _ (1 : Fin 2) * 128 ≤ (i 1).val ∧ (i 1).val < win2_9.index _ (1 : Fin 2) * 128 + 128; rw [e91]; omega

/-- The array region 2 leaves: the gated update of the state by the convolution's output, entry by entry. -/
theorem final2 (c : Dev nD) : ((dat2 (F := Ideal) V c).arrAt 9 cfg2.N : S50000x128.Idx → EReal)
    = Spec.arr2 (Spec.gru (Spec.arr2 (Spec.xnK (V c main_v31) (V c main_v20) (V c main_v11) (V c main_v34))) (V c main_v13) (V c main_v14) (V c main_v15) (V c main_v16) (V c main_v17)) :=
  (dat2 (F := Ideal) V c).arrAt_eq_of_cover 9 _ (fun t _ => flushed2 V c t) cover2

end Cert.KernelIdeal.KRegions

end
-- ==== Proof.KGru4.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 4: the convolution's output and the gated recurrent update of the state, block by block and as one array -/

theorem hz4 : (![0, 0] : Fin 2 → Nat) = fun _ => 0 := funext fun a => by fin_cases a <;> rfl

theorem lhs4_0 (i : S10000x384.Idx) (q : dot_S10000x128_S128x384_S10000x384_1_0_0_1_n_n.contr.Idx) :
    (dot_S10000x128_S128x384_S10000x384_1_0_0_1_n_n.lhsIdx i q 0).val = (i 0).val := by
  unfold DotDims.lhsIdx
  rw [dif_neg (show ¬(0 : Fin S10000x128.rank) ∈ dot_S10000x128_S128x384_S10000x384_1_0_0_1_n_n.lhsBatch by decide), dif_pos (show (0 : Fin S10000x128.rank) ∈ dot_S10000x128_S128x384_S10000x384_1_0_0_1_n_n.lhsNonContracting by decide)]
  rfl
theorem lhs4_1 (i : S10000x384.Idx) (q : dot_S10000x128_S128x384_S10000x384_1_0_0_1_n_n.contr.Idx) :
    (dot_S10000x128_S128x384_S10000x384_1_0_0_1_n_n.lhsIdx i q 1).val = (q ⟨0, by decide⟩).val :=
  dot_S10000x128_S128x384_S10000x384_1_0_0_1_n_n.lhsIdx_val_of_single rfl i q
theorem rhs4_0 (i : S10000x384.Idx) (q : dot_S10000x128_S128x384_S10000x384_1_0_0_1_n_n.contr.Idx) :
    (dot_S10000x128_S128x384_S10000x384_1_0_0_1_n_n.rhsIdx i q 0).val = (q ⟨0, by decide⟩).val :=
  dot_S10000x128_S128x384_S10000x384_1_0_0_1_n_n.rhsIdx_val_of_single rfl i q
theorem rhs4_1 (i : S10000x384.Idx) (q : dot_S10000x128_S128x384_S10000x384_1_0_0_1_n_n.contr.Idx) :
    (dot_S10000x128_S128x384_S10000x384_1_0_0_1_n_n.rhsIdx i q 1).val = (i 1).val := by
  unfold DotDims.rhsIdx
  rw [dif_neg (show ¬(1 : Fin S128x384.rank) ∈ dot_S10000x128_S128x384_S10000x384_1_0_0_1_n_n.rhsBatch by decide), dif_pos (show (1 : Fin S128x384.rank) ∈ dot_S10000x128_S128x384_S10000x384_1_0_0_1_n_n.rhsNonContracting by decide)]
  rfl

/-- The product of a 10000×128 block by a 128×384 matrix into the zero accumulator, at an entry: the sum over the 128 contracted lanes. -/
theorem mm4 (a : FVec Ideal S10000x128 .bf16) (w : FVec Ideal S128x384 .bf16) (r : Fin 10000) (j : Fin 384) :
    matmul dot_S10000x128_S128x384_S10000x384_1_0_0_1_n_n none a w (constant S10000x384 .f32 0x00000000#32) (ix2 r j)
      = ∑ k : Fin 128, a (ix2 r k) * w (ix2 k j) := by
  refine (Ideal.matmul_constant_zero_apply dot_S10000x128_S128x384_S10000x384_1_0_0_1_n_n none a w (ix2 r j)).trans ?_
  rw [← Equiv.sum_comp (contrEquiv1 dot_S10000x128_S128x384_S10000x384_1_0_0_1_n_n 128 rfl rfl).symm]
  refine Finset.sum_congr rfl fun k _ => ?_
  have hk := contrEquiv1_symm_val dot_S10000x128_S128x384_S10000x384_1_0_0_1_n_n 128 rfl rfl k
  have el : dot_S10000x128_S128x384_S10000x384_1_0_0_1_n_n.lhsIdx (ix2 r j) ((contrEquiv1 dot_S10000x128_S128x384_S10000x384_1_0_0_1_n_n 128 rfl rfl).symm k) = ix2 r k := funext fun b => Fin.ext (by
    match b with
    | ⟨0, _⟩ => exact lhs4_0 _ _
    | ⟨1, _⟩ => exact (lhs4_1 _ _).trans hk)
  have er : dot_S10000x128_S128x384_S10000x384_1_0_0_1_n_n.rhsIdx (ix2 r j) ((contrEquiv1 dot_S10000x128_S128x384_S10000x384_1_0_0_1_n_n 128 rfl rfl).symm k) = ix2 k j := funext fun b => Fin.ext (by
    match b with
    | ⟨0, _⟩ => exact (rhs4_0 _ _).trans hk
    | ⟨1, _⟩ => exact rhs4_1 _ _)
  rw [el, er]

/-- A one-row vector of 128 lanes broadcast down the rows reads its lane. -/
theorem bcastRow4 (v : FVec Ideal S1x128 .f32) (h : S1x128.Broadcasts S10000x128) (r : Fin 10000) (j : Fin 128) :
    broadcastTo S10000x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A one-row vector of 384 lanes broadcast down the rows reads its lane. -/
theorem bcastGate4 (v : FVec Ideal S1x384 .f32) (h : S1x384.Broadcasts S10000x384) (r : Fin 10000) (q : Fin 384) :
    broadcastTo S10000x384 v h (ix2 r q) = v (ix2 0 q) :=
  broadcastTo_apply v h (ix2 r q) (ix2 0 q) (fun a => match a with
    | ⟨0, _⟩ => by show 0 = if (1 : Nat) = 1 then 0 else r.val; rw [if_pos rfl]
    | ⟨1, _⟩ => by show q.val = if (384 : Nat) = 1 then 0 else q.val; rw [if_neg (by decide)])

/-- A one-column vector broadcast along the lanes reads its row. -/
theorem bcastCol4 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The three lane slices of the 384 gate lanes: lanes j, 128 + j, 256 + j. -/
theorem slice0_4 (v : FVec Ideal S10000x384 .f32) (h : S10000x384.Slices ![0, 0] S10000x128) (r : Fin 10000) (j : Fin 128) :
    extractStridedSlice S10000x128 ![0, 0] v h (ix2 r j) = v (ix2 r (Spec.q0 j)) :=
  extractStridedSlice_apply ![0, 0] v h (ix2 r j) (ix2 r (Spec.q0 j)) (fun a => match a with
    | ⟨0, _⟩ => by show r.val = 0 + r.val; omega
    | ⟨1, _⟩ => by show j.val = 0 + j.val; omega)
theorem slice1_4 (v : FVec Ideal S10000x384 .f32) (h : S10000x384.Slices ![0, 128] S10000x128) (r : Fin 10000) (j : Fin 128) :
    extractStridedSlice S10000x128 ![0, 128] v h (ix2 r j) = v (ix2 r (Spec.q1 j)) :=
  extractStridedSlice_apply ![0, 128] v h (ix2 r j) (ix2 r (Spec.q1 j)) (fun a => match a with
    | ⟨0, _⟩ => by show r.val = 0 + r.val; omega
    | ⟨1, _⟩ => by show 128 + j.val = 128 + j.val; rfl)
theorem slice2_4 (v : FVec Ideal S10000x384 .f32) (h : S10000x384.Slices ![0, 256] S10000x128) (r : Fin 10000) (j : Fin 128) :
    extractStridedSlice S10000x128 ![0, 256] v h (ix2 r j) = v (ix2 r (Spec.q2 j)) :=
  extractStridedSlice_apply ![0, 256] v h (ix2 r j) (ix2 r (Spec.q2 j)) (fun a => match a with
    | ⟨0, _⟩ => by show r.val = 0 + r.val; omega
    | ⟨1, _⟩ => by show 256 + j.val = 256 + j.val; rfl)

/-- The input-side gate lanes, entry by entry: (Σ_k xn(r,k) WT(k,q)) + bi(0,q), where xn(r,k) = max (ds(r,0) · (agg(r,k) + xs(r,k)) + b(0,k)) 0
    is the convolution's output. -/
theorem payI4 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (q : Fin 384) :
    k4_pay3 v0 v3 v5 v10 v20 v27 (ix2 r q)
      = (∑ k : Fin 128, max (v3 (ix2 r 0) * (v5 (ix2 r k) + v0 (ix2 r k)) + v10 (ix2 0 k)) Spec.zeroF * v20 (ix2 k q)) + v27 (ix2 0 q) := by
  unfold k4_pay3
  simp only [shapeCast_self]
  refine (addf_apply _ _ _).trans (congrArg₂ (· + ·) ?_ (bcastGate4 _ _ r q))
  refine (mm4 _ _ r q).trans (Finset.sum_congr rfl fun k _ => congrArg₂ (· * ·) ?_ rfl)
  refine (truncf_apply (ψ := .bf16) _ bitsLt_bf16_f32 (ix2 r k)).trans ((maximumf_apply _ _ _).trans (congrArg₂ max ?_ rfl))
  refine (addf_apply _ _ _).trans (congrArg₂ (· + ·) ?_ (bcastRow4 _ _ r k))
  exact (mulf_apply _ _ _).trans (congrArg₂ (· * ·) (bcastCol4 _ _ r k) rfl)

/-- The state-side gate lanes, entry by entry: (Σ_k h(r,k) UT(k,q)) + bh(0,q). -/
theorem payH4 (v16 : Vec Ideal S10000x128 .f32) (v23 : Vec Ideal S128x384 .f32) (v32 : Vec Ideal S1x384 .f32) (r : Fin 10000) (q : Fin 384) :
    k4_pay4 v16 v23 v32 (ix2 r q) = (∑ k : Fin 128, v16 (ix2 r k) * v23 (ix2 k q)) + v32 (ix2 0 q) := by
  unfold k4_pay4 k4_pay2
  simp only [shapeCast_self]
  exact (addf_apply _ _ _).trans (congrArg₂ (· + ·) (mm4 _ _ r q) (bcastGate4 _ _ r q))

/-- The state as the body carries it is the state. -/
theorem payS4 (v16 : Vec Ideal S10000x128 .f32) : k4_pay2 v16 = v16 := by
  unfold k4_pay2
  exact shapeCast_self _ _

/-- The reset lanes of the two sides are lanes j of the gate lanes. -/
theorem payI0_4 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (j : Fin 128) :
    k4_pay5 v0 v3 v5 v10 v20 v27 (ix2 r j) = k4_pay3 v0 v3 v5 v10 v20 v27 (ix2 r (Spec.q0 j)) := by
  unfold k4_pay5
  exact slice0_4 _ _ r j
theorem payH0_4 (v16 : Vec Ideal S10000x128 .f32) (v23 : Vec Ideal S128x384 .f32) (v32 : Vec Ideal S1x384 .f32) (r : Fin 10000) (j : Fin 128) :
    k4_pay6 v16 v23 v32 (ix2 r j) = k4_pay4 v16 v23 v32 (ix2 r (Spec.q0 j)) := by
  unfold k4_pay6
  exact slice0_4 _ _ r j

/-- The stored block from the state h, the gate lanes gi and gh and their reset lanes ri, rh, entry by entry:
    (1 - z) · tanh (gi₂ + logistic (ri + rh) · gh₂) + z · h with z = logistic (gi₁ + gh₁). -/
theorem payG4 (v17 : FVec Ideal S10000x128 .f32) (v30 v35 : FVec Ideal S10000x384 .f32) (v36 v37 : FVec Ideal S10000x128 .f32) (r : Fin 10000) (j : Fin 128) :
    k4_pay1 v17 v30 v35 v36 v37 (ix2 r j)
      = (Spec.oneF - Ideal.logistic (v30 (ix2 r (Spec.q1 j)) + v35 (ix2 r (Spec.q1 j))))
          * Ideal.tanh (v30 (ix2 r (Spec.q2 j)) + Ideal.logistic (v36 (ix2 r j) + v37 (ix2 r j)) * v35 (ix2 r (Spec.q2 j)))
        + Ideal.logistic (v30 (ix2 r (Spec.q1 j)) + v35 (ix2 r (Spec.q1 j))) * v17 (ix2 r j) := by
  unfold k4_pay1
  have a1 := slice1_4 v30 slices_S10000x384_o0_128_S10000x128 r j
  have b1 := slice1_4 v35 slices_S10000x384_o0_128_S10000x128 r j
  have a2 := slice2_4 v30 slices_S10000x384_o0_256_S10000x128 r j
  have b2 := slice2_4 v35 slices_S10000x384_o0_256_S10000x128 r j
  show (Spec.oneF - Ideal.logistic (extractStridedSlice S10000x128 ![0, 128] v30 slices_S10000x384_o0_128_S10000x128 (ix2 r j)
            + extractStridedSlice S10000x128 ![0, 128] v35 slices_S10000x384_o0_128_S10000x128 (ix2 r j)))
        * Ideal.tanh (extractStridedSlice S10000x128 ![0, 256] v30 slices_S10000x384_o0_256_S10000x128 (ix2 r j)
            + Ideal.logistic (v36 (ix2 r j) + v37 (ix2 r j)) * extractStridedSlice S10000x128 ![0, 256] v35 slices_S10000x384_o0_256_S10000x128 (ix2 r j))
      + Ideal.logistic (extractStridedSlice S10000x128 ![0, 128] v30 slices_S10000x384_o0_128_S10000x128 (ix2 r j)
            + extractStridedSlice S10000x128 ![0, 128] v35 slices_S10000x384_o0_128_S10000x128 (ix2 r j)) * v17 (ix2 r j) = _
  rw [a1, b1, a2, b2]

example : Pipeline.arrRef spec4 0 = main_v49 := rfl
example : Pipeline.arrRef spec4 1 = main_v38 := rfl
example : Pipeline.arrRef spec4 2 = main_v11 := rfl
example : Pipeline.arrRef spec4 3 = main_v52 := rfl
example : Pipeline.arrRef spec4 4 = main_v35 := rfl
example : Pipeline.arrRef spec4 5 = main_v14 := rfl
example : Pipeline.arrRef spec4 6 = main_v15 := rfl
example : Pipeline.arrRef spec4 7 = main_v16 := rfl
example : Pipeline.arrRef spec4 8 = main_v17 := rfl
example : Pipeline.arrRef spec4 9 = main_v53 := rfl

/-- The block-level identity: at row p of a block whose node rows are rows n of the arrays, the stored entry is the gated
    update of the state by the convolution's output, at (n, j). -/
theorem gruAt4 (x0 : Vec Ideal S10000x128 .f32) (x1 : Vec Ideal S10000x128 .bf16) (x2 : Vec Ideal S10000x1 .f32) (x3 : Vec Ideal S1x128 .f32)
    (x4 : Vec Ideal S10000x128 .f32) (x5 x6 : Vec Ideal S128x384 .f32) (x7 x8 : Vec Ideal S1x384 .f32)
    (agg xs : Spec.A2 50000 128) (ds : Spec.A2 50000 1) (b : Spec.A2 1 128) (h : Spec.A2 50000 128) (WT UT : Spec.A2 128 384) (bi bh : Spec.A2 1 384)
    (p : Fin 10000) (n : Fin 50000) (j : Fin 128)
    (h0 : ∀ k : Fin 128, x0 (ix2 p k) = agg (ix2 n k)) (h1 : ∀ k : Fin 128, x1 (ix2 p k) = xs (ix2 n k))
    (h2 : x2 (ix2 p 0) = ds (ix2 n 0)) (h3 : x3 = b) (h4 : ∀ k : Fin 128, x4 (ix2 p k) = h (ix2 n k))
    (h5 : x5 = WT) (h6 : x6 = UT) (h7 : x7 = bi) (h8 : x8 = bh) :
    k4_pay1 (k4_pay2 x4) (k4_pay3 x1 x2 x0 x3 x5 x7) (k4_pay4 x4 x6 x8) (k4_pay5 x1 x2 x0 x3 x5 x7) (k4_pay6 x4 x6 x8) (ix2 p j)
      = Spec.gru (Spec.arr2 (Spec.xnK agg xs ds b)) h WT UT bi bh n j := by
  subst h3 h5 h6 h7 h8
  refine (payG4 _ _ _ _ _ p j).trans ?_
  rw [payI0_4, payH0_4, payS4]
  simp only [payI4, payH4, h0, h1, h2, h4]
  rfl

/-- The index maps over the grid: the node arrays' block row is the point, every other block index is zero. -/
theorem imap4_0 : ∀ t : Fin cfg4.N, win4_0.index t (0 : Fin 2) = t.val ∧ win4_0.index t (1 : Fin 2) = 0 :=
  (by decide +kernel : ∀ t : Fin grid4.N, _)
theorem imap4_1 : ∀ t : Fin cfg4.N, win4_1.index t (0 : Fin 2) = t.val ∧ win4_1.index t (1 : Fin 2) = 0 :=
  (by decide +kernel : ∀ t : Fin grid4.N, _)
theorem imap4_2 : ∀ t : Fin cfg4.N, win4_2.index t (0 : Fin 2) = t.val ∧ win4_2.index t (1 : Fin 2) = 0 :=
  (by decide +kernel : ∀ t : Fin grid4.N, _)
theorem imap4_3 : ∀ t : Fin cfg4.N, win4_3.index t (0 : Fin 2) = 0 ∧ win4_3.index t (1 : Fin 2) = 0 :=
  (by decide +kernel : ∀ t : Fin grid4.N, _)
theorem imap4_4 : ∀ t : Fin cfg4.N, win4_4.index t (0 : Fin 2) = t.val ∧ win4_4.index t (1 : Fin 2) = 0 :=
  (by decide +kernel : ∀ t : Fin grid4.N, _)
theorem imap4_5 : ∀ t : Fin cfg4.N, win4_5.index t (0 : Fin 2) = 0 ∧ win4_5.index t (1 : Fin 2) = 0 :=
  (by decide +kernel : ∀ t : Fin grid4.N, _)
theorem imap4_6 : ∀ t : Fin cfg4.N, win4_6.index t (0 : Fin 2) = 0 ∧ win4_6.index t (1 : Fin 2) = 0 :=
  (by decide +kernel : ∀ t : Fin grid4.N, _)
theorem imap4_7 : ∀ t : Fin cfg4.N, win4_7.index t (0 : Fin 2) = 0 ∧ win4_7.index t (1 : Fin 2) = 0 :=
  (by decide +kernel : ∀ t : Fin grid4.N, _)
theorem imap4_8 : ∀ t : Fin cfg4.N, win4_8.index t (0 : Fin 2) = 0 ∧ win4_8.index t (1 : Fin 2) = 0 :=
  (by decide +kernel : ∀ t : Fin grid4.N, _)
theorem imap4_9 : ∀ t : Fin cfg4.N, win4_9.index t (0 : Fin 2) = t.val ∧ win4_9.index t (1 : Fin 2) = 0 :=
  (by decide +kernel : ∀ t : Fin grid4.N, _)

/-- Row p of the edge-sum block at point t is row 10000 t + p of the edge sum. -/
theorem iblk4_0_apply (c : Dev nD) (t : Fin cfg4.N) (p : Fin 10000) (k : Fin 128) (n : Fin 50000) (hn : n.val = t.val * 10000 + p.val) :
    (iblk4 V c 0 t : Vec Ideal S10000x128 .f32) (ix2 p k) = (V c main_v49 : S50000x128.Idx → EReal) (ix2 n k) := by
  obtain ⟨e0, e1⟩ := imap4_0 t
  unfold iblk4
  rw [View.read_apply]
  show V c main_v49 _ = V c main_v49 _
  congr 1
  funext a
  apply Fin.ext
  match a with
  | ⟨0, _⟩ => show win4_0.index t 0 * 10000 + 1 * p.val = n.val; rw [e0, hn]; omega
  | ⟨1, _⟩ => show win4_0.index t 1 * 128 + 1 * k.val = k.val; rw [e1]; omega

/-- Row p of the scaled-projection block at point t is row 10000 t + p of the scaled projection. -/
theorem iblk4_1_apply (c : Dev nD) (t : Fin cfg4.N) (p : Fin 10000) (k : Fin 128) (n : Fin 50000) (hn : n.val = t.val * 10000 + p.val) :
    (iblk4 V c 1 t : Vec Ideal S10000x128 .bf16) (ix2 p k) = (V c main_v38 : S50000x128.Idx → EReal) (ix2 n k) := by
  obtain ⟨e0, e1⟩ := imap4_1 t
  unfold iblk4
  rw [View.read_apply]
  show V c main_v38 _ = V c main_v38 _
  congr 1
  funext a
  apply Fin.ext
  match a with
  | ⟨0, _⟩ => show win4_1.index t 0 * 10000 + 1 * p.val = n.val; rw [e0, hn]; omega
  | ⟨1, _⟩ => show win4_1.index t 1 * 128 + 1 * k.val = k.val; rw [e1]; omega

/-- Row p of the factor column's block at point t is row 10000 t + p of the column. -/
theorem iblk4_2_apply (c : Dev nD) (t : Fin cfg4.N) (p : Fin 10000) (n : Fin 50000) (hn : n.val = t.val * 10000 + p.val) :
    (iblk4 V c 2 t : Vec Ideal S10000x1 .f32) (ix2 p 0) = (V c main_v11 : S50000x1.Idx → EReal) (ix2 n 0) := by
  obtain ⟨e0, e1⟩ := imap4_2 t
  unfold iblk4
  rw [View.read_apply]
  show V c main_v11 _ = V c main_v11 _
  congr 1
  funext a
  apply Fin.ext
  match a with
  | ⟨0, _⟩ => show win4_2.index t 0 * 10000 + 1 * p.val = n.val; rw [e0, hn]; omega
  | ⟨1, _⟩ => show win4_2.index t 1 * 1 + 1 * 0 = 0; rw [e1]

/-- The convolution bias block at every point is the whole bias row. -/
theorem iblk4_3_eq (c : Dev nD) (t : Fin cfg4.N) :
    (iblk4 V c 3 t : Vec Ideal S1x128 .f32) = (V c main_v52 : S1x128.Idx → EReal) := by
  obtain ⟨e0, e1⟩ := imap4_3 t
  unfold iblk4
  funext z
  rw [View.read_apply]
  show V c main_v52 _ = V c main_v52 _
  congr 1
  funext a
  apply Fin.ext
  match a with
  | ⟨0, _⟩ => show win4_3.index t 0 * 1 + 1 * (z 0).val = (z 0).val; rw [e0]; omega
  | ⟨1, _⟩ => show win4_3.index t 1 * 128 + 1 * (z 1).val = (z 1).val; rw [e1]; omega

/-- Row p of the state block at point t is row 10000 t + p of the state. -/
theorem iblk4_4_apply (c : Dev nD) (t : Fin cfg4.N) (p : Fin 10000) (k : Fin 128) (n : Fin 50000) (hn : n.val = t.val * 10000 + p.val) :
    (iblk4 V c 4 t : Vec Ideal S10000x128 .f32) (ix2 p k) = (V c main_v35 : S50000x128.Idx → EReal) (ix2 n k) := by
  obtain ⟨e0, e1⟩ := imap4_4 t
  unfold iblk4
  rw [View.read_apply]
  show V c main_v35 _ = V c main_v35 _
  congr 1
  funext a
  apply Fin.ext
  match a with
  | ⟨0, _⟩ => show win4_4.index t 0 * 10000 + 1 * p.val = n.val; rw [e0, hn]; omega
  | ⟨1, _⟩ => show win4_4.index t 1 * 128 + 1 * k.val = k.val; rw [e1]; omega

/-- The input-side gate weights' block at every point is the whole matrix. -/
theorem iblk4_5_eq (c : Dev nD) (t : Fin cfg4.N) :
    (iblk4 V c 5 t : Vec Ideal S128x384 .f32) = (V c main_v14 : S128x384.Idx → EReal) := by
  obtain ⟨e0, e1⟩ := imap4_5 t
  unfold iblk4
  funext z
  rw [View.read_apply]
  show V c main_v14 _ = V c main_v14 _
  congr 1
  funext a
  apply Fin.ext
  match a with
  | ⟨0, _⟩ => show win4_5.index t 0 * 128 + 1 * (z 0).val = (z 0).val; rw [e0]; omega
  | ⟨1, _⟩ => show win4_5.index t 1 * 384 + 1 * (z 1).val = (z 1).val; rw [e1]; omega

/-- The state-side gate weights' block at every point is the whole matrix. -/
theorem iblk4_6_eq (c : Dev nD) (t : Fin cfg4.N) :
    (iblk4 V c 6 t : Vec Ideal S128x384 .f32) = (V c main_v15 : S128x384.Idx → EReal) := by
  obtain ⟨e0, e1⟩ := imap4_6 t
  unfold iblk4
  funext z
  rw [View.read_apply]
  show V c main_v15 _ = V c main_v15 _
  congr 1
  funext a
  apply Fin.ext
  match a with
  | ⟨0, _⟩ => show win4_6.index t 0 * 128 + 1 * (z 0).val = (z 0).val; rw [e0]; omega
  | ⟨1, _⟩ => show win4_6.index t 1 * 384 + 1 * (z 1).val = (z 1).val; rw [e1]; omega

/-- The input-side gate bias block at every point is the whole row. -/
theorem iblk4_7_eq (c : Dev nD) (t : Fin cfg4.N) :
    (iblk4 V c 7 t : Vec Ideal S1x384 .f32) = (V c main_v16 : S1x384.Idx → EReal) := by
  obtain ⟨e0, e1⟩ := imap4_7 t
  unfold iblk4
  funext z
  rw [View.read_apply]
  show V c main_v16 _ = V c main_v16 _
  congr 1
  funext a
  apply Fin.ext
  match a with
  | ⟨0, _⟩ => show win4_7.index t 0 * 1 + 1 * (z 0).val = (z 0).val; rw [e0]; omega
  | ⟨1, _⟩ => show win4_7.index t 1 * 384 + 1 * (z 1).val = (z 1).val; rw [e1]; omega

/-- The state-side gate bias block at every point is the whole row. -/
theorem iblk4_8_eq (c : Dev nD) (t : Fin cfg4.N) :
    (iblk4 V c 8 t : Vec Ideal S1x384 .f32) = (V c main_v17 : S1x384.Idx → EReal) := by
  obtain ⟨e0, e1⟩ := imap4_8 t
  unfold iblk4
  funext z
  rw [View.read_apply]
  show V c main_v17 _ = V c main_v17 _
  congr 1
  funext a
  apply Fin.ext
  match a with
  | ⟨0, _⟩ => show win4_8.index t 0 * 1 + 1 * (z 0).val = (z 0).val; rw [e0]; omega
  | ⟨1, _⟩ => show win4_8.index t 1 * 384 + 1 * (z 1).val = (z 1).val; rw [e1]; omega

/-- What point t writes back is block t of the gated update of the whole arrays. -/
theorem flushed4 (c : Dev nD) (t : Fin cfg4.N) :
    (dat4 (F := Ideal) V c).flushed 9 t = ((cfg4.win 9).blk t).view.read (Elt Ideal)
      (Spec.arr2 (Spec.gru (Spec.arr2 (Spec.xnK (V c main_v49) (V c main_v38) (V c main_v11) (V c main_v52))) (V c main_v35) (V c main_v14) (V c main_v15) (V c main_v16) (V c main_v17))) := by
  show (cfg4.win 9).cut (grid4.coords t) ((dat4 V c).after 9 t) = _
  rw [after4_9]
  unfold out4_9
  rw [View.canon_unit_zero hz4]
  simp only [View.ld_unit_zero (S := S10000x128) hz4, View.ld_unit_zero (S := S10000x1) hz4, View.ld_unit_zero (S := S1x128) hz4,
    View.ld_unit_zero (S := S128x384) hz4, View.ld_unit_zero (S := S1x384) hz4]
  funext y
  obtain ⟨p, q, rfl⟩ : ∃ (p : Fin 10000) (q : Fin 128), y = ix2 p q := ⟨y 0, y 1, eq_ix2 y⟩
  have hN : cfg4.N = 5 := N_4
  have ht : t.val < 5 := by have := t.isLt; omega
  obtain ⟨n, hn⟩ : ∃ n : Fin 50000, n.val = t.val * 10000 + p.val := ⟨⟨t.val * 10000 + p.val, by omega⟩, rfl⟩
  obtain ⟨e90, e91⟩ := imap4_9 t
  refine (gruAt4 (iblk4 V c 0 t) (iblk4 V c 1 t) (iblk4 V c 2 t) (iblk4 V c 3 t) (iblk4 V c 4 t) (iblk4 V c 5 t)
    (iblk4 V c 6 t) (iblk4 V c 7 t) (iblk4 V c 8 t)
    (V c main_v49) (V c main_v38) (V c main_v11) (V c main_v52) (V c main_v35) (V c main_v14) (V c main_v15) (V c main_v16) (V c main_v17) p n q
    (fun k => iblk4_0_apply V c t p k n hn) (fun k => iblk4_1_apply V c t p k n hn) (iblk4_2_apply V c t p n hn) (iblk4_3_eq V c t)
    (fun k => iblk4_4_apply V c t p k n hn) (iblk4_5_eq V c t) (iblk4_6_eq V c t) (iblk4_7_eq V c t) (iblk4_8_eq V c t)).trans ?_
  rw [View.read_apply]
  have he : ((View.whole main_v53).slice ((win4 9).rect t)).emb (ix2 p q) = (ix2 n q : S50000x128.Idx) := by
    funext a
    apply Fin.ext
    match a with
    | ⟨0, _⟩ => show win4_9.index t 0 * 10000 + 1 * p.val = n.val; rw [e90, hn]; omega
    | ⟨1, _⟩ => show win4_9.index t 1 * 128 + 1 * q.val = q.val; rw [e91]; omega
  exact (congrArg (Spec.arr2 (Spec.gru (Spec.arr2 (Spec.xnK (V c main_v49) (V c main_v38) (V c main_v11) (V c main_v52))) (V c main_v35) (V c main_v14) (V c main_v15) (V c main_v16) (V c main_v17))) he).symm

/-- An index of the array is in point t's block iff each coordinate is in the block's range on its axis. -/
theorem mem_blk4 (t : Fin cfg4.N) (i : S50000x128.Idx) :
    i ∈ ((cfg4.win 9).blk t).view.set ↔ ∀ a : Fin 2, win4_9.index t a * S10000x128.size a ≤ (i a).val ∧ (i a).val < win4_9.index t a * S10000x128.size a + S10000x128.size a := by
  show i ∈ ((View.whole main_v53).slice (win4_9.rect t)).set ↔ _
  rw [View.set_slice_whole, Rect.mem_set_unit]
  exact Iff.rfl

/-- Every row lies in the block of the point row / 10000. -/
theorem cover4 (i : S50000x128.Idx) : ∃ t : Fin cfg4.N, (cfg4.win 9).flush t = true ∧ i ∈ ((cfg4.win 9).blk t).view.set := by
  have hN : cfg4.N = 5 := N_4
  have h0 : (i 0).val < 50000 := idx2_lt0 i
  have h1 : (i 1).val < 128 := idx2_lt1 i
  refine ⟨⟨(i 0).val / 10000, by omega⟩, flush4_9 _, ?_⟩
  obtain ⟨e90, e91⟩ := imap4_9 ⟨(i 0).val / 10000, by omega⟩
  rw [mem_blk4]
  intro a
  match a with
  | ⟨0, _⟩ => show win4_9.index _ (0 : Fin 2) * 10000 ≤ (i 0).val ∧ (i 0).val < win4_9.index _ (0 : Fin 2) * 10000 + 10000; rw [e90]; show (i 0).val / 10000 * 10000 ≤ (i 0).val ∧ (i 0).val < (i 0).val / 10000 * 10000 + 10000; omega
  | ⟨1, _⟩ => show win4_9.index _ (1 : Fin 2) * 128 ≤ (i 1).val ∧ (i 1).val < win4_9.index _ (1 : Fin 2) * 128 + 128; rw [e91]; omega

/-- The array region 4 leaves: the gated update of the state by the convolution's output, entry by entry. -/
theorem final4 (c : Dev nD) : ((dat4 (F := Ideal) V c).arrAt 9 cfg4.N : S50000x128.Idx → EReal)
    = Spec.arr2 (Spec.gru (Spec.arr2 (Spec.xnK (V c main_v49) (V c main_v38) (V c main_v11) (V c main_v52))) (V c main_v35) (V c main_v14) (V c main_v15) (V c main_v16) (V c main_v17)) :=
  (dat4 (F := Ideal) V c).arrAt_eq_of_cover 9 _ (fun t _ => flushed4 V c t) cover4

end Cert.KernelIdeal.KRegions

end
-- ==== Proof.KGru6.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 6: the convolution's output and the gated recurrent update of the state, block by block and as one array -/

theorem hz6 : (![0, 0] : Fin 2 → Nat) = fun _ => 0 := funext fun a => by fin_cases a <;> rfl

theorem lhs6_0 (i : S10000x384.Idx) (q : dot_S10000x128_S128x384_S10000x384_1_0_0_1_n_n.contr.Idx) :
    (dot_S10000x128_S128x384_S10000x384_1_0_0_1_n_n.lhsIdx i q 0).val = (i 0).val := by
  unfold DotDims.lhsIdx
  rw [dif_neg (show ¬(0 : Fin S10000x128.rank) ∈ dot_S10000x128_S128x384_S10000x384_1_0_0_1_n_n.lhsBatch by decide), dif_pos (show (0 : Fin S10000x128.rank) ∈ dot_S10000x128_S128x384_S10000x384_1_0_0_1_n_n.lhsNonContracting by decide)]
  rfl
theorem lhs6_1 (i : S10000x384.Idx) (q : dot_S10000x128_S128x384_S10000x384_1_0_0_1_n_n.contr.Idx) :
    (dot_S10000x128_S128x384_S10000x384_1_0_0_1_n_n.lhsIdx i q 1).val = (q ⟨0, by decide⟩).val :=
  dot_S10000x128_S128x384_S10000x384_1_0_0_1_n_n.lhsIdx_val_of_single rfl i q
theorem rhs6_0 (i : S10000x384.Idx) (q : dot_S10000x128_S128x384_S10000x384_1_0_0_1_n_n.contr.Idx) :
    (dot_S10000x128_S128x384_S10000x384_1_0_0_1_n_n.rhsIdx i q 0).val = (q ⟨0, by decide⟩).val :=
  dot_S10000x128_S128x384_S10000x384_1_0_0_1_n_n.rhsIdx_val_of_single rfl i q
theorem rhs6_1 (i : S10000x384.Idx) (q : dot_S10000x128_S128x384_S10000x384_1_0_0_1_n_n.contr.Idx) :
    (dot_S10000x128_S128x384_S10000x384_1_0_0_1_n_n.rhsIdx i q 1).val = (i 1).val := by
  unfold DotDims.rhsIdx
  rw [dif_neg (show ¬(1 : Fin S128x384.rank) ∈ dot_S10000x128_S128x384_S10000x384_1_0_0_1_n_n.rhsBatch by decide), dif_pos (show (1 : Fin S128x384.rank) ∈ dot_S10000x128_S128x384_S10000x384_1_0_0_1_n_n.rhsNonContracting by decide)]
  rfl

/-- The product of a 10000×128 block by a 128×384 matrix into the zero accumulator, at an entry: the sum over the 128 contracted lanes. -/
theorem mm6 (a : FVec Ideal S10000x128 .bf16) (w : FVec Ideal S128x384 .bf16) (r : Fin 10000) (j : Fin 384) :
    matmul dot_S10000x128_S128x384_S10000x384_1_0_0_1_n_n none a w (constant S10000x384 .f32 0x00000000#32) (ix2 r j)
      = ∑ k : Fin 128, a (ix2 r k) * w (ix2 k j) := by
  refine (Ideal.matmul_constant_zero_apply dot_S10000x128_S128x384_S10000x384_1_0_0_1_n_n none a w (ix2 r j)).trans ?_
  rw [← Equiv.sum_comp (contrEquiv1 dot_S10000x128_S128x384_S10000x384_1_0_0_1_n_n 128 rfl rfl).symm]
  refine Finset.sum_congr rfl fun k _ => ?_
  have hk := contrEquiv1_symm_val dot_S10000x128_S128x384_S10000x384_1_0_0_1_n_n 128 rfl rfl k
  have el : dot_S10000x128_S128x384_S10000x384_1_0_0_1_n_n.lhsIdx (ix2 r j) ((contrEquiv1 dot_S10000x128_S128x384_S10000x384_1_0_0_1_n_n 128 rfl rfl).symm k) = ix2 r k := funext fun b => Fin.ext (by
    match b with
    | ⟨0, _⟩ => exact lhs6_0 _ _
    | ⟨1, _⟩ => exact (lhs6_1 _ _).trans hk)
  have er : dot_S10000x128_S128x384_S10000x384_1_0_0_1_n_n.rhsIdx (ix2 r j) ((contrEquiv1 dot_S10000x128_S128x384_S10000x384_1_0_0_1_n_n 128 rfl rfl).symm k) = ix2 k j := funext fun b => Fin.ext (by
    match b with
    | ⟨0, _⟩ => exact (rhs6_0 _ _).trans hk
    | ⟨1, _⟩ => exact rhs6_1 _ _)
  rw [el, er]

/-- A one-row vector of 128 lanes broadcast down the rows reads its lane. -/
theorem bcastRow6 (v : FVec Ideal S1x128 .f32) (h : S1x128.Broadcasts S10000x128) (r : Fin 10000) (j : Fin 128) :
    broadcastTo S10000x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A one-row vector of 384 lanes broadcast down the rows reads its lane. -/
theorem bcastGate6 (v : FVec Ideal S1x384 .f32) (h : S1x384.Broadcasts S10000x384) (r : Fin 10000) (q : Fin 384) :
    broadcastTo S10000x384 v h (ix2 r q) = v (ix2 0 q) :=
  broadcastTo_apply v h (ix2 r q) (ix2 0 q) (fun a => match a with
    | ⟨0, _⟩ => by show 0 = if (1 : Nat) = 1 then 0 else r.val; rw [if_pos rfl]
    | ⟨1, _⟩ => by show q.val = if (384 : Nat) = 1 then 0 else q.val; rw [if_neg (by decide)])

/-- A one-column vector broadcast along the lanes reads its row. -/
theorem bcastCol6 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The three lane slices of the 384 gate lanes: lanes j, 128 + j, 256 + j. -/
theorem slice0_6 (v : FVec Ideal S10000x384 .f32) (h : S10000x384.Slices ![0, 0] S10000x128) (r : Fin 10000) (j : Fin 128) :
    extractStridedSlice S10000x128 ![0, 0] v h (ix2 r j) = v (ix2 r (Spec.q0 j)) :=
  extractStridedSlice_apply ![0, 0] v h (ix2 r j) (ix2 r (Spec.q0 j)) (fun a => match a with
    | ⟨0, _⟩ => by show r.val = 0 + r.val; omega
    | ⟨1, _⟩ => by show j.val = 0 + j.val; omega)
theorem slice1_6 (v : FVec Ideal S10000x384 .f32) (h : S10000x384.Slices ![0, 128] S10000x128) (r : Fin 10000) (j : Fin 128) :
    extractStridedSlice S10000x128 ![0, 128] v h (ix2 r j) = v (ix2 r (Spec.q1 j)) :=
  extractStridedSlice_apply ![0, 128] v h (ix2 r j) (ix2 r (Spec.q1 j)) (fun a => match a with
    | ⟨0, _⟩ => by show r.val = 0 + r.val; omega
    | ⟨1, _⟩ => by show 128 + j.val = 128 + j.val; rfl)
theorem slice2_6 (v : FVec Ideal S10000x384 .f32) (h : S10000x384.Slices ![0, 256] S10000x128) (r : Fin 10000) (j : Fin 128) :
    extractStridedSlice S10000x128 ![0, 256] v h (ix2 r j) = v (ix2 r (Spec.q2 j)) :=
  extractStridedSlice_apply ![0, 256] v h (ix2 r j) (ix2 r (Spec.q2 j)) (fun a => match a with
    | ⟨0, _⟩ => by show r.val = 0 + r.val; omega
    | ⟨1, _⟩ => by show 256 + j.val = 256 + j.val; rfl)

/-- The input-side gate lanes, entry by entry: (Σ_k xn(r,k) WT(k,q)) + bi(0,q), where xn(r,k) = max (ds(r,0) · (agg(r,k) + xs(r,k)) + b(0,k)) 0
    is the convolution's output. -/
theorem payI6 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (q : Fin 384) :
    k6_pay3 v0 v3 v5 v10 v20 v27 (ix2 r q)
      = (∑ k : Fin 128, max (v3 (ix2 r 0) * (v5 (ix2 r k) + v0 (ix2 r k)) + v10 (ix2 0 k)) Spec.zeroF * v20 (ix2 k q)) + v27 (ix2 0 q) := by
  unfold k6_pay3
  simp only [shapeCast_self]
  refine (addf_apply _ _ _).trans (congrArg₂ (· + ·) ?_ (bcastGate6 _ _ r q))
  refine (mm6 _ _ r q).trans (Finset.sum_congr rfl fun k _ => congrArg₂ (· * ·) ?_ rfl)
  refine (truncf_apply (ψ := .bf16) _ bitsLt_bf16_f32 (ix2 r k)).trans ((maximumf_apply _ _ _).trans (congrArg₂ max ?_ rfl))
  refine (addf_apply _ _ _).trans (congrArg₂ (· + ·) ?_ (bcastRow6 _ _ r k))
  exact (mulf_apply _ _ _).trans (congrArg₂ (· * ·) (bcastCol6 _ _ r k) rfl)

/-- The state-side gate lanes, entry by entry: (Σ_k h(r,k) UT(k,q)) + bh(0,q). -/
theorem payH6 (v16 : Vec Ideal S10000x128 .f32) (v23 : Vec Ideal S128x384 .f32) (v32 : Vec Ideal S1x384 .f32) (r : Fin 10000) (q : Fin 384) :
    k6_pay4 v16 v23 v32 (ix2 r q) = (∑ k : Fin 128, v16 (ix2 r k) * v23 (ix2 k q)) + v32 (ix2 0 q) := by
  unfold k6_pay4 k6_pay2
  simp only [shapeCast_self]
  exact (addf_apply _ _ _).trans (congrArg₂ (· + ·) (mm6 _ _ r q) (bcastGate6 _ _ r q))

/-- The state as the body carries it is the state. -/
theorem payS6 (v16 : Vec Ideal S10000x128 .f32) : k6_pay2 v16 = v16 := by
  unfold k6_pay2
  exact shapeCast_self _ _

/-- The reset lanes of the two sides are lanes j of the gate lanes. -/
theorem payI0_6 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (j : Fin 128) :
    k6_pay5 v0 v3 v5 v10 v20 v27 (ix2 r j) = k6_pay3 v0 v3 v5 v10 v20 v27 (ix2 r (Spec.q0 j)) := by
  unfold k6_pay5
  exact slice0_6 _ _ r j
theorem payH0_6 (v16 : Vec Ideal S10000x128 .f32) (v23 : Vec Ideal S128x384 .f32) (v32 : Vec Ideal S1x384 .f32) (r : Fin 10000) (j : Fin 128) :
    k6_pay6 v16 v23 v32 (ix2 r j) = k6_pay4 v16 v23 v32 (ix2 r (Spec.q0 j)) := by
  unfold k6_pay6
  exact slice0_6 _ _ r j

/-- The stored block from the state h, the gate lanes gi and gh and their reset lanes ri, rh, entry by entry:
    (1 - z) · tanh (gi₂ + logistic (ri + rh) · gh₂) + z · h with z = logistic (gi₁ + gh₁). -/
theorem payG6 (v17 : FVec Ideal S10000x128 .f32) (v30 v35 : FVec Ideal S10000x384 .f32) (v36 v37 : FVec Ideal S10000x128 .f32) (r : Fin 10000) (j : Fin 128) :
    k6_pay1 v17 v30 v35 v36 v37 (ix2 r j)
      = (Spec.oneF - Ideal.logistic (v30 (ix2 r (Spec.q1 j)) + v35 (ix2 r (Spec.q1 j))))
          * Ideal.tanh (v30 (ix2 r (Spec.q2 j)) + Ideal.logistic (v36 (ix2 r j) + v37 (ix2 r j)) * v35 (ix2 r (Spec.q2 j)))
        + Ideal.logistic (v30 (ix2 r (Spec.q1 j)) + v35 (ix2 r (Spec.q1 j))) * v17 (ix2 r j) := by
  unfold k6_pay1
  have a1 := slice1_6 v30 slices_S10000x384_o0_128_S10000x128 r j
  have b1 := slice1_6 v35 slices_S10000x384_o0_128_S10000x128 r j
  have a2 := slice2_6 v30 slices_S10000x384_o0_256_S10000x128 r j
  have b2 := slice2_6 v35 slices_S10000x384_o0_256_S10000x128 r j
  show (Spec.oneF - Ideal.logistic (extractStridedSlice S10000x128 ![0, 128] v30 slices_S10000x384_o0_128_S10000x128 (ix2 r j)
            + extractStridedSlice S10000x128 ![0, 128] v35 slices_S10000x384_o0_128_S10000x128 (ix2 r j)))
        * Ideal.tanh (extractStridedSlice S10000x128 ![0, 256] v30 slices_S10000x384_o0_256_S10000x128 (ix2 r j)
            + Ideal.logistic (v36 (ix2 r j) + v37 (ix2 r j)) * extractStridedSlice S10000x128 ![0, 256] v35 slices_S10000x384_o0_256_S10000x128 (ix2 r j))
      + Ideal.logistic (extractStridedSlice S10000x128 ![0, 128] v30 slices_S10000x384_o0_128_S10000x128 (ix2 r j)
            + extractStridedSlice S10000x128 ![0, 128] v35 slices_S10000x384_o0_128_S10000x128 (ix2 r j)) * v17 (ix2 r j) = _
  rw [a1, b1, a2, b2]

example : Pipeline.arrRef spec6 0 = main_v67 := rfl
example : Pipeline.arrRef spec6 1 = main_v56 := rfl
example : Pipeline.arrRef spec6 2 = main_v11 := rfl
example : Pipeline.arrRef spec6 3 = main_v70 := rfl
example : Pipeline.arrRef spec6 4 = main_v53 := rfl
example : Pipeline.arrRef spec6 5 = main_v14 := rfl
example : Pipeline.arrRef spec6 6 = main_v15 := rfl
example : Pipeline.arrRef spec6 7 = main_v16 := rfl
example : Pipeline.arrRef spec6 8 = main_v17 := rfl
example : Pipeline.arrRef spec6 9 = main_v71 := rfl

/-- The block-level identity: at row p of a block whose node rows are rows n of the arrays, the stored entry is the gated
    update of the state by the convolution's output, at (n, j). -/
theorem gruAt6 (x0 : Vec Ideal S10000x128 .f32) (x1 : Vec Ideal S10000x128 .bf16) (x2 : Vec Ideal S10000x1 .f32) (x3 : Vec Ideal S1x128 .f32)
    (x4 : Vec Ideal S10000x128 .f32) (x5 x6 : Vec Ideal S128x384 .f32) (x7 x8 : Vec Ideal S1x384 .f32)
    (agg xs : Spec.A2 50000 128) (ds : Spec.A2 50000 1) (b : Spec.A2 1 128) (h : Spec.A2 50000 128) (WT UT : Spec.A2 128 384) (bi bh : Spec.A2 1 384)
    (p : Fin 10000) (n : Fin 50000) (j : Fin 128)
    (h0 : ∀ k : Fin 128, x0 (ix2 p k) = agg (ix2 n k)) (h1 : ∀ k : Fin 128, x1 (ix2 p k) = xs (ix2 n k))
    (h2 : x2 (ix2 p 0) = ds (ix2 n 0)) (h3 : x3 = b) (h4 : ∀ k : Fin 128, x4 (ix2 p k) = h (ix2 n k))
    (h5 : x5 = WT) (h6 : x6 = UT) (h7 : x7 = bi) (h8 : x8 = bh) :
    k6_pay1 (k6_pay2 x4) (k6_pay3 x1 x2 x0 x3 x5 x7) (k6_pay4 x4 x6 x8) (k6_pay5 x1 x2 x0 x3 x5 x7) (k6_pay6 x4 x6 x8) (ix2 p j)
      = Spec.gru (Spec.arr2 (Spec.xnK agg xs ds b)) h WT UT bi bh n j := by
  subst h3 h5 h6 h7 h8
  refine (payG6 _ _ _ _ _ p j).trans ?_
  rw [payI0_6, payH0_6, payS6]
  simp only [payI6, payH6, h0, h1, h2, h4]
  rfl

/-- The index maps over the grid: the node arrays' block row is the point, every other block index is zero. -/
theorem imap6_0 : ∀ t : Fin cfg6.N, win6_0.index t (0 : Fin 2) = t.val ∧ win6_0.index t (1 : Fin 2) = 0 :=
  (by decide +kernel : ∀ t : Fin grid6.N, _)
theorem imap6_1 : ∀ t : Fin cfg6.N, win6_1.index t (0 : Fin 2) = t.val ∧ win6_1.index t (1 : Fin 2) = 0 :=
  (by decide +kernel : ∀ t : Fin grid6.N, _)
theorem imap6_2 : ∀ t : Fin cfg6.N, win6_2.index t (0 : Fin 2) = t.val ∧ win6_2.index t (1 : Fin 2) = 0 :=
  (by decide +kernel : ∀ t : Fin grid6.N, _)
theorem imap6_3 : ∀ t : Fin cfg6.N, win6_3.index t (0 : Fin 2) = 0 ∧ win6_3.index t (1 : Fin 2) = 0 :=
  (by decide +kernel : ∀ t : Fin grid6.N, _)
theorem imap6_4 : ∀ t : Fin cfg6.N, win6_4.index t (0 : Fin 2) = t.val ∧ win6_4.index t (1 : Fin 2) = 0 :=
  (by decide +kernel : ∀ t : Fin grid6.N, _)
theorem imap6_5 : ∀ t : Fin cfg6.N, win6_5.index t (0 : Fin 2) = 0 ∧ win6_5.index t (1 : Fin 2) = 0 :=
  (by decide +kernel : ∀ t : Fin grid6.N, _)
theorem imap6_6 : ∀ t : Fin cfg6.N, win6_6.index t (0 : Fin 2) = 0 ∧ win6_6.index t (1 : Fin 2) = 0 :=
  (by decide +kernel : ∀ t : Fin grid6.N, _)
theorem imap6_7 : ∀ t : Fin cfg6.N, win6_7.index t (0 : Fin 2) = 0 ∧ win6_7.index t (1 : Fin 2) = 0 :=
  (by decide +kernel : ∀ t : Fin grid6.N, _)
theorem imap6_8 : ∀ t : Fin cfg6.N, win6_8.index t (0 : Fin 2) = 0 ∧ win6_8.index t (1 : Fin 2) = 0 :=
  (by decide +kernel : ∀ t : Fin grid6.N, _)
theorem imap6_9 : ∀ t : Fin cfg6.N, win6_9.index t (0 : Fin 2) = t.val ∧ win6_9.index t (1 : Fin 2) = 0 :=
  (by decide +kernel : ∀ t : Fin grid6.N, _)

/-- Row p of the edge-sum block at point t is row 10000 t + p of the edge sum. -/
theorem iblk6_0_apply (c : Dev nD) (t : Fin cfg6.N) (p : Fin 10000) (k : Fin 128) (n : Fin 50000) (hn : n.val = t.val * 10000 + p.val) :
    (iblk6 V c 0 t : Vec Ideal S10000x128 .f32) (ix2 p k) = (V c main_v67 : S50000x128.Idx → EReal) (ix2 n k) := by
  obtain ⟨e0, e1⟩ := imap6_0 t
  unfold iblk6
  rw [View.read_apply]
  show V c main_v67 _ = V c main_v67 _
  congr 1
  funext a
  apply Fin.ext
  match a with
  | ⟨0, _⟩ => show win6_0.index t 0 * 10000 + 1 * p.val = n.val; rw [e0, hn]; omega
  | ⟨1, _⟩ => show win6_0.index t 1 * 128 + 1 * k.val = k.val; rw [e1]; omega

/-- Row p of the scaled-projection block at point t is row 10000 t + p of the scaled projection. -/
theorem iblk6_1_apply (c : Dev nD) (t : Fin cfg6.N) (p : Fin 10000) (k : Fin 128) (n : Fin 50000) (hn : n.val = t.val * 10000 + p.val) :
    (iblk6 V c 1 t : Vec Ideal S10000x128 .bf16) (ix2 p k) = (V c main_v56 : S50000x128.Idx → EReal) (ix2 n k) := by
  obtain ⟨e0, e1⟩ := imap6_1 t
  unfold iblk6
  rw [View.read_apply]
  show V c main_v56 _ = V c main_v56 _
  congr 1
  funext a
  apply Fin.ext
  match a with
  | ⟨0, _⟩ => show win6_1.index t 0 * 10000 + 1 * p.val = n.val; rw [e0, hn]; omega
  | ⟨1, _⟩ => show win6_1.index t 1 * 128 + 1 * k.val = k.val; rw [e1]; omega

/-- Row p of the factor column's block at point t is row 10000 t + p of the column. -/
theorem iblk6_2_apply (c : Dev nD) (t : Fin cfg6.N) (p : Fin 10000) (n : Fin 50000) (hn : n.val = t.val * 10000 + p.val) :
    (iblk6 V c 2 t : Vec Ideal S10000x1 .f32) (ix2 p 0) = (V c main_v11 : S50000x1.Idx → EReal) (ix2 n 0) := by
  obtain ⟨e0, e1⟩ := imap6_2 t
  unfold iblk6
  rw [View.read_apply]
  show V c main_v11 _ = V c main_v11 _
  congr 1
  funext a
  apply Fin.ext
  match a with
  | ⟨0, _⟩ => show win6_2.index t 0 * 10000 + 1 * p.val = n.val; rw [e0, hn]; omega
  | ⟨1, _⟩ => show win6_2.index t 1 * 1 + 1 * 0 = 0; rw [e1]

/-- The convolution bias block at every point is the whole bias row. -/
theorem iblk6_3_eq (c : Dev nD) (t : Fin cfg6.N) :
    (iblk6 V c 3 t : Vec Ideal S1x128 .f32) = (V c main_v70 : S1x128.Idx → EReal) := by
  obtain ⟨e0, e1⟩ := imap6_3 t
  unfold iblk6
  funext z
  rw [View.read_apply]
  show V c main_v70 _ = V c main_v70 _
  congr 1
  funext a
  apply Fin.ext
  match a with
  | ⟨0, _⟩ => show win6_3.index t 0 * 1 + 1 * (z 0).val = (z 0).val; rw [e0]; omega
  | ⟨1, _⟩ => show win6_3.index t 1 * 128 + 1 * (z 1).val = (z 1).val; rw [e1]; omega

/-- Row p of the state block at point t is row 10000 t + p of the state. -/
theorem iblk6_4_apply (c : Dev nD) (t : Fin cfg6.N) (p : Fin 10000) (k : Fin 128) (n : Fin 50000) (hn : n.val = t.val * 10000 + p.val) :
    (iblk6 V c 4 t : Vec Ideal S10000x128 .f32) (ix2 p k) = (V c main_v53 : S50000x128.Idx → EReal) (ix2 n k) := by
  obtain ⟨e0, e1⟩ := imap6_4 t
  unfold iblk6
  rw [View.read_apply]
  show V c main_v53 _ = V c main_v53 _
  congr 1
  funext a
  apply Fin.ext
  match a with
  | ⟨0, _⟩ => show win6_4.index t 0 * 10000 + 1 * p.val = n.val; rw [e0, hn]; omega
  | ⟨1, _⟩ => show win6_4.index t 1 * 128 + 1 * k.val = k.val; rw [e1]; omega

/-- The input-side gate weights' block at every point is the whole matrix. -/
theorem iblk6_5_eq (c : Dev nD) (t : Fin cfg6.N) :
    (iblk6 V c 5 t : Vec Ideal S128x384 .f32) = (V c main_v14 : S128x384.Idx → EReal) := by
  obtain ⟨e0, e1⟩ := imap6_5 t
  unfold iblk6
  funext z
  rw [View.read_apply]
  show V c main_v14 _ = V c main_v14 _
  congr 1
  funext a
  apply Fin.ext
  match a with
  | ⟨0, _⟩ => show win6_5.index t 0 * 128 + 1 * (z 0).val = (z 0).val; rw [e0]; omega
  | ⟨1, _⟩ => show win6_5.index t 1 * 384 + 1 * (z 1).val = (z 1).val; rw [e1]; omega

/-- The state-side gate weights' block at every point is the whole matrix. -/
theorem iblk6_6_eq (c : Dev nD) (t : Fin cfg6.N) :
    (iblk6 V c 6 t : Vec Ideal S128x384 .f32) = (V c main_v15 : S128x384.Idx → EReal) := by
  obtain ⟨e0, e1⟩ := imap6_6 t
  unfold iblk6
  funext z
  rw [View.read_apply]
  show V c main_v15 _ = V c main_v15 _
  congr 1
  funext a
  apply Fin.ext
  match a with
  | ⟨0, _⟩ => show win6_6.index t 0 * 128 + 1 * (z 0).val = (z 0).val; rw [e0]; omega
  | ⟨1, _⟩ => show win6_6.index t 1 * 384 + 1 * (z 1).val = (z 1).val; rw [e1]; omega

/-- The input-side gate bias block at every point is the whole row. -/
theorem iblk6_7_eq (c : Dev nD) (t : Fin cfg6.N) :
    (iblk6 V c 7 t : Vec Ideal S1x384 .f32) = (V c main_v16 : S1x384.Idx → EReal) := by
  obtain ⟨e0, e1⟩ := imap6_7 t
  unfold iblk6
  funext z
  rw [View.read_apply]
  show V c main_v16 _ = V c main_v16 _
  congr 1
  funext a
  apply Fin.ext
  match a with
  | ⟨0, _⟩ => show win6_7.index t 0 * 1 + 1 * (z 0).val = (z 0).val; rw [e0]; omega
  | ⟨1, _⟩ => show win6_7.index t 1 * 384 + 1 * (z 1).val = (z 1).val; rw [e1]; omega

/-- The state-side gate bias block at every point is the whole row. -/
theorem iblk6_8_eq (c : Dev nD) (t : Fin cfg6.N) :
    (iblk6 V c 8 t : Vec Ideal S1x384 .f32) = (V c main_v17 : S1x384.Idx → EReal) := by
  obtain ⟨e0, e1⟩ := imap6_8 t
  unfold iblk6
  funext z
  rw [View.read_apply]
  show V c main_v17 _ = V c main_v17 _
  congr 1
  funext a
  apply Fin.ext
  match a with
  | ⟨0, _⟩ => show win6_8.index t 0 * 1 + 1 * (z 0).val = (z 0).val; rw [e0]; omega
  | ⟨1, _⟩ => show win6_8.index t 1 * 384 + 1 * (z 1).val = (z 1).val; rw [e1]; omega

/-- What point t writes back is block t of the gated update of the whole arrays. -/
theorem flushed6 (c : Dev nD) (t : Fin cfg6.N) :
    (dat6 (F := Ideal) V c).flushed 9 t = ((cfg6.win 9).blk t).view.read (Elt Ideal)
      (Spec.arr2 (Spec.gru (Spec.arr2 (Spec.xnK (V c main_v67) (V c main_v56) (V c main_v11) (V c main_v70))) (V c main_v53) (V c main_v14) (V c main_v15) (V c main_v16) (V c main_v17))) := by
  show (cfg6.win 9).cut (grid6.coords t) ((dat6 V c).after 9 t) = _
  rw [after6_9]
  unfold out6_9
  rw [View.canon_unit_zero hz6]
  simp only [View.ld_unit_zero (S := S10000x128) hz6, View.ld_unit_zero (S := S10000x1) hz6, View.ld_unit_zero (S := S1x128) hz6,
    View.ld_unit_zero (S := S128x384) hz6, View.ld_unit_zero (S := S1x384) hz6]
  funext y
  obtain ⟨p, q, rfl⟩ : ∃ (p : Fin 10000) (q : Fin 128), y = ix2 p q := ⟨y 0, y 1, eq_ix2 y⟩
  have hN : cfg6.N = 5 := N_6
  have ht : t.val < 5 := by have := t.isLt; omega
  obtain ⟨n, hn⟩ : ∃ n : Fin 50000, n.val = t.val * 10000 + p.val := ⟨⟨t.val * 10000 + p.val, by omega⟩, rfl⟩
  obtain ⟨e90, e91⟩ := imap6_9 t
  refine (gruAt6 (iblk6 V c 0 t) (iblk6 V c 1 t) (iblk6 V c 2 t) (iblk6 V c 3 t) (iblk6 V c 4 t) (iblk6 V c 5 t)
    (iblk6 V c 6 t) (iblk6 V c 7 t) (iblk6 V c 8 t)
    (V c main_v67) (V c main_v56) (V c main_v11) (V c main_v70) (V c main_v53) (V c main_v14) (V c main_v15) (V c main_v16) (V c main_v17) p n q
    (fun k => iblk6_0_apply V c t p k n hn) (fun k => iblk6_1_apply V c t p k n hn) (iblk6_2_apply V c t p n hn) (iblk6_3_eq V c t)
    (fun k => iblk6_4_apply V c t p k n hn) (iblk6_5_eq V c t) (iblk6_6_eq V c t) (iblk6_7_eq V c t) (iblk6_8_eq V c t)).trans ?_
  rw [View.read_apply]
  have he : ((View.whole main_v71).slice ((win6 9).rect t)).emb (ix2 p q) = (ix2 n q : S50000x128.Idx) := by
    funext a
    apply Fin.ext
    match a with
    | ⟨0, _⟩ => show win6_9.index t 0 * 10000 + 1 * p.val = n.val; rw [e90, hn]; omega
    | ⟨1, _⟩ => show win6_9.index t 1 * 128 + 1 * q.val = q.val; rw [e91]; omega
  exact (congrArg (Spec.arr2 (Spec.gru (Spec.arr2 (Spec.xnK (V c main_v67) (V c main_v56) (V c main_v11) (V c main_v70))) (V c main_v53) (V c main_v14) (V c main_v15) (V c main_v16) (V c main_v17))) he).symm

/-- An index of the array is in point t's block iff each coordinate is in the block's range on its axis. -/
theorem mem_blk6 (t : Fin cfg6.N) (i : S50000x128.Idx) :
    i ∈ ((cfg6.win 9).blk t).view.set ↔ ∀ a : Fin 2, win6_9.index t a * S10000x128.size a ≤ (i a).val ∧ (i a).val < win6_9.index t a * S10000x128.size a + S10000x128.size a := by
  show i ∈ ((View.whole main_v71).slice (win6_9.rect t)).set ↔ _
  rw [View.set_slice_whole, Rect.mem_set_unit]
  exact Iff.rfl

/-- Every row lies in the block of the point row / 10000. -/
theorem cover6 (i : S50000x128.Idx) : ∃ t : Fin cfg6.N, (cfg6.win 9).flush t = true ∧ i ∈ ((cfg6.win 9).blk t).view.set := by
  have hN : cfg6.N = 5 := N_6
  have h0 : (i 0).val < 50000 := idx2_lt0 i
  have h1 : (i 1).val < 128 := idx2_lt1 i
  refine ⟨⟨(i 0).val / 10000, by omega⟩, flush6_9 _, ?_⟩
  obtain ⟨e90, e91⟩ := imap6_9 ⟨(i 0).val / 10000, by omega⟩
  rw [mem_blk6]
  intro a
  match a with
  | ⟨0, _⟩ => show win6_9.index _ (0 : Fin 2) * 10000 ≤ (i 0).val ∧ (i 0).val < win6_9.index _ (0 : Fin 2) * 10000 + 10000; rw [e90]; show (i 0).val / 10000 * 10000 ≤ (i 0).val ∧ (i 0).val < (i 0).val / 10000 * 10000 + 10000; omega
  | ⟨1, _⟩ => show win6_9.index _ (1 : Fin 2) * 128 ≤ (i 1).val ∧ (i 1).val < win6_9.index _ (1 : Fin 2) * 128 + 128; rw [e91]; omega

/-- The array region 6 leaves: the gated update of the state by the convolution's output, entry by entry. -/
theorem final6 (c : Dev nD) : ((dat6 (F := Ideal) V c).arrAt 9 cfg6.N : S50000x128.Idx → EReal)
    = Spec.arr2 (Spec.gru (Spec.arr2 (Spec.xnK (V c main_v67) (V c main_v56) (V c main_v11) (V c main_v70))) (V c main_v53) (V c main_v14) (V c main_v15) (V c main_v16) (V c main_v17)) :=
  (dat6 (F := Ideal) V c).arrAt_eq_of_cover 9 _ (fun t _ => flushed6 V c t) cover6

end Cert.KernelIdeal.KRegions

end
-- ==== Proof.KGru8.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 8: the convolution's output and the gated recurrent update of the state, block by block and as one array -/

theorem hz8 : (![0, 0] : Fin 2 → Nat) = fun _ => 0 := funext fun a => by fin_cases a <;> rfl

theorem lhs8_0 (i : S10000x384.Idx) (q : dot_S10000x128_S128x384_S10000x384_1_0_0_1_n_n.contr.Idx) :
    (dot_S10000x128_S128x384_S10000x384_1_0_0_1_n_n.lhsIdx i q 0).val = (i 0).val := by
  unfold DotDims.lhsIdx
  rw [dif_neg (show ¬(0 : Fin S10000x128.rank) ∈ dot_S10000x128_S128x384_S10000x384_1_0_0_1_n_n.lhsBatch by decide), dif_pos (show (0 : Fin S10000x128.rank) ∈ dot_S10000x128_S128x384_S10000x384_1_0_0_1_n_n.lhsNonContracting by decide)]
  rfl
theorem lhs8_1 (i : S10000x384.Idx) (q : dot_S10000x128_S128x384_S10000x384_1_0_0_1_n_n.contr.Idx) :
    (dot_S10000x128_S128x384_S10000x384_1_0_0_1_n_n.lhsIdx i q 1).val = (q ⟨0, by decide⟩).val :=
  dot_S10000x128_S128x384_S10000x384_1_0_0_1_n_n.lhsIdx_val_of_single rfl i q
theorem rhs8_0 (i : S10000x384.Idx) (q : dot_S10000x128_S128x384_S10000x384_1_0_0_1_n_n.contr.Idx) :
    (dot_S10000x128_S128x384_S10000x384_1_0_0_1_n_n.rhsIdx i q 0).val = (q ⟨0, by decide⟩).val :=
  dot_S10000x128_S128x384_S10000x384_1_0_0_1_n_n.rhsIdx_val_of_single rfl i q
theorem rhs8_1 (i : S10000x384.Idx) (q : dot_S10000x128_S128x384_S10000x384_1_0_0_1_n_n.contr.Idx) :
    (dot_S10000x128_S128x384_S10000x384_1_0_0_1_n_n.rhsIdx i q 1).val = (i 1).val := by
  unfold DotDims.rhsIdx
  rw [dif_neg (show ¬(1 : Fin S128x384.rank) ∈ dot_S10000x128_S128x384_S10000x384_1_0_0_1_n_n.rhsBatch by decide), dif_pos (show (1 : Fin S128x384.rank) ∈ dot_S10000x128_S128x384_S10000x384_1_0_0_1_n_n.rhsNonContracting by decide)]
  rfl

/-- The product of a 10000×128 block by a 128×384 matrix into the zero accumulator, at an entry: the sum over the 128 contracted lanes. -/
theorem mm8 (a : FVec Ideal S10000x128 .bf16) (w : FVec Ideal S128x384 .bf16) (r : Fin 10000) (j : Fin 384) :
    matmul dot_S10000x128_S128x384_S10000x384_1_0_0_1_n_n none a w (constant S10000x384 .f32 0x00000000#32) (ix2 r j)
      = ∑ k : Fin 128, a (ix2 r k) * w (ix2 k j) := by
  refine (Ideal.matmul_constant_zero_apply dot_S10000x128_S128x384_S10000x384_1_0_0_1_n_n none a w (ix2 r j)).trans ?_
  rw [← Equiv.sum_comp (contrEquiv1 dot_S10000x128_S128x384_S10000x384_1_0_0_1_n_n 128 rfl rfl).symm]
  refine Finset.sum_congr rfl fun k _ => ?_
  have hk := contrEquiv1_symm_val dot_S10000x128_S128x384_S10000x384_1_0_0_1_n_n 128 rfl rfl k
  have el : dot_S10000x128_S128x384_S10000x384_1_0_0_1_n_n.lhsIdx (ix2 r j) ((contrEquiv1 dot_S10000x128_S128x384_S10000x384_1_0_0_1_n_n 128 rfl rfl).symm k) = ix2 r k := funext fun b => Fin.ext (by
    match b with
    | ⟨0, _⟩ => exact lhs8_0 _ _
    | ⟨1, _⟩ => exact (lhs8_1 _ _).trans hk)
  have er : dot_S10000x128_S128x384_S10000x384_1_0_0_1_n_n.rhsIdx (ix2 r j) ((contrEquiv1 dot_S10000x128_S128x384_S10000x384_1_0_0_1_n_n 128 rfl rfl).symm k) = ix2 k j := funext fun b => Fin.ext (by
    match b with
    | ⟨0, _⟩ => exact (rhs8_0 _ _).trans hk
    | ⟨1, _⟩ => exact rhs8_1 _ _)
  rw [el, er]

/-- A one-row vector of 128 lanes broadcast down the rows reads its lane. -/
theorem bcastRow8 (v : FVec Ideal S1x128 .f32) (h : S1x128.Broadcasts S10000x128) (r : Fin 10000) (j : Fin 128) :
    broadcastTo S10000x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- A one-row vector of 384 lanes broadcast down the rows reads its lane. -/
theorem bcastGate8 (v : FVec Ideal S1x384 .f32) (h : S1x384.Broadcasts S10000x384) (r : Fin 10000) (q : Fin 384) :
    broadcastTo S10000x384 v h (ix2 r q) = v (ix2 0 q) :=
  broadcastTo_apply v h (ix2 r q) (ix2 0 q) (fun a => match a with
    | ⟨0, _⟩ => by show 0 = if (1 : Nat) = 1 then 0 else r.val; rw [if_pos rfl]
    | ⟨1, _⟩ => by show q.val = if (384 : Nat) = 1 then 0 else q.val; rw [if_neg (by decide)])

/-- A one-column vector broadcast along the lanes reads its row. -/
theorem bcastCol8 (v : FVec Ideal S10000x1 .f32) (h : S10000x1.Broadcasts S10000x128) (r : Fin 10000) (j : Fin 128) :
    broadcastTo S10000x128 v h (ix2 r j) = v (ix2 r 0) :=
  broadcastTo_apply v h (ix2 r j) (ix2 r 0) (fun a => match a with
    | ⟨0, _⟩ => by show r.val = if (10000 : Nat) = 1 then 0 else r.val; rw [if_neg (by decide)]
    | ⟨1, _⟩ => by show 0 = if (1 : Nat) = 1 then 0 else j.val; rw [if_pos rfl])

/-- The three lane slices of the 384 gate lanes: lanes j, 128 + j, 256 + j. -/
theorem slice0_8 (v : FVec Ideal S10000x384 .f32) (h : S10000x384.Slices ![0, 0] S10000x128) (r : Fin 10000) (j : Fin 128) :
    extractStridedSlice S10000x128 ![0, 0] v h (ix2 r j) = v (ix2 r (Spec.q0 j)) :=
  extractStridedSlice_apply ![0, 0] v h (ix2 r j) (ix2 r (Spec.q0 j)) (fun a => match a with
    | ⟨0, _⟩ => by show r.val = 0 + r.val; omega
    | ⟨1, _⟩ => by show j.val = 0 + j.val; omega)
theorem slice1_8 (v : FVec Ideal S10000x384 .f32) (h : S10000x384.Slices ![0, 128] S10000x128) (r : Fin 10000) (j : Fin 128) :
    extractStridedSlice S10000x128 ![0, 128] v h (ix2 r j) = v (ix2 r (Spec.q1 j)) :=
  extractStridedSlice_apply ![0, 128] v h (ix2 r j) (ix2 r (Spec.q1 j)) (fun a => match a with
    | ⟨0, _⟩ => by show r.val = 0 + r.val; omega
    | ⟨1, _⟩ => by show 128 + j.val = 128 + j.val; rfl)
theorem slice2_8 (v : FVec Ideal S10000x384 .f32) (h : S10000x384.Slices ![0, 256] S10000x128) (r : Fin 10000) (j : Fin 128) :
    extractStridedSlice S10000x128 ![0, 256] v h (ix2 r j) = v (ix2 r (Spec.q2 j)) :=
  extractStridedSlice_apply ![0, 256] v h (ix2 r j) (ix2 r (Spec.q2 j)) (fun a => match a with
    | ⟨0, _⟩ => by show r.val = 0 + r.val; omega
    | ⟨1, _⟩ => by show 256 + j.val = 256 + j.val; rfl)

/-- The input-side gate lanes, entry by entry: (Σ_k xn(r,k) WT(k,q)) + bi(0,q), where xn(r,k) = max (ds(r,0) · (agg(r,k) + xs(r,k)) + b(0,k)) 0
    is the convolution's output. -/
theorem payI8 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (q : Fin 384) :
    k8_pay3 v0 v3 v5 v10 v20 v27 (ix2 r q)
      = (∑ k : Fin 128, max (v3 (ix2 r 0) * (v5 (ix2 r k) + v0 (ix2 r k)) + v10 (ix2 0 k)) Spec.zeroF * v20 (ix2 k q)) + v27 (ix2 0 q) := by
  unfold k8_pay3
  simp only [shapeCast_self]
  refine (addf_apply _ _ _).trans (congrArg₂ (· + ·) ?_ (bcastGate8 _ _ r q))
  refine (mm8 _ _ r q).trans (Finset.sum_congr rfl fun k _ => congrArg₂ (· * ·) ?_ rfl)
  refine (truncf_apply (ψ := .bf16) _ bitsLt_bf16_f32 (ix2 r k)).trans ((maximumf_apply _ _ _).trans (congrArg₂ max ?_ rfl))
  refine (addf_apply _ _ _).trans (congrArg₂ (· + ·) ?_ (bcastRow8 _ _ r k))
  exact (mulf_apply _ _ _).trans (congrArg₂ (· * ·) (bcastCol8 _ _ r k) rfl)

/-- The state-side gate lanes, entry by entry: (Σ_k h(r,k) UT(k,q)) + bh(0,q). -/
theorem payH8 (v16 : Vec Ideal S10000x128 .f32) (v23 : Vec Ideal S128x384 .f32) (v32 : Vec Ideal S1x384 .f32) (r : Fin 10000) (q : Fin 384) :
    k8_pay4 v16 v23 v32 (ix2 r q) = (∑ k : Fin 128, v16 (ix2 r k) * v23 (ix2 k q)) + v32 (ix2 0 q) := by
  unfold k8_pay4 k8_pay2
  simp only [shapeCast_self]
  exact (addf_apply _ _ _).trans (congrArg₂ (· + ·) (mm8 _ _ r q) (bcastGate8 _ _ r q))

/-- The state as the body carries it is the state. -/
theorem payS8 (v16 : Vec Ideal S10000x128 .f32) : k8_pay2 v16 = v16 := by
  unfold k8_pay2
  exact shapeCast_self _ _

/-- The reset lanes of the two sides are lanes j of the gate lanes. -/
theorem payI0_8 (v0 : Vec Ideal S10000x128 .bf16) (v3 : Vec Ideal S10000x1 .f32) (v5 : Vec Ideal S10000x128 .f32) (v10 : Vec Ideal S1x128 .f32)
    (v20 : Vec Ideal S128x384 .f32) (v27 : Vec Ideal S1x384 .f32) (r : Fin 10000) (j : Fin 128) :
    k8_pay5 v0 v3 v5 v10 v20 v27 (ix2 r j) = k8_pay3 v0 v3 v5 v10 v20 v27 (ix2 r (Spec.q0 j)) := by
  unfold k8_pay5
  exact slice0_8 _ _ r j
theorem payH0_8 (v16 : Vec Ideal S10000x128 .f32) (v23 : Vec Ideal S128x384 .f32) (v32 : Vec Ideal S1x384 .f32) (r : Fin 10000) (j : Fin 128) :
    k8_pay6 v16 v23 v32 (ix2 r j) = k8_pay4 v16 v23 v32 (ix2 r (Spec.q0 j)) := by
  unfold k8_pay6
  exact slice0_8 _ _ r j

/-- The stored block from the state h, the gate lanes gi and gh and their reset lanes ri, rh, entry by entry:
    (1 - z) · tanh (gi₂ + logistic (ri + rh) · gh₂) + z · h with z = logistic (gi₁ + gh₁). -/
theorem payG8 (v17 : FVec Ideal S10000x128 .f32) (v30 v35 : FVec Ideal S10000x384 .f32) (v36 v37 : FVec Ideal S10000x128 .f32) (r : Fin 10000) (j : Fin 128) :
    k8_pay1 v17 v30 v35 v36 v37 (ix2 r j)
      = (Spec.oneF - Ideal.logistic (v30 (ix2 r (Spec.q1 j)) + v35 (ix2 r (Spec.q1 j))))
          * Ideal.tanh (v30 (ix2 r (Spec.q2 j)) + Ideal.logistic (v36 (ix2 r j) + v37 (ix2 r j)) * v35 (ix2 r (Spec.q2 j)))
        + Ideal.logistic (v30 (ix2 r (Spec.q1 j)) + v35 (ix2 r (Spec.q1 j))) * v17 (ix2 r j) := by
  unfold k8_pay1
  have a1 := slice1_8 v30 slices_S10000x384_o0_128_S10000x128 r j
  have b1 := slice1_8 v35 slices_S10000x384_o0_128_S10000x128 r j
  have a2 := slice2_8 v30 slices_S10000x384_o0_256_S10000x128 r j
  have b2 := slice2_8 v35 slices_S10000x384_o0_256_S10000x128 r j
  show (Spec.oneF - Ideal.logistic (extractStridedSlice S10000x128 ![0, 128] v30 slices_S10000x384_o0_128_S10000x128 (ix2 r j)
            + extractStridedSlice S10000x128 ![0, 128] v35 slices_S10000x384_o0_128_S10000x128 (ix2 r j)))
        * Ideal.tanh (extractStridedSlice S10000x128 ![0, 256] v30 slices_S10000x384_o0_256_S10000x128 (ix2 r j)
            + Ideal.logistic (v36 (ix2 r j) + v37 (ix2 r j)) * extractStridedSlice S10000x128 ![0, 256] v35 slices_S10000x384_o0_256_S10000x128 (ix2 r j))
      + Ideal.logistic (extractStridedSlice S10000x128 ![0, 128] v30 slices_S10000x384_o0_128_S10000x128 (ix2 r j)
            + extractStridedSlice S10000x128 ![0, 128] v35 slices_S10000x384_o0_128_S10000x128 (ix2 r j)) * v17 (ix2 r j) = _
  rw [a1, b1, a2, b2]

example : Pipeline.arrRef spec8 0 = main_v85 := rfl
example : Pipeline.arrRef spec8 1 = main_v74 := rfl
example : Pipeline.arrRef spec8 2 = main_v11 := rfl
example : Pipeline.arrRef spec8 3 = main_v88 := rfl
example : Pipeline.arrRef spec8 4 = main_v71 := rfl
example : Pipeline.arrRef spec8 5 = main_v14 := rfl
example : Pipeline.arrRef spec8 6 = main_v15 := rfl
example : Pipeline.arrRef spec8 7 = main_v16 := rfl
example : Pipeline.arrRef spec8 8 = main_v17 := rfl
example : Pipeline.arrRef spec8 9 = main_v89 := rfl

/-- The block-level identity: at row p of a block whose node rows are rows n of the arrays, the stored entry is the gated
    update of the state by the convolution's output, at (n, j). -/
theorem gruAt8 (x0 : Vec Ideal S10000x128 .f32) (x1 : Vec Ideal S10000x128 .bf16) (x2 : Vec Ideal S10000x1 .f32) (x3 : Vec Ideal S1x128 .f32)
    (x4 : Vec Ideal S10000x128 .f32) (x5 x6 : Vec Ideal S128x384 .f32) (x7 x8 : Vec Ideal S1x384 .f32)
    (agg xs : Spec.A2 50000 128) (ds : Spec.A2 50000 1) (b : Spec.A2 1 128) (h : Spec.A2 50000 128) (WT UT : Spec.A2 128 384) (bi bh : Spec.A2 1 384)
    (p : Fin 10000) (n : Fin 50000) (j : Fin 128)
    (h0 : ∀ k : Fin 128, x0 (ix2 p k) = agg (ix2 n k)) (h1 : ∀ k : Fin 128, x1 (ix2 p k) = xs (ix2 n k))
    (h2 : x2 (ix2 p 0) = ds (ix2 n 0)) (h3 : x3 = b) (h4 : ∀ k : Fin 128, x4 (ix2 p k) = h (ix2 n k))
    (h5 : x5 = WT) (h6 : x6 = UT) (h7 : x7 = bi) (h8 : x8 = bh) :
    k8_pay1 (k8_pay2 x4) (k8_pay3 x1 x2 x0 x3 x5 x7) (k8_pay4 x4 x6 x8) (k8_pay5 x1 x2 x0 x3 x5 x7) (k8_pay6 x4 x6 x8) (ix2 p j)
      = Spec.gru (Spec.arr2 (Spec.xnK agg xs ds b)) h WT UT bi bh n j := by
  subst h3 h5 h6 h7 h8
  refine (payG8 _ _ _ _ _ p j).trans ?_
  rw [payI0_8, payH0_8, payS8]
  simp only [payI8, payH8, h0, h1, h2, h4]
  rfl

/-- The index maps over the grid: the node arrays' block row is the point, every other block index is zero. -/
theorem imap8_0 : ∀ t : Fin cfg8.N, win8_0.index t (0 : Fin 2) = t.val ∧ win8_0.index t (1 : Fin 2) = 0 :=
  (by decide +kernel : ∀ t : Fin grid8.N, _)
theorem imap8_1 : ∀ t : Fin cfg8.N, win8_1.index t (0 : Fin 2) = t.val ∧ win8_1.index t (1 : Fin 2) = 0 :=
  (by decide +kernel : ∀ t : Fin grid8.N, _)
theorem imap8_2 : ∀ t : Fin cfg8.N, win8_2.index t (0 : Fin 2) = t.val ∧ win8_2.index t (1 : Fin 2) = 0 :=
  (by decide +kernel : ∀ t : Fin grid8.N, _)
theorem imap8_3 : ∀ t : Fin cfg8.N, win8_3.index t (0 : Fin 2) = 0 ∧ win8_3.index t (1 : Fin 2) = 0 :=
  (by decide +kernel : ∀ t : Fin grid8.N, _)
theorem imap8_4 : ∀ t : Fin cfg8.N, win8_4.index t (0 : Fin 2) = t.val ∧ win8_4.index t (1 : Fin 2) = 0 :=
  (by decide +kernel : ∀ t : Fin grid8.N, _)
theorem imap8_5 : ∀ t : Fin cfg8.N, win8_5.index t (0 : Fin 2) = 0 ∧ win8_5.index t (1 : Fin 2) = 0 :=
  (by decide +kernel : ∀ t : Fin grid8.N, _)
theorem imap8_6 : ∀ t : Fin cfg8.N, win8_6.index t (0 : Fin 2) = 0 ∧ win8_6.index t (1 : Fin 2) = 0 :=
  (by decide +kernel : ∀ t : Fin grid8.N, _)
theorem imap8_7 : ∀ t : Fin cfg8.N, win8_7.index t (0 : Fin 2) = 0 ∧ win8_7.index t (1 : Fin 2) = 0 :=
  (by decide +kernel : ∀ t : Fin grid8.N, _)
theorem imap8_8 : ∀ t : Fin cfg8.N, win8_8.index t (0 : Fin 2) = 0 ∧ win8_8.index t (1 : Fin 2) = 0 :=
  (by decide +kernel : ∀ t : Fin grid8.N, _)
theorem imap8_9 : ∀ t : Fin cfg8.N, win8_9.index t (0 : Fin 2) = t.val ∧ win8_9.index t (1 : Fin 2) = 0 :=
  (by decide +kernel : ∀ t : Fin grid8.N, _)

/-- Row p of the edge-sum block at point t is row 10000 t + p of the edge sum. -/
theorem iblk8_0_apply (c : Dev nD) (t : Fin cfg8.N) (p : Fin 10000) (k : Fin 128) (n : Fin 50000) (hn : n.val = t.val * 10000 + p.val) :
    (iblk8 V c 0 t : Vec Ideal S10000x128 .f32) (ix2 p k) = (V c main_v85 : S50000x128.Idx → EReal) (ix2 n k) := by
  obtain ⟨e0, e1⟩ := imap8_0 t
  unfold iblk8
  rw [View.read_apply]
  show V c main_v85 _ = V c main_v85 _
  congr 1
  funext a
  apply Fin.ext
  match a with
  | ⟨0, _⟩ => show win8_0.index t 0 * 10000 + 1 * p.val = n.val; rw [e0, hn]; omega
  | ⟨1, _⟩ => show win8_0.index t 1 * 128 + 1 * k.val = k.val; rw [e1]; omega

/-- Row p of the scaled-projection block at point t is row 10000 t + p of the scaled projection. -/
theorem iblk8_1_apply (c : Dev nD) (t : Fin cfg8.N) (p : Fin 10000) (k : Fin 128) (n : Fin 50000) (hn : n.val = t.val * 10000 + p.val) :
    (iblk8 V c 1 t : Vec Ideal S10000x128 .bf16) (ix2 p k) = (V c main_v74 : S50000x128.Idx → EReal) (ix2 n k) := by
  obtain ⟨e0, e1⟩ := imap8_1 t
  unfold iblk8
  rw [View.read_apply]
  show V c main_v74 _ = V c main_v74 _
  congr 1
  funext a
  apply Fin.ext
  match a with
  | ⟨0, _⟩ => show win8_1.index t 0 * 10000 + 1 * p.val = n.val; rw [e0, hn]; omega
  | ⟨1, _⟩ => show win8_1.index t 1 * 128 + 1 * k.val = k.val; rw [e1]; omega

/-- Row p of the factor column's block at point t is row 10000 t + p of the column. -/
theorem iblk8_2_apply (c : Dev nD) (t : Fin cfg8.N) (p : Fin 10000) (n : Fin 50000) (hn : n.val = t.val * 10000 + p.val) :
    (iblk8 V c 2 t : Vec Ideal S10000x1 .f32) (ix2 p 0) = (V c main_v11 : S50000x1.Idx → EReal) (ix2 n 0) := by
  obtain ⟨e0, e1⟩ := imap8_2 t
  unfold iblk8
  rw [View.read_apply]
  show V c main_v11 _ = V c main_v11 _
  congr 1
  funext a
  apply Fin.ext
  match a with
  | ⟨0, _⟩ => show win8_2.index t 0 * 10000 + 1 * p.val = n.val; rw [e0, hn]; omega
  | ⟨1, _⟩ => show win8_2.index t 1 * 1 + 1 * 0 = 0; rw [e1]

/-- The convolution bias block at every point is the whole bias row. -/
theorem iblk8_3_eq (c : Dev nD) (t : Fin cfg8.N) :
    (iblk8 V c 3 t : Vec Ideal S1x128 .f32) = (V c main_v88 : S1x128.Idx → EReal) := by
  obtain ⟨e0, e1⟩ := imap8_3 t
  unfold iblk8
  funext z
  rw [View.read_apply]
  show V c main_v88 _ = V c main_v88 _
  congr 1
  funext a
  apply Fin.ext
  match a with
  | ⟨0, _⟩ => show win8_3.index t 0 * 1 + 1 * (z 0).val = (z 0).val; rw [e0]; omega
  | ⟨1, _⟩ => show win8_3.index t 1 * 128 + 1 * (z 1).val = (z 1).val; rw [e1]; omega

/-- Row p of the state block at point t is row 10000 t + p of the state. -/
theorem iblk8_4_apply (c : Dev nD) (t : Fin cfg8.N) (p : Fin 10000) (k : Fin 128) (n : Fin 50000) (hn : n.val = t.val * 10000 + p.val) :
    (iblk8 V c 4 t : Vec Ideal S10000x128 .f32) (ix2 p k) = (V c main_v71 : S50000x128.Idx → EReal) (ix2 n k) := by
  obtain ⟨e0, e1⟩ := imap8_4 t
  unfold iblk8
  rw [View.read_apply]
  show V c main_v71 _ = V c main_v71 _
  congr 1
  funext a
  apply Fin.ext
  match a with
  | ⟨0, _⟩ => show win8_4.index t 0 * 10000 + 1 * p.val = n.val; rw [e0, hn]; omega
  | ⟨1, _⟩ => show win8_4.index t 1 * 128 + 1 * k.val = k.val; rw [e1]; omega

/-- The input-side gate weights' block at every point is the whole matrix. -/
theorem iblk8_5_eq (c : Dev nD) (t : Fin cfg8.N) :
    (iblk8 V c 5 t : Vec Ideal S128x384 .f32) = (V c main_v14 : S128x384.Idx → EReal) := by
  obtain ⟨e0, e1⟩ := imap8_5 t
  unfold iblk8
  funext z
  rw [View.read_apply]
  show V c main_v14 _ = V c main_v14 _
  congr 1
  funext a
  apply Fin.ext
  match a with
  | ⟨0, _⟩ => show win8_5.index t 0 * 128 + 1 * (z 0).val = (z 0).val; rw [e0]; omega
  | ⟨1, _⟩ => show win8_5.index t 1 * 384 + 1 * (z 1).val = (z 1).val; rw [e1]; omega

/-- The state-side gate weights' block at every point is the whole matrix. -/
theorem iblk8_6_eq (c : Dev nD) (t : Fin cfg8.N) :
    (iblk8 V c 6 t : Vec Ideal S128x384 .f32) = (V c main_v15 : S128x384.Idx → EReal) := by
  obtain ⟨e0, e1⟩ := imap8_6 t
  unfold iblk8
  funext z
  rw [View.read_apply]
  show V c main_v15 _ = V c main_v15 _
  congr 1
  funext a
  apply Fin.ext
  match a with
  | ⟨0, _⟩ => show win8_6.index t 0 * 128 + 1 * (z 0).val = (z 0).val; rw [e0]; omega
  | ⟨1, _⟩ => show win8_6.index t 1 * 384 + 1 * (z 1).val = (z 1).val; rw [e1]; omega

/-- The input-side gate bias block at every point is the whole row. -/
theorem iblk8_7_eq (c : Dev nD) (t : Fin cfg8.N) :
    (iblk8 V c 7 t : Vec Ideal S1x384 .f32) = (V c main_v16 : S1x384.Idx → EReal) := by
  obtain ⟨e0, e1⟩ := imap8_7 t
  unfold iblk8
  funext z
  rw [View.read_apply]
  show V c main_v16 _ = V c main_v16 _
  congr 1
  funext a
  apply Fin.ext
  match a with
  | ⟨0, _⟩ => show win8_7.index t 0 * 1 + 1 * (z 0).val = (z 0).val; rw [e0]; omega
  | ⟨1, _⟩ => show win8_7.index t 1 * 384 + 1 * (z 1).val = (z 1).val; rw [e1]; omega

/-- The state-side gate bias block at every point is the whole row. -/
theorem iblk8_8_eq (c : Dev nD) (t : Fin cfg8.N) :
    (iblk8 V c 8 t : Vec Ideal S1x384 .f32) = (V c main_v17 : S1x384.Idx → EReal) := by
  obtain ⟨e0, e1⟩ := imap8_8 t
  unfold iblk8
  funext z
  rw [View.read_apply]
  show V c main_v17 _ = V c main_v17 _
  congr 1
  funext a
  apply Fin.ext
  match a with
  | ⟨0, _⟩ => show win8_8.index t 0 * 1 + 1 * (z 0).val = (z 0).val; rw [e0]; omega
  | ⟨1, _⟩ => show win8_8.index t 1 * 384 + 1 * (z 1).val = (z 1).val; rw [e1]; omega

/-- What point t writes back is block t of the gated update of the whole arrays. -/
theorem flushed8 (c : Dev nD) (t : Fin cfg8.N) :
    (dat8 (F := Ideal) V c).flushed 9 t = ((cfg8.win 9).blk t).view.read (Elt Ideal)
      (Spec.arr2 (Spec.gru (Spec.arr2 (Spec.xnK (V c main_v85) (V c main_v74) (V c main_v11) (V c main_v88))) (V c main_v71) (V c main_v14) (V c main_v15) (V c main_v16) (V c main_v17))) := by
  show (cfg8.win 9).cut (grid8.coords t) ((dat8 V c).after 9 t) = _
  rw [after8_9]
  unfold out8_9
  rw [View.canon_unit_zero hz8]
  simp only [View.ld_unit_zero (S := S10000x128) hz8, View.ld_unit_zero (S := S10000x1) hz8, View.ld_unit_zero (S := S1x128) hz8,
    View.ld_unit_zero (S := S128x384) hz8, View.ld_unit_zero (S := S1x384) hz8]
  funext y
  obtain ⟨p, q, rfl⟩ : ∃ (p : Fin 10000) (q : Fin 128), y = ix2 p q := ⟨y 0, y 1, eq_ix2 y⟩
  have hN : cfg8.N = 5 := N_8
  have ht : t.val < 5 := by have := t.isLt; omega
  obtain ⟨n, hn⟩ : ∃ n : Fin 50000, n.val = t.val * 10000 + p.val := ⟨⟨t.val * 10000 + p.val, by omega⟩, rfl⟩
  obtain ⟨e90, e91⟩ := imap8_9 t
  refine (gruAt8 (iblk8 V c 0 t) (iblk8 V c 1 t) (iblk8 V c 2 t) (iblk8 V c 3 t) (iblk8 V c 4 t) (iblk8 V c 5 t)
    (iblk8 V c 6 t) (iblk8 V c 7 t) (iblk8 V c 8 t)
    (V c main_v85) (V c main_v74) (V c main_v11) (V c main_v88) (V c main_v71) (V c main_v14) (V c main_v15) (V c main_v16) (V c main_v17) p n q
    (fun k => iblk8_0_apply V c t p k n hn) (fun k => iblk8_1_apply V c t p k n hn) (iblk8_2_apply V c t p n hn) (iblk8_3_eq V c t)
    (fun k => iblk8_4_apply V c t p k n hn) (iblk8_5_eq V c t) (iblk8_6_eq V c t) (iblk8_7_eq V c t) (iblk8_8_eq V c t)).trans ?_
  rw [View.read_apply]
  have he : ((View.whole main_v89).slice ((win8 9).rect t)).emb (ix2 p q) = (ix2 n q : S50000x128.Idx) := by
    funext a
    apply Fin.ext
    match a with
    | ⟨0, _⟩ => show win8_9.index t 0 * 10000 + 1 * p.val = n.val; rw [e90, hn]; omega
    | ⟨1, _⟩ => show win8_9.index t 1 * 128 + 1 * q.val = q.val; rw [e91]; omega
  exact (congrArg (Spec.arr2 (Spec.gru (Spec.arr2 (Spec.xnK (V c main_v85) (V c main_v74) (V c main_v11) (V c main_v88))) (V c main_v71) (V c main_v14) (V c main_v15) (V c main_v16) (V c main_v17))) he).symm

/-- An index of the array is in point t's block iff each coordinate is in the block's range on its axis. -/
theorem mem_blk8 (t : Fin cfg8.N) (i : S50000x128.Idx) :
    i ∈ ((cfg8.win 9).blk t).view.set ↔ ∀ a : Fin 2, win8_9.index t a * S10000x128.size a ≤ (i a).val ∧ (i a).val < win8_9.index t a * S10000x128.size a + S10000x128.size a := by
  show i ∈ ((View.whole main_v89).slice (win8_9.rect t)).set ↔ _
  rw [View.set_slice_whole, Rect.mem_set_unit]
  exact Iff.rfl

/-- Every row lies in the block of the point row / 10000. -/
theorem cover8 (i : S50000x128.Idx) : ∃ t : Fin cfg8.N, (cfg8.win 9).flush t = true ∧ i ∈ ((cfg8.win 9).blk t).view.set := by
  have hN : cfg8.N = 5 := N_8
  have h0 : (i 0).val < 50000 := idx2_lt0 i
  have h1 : (i 1).val < 128 := idx2_lt1 i
  refine ⟨⟨(i 0).val / 10000, by omega⟩, flush8_9 _, ?_⟩
  obtain ⟨e90, e91⟩ := imap8_9 ⟨(i 0).val / 10000, by omega⟩
  rw [mem_blk8]
  intro a
  match a with
  | ⟨0, _⟩ => show win8_9.index _ (0 : Fin 2) * 10000 ≤ (i 0).val ∧ (i 0).val < win8_9.index _ (0 : Fin 2) * 10000 + 10000; rw [e90]; show (i 0).val / 10000 * 10000 ≤ (i 0).val ∧ (i 0).val < (i 0).val / 10000 * 10000 + 10000; omega
  | ⟨1, _⟩ => show win8_9.index _ (1 : Fin 2) * 128 ≤ (i 1).val ∧ (i 1).val < win8_9.index _ (1 : Fin 2) * 128 + 128; rw [e91]; omega

/-- The array region 8 leaves: the gated update of the state by the convolution's output, entry by entry. -/
theorem final8 (c : Dev nD) : ((dat8 (F := Ideal) V c).arrAt 9 cfg8.N : S50000x128.Idx → EReal)
    = Spec.arr2 (Spec.gru (Spec.arr2 (Spec.xnK (V c main_v85) (V c main_v74) (V c main_v11) (V c main_v88))) (V c main_v71) (V c main_v14) (V c main_v15) (V c main_v16) (V c main_v17)) :=
  (dat8 (F := Ideal) V c).arrAt_eq_of_cover 9 _ (fun t _ => flushed8 V c t) cover8

end Cert.KernelIdeal.KRegions

end
-- ==== Proof.KOut9.lean ====
import proofs.«171838_j74071005987300_2_alg».proof.Proof.Spec
import proofs.«171838_j74071005987300_2_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.KRegions

open Cert.KernelIdeal Cert.KernelIdeal.Gen Idealize.ShloMosaic Idealize.ShloMosaic.TcCoe Idealize.ShloMosaic.ValueIdx Idealize.ShloMosaic.Pipeline
open scoped BigOperators

variable (V : (c : Dev nD) → (b : Ref sig .tc) → Buf (Elt Ideal) ((c : Thread nD τ).loc b))

/-! # Region 9: the last linear map, g W + b, on the one point of its grid -/

example : Pipeline.arrRef spec9 0 = main_v101 := rfl
example : Pipeline.arrRef spec9 1 = main_arg11 := rfl
example : Pipeline.arrRef spec9 2 = main_v102 := rfl
example : Pipeline.arrRef spec9 3 = main_v103 := rfl

theorem hz9 : (![0, 0] : Fin 2 → Nat) = fun _ => 0 := funext fun a => by fin_cases a <;> rfl

theorem lhs9_0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs9_1 (i : S512x128.Idx) (q : dot_S512x128_S128x128_S512x128_1_0_0_1_n_n.contr.Idx) :
    (dot_S512x128_S128x128_S512x128_1_0_0_1_n_n.lhsIdx i q 1).val = (q ⟨0, by decide⟩).val :=
  dot_S512x128_S128x128_S512x128_1_0_0_1_n_n.lhsIdx_val_of_single rfl i q
theorem rhs9_0 (i : S512x128.Idx) (q : dot_S512x128_S128x128_S512x128_1_0_0_1_n_n.contr.Idx) :
    (dot_S512x128_S128x128_S512x128_1_0_0_1_n_n.rhsIdx i q 0).val = (q ⟨0, by decide⟩).val :=
  dot_S512x128_S128x128_S512x128_1_0_0_1_n_n.rhsIdx_val_of_single rfl i q
theorem rhs9_1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The product of the 512×128 block by a 128×128 matrix into the zero accumulator, at an entry: the sum over the 128 contracted lanes. -/
theorem mm9 (a : FVec Ideal S512x128 .bf16) (w : FVec Ideal S128x128 .bf16) (r : Fin 512) (j : Fin 128) :
    matmul dot_S512x128_S128x128_S512x128_1_0_0_1_n_n none a w (constant S512x128 .f32 0x00000000#32) (ix2 r j)
      = ∑ k : Fin 128, a (ix2 r k) * w (ix2 k j) := by
  refine (Ideal.matmul_constant_zero_apply dot_S512x128_S128x128_S512x128_1_0_0_1_n_n none a w (ix2 r j)).trans ?_
  rw [← Equiv.sum_comp (contrEquiv1 dot_S512x128_S128x128_S512x128_1_0_0_1_n_n 128 rfl rfl).symm]
  refine Finset.sum_congr rfl fun k _ => ?_
  have hk := contrEquiv1_symm_val dot_S512x128_S128x128_S512x128_1_0_0_1_n_n 128 rfl rfl k
  have el : dot_S512x128_S128x128_S512x128_1_0_0_1_n_n.lhsIdx (ix2 r j) ((contrEquiv1 dot_S512x128_S128x128_S512x128_1_0_0_1_n_n 128 rfl rfl).symm k) = ix2 r k := funext fun b => Fin.ext (by
    match b with
    | ⟨0, _⟩ => exact lhs9_0 _ _
    | ⟨1, _⟩ => exact (lhs9_1 _ _).trans hk)
  have er : dot_S512x128_S128x128_S512x128_1_0_0_1_n_n.rhsIdx (ix2 r j) ((contrEquiv1 dot_S512x128_S128x128_S512x128_1_0_0_1_n_n 128 rfl rfl).symm k) = ix2 k j := funext fun b => Fin.ext (by
    match b with
    | ⟨0, _⟩ => exact (rhs9_0 _ _).trans hk
    | ⟨1, _⟩ => exact rhs9_1 _ _)
  rw [el, er]

/-- A one-row vector broadcast down the rows reads its lane. -/
theorem bcastRow9 (v : FVec Ideal S1x128 .f32) (h : S1x128.Broadcasts S512x128) (r : Fin 512) (j : Fin 128) :
    broadcastTo S512x128 v h (ix2 r j) = v (ix2 0 j) :=
  broadcastTo_apply v h (ix2 r j) (ix2 0 j) (fun a => match a with
    | ⟨0, _⟩ => by show 0 = if (1 : Nat) = 1 then 0 else r.val; rw [if_pos rfl]
    | ⟨1, _⟩ => by show j.val = if (128 : Nat) = 1 then 0 else j.val; rw [if_neg (by decide)])

/-- The stored block, entry by entry: Σ_k g(r,k) W(k,j) + b(0,j). -/
theorem pay9 (v0 : Vec Ideal S512x128 .f32) (v3 : Vec Ideal S128x128 .f32) (v6 : Vec Ideal S1x128 .f32) (r : Fin 512) (j : Fin 128) :
    k9_pay1 v0 v3 v6 (ix2 r j) = (∑ k : Fin 128, v0 (ix2 r k) * v3 (ix2 k j)) + v6 (ix2 0 j) := by
  unfold k9_pay1
  simp only [shapeCast_self]
  exact (addf_apply _ _ _).trans (congrArg₂ (· + ·) (mm9 _ _ r j) (bcastRow9 _ _ r j))

/-- The index maps on the one grid point: every block index is zero. -/
theorem imap9 : ∀ t : Fin cfg9.N, win9_0.index t (0 : Fin 2) = 0 ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = 0 ∧ win9_3.index t (1 : Fin 2) = 0 :=
  (by decide +kernel : ∀ t : Fin grid9.N, _)

/-- The pooled-features block is the whole array. -/
theorem iblk9_0_eq (c : Dev nD) (t : Fin cfg9.N) :
    (iblk9 V c 0 t : Vec Ideal S512x128 .f32) = (V c main_v101 : S512x128.Idx → EReal) := by
  obtain ⟨e0, e1, -⟩ := imap9 t
  unfold iblk9
  funext z
  rw [View.read_apply]
  show V c main_v101 _ = V c main_v101 _
  congr 1
  funext a
  apply Fin.ext
  match a with
  | ⟨0, _⟩ => show win9_0.index t 0 * 512 + 1 * (z 0).val = (z 0).val; rw [e0]; omega
  | ⟨1, _⟩ => show win9_0.index t 1 * 128 + 1 * (z 1).val = (z 1).val; rw [e1]; omega

/-- The weight block is the whole weight matrix. -/
theorem iblk9_1_eq (c : Dev nD) (t : Fin cfg9.N) :
    (iblk9 V c 1 t : Vec Ideal S128x128 .f32) = (V c main_arg11 : S128x128.Idx → EReal) := by
  obtain ⟨-, -, e0, e1, -⟩ := imap9 t
  unfold iblk9
  funext z
  rw [View.read_apply]
  show V c main_arg11 _ = V c main_arg11 _
  congr 1
  funext a
  apply Fin.ext
  match a with
  | ⟨0, _⟩ => show win9_1.index t 0 * 128 + 1 * (z 0).val = (z 0).val; rw [e0]; omega
  | ⟨1, _⟩ => show win9_1.index t 1 * 128 + 1 * (z 1).val = (z 1).val; rw [e1]; omega

/-- The bias block is the whole bias row. -/
theorem iblk9_2_eq (c : Dev nD) (t : Fin cfg9.N) :
    (iblk9 V c 2 t : Vec Ideal S1x128 .f32) = (V c main_v102 : S1x128.Idx → EReal) := by
  obtain ⟨-, -, -, -, e0, e1, -⟩ := imap9 t
  unfold iblk9
  funext z
  rw [View.read_apply]
  show V c main_v102 _ = V c main_v102 _
  congr 1
  funext a
  apply Fin.ext
  match a with
  | ⟨0, _⟩ => show win9_2.index t 0 * 1 + 1 * (z 0).val = (z 0).val; rw [e0]; omega
  | ⟨1, _⟩ => show win9_2.index t 1 * 128 + 1 * (z 1).val = (z 1).val; rw [e1]; omega

/-- What the one point writes back is the (whole-array) block of the linear map of the whole arrays. -/
theorem flushed9 (c : Dev nD) (t : Fin cfg9.N) :
    (dat9 (F := Ideal) V c).flushed 3 t = ((cfg9.win 3).blk t).view.read (Elt Ideal)
      (Spec.arr2 (Spec.outp (V c main_v101) (V c main_arg11) (V c main_v102))) := by
  show (cfg9.win 3).cut (grid9.coords t) ((dat9 V c).after 3 t) = _
  rw [after9_3]
  unfold out9_3
  rw [View.canon_unit_zero hz9]
  simp only [View.ld_unit_zero (S := S512x128) hz9, View.ld_unit_zero (S := S128x128) hz9, View.ld_unit_zero (S := S1x128) hz9]
  funext y
  obtain ⟨p, q, rfl⟩ : ∃ (p : Fin 512) (q : Fin 128), y = ix2 p q := ⟨y 0, y 1, eq_ix2 y⟩
  obtain ⟨-, -, -, -, -, -, e30, e31⟩ := imap9 t
  refine (pay9 (iblk9 V c 0 t) (iblk9 V c 1 t) (iblk9 V c 2 t) p q).trans ?_
  refine Eq.trans (congrArg₂ (· + ·) (Finset.sum_congr rfl fun k _ =>
      congrArg₂ (· * ·) (congrFun (iblk9_0_eq V c t) (ix2 p k)) (congrFun (iblk9_1_eq V c t) (ix2 k q)))
    (congrFun (iblk9_2_eq V c t) (ix2 0 q))) ?_
  rw [View.read_apply]
  have he : ((View.whole main_v103).slice ((win9 3).rect t)).emb (ix2 p q) = (ix2 p q : S512x128.Idx) := by
    funext a
    apply Fin.ext
    match a with
    | ⟨0, _⟩ => show win9_3.index t 0 * 512 + 1 * p.val = p.val; rw [e30]; omega
    | ⟨1, _⟩ => show win9_3.index t 1 * 128 + 1 * q.val = q.val; rw [e31]; omega
  exact (congrArg (Spec.arr2 (Spec.outp (V c main_v101) (V c main_arg11) (V c main_v102))) he).symm

/-- An index of the array is in the point's block iff each coordinate is in the block's range on its axis. -/
theorem mem_blk9 (t : Fin cfg9.N) (i : S512x128.Idx) :
    i ∈ ((cfg9.win 3).blk t).view.set ↔ ∀ a : Fin 2, win9_3.index t a * S512x128.size a ≤ (i a).val ∧ (i a).val < win9_3.index t a * S512x128.size a + S512x128.size a := by
  show i ∈ ((View.whole main_v103).slice (win9_3.rect t)).set ↔ _
  rw [View.set_slice_whole, Rect.mem_set_unit]
  exact Iff.rfl

/-- The one point's block is the whole array. -/
theorem cover9 (i : S512x128.Idx) : ∃ t : Fin cfg9.N, (cfg9.win 3).flush t = true ∧ i ∈ ((cfg9.win 3).blk t).view.set := by
  have hN : cfg9.N = 1 := N_9
  have h0 : (i 0).val < 512 := idx2_lt0 i
  have h1 : (i 1).val < 128 := idx2_lt1 i
  refine ⟨⟨0, by omega⟩, flush9_3 _, ?_⟩
  obtain ⟨-, -, -, -, -, -, e30, e31⟩ := imap9 ⟨0, by omega⟩
  rw [mem_blk9]
  intro a
  match a with
  | ⟨0, _⟩ => show win9_3.index _ (0 : Fin 2) * 512 ≤ (i 0).val ∧ (i 0).val < win9_3.index _ (0 : Fin 2) * 512 + 512; rw [e30]; omega
  | ⟨1, _⟩ => show win9_3.index _ (1 : Fin 2) * 128 ≤ (i 1).val ∧ (i 1).val < win9_3.index _ (1 : Fin 2) * 128 + 128; rw [e31]; omega

/-- The array region 9 leaves: the last linear map of the pooled features, entry by entry. -/
theorem final9 (c : Dev nD) : ((dat9 (F := Ideal) V c).arrAt 3 cfg9.N : S512x128.Idx → EReal)
    = Spec.arr2 (Spec.outp (V c main_v101) (V c main_arg11) (V c main_v102)) :=
  (dat9 (F := Ideal) V c).arrAt_eq_of_cover 3 _ (fun t _ => flushed9 V c t) cover9

end Cert.KernelIdeal.KRegions

end
-- ==== Proof.KWalk.lean ====
import proofs.«171838_j74071005987300_2_alg».proof.Proof.Gen.KernelIdeal.Frame
import proofs.«171838_j74071005987300_2_alg».proof.Proof.Spec
import proofs.«171838_j74071005987300_2_alg».proof.Proof.KHost
import proofs.«171838_j74071005987300_2_alg».proof.Proof.KReg0
import proofs.«171838_j74071005987300_2_alg».proof.Proof.KProj1
import proofs.«171838_j74071005987300_2_alg».proof.Proof.KProj3
import proofs.«171838_j74071005987300_2_alg».proof.Proof.KProj5
import proofs.«171838_j74071005987300_2_alg».proof.Proof.KProj7
import proofs.«171838_j74071005987300_2_alg».proof.Proof.KGru2
import proofs.«171838_j74071005987300_2_alg».proof.Proof.KGru4
import proofs.«171838_j74071005987300_2_alg».proof.Proof.KGru6
import proofs.«171838_j74071005987300_2_alg».proof.Proof.KGru8
import proofs.«171838_j74071005987300_2_alg».proof.Proof.KOut9

/-!
# What the idealized kernel program leaves in its result buffer

The program is twenty segments: ten stretches of host operations alternating with ten kernel regions. The contents of
every buffer at each segment boundary are a fold from the launch memory. Each buffer a later segment reads is followed
here from the boundary that writes it to the boundary that reads it: a region leaves a bystander and its own inputs as
it found them and writes its output array as one function of its input arrays; a stretch of host operations leaves
what it does not write. Round by round this gives the state after each round as the specification's `state`, and the
result as the specification's `model` at the kernel's arrangement of a round's convolution.
-/

set_option maxRecDepth 16384
set_option maxHeartbeats 2000000

noncomputable section

namespace Cert.KernelIdeal.KWalk

open Cert.KernelIdeal Cert.KernelIdeal.Gen Cert.KernelIdeal.KRegions
open Idealize.ShloMosaic Idealize.ShloMosaic.TcCoe Idealize.ShloMosaic.Tactic Idealize.ShloMosaic.ValueIdx
open Idealize.SL Idealize.SL.Sem
open Idealize.ShloMosaic.Pipeline (Dat Cfg Window)
open Cert.Spec (A1 A2 A3 I1 I2)

variable (m : (ℓ : Loc nD τ sig) → Buf (Elt Ideal) ℓ) (ρ : Dev nD → PrngReg) (c : Dev nD)

/-! ## A region leaves each of its input arrays as it found it -/

theorem in_1_2 : W4 m ρ c (Proc.devRef .tc main_v11) = W3 m ρ c (Proc.devRef .tc main_v11) :=
  (W4_arr m ρ c 2).trans (((dat1 (V3 m ρ) c).arrAt_in 2 rfl _).trans (A_eq1 (V3 m ρ) c 2))
theorem in_2_2 : W6 m ρ c (Proc.devRef .tc main_v11) = W5 m ρ c (Proc.devRef .tc main_v11) :=
  (W6_arr m ρ c 2).trans (((dat2 (V5 m ρ) c).arrAt_in 2 rfl _).trans (A_eq2 (V5 m ρ) c 2))
theorem in_3_2 : W8 m ρ c (Proc.devRef .tc main_v11) = W7 m ρ c (Proc.devRef .tc main_v11) :=
  (W8_arr m ρ c 2).trans (((dat3 (V7 m ρ) c).arrAt_in 2 rfl _).trans (A_eq3 (V7 m ρ) c 2))
theorem in_4_2 : W10 m ρ c (Proc.devRef .tc main_v11) = W9 m ρ c (Proc.devRef .tc main_v11) :=
  (W10_arr m ρ c 2).trans (((dat4 (V9 m ρ) c).arrAt_in 2 rfl _).trans (A_eq4 (V9 m ρ) c 2))
theorem in_5_2 : W12 m ρ c (Proc.devRef .tc main_v11) = W11 m ρ c (Proc.devRef .tc main_v11) :=
  (W12_arr m ρ c 2).trans (((dat5 (V11 m ρ) c).arrAt_in 2 rfl _).trans (A_eq5 (V11 m ρ) c 2))
theorem in_6_2 : W14 m ρ c (Proc.devRef .tc main_v11) = W13 m ρ c (Proc.devRef .tc main_v11) :=
  (W14_arr m ρ c 2).trans (((dat6 (V13 m ρ) c).arrAt_in 2 rfl _).trans (A_eq6 (V13 m ρ) c 2))
theorem in_7_2 : W16 m ρ c (Proc.devRef .tc main_v11) = W15 m ρ c (Proc.devRef .tc main_v11) :=
  (W16_arr m ρ c 2).trans (((dat7 (V15 m ρ) c).arrAt_in 2 rfl _).trans (A_eq7 (V15 m ρ) c 2))
theorem in_1_0 : W4 m ρ c (Proc.devRef .tc main_v13) = W3 m ρ c (Proc.devRef .tc main_v13) :=
  (W4_arr m ρ c 0).trans (((dat1 (V3 m ρ) c).arrAt_in 0 rfl _).trans (A_eq1 (V3 m ρ) c 0))
theorem in_3_0 : W8 m ρ c (Proc.devRef .tc main_v35) = W7 m ρ c (Proc.devRef .tc main_v35) :=
  (W8_arr m ρ c 0).trans (((dat3 (V7 m ρ) c).arrAt_in 0 rfl _).trans (A_eq3 (V7 m ρ) c 0))
theorem in_5_0 : W12 m ρ c (Proc.devRef .tc main_v53) = W11 m ρ c (Proc.devRef .tc main_v53) :=
  (W12_arr m ρ c 0).trans (((dat5 (V11 m ρ) c).arrAt_in 0 rfl _).trans (A_eq5 (V11 m ρ) c 0))
theorem in_7_0 : W16 m ρ c (Proc.devRef .tc main_v71) = W15 m ρ c (Proc.devRef .tc main_v71) :=
  (W16_arr m ρ c 0).trans (((dat7 (V15 m ρ) c).arrAt_in 0 rfl _).trans (A_eq7 (V15 m ρ) c 0))
theorem in_2_5 : W6 m ρ c (Proc.devRef .tc main_v14) = W5 m ρ c (Proc.devRef .tc main_v14) :=
  (W6_arr m ρ c 5).trans (((dat2 (V5 m ρ) c).arrAt_in 5 rfl _).trans (A_eq2 (V5 m ρ) c 5))
theorem in_2_6 : W6 m ρ c (Proc.devRef .tc main_v15) = W5 m ρ c (Proc.devRef .tc main_v15) :=
  (W6_arr m ρ c 6).trans (((dat2 (V5 m ρ) c).arrAt_in 6 rfl _).trans (A_eq2 (V5 m ρ) c 6))
theorem in_2_7 : W6 m ρ c (Proc.devRef .tc main_v16) = W5 m ρ c (Proc.devRef .tc main_v16) :=
  (W6_arr m ρ c 7).trans (((dat2 (V5 m ρ) c).arrAt_in 7 rfl _).trans (A_eq2 (V5 m ρ) c 7))
theorem in_2_8 : W6 m ρ c (Proc.devRef .tc main_v17) = W5 m ρ c (Proc.devRef .tc main_v17) :=
  (W6_arr m ρ c 8).trans (((dat2 (V5 m ρ) c).arrAt_in 8 rfl _).trans (A_eq2 (V5 m ρ) c 8))
theorem in_4_5 : W10 m ρ c (Proc.devRef .tc main_v14) = W9 m ρ c (Proc.devRef .tc main_v14) :=
  (W10_arr m ρ c 5).trans (((dat4 (V9 m ρ) c).arrAt_in 5 rfl _).trans (A_eq4 (V9 m ρ) c 5))
theorem in_4_6 : W10 m ρ c (Proc.devRef .tc main_v15) = W9 m ρ c (Proc.devRef .tc main_v15) :=
  (W10_arr m ρ c 6).trans (((dat4 (V9 m ρ) c).arrAt_in 6 rfl _).trans (A_eq4 (V9 m ρ) c 6))
theorem in_4_7 : W10 m ρ c (Proc.devRef .tc main_v16) = W9 m ρ c (Proc.devRef .tc main_v16) :=
  (W10_arr m ρ c 7).trans (((dat4 (V9 m ρ) c).arrAt_in 7 rfl _).trans (A_eq4 (V9 m ρ) c 7))
theorem in_4_8 : W10 m ρ c (Proc.devRef .tc main_v17) = W9 m ρ c (Proc.devRef .tc main_v17) :=
  (W10_arr m ρ c 8).trans (((dat4 (V9 m ρ) c).arrAt_in 8 rfl _).trans (A_eq4 (V9 m ρ) c 8))
theorem in_6_5 : W14 m ρ c (Proc.devRef .tc main_v14) = W13 m ρ c (Proc.devRef .tc main_v14) :=
  (W14_arr m ρ c 5).trans (((dat6 (V13 m ρ) c).arrAt_in 5 rfl _).trans (A_eq6 (V13 m ρ) c 5))
theorem in_6_6 : W14 m ρ c (Proc.devRef .tc main_v15) = W13 m ρ c (Proc.devRef .tc main_v15) :=
  (W14_arr m ρ c 6).trans (((dat6 (V13 m ρ) c).arrAt_in 6 rfl _).trans (A_eq6 (V13 m ρ) c 6))
theorem in_6_7 : W14 m ρ c (Proc.devRef .tc main_v16) = W13 m ρ c (Proc.devRef .tc main_v16) :=
  (W14_arr m ρ c 7).trans (((dat6 (V13 m ρ) c).arrAt_in 7 rfl _).trans (A_eq6 (V13 m ρ) c 7))
theorem in_6_8 : W14 m ρ c (Proc.devRef .tc main_v17) = W13 m ρ c (Proc.devRef .tc main_v17) :=
  (W14_arr m ρ c 8).trans (((dat6 (V13 m ρ) c).arrAt_in 8 rfl _).trans (A_eq6 (V13 m ρ) c 8))

attribute [local irreducible] W2 W4 W6 W8 W10 W12 W14 W16 W18 W20

/-- One step back through a stretch of host operations none of which writes the buffer. -/
macro "host_back" : tactic =>
  `(tactic| (refine (StableHlo.after_of_forall_not_mem _ _ ?_).trans ?_
             · refine List.forall_iff_forall_mem.mp ?_
               simp only [hostOps0, hostOps1, hostOps2, hostOps3, hostOps4, hostOps5, hostOps6, hostOps7, hostOps8, hostOps9,
                 List.Forall, StableHlo.nullary_writes, StableHlo.unary_writes, StableHlo.binary_writes, StableHlo.ternary_writes,
                 StableHlo.quaternary_writes, StableHlo.reshape_writes, StableHlo.binaryIndexed_writes, Finset.mem_singleton]
               repeat' apply And.intro
               all_goals (apply StableHlo.devRef_ne_of_ne; decide)))

/-- One step back through a region that does not write the buffer: a bystander keeps its contents, an input array is
    what the region found. -/
macro "region_back" : tactic =>
  `(tactic| first
      | (refine (W20_of_ne m ρ c _ ?_).trans ?_
         · decide)
      | (refine (W18_of_ne m ρ c _ ?_).trans ?_
         · decide)
      | (refine (W16_of_ne m ρ c _ ?_).trans ?_
         · decide)
      | (refine (W14_of_ne m ρ c _ ?_).trans ?_
         · decide)
      | (refine (W12_of_ne m ρ c _ ?_).trans ?_
         · decide)
      | (refine (W10_of_ne m ρ c _ ?_).trans ?_
         · decide)
      | (refine (W8_of_ne m ρ c _ ?_).trans ?_
         · decide)
      | (refine (W6_of_ne m ρ c _ ?_).trans ?_
         · decide)
      | (refine (W4_of_ne m ρ c _ ?_).trans ?_
         · decide)
      | (refine (W2_of_ne m ρ c _ ?_).trans ?_
         · decide)
      | refine (in_1_2 m ρ c).trans ?_
      | refine (in_2_2 m ρ c).trans ?_
      | refine (in_3_2 m ρ c).trans ?_
      | refine (in_4_2 m ρ c).trans ?_
      | refine (in_5_2 m ρ c).trans ?_
      | refine (in_6_2 m ρ c).trans ?_
      | refine (in_7_2 m ρ c).trans ?_
      | refine (in_1_0 m ρ c).trans ?_
      | refine (in_3_0 m ρ c).trans ?_
      | refine (in_5_0 m ρ c).trans ?_
      | refine (in_7_0 m ρ c).trans ?_
      | refine (in_2_5 m ρ c).trans ?_
      | refine (in_2_6 m ρ c).trans ?_
      | refine (in_2_7 m ρ c).trans ?_
      | refine (in_2_8 m ρ c).trans ?_
      | refine (in_4_5 m ρ c).trans ?_
      | refine (in_4_6 m ρ c).trans ?_
      | refine (in_4_7 m ρ c).trans ?_
      | refine (in_4_8 m ρ c).trans ?_
      | refine (in_6_5 m ρ c).trans ?_
      | refine (in_6_6 m ρ c).trans ?_
      | refine (in_6_7 m ρ c).trans ?_
      | refine (in_6_8 m ρ c).trans ?_)

/-- Walks the buffer on the left back through the segment boundaries, as far as nothing writes it: from a boundary
    after a stretch of host operations (`walk_h`) or after a region (`walk_r`). -/
macro "walk_h" : tactic => `(tactic| (repeat (host_back; region_back)
                                      try host_back))
macro "walk_r" : tactic => `(tactic| (region_back; walk_h))

/-! ## The argument arrays, as the specification's array types -/

/-- Argument 0 at launch. -/
abbrev a0 : Spec.A2 50000 128 := m ((c : Thread nD τ).loc main_arg0)
/-- Argument 1 at launch. -/
abbrev a1 : Spec.I2 2 600000 := m ((c : Thread nD τ).loc main_arg1)
/-- Argument 2 at launch. -/
abbrev a2 : Spec.I1 50000 := m ((c : Thread nD τ).loc main_arg2)
/-- Argument 3 at launch. -/
abbrev a3 : Spec.A2 128 128 := m ((c : Thread nD τ).loc main_arg3)
/-- Argument 4 at launch. -/
abbrev a4 : Spec.A1 128 := m ((c : Thread nD τ).loc main_arg4)
/-- Argument 5 at launch. -/
abbrev a5 : Spec.A3 4 128 128 := m ((c : Thread nD τ).loc main_arg5)
/-- Argument 6 at launch. -/
abbrev a6 : Spec.A2 4 128 := m ((c : Thread nD τ).loc main_arg6)
/-- Argument 7 at launch. -/
abbrev a7 : Spec.A2 384 128 := m ((c : Thread nD τ).loc main_arg7)
/-- Argument 8 at launch. -/
abbrev a8 : Spec.A2 384 128 := m ((c : Thread nD τ).loc main_arg8)
/-- Argument 9 at launch. -/
abbrev a9 : Spec.A1 384 := m ((c : Thread nD τ).loc main_arg9)
/-- Argument 10 at launch. -/
abbrev a10 : Spec.A1 384 := m ((c : Thread nD τ).loc main_arg10)
/-- Argument 11 at launch. -/
abbrev a11 : Spec.A2 128 128 := m ((c : Thread nD τ).loc main_arg11)
/-- Argument 12 at launch. -/
abbrev a12 : Spec.A1 128 := m ((c : Thread nD τ).loc main_arg12)

/-- The state after `k` rounds, at the kernel's arrangement of the convolution. -/
abbrev H (k : Nat) : A2 50000 128 :=
  Spec.state Spec.stepK (a0 m c) (a1 m c) (a3 m c) (a4 m c) (a5 m c) (a6 m c) (a7 m c) (a8 m c) (a9 m c) (a10 m c) k
/-- The inverse square roots of the degrees, as a column. -/
abbrev DS : A2 50000 1 := Spec.dsCol (Spec.dstOf (a1 m c))
/-- Round `r`'s scaled projection. -/
abbrev XS (r : Fin 4) : A2 50000 128 := Spec.arr2 (Spec.proj (H m c r.val) (Spec.layer (a5 m c) r) (DS m c))

/-! ## The first stretch of host operations and the embedding -/

theorem w1_v1 : W1 m ρ c (Proc.devRef .tc main_v1) = KHost.srcWords (a1 m c) := by
  dsimp only [W1]; after_results; rfl
theorem w1_v3 : W1 m ρ c (Proc.devRef .tc main_v3) = KHost.dstWords (a1 m c) := by
  dsimp only [W1]; after_results; rfl
theorem w1_v11 : W1 m ρ c (Proc.devRef .tc main_v11) = DS m c := by
  dsimp only [W1]; after_results; exact KHost.dsColChain_eq _
theorem w1_v12 : W1 m ρ c (Proc.devRef .tc main_v12) = Spec.rowOf (a4 m c) := by
  dsimp only [W1]; after_results; exact KHost.row128 _

/-- An argument array is as launched at every boundary up to the one named. -/
theorem w1_arg0 : W1 m ρ c (Proc.devRef .tc main_arg0) = a0 m c := by walk_h; rfl
theorem w1_arg3 : W1 m ρ c (Proc.devRef .tc main_arg3) = a3 m c := by walk_h; rfl

/-- The source and target words of the edges, as every later boundary holds them. -/
theorem src_fun : (fun e : Fin 600000 => KHost.srcWords (a1 m c) (ix1 e)) = Spec.srcOf (a1 m c) :=
  funext fun e => KHost.srcWords_apply _ e
theorem dst_fun : (fun e : Fin 600000 => KHost.dstWords (a1 m c) (ix1 e)) = Spec.dstOf (a1 m c) :=
  funext fun e => KHost.dstWords_apply _ e

theorem w2_h : W2 m ρ c (Proc.devRef .tc main_v13) = H m c 0 := by
  refine (W2_arr m ρ c 3).trans ?_
  refine (final0 (V1 m ρ) c).trans ?_
  show Spec.arr2 (Spec.embed (W1 m ρ c (Proc.devRef .tc main_arg0)) (W1 m ρ c (Proc.devRef .tc main_arg3)) (W1 m ρ c (Proc.devRef .tc main_v12))) = _
  rw [w1_arg0, w1_arg3, w1_v12]
  rfl

/-! ## The gate weights, transposed and reshaped once, before the first round -/

theorem w3_v14 : W3 m ρ c (Proc.devRef .tc main_v14) = Spec.tr (a7 m c) := by
  dsimp only [W3]; after_results
  rw [show W2 m ρ c (Proc.devRef .tc main_arg7) = a7 m c from by walk_r; rfl]
  exact KHost.tr384 _
theorem w3_v15 : W3 m ρ c (Proc.devRef .tc main_v15) = Spec.tr (a8 m c) := by
  dsimp only [W3]; after_results
  rw [show W2 m ρ c (Proc.devRef .tc main_arg8) = a8 m c from by walk_r; rfl]
  exact KHost.tr384 _
theorem w3_v16 : W3 m ρ c (Proc.devRef .tc main_v16) = Spec.rowOf (a9 m c) := by
  dsimp only [W3]; after_results
  rw [show W2 m ρ c (Proc.devRef .tc main_arg9) = a9 m c from by walk_r; rfl]
  exact KHost.row384 _
theorem w3_v17 : W3 m ρ c (Proc.devRef .tc main_v17) = Spec.rowOf (a10 m c) := by
  dsimp only [W3]; after_results
  rw [show W2 m ρ c (Proc.devRef .tc main_arg10) = a10 m c from by walk_r; rfl]
  exact KHost.row384 _

/-! ## Round 0 -/

/-- The round's layer of convolution weights, sliced before its projection. -/
theorem w3_w : W3 m ρ c (Proc.devRef .tc main_v19) = Spec.layer (a5 m c) 0 := by
  dsimp only [W3]; after_results
  rw [show W2 m ρ c (Proc.devRef .tc main_arg5) = a5 m c from by walk_r; rfl]
  exact KHost.layer0 _

/-- The projection region writes the scaled projection of the state. -/
theorem w4_xs : W4 m ρ c (Proc.devRef .tc main_v20) = XS m c 0 := by
  refine (W4_arr m ρ c 3).trans ?_
  refine (final1 (V3 m ρ) c).trans ?_
  show Spec.arr2 (Spec.proj (W3 m ρ c (Proc.devRef .tc main_v13)) (W3 m ρ c (Proc.devRef .tc main_v19)) (W3 m ρ c (Proc.devRef .tc main_v11))) = _
  rw [w3_w, show W3 m ρ c (Proc.devRef .tc main_v13) = H m c 0 from by walk_h; exact w2_h m ρ c,
    show W3 m ρ c (Proc.devRef .tc main_v11) = DS m c from by walk_h; exact w1_v11 m ρ c]
  rfl

/-- The edge sum of the scaled projection, and the round's bias row. -/
theorem w5_agg : W5 m ρ c (Proc.devRef .tc main_v31) = Spec.arr2 (Spec.aggK (Spec.srcOf (a1 m c)) (Spec.dstOf (a1 m c)) (XS m c 0)) := by
  dsimp only [W5]; after_results
  rw [w4_xs, show W4 m ρ c (Proc.devRef .tc main_v1) = KHost.srcWords (a1 m c) from by walk_r; exact w1_v1 m ρ c,
    show W4 m ρ c (Proc.devRef .tc main_v3) = KHost.dstWords (a1 m c) from by walk_r; exact w1_v3 m ρ c]
  refine (KHost.aggChain_eq _ _ _).trans ?_
  rw [src_fun, dst_fun]
theorem w5_b : W5 m ρ c (Proc.devRef .tc main_v34) = Spec.layerRow (a6 m c) 0 := by
  dsimp only [W5]; after_results
  rw [show W4 m ρ c (Proc.devRef .tc main_arg6) = a6 m c from by walk_r; rfl]
  exact KHost.layerRow0 _

/-- The fused region writes the next state. -/
theorem w6_h : W6 m ρ c (Proc.devRef .tc main_v35) = H m c 1 := by
  refine (W6_arr m ρ c 9).trans ?_
  refine (final2 (V5 m ρ) c).trans ?_
  show Spec.arr2 (Spec.gru (Spec.arr2 (Spec.xnK (W5 m ρ c (Proc.devRef .tc main_v31)) (W5 m ρ c (Proc.devRef .tc main_v20)) (W5 m ρ c (Proc.devRef .tc main_v11)) (W5 m ρ c (Proc.devRef .tc main_v34))))
      (W5 m ρ c (Proc.devRef .tc main_v13)) (W5 m ρ c (Proc.devRef .tc main_v14)) (W5 m ρ c (Proc.devRef .tc main_v15)) (W5 m ρ c (Proc.devRef .tc main_v16)) (W5 m ρ c (Proc.devRef .tc main_v17))) = _
  rw [w5_agg, w5_b,
    show W5 m ρ c (Proc.devRef .tc main_v20) = XS m c 0 from by walk_h; exact w4_xs m ρ c,
    show W5 m ρ c (Proc.devRef .tc main_v11) = DS m c from by walk_h; exact w1_v11 m ρ c,
    show W5 m ρ c (Proc.devRef .tc main_v13) = H m c 0 from by walk_h; exact w2_h m ρ c,
    show W5 m ρ c (Proc.devRef .tc main_v14) = Spec.tr (a7 m c) from by walk_h; exact w3_v14 m ρ c,
    show W5 m ρ c (Proc.devRef .tc main_v15) = Spec.tr (a8 m c) from by walk_h; exact w3_v15 m ρ c,
    show W5 m ρ c (Proc.devRef .tc main_v16) = Spec.rowOf (a9 m c) from by walk_h; exact w3_v16 m ρ c,
    show W5 m ρ c (Proc.devRef .tc main_v17) = Spec.rowOf (a10 m c) from by walk_h; exact w3_v17 m ρ c]
  rfl

/-! ## Round 1 -/

/-- The round's layer of convolution weights, sliced before its projection. -/
theorem w7_w : W7 m ρ c (Proc.devRef .tc main_v37) = Spec.layer (a5 m c) 1 := by
  dsimp only [W7]; after_results
  rw [show W6 m ρ c (Proc.devRef .tc main_arg5) = a5 m c from by walk_r; rfl]
  exact KHost.layer1 _

/-- The projection region writes the scaled projection of the state. -/
theorem w8_xs : W8 m ρ c (Proc.devRef .tc main_v38) = XS m c 1 := by
  refine (W8_arr m ρ c 3).trans ?_
  refine (final3 (V7 m ρ) c).trans ?_
  show Spec.arr2 (Spec.proj (W7 m ρ c (Proc.devRef .tc main_v35)) (W7 m ρ c (Proc.devRef .tc main_v37)) (W7 m ρ c (Proc.devRef .tc main_v11))) = _
  rw [w7_w, show W7 m ρ c (Proc.devRef .tc main_v35) = H m c 1 from by walk_h; exact w6_h m ρ c,
    show W7 m ρ c (Proc.devRef .tc main_v11) = DS m c from by walk_h; exact w1_v11 m ρ c]
  rfl

/-- The edge sum of the scaled projection, and the round's bias row. -/
theorem w9_agg : W9 m ρ c (Proc.devRef .tc main_v49) = Spec.arr2 (Spec.aggK (Spec.srcOf (a1 m c)) (Spec.dstOf (a1 m c)) (XS m c 1)) := by
  dsimp only [W9]; after_results
  rw [w8_xs, show W8 m ρ c (Proc.devRef .tc main_v1) = KHost.srcWords (a1 m c) from by walk_r; exact w1_v1 m ρ c,
    show W8 m ρ c (Proc.devRef .tc main_v3) = KHost.dstWords (a1 m c) from by walk_r; exact w1_v3 m ρ c]
  refine (KHost.aggChain_eq _ _ _).trans ?_
  rw [src_fun, dst_fun]
theorem w9_b : W9 m ρ c (Proc.devRef .tc main_v52) = Spec.layerRow (a6 m c) 1 := by
  dsimp only [W9]; after_results
  rw [show W8 m ρ c (Proc.devRef .tc main_arg6) = a6 m c from by walk_r; rfl]
  exact KHost.layerRow1 _

/-- The fused region writes the next state. -/
theorem w10_h : W10 m ρ c (Proc.devRef .tc main_v53) = H m c 2 := by
  refine (W10_arr m ρ c 9).trans ?_
  refine (final4 (V9 m ρ) c).trans ?_
  show Spec.arr2 (Spec.gru (Spec.arr2 (Spec.xnK (W9 m ρ c (Proc.devRef .tc main_v49)) (W9 m ρ c (Proc.devRef .tc main_v38)) (W9 m ρ c (Proc.devRef .tc main_v11)) (W9 m ρ c (Proc.devRef .tc main_v52))))
      (W9 m ρ c (Proc.devRef .tc main_v35)) (W9 m ρ c (Proc.devRef .tc main_v14)) (W9 m ρ c (Proc.devRef .tc main_v15)) (W9 m ρ c (Proc.devRef .tc main_v16)) (W9 m ρ c (Proc.devRef .tc main_v17))) = _
  rw [w9_agg, w9_b,
    show W9 m ρ c (Proc.devRef .tc main_v38) = XS m c 1 from by walk_h; exact w8_xs m ρ c,
    show W9 m ρ c (Proc.devRef .tc main_v11) = DS m c from by walk_h; exact w1_v11 m ρ c,
    show W9 m ρ c (Proc.devRef .tc main_v35) = H m c 1 from by walk_h; exact w6_h m ρ c,
    show W9 m ρ c (Proc.devRef .tc main_v14) = Spec.tr (a7 m c) from by walk_h; exact w3_v14 m ρ c,
    show W9 m ρ c (Proc.devRef .tc main_v15) = Spec.tr (a8 m c) from by walk_h; exact w3_v15 m ρ c,
    show W9 m ρ c (Proc.devRef .tc main_v16) = Spec.rowOf (a9 m c) from by walk_h; exact w3_v16 m ρ c,
    show W9 m ρ c (Proc.devRef .tc main_v17) = Spec.rowOf (a10 m c) from by walk_h; exact w3_v17 m ρ c]
  rfl

/-! ## Round 2 -/

/-- The round's layer of convolution weights, sliced before its projection. -/
theorem w11_w : W11 m ρ c (Proc.devRef .tc main_v55) = Spec.layer (a5 m c) 2 := by
  dsimp only [W11]; after_results
  rw [show W10 m ρ c (Proc.devRef .tc main_arg5) = a5 m c from by walk_r; rfl]
  exact KHost.layer2 _

/-- The projection region writes the scaled projection of the state. -/
theorem w12_xs : W12 m ρ c (Proc.devRef .tc main_v56) = XS m c 2 := by
  refine (W12_arr m ρ c 3).trans ?_
  refine (final5 (V11 m ρ) c).trans ?_
  show Spec.arr2 (Spec.proj (W11 m ρ c (Proc.devRef .tc main_v53)) (W11 m ρ c (Proc.devRef .tc main_v55)) (W11 m ρ c (Proc.devRef .tc main_v11))) = _
  rw [w11_w, show W11 m ρ c (Proc.devRef .tc main_v53) = H m c 2 from by walk_h; exact w10_h m ρ c,
    show W11 m ρ c (Proc.devRef .tc main_v11) = DS m c from by walk_h; exact w1_v11 m ρ c]
  rfl

/-- The edge sum of the scaled projection, and the round's bias row. -/
theorem w13_agg : W13 m ρ c (Proc.devRef .tc main_v67) = Spec.arr2 (Spec.aggK (Spec.srcOf (a1 m c)) (Spec.dstOf (a1 m c)) (XS m c 2)) := by
  dsimp only [W13]; after_results
  rw [w12_xs, show W12 m ρ c (Proc.devRef .tc main_v1) = KHost.srcWords (a1 m c) from by walk_r; exact w1_v1 m ρ c,
    show W12 m ρ c (Proc.devRef .tc main_v3) = KHost.dstWords (a1 m c) from by walk_r; exact w1_v3 m ρ c]
  refine (KHost.aggChain_eq _ _ _).trans ?_
  rw [src_fun, dst_fun]
theorem w13_b : W13 m ρ c (Proc.devRef .tc main_v70) = Spec.layerRow (a6 m c) 2 := by
  dsimp only [W13]; after_results
  rw [show W12 m ρ c (Proc.devRef .tc main_arg6) = a6 m c from by walk_r; rfl]
  exact KHost.layerRow2 _

/-- The fused region writes the next state. -/
theorem w14_h : W14 m ρ c (Proc.devRef .tc main_v71) = H m c 3 := by
  refine (W14_arr m ρ c 9).trans ?_
  refine (final6 (V13 m ρ) c).trans ?_
  show Spec.arr2 (Spec.gru (Spec.arr2 (Spec.xnK (W13 m ρ c (Proc.devRef .tc main_v67)) (W13 m ρ c (Proc.devRef .tc main_v56)) (W13 m ρ c (Proc.devRef .tc main_v11)) (W13 m ρ c (Proc.devRef .tc main_v70))))
      (W13 m ρ c (Proc.devRef .tc main_v53)) (W13 m ρ c (Proc.devRef .tc main_v14)) (W13 m ρ c (Proc.devRef .tc main_v15)) (W13 m ρ c (Proc.devRef .tc main_v16)) (W13 m ρ c (Proc.devRef .tc main_v17))) = _
  rw [w13_agg, w13_b,
    show W13 m ρ c (Proc.devRef .tc main_v56) = XS m c 2 from by walk_h; exact w12_xs m ρ c,
    show W13 m ρ c (Proc.devRef .tc main_v11) = DS m c from by walk_h; exact w1_v11 m ρ c,
    show W13 m ρ c (Proc.devRef .tc main_v53) = H m c 2 from by walk_h; exact w10_h m ρ c,
    show W13 m ρ c (Proc.devRef .tc main_v14) = Spec.tr (a7 m c) from by walk_h; exact w3_v14 m ρ c,
    show W13 m ρ c (Proc.devRef .tc main_v15) = Spec.tr (a8 m c) from by walk_h; exact w3_v15 m ρ c,
    show W13 m ρ c (Proc.devRef .tc main_v16) = Spec.rowOf (a9 m c) from by walk_h; exact w3_v16 m ρ c,
    show W13 m ρ c (Proc.devRef .tc main_v17) = Spec.rowOf (a10 m c) from by walk_h; exact w3_v17 m ρ c]
  rfl

/-! ## Round 3 -/

/-- The round's layer of convolution weights, sliced before its projection. -/
theorem w15_w : W15 m ρ c (Proc.devRef .tc main_v73) = Spec.layer (a5 m c) 3 := by
  dsimp only [W15]; after_results
  rw [show W14 m ρ c (Proc.devRef .tc main_arg5) = a5 m c from by walk_r; rfl]
  exact KHost.layer3 _

/-- The projection region writes the scaled projection of the state. -/
theorem w16_xs : W16 m ρ c (Proc.devRef .tc main_v74) = XS m c 3 := by
  refine (W16_arr m ρ c 3).trans ?_
  refine (final7 (V15 m ρ) c).trans ?_
  show Spec.arr2 (Spec.proj (W15 m ρ c (Proc.devRef .tc main_v71)) (W15 m ρ c (Proc.devRef .tc main_v73)) (W15 m ρ c (Proc.devRef .tc main_v11))) = _
  rw [w15_w, show W15 m ρ c (Proc.devRef .tc main_v71) = H m c 3 from by walk_h; exact w14_h m ρ c,
    show W15 m ρ c (Proc.devRef .tc main_v11) = DS m c from by walk_h; exact w1_v11 m ρ c]
  rfl

/-- The edge sum of the scaled projection, and the round's bias row. -/
theorem w17_agg : W17 m ρ c (Proc.devRef .tc main_v85) = Spec.arr2 (Spec.aggK (Spec.srcOf (a1 m c)) (Spec.dstOf (a1 m c)) (XS m c 3)) := by
  dsimp only [W17]; after_results
  rw [w16_xs, show W16 m ρ c (Proc.devRef .tc main_v1) = KHost.srcWords (a1 m c) from by walk_r; exact w1_v1 m ρ c,
    show W16 m ρ c (Proc.devRef .tc main_v3) = KHost.dstWords (a1 m c) from by walk_r; exact w1_v3 m ρ c]
  refine (KHost.aggChain_eq _ _ _).trans ?_
  rw [src_fun, dst_fun]
theorem w17_b : W17 m ρ c (Proc.devRef .tc main_v88) = Spec.layerRow (a6 m c) 3 := by
  dsimp only [W17]; after_results
  rw [show W16 m ρ c (Proc.devRef .tc main_arg6) = a6 m c from by walk_r; rfl]
  exact KHost.layerRow3 _

/-- The fused region writes the next state. -/
theorem w18_h : W18 m ρ c (Proc.devRef .tc main_v89) = H m c 4 := by
  refine (W18_arr m ρ c 9).trans ?_
  refine (final8 (V17 m ρ) c).trans ?_
  show Spec.arr2 (Spec.gru (Spec.arr2 (Spec.xnK (W17 m ρ c (Proc.devRef .tc main_v85)) (W17 m ρ c (Proc.devRef .tc main_v74)) (W17 m ρ c (Proc.devRef .tc main_v11)) (W17 m ρ c (Proc.devRef .tc main_v88))))
      (W17 m ρ c (Proc.devRef .tc main_v71)) (W17 m ρ c (Proc.devRef .tc main_v14)) (W17 m ρ c (Proc.devRef .tc main_v15)) (W17 m ρ c (Proc.devRef .tc main_v16)) (W17 m ρ c (Proc.devRef .tc main_v17))) = _
  rw [w17_agg, w17_b,
    show W17 m ρ c (Proc.devRef .tc main_v74) = XS m c 3 from by walk_h; exact w16_xs m ρ c,
    show W17 m ρ c (Proc.devRef .tc main_v11) = DS m c from by walk_h; exact w1_v11 m ρ c,
    show W17 m ρ c (Proc.devRef .tc main_v71) = H m c 3 from by walk_h; exact w14_h m ρ c,
    show W17 m ρ c (Proc.devRef .tc main_v14) = Spec.tr (a7 m c) from by walk_h; exact w3_v14 m ρ c,
    show W17 m ρ c (Proc.devRef .tc main_v15) = Spec.tr (a8 m c) from by walk_h; exact w3_v15 m ρ c,
    show W17 m ρ c (Proc.devRef .tc main_v16) = Spec.rowOf (a9 m c) from by walk_h; exact w3_v16 m ρ c,
    show W17 m ρ c (Proc.devRef .tc main_v17) = Spec.rowOf (a10 m c) from by walk_h; exact w3_v17 m ρ c]
  rfl

/-! ## The mean over each graph, and the last linear map -/

theorem w19_pool : W19 m ρ c (Proc.devRef .tc main_v101) = Spec.arr2 (Spec.pool (fun n => a2 m c (ix1 n)) (H m c 4)) := by
  dsimp only [W19]; after_results
  rw [w18_h, show W18 m ρ c (Proc.devRef .tc main_arg2) = a2 m c from by walk_r; rfl]
  exact KHost.poolChain_eq _ _
theorem w19_b : W19 m ρ c (Proc.devRef .tc main_v102) = Spec.rowOf (a12 m c) := by
  dsimp only [W19]; after_results
  rw [show W18 m ρ c (Proc.devRef .tc main_arg12) = a12 m c from by walk_r; rfl]
  exact KHost.row128 _

/-- THE RESULT: the last boundary's contents of the result buffer are the network at the kernel's arrangement. -/
theorem result : W20 m ρ c (Proc.devRef .tc main_v103)
    = Spec.model Spec.stepK (a0 m c) (a1 m c) (a2 m c) (a3 m c) (a4 m c) (a5 m c) (a6 m c) (a7 m c) (a8 m c) (a9 m c) (a10 m c) (a11 m c) (a12 m c) := by
  refine (W20_arr m ρ c 3).trans ?_
  refine (final9 (V19 m ρ) c).trans ?_
  show Spec.arr2 (Spec.outp (W19 m ρ c (Proc.devRef .tc main_v101)) (W19 m ρ c (Proc.devRef .tc main_arg11)) (W19 m ρ c (Proc.devRef .tc main_v102))) = _
  rw [w19_pool, w19_b, show W19 m ρ c (Proc.devRef .tc main_arg11) = a11 m c from by walk_h; rfl]
  rfl

end Cert.KernelIdeal.KWalk

end
-- ==== Proof.RefConv.lean ====
import proofs.«171838_j74071005987300_2_alg».proof.Proof.Spec
import proofs.«171838_j74071005987300_2_alg».proof.Proof.GraphOps
import proofs.«171838_j74071005987300_2_alg».proof.Proof.RefRead

/-!
# The reference's embedding and the convolution half of its four rounds

The embedding buffer and, for each round, the buffer the convolution leaves are read entry by entry and identified with
the specification's embedding and with its convolution whose every message carries both degree factors. The
state a round starts from is kept as one opaque array throughout.
-/

noncomputable section

namespace Cert.ReferenceIdeal.RefValue

open Cert.ReferenceIdeal Cert.ReferenceIdeal.Gen Cert.ReferenceIdeal.Read
open Idealize.ShloMosaic Idealize.ShloMosaic.ValueIdx Idealize.ShloMosaic.StableHlo Cert.GraphOps
open scoped BigOperators

/-- The contents of a buffer of shape `s` and element type `e`, floats read as extended reals. -/
abbrev CArr (s : Shape) (e : EltTy) : Type := (⟨s, e⟩ : BufTy).Contents (Elt Ideal)

/-! ## The embedding -/

/-- The embedding buffer is max (x W + b) 0, entry by entry. -/
theorem ref_embed (x0 : CArr S50000x128 .f32) (x3 : CArr S128x128 .f32) (x4 : CArr S128 .f32) :
    val_main_v17 (F := Ideal) x0 x3 x4 = Spec.arr2 (Spec.embed x0 x3 (Spec.rowOf x4)) := by
  funext i
  obtain ⟨n, j, rfl⟩ : ∃ (n : Fin 50000) (j : Fin 128), i = ix2 n j :=
    ⟨⟨(i 0).val, idx2_lt0 i⟩, ⟨(i 1).val, idx2_lt1 i⟩, eq_ix2 i⟩
  have el : ∀ k : Fin 128, lidx_main_v13 (ix2 n j) k = ix2 n k := fun k =>
    funext fun a => Fin.ext (by match a with | ⟨0, _⟩ => rfl | ⟨1, _⟩ => rfl)
  have er : ∀ k : Fin 128, ridx_main_v13 (ix2 n j) k = ix2 k j := fun k =>
    funext fun a => Fin.ext (by match a with | ⟨0, _⟩ => rfl | ⟨1, _⟩ => rfl)
  have eb : idx_main_v14 (idx_main_v15 (ix2 n j)) = ix1 j :=
    funext fun a => Fin.ext (by match a with | ⟨0, _⟩ => rfl)
  rw [val_main_v17_apply, val_main_v16_apply, val_main_v13_apply, val_main_v15_apply, val_main_v14_apply,
    val_main_call0_v0_apply, val_main_call0_cst_apply]
  simp only [el, er, eb]
  rfl

/-! ## The edge words -/

/-- The source word of edge `e`: row 0 of the edge list. -/
private theorem src_word (x1 : CArr S2x600000 .i32) (i : S600000.Idx) (e : Fin 600000) (hi : (i 0).val = e.val) :
    val_main_v1 (F := Ideal) x1 i = Spec.srcOf x1 e := by
  rw [val_main_v1_apply, val_main_v0_apply]
  exact congrArg x1 (funext fun a => Fin.ext (by
    match a with
    | ⟨0, _⟩ => rfl
    | ⟨1, _⟩ => show (i 0).val % 600000 = e.val; rw [hi]; exact Nat.mod_eq_of_lt e.isLt))

/-- The target word of edge `e`: row 1 of the edge list. -/
private theorem dst_word (x1 : CArr S2x600000 .i32) (i : S600000.Idx) (e : Fin 600000) (hi : (i 0).val = e.val) :
    val_main_v3 (F := Ideal) x1 i = Spec.dstOf x1 e := by
  rw [val_main_v3_apply, val_main_v2_apply]
  exact congrArg x1 (funext fun a => Fin.ext (by
    match a with
    | ⟨0, _⟩ => rfl
    | ⟨1, _⟩ => show (i 0).val % 600000 = e.val; rw [hi]; exact Nat.mod_eq_of_lt e.isLt))

/-- The wrap as the program spells it on one word. -/
private theorem wrap_eq (w : BitVec 32) :
    Scalar.select (IntOp.cmpi .slt w 0#32) (IntOp.addi w 50000#32) w = Spec.wrap w := rfl

/-! ## The gathers and scatter-adds of the program, read at an index -/

/-- A gather from a vector of 50000 entries reads the entry its clamped word names. -/
private theorem gatherVec_at (x : CArr S50000 .f32) (idx : CArr S600000x1 .i32) (e : Fin 600000) :
    Host.gather gather_S50000_S600000x1_S600000_n_0_n_n_0_1_1 x idx (ix1 e) = x (ix1 (Spec.node (idx (ix2 e 0)))) :=
  gather_vec_apply (by decide) Facts₀.gather_S50000_S600000x1_S600000_n_0_n_n_0_1_1_wf x idx e

/-- A gather of rows from a 50000 by 128 matrix reads the row its clamped word names. -/
private theorem gatherRows_at (x : CArr S50000x128 .f32) (idx : CArr S600000x1 .i32) (e : Fin 600000) (j : Fin 128) :
    Host.gather gather_S50000x128_S600000x1_S600000x128_1_0_n_n_0_1_1128 x idx (ix2 e j)
      = x (ix2 (Spec.node (idx (ix2 e 0))) j) :=
  gather_rows_apply (by decide) Facts₀.gather_S50000x128_S600000x1_S600000x128_1_0_n_n_0_1_1128_wf x idx e j

/-- A scatter-add into a vector of 50000 entries adds to entry `n` the updates whose word is `n`. -/
private theorem scatterVec_at (x : CArr S50000 .f32) (idx : CArr S600000x1 .i32) (upd : CArr S600000 .f32) (n : Fin 50000) :
    Host.scatterAdd (F := Ideal) (φ := .f32) scatter_S50000_S600000x1_S600000_n_0_0_1 x idx upd (ix1 n)
      = x (ix1 n) + ∑ e ∈ Finset.univ.filter (fun e : Fin 600000 => Spec.lands (idx (ix2 e 0)) n), upd (ix1 e) :=
  scatter_vec_apply Facts₀.scatter_S50000_S600000x1_S600000_n_0_0_1_wf x idx upd n

/-- A scatter-add of rows into a 50000 by 128 matrix adds to row `n` the update rows whose word is `n`. -/
private theorem scatterRows_at (x : CArr S50000x128 .f32) (idx : CArr S600000x1 .i32) (upd : CArr S600000x128 .f32)
    (n : Fin 50000) (j : Fin 128) :
    Host.scatterAdd (F := Ideal) (φ := .f32) scatter_S50000x128_S600000x1_S600000x128_1_0_0_1 x idx upd (ix2 n j)
      = x (ix2 n j) + ∑ e ∈ Finset.univ.filter (fun e : Fin 600000 => Spec.lands (idx (ix2 e 0)) n), upd (ix2 e j) :=
  scatter_rows_apply Facts₀.scatter_S50000x128_S600000x1_S600000x128_1_0_0_1_wf x idx upd n j

/-! ## The degree and its two factors -/

/-- The column of raw target words the degree's scatter-add is indexed by. -/
theorem v6_at (x1 : CArr S2x600000 .i32) (e : Fin 600000) :
    val_main_v6 (F := Ideal) x1 (ix2 e 0) = Spec.dstOf x1 e := by
  rw [val_main_v6_apply]
  exact dst_word x1 _ e rfl

/-- The degree with the self loop. -/
theorem v9_at (x1 : CArr S2x600000 .i32) (i : S50000.Idx) (n : Fin 50000) (hi : (i 0).val = n.val) :
    val_main_v9 (F := Ideal) x1 i = Spec.deg (Spec.dstOf x1) n := by
  obtain rfl : i = ix1 n := funext fun a => Fin.ext (by match a with | ⟨0, _⟩ => exact hi)
  rw [val_main_v9_apply, val_main_v8_apply, val_main_cst_1_apply]
  unfold val_main_v7
  rw [scatterVec_at]
  simp only [v6_at, val_main_v5_apply, val_main_cst_0_apply, val_main_v4_apply, val_main_cst_apply]
  rfl

/-- The inverse square root of the degree. -/
theorem v10_at (x1 : CArr S2x600000 .i32) (i : S50000.Idx) (n : Fin 50000) (hi : (i 0).val = n.val) :
    val_main_v10 (F := Ideal) x1 i = Spec.dsq (Spec.dstOf x1) n := by
  rw [val_main_v10_apply, v9_at x1 i n hi]
  exact Ideal.hostUnary_rsqrt_def _

/-- One over the degree. -/
theorem v12_at (x1 : CArr S2x600000 .i32) (i : S50000.Idx) (n : Fin 50000) (hi : (i 0).val = n.val) :
    val_main_v12 (F := Ideal) x1 i = Ideal.div Spec.oneF (Spec.deg (Spec.dstOf x1) n) := by
  rw [val_main_v12_apply, v9_at x1 i n hi, val_main_v11_apply, val_main_cst_2_apply]
  rfl

/-! ## Round 0 -/

/-- The wrapped source words the first degree factor is gathered at. -/
theorem v28_at (x1 : CArr S2x600000 .i32) (e : Fin 600000) :
    val_main_v28 (F := Ideal) x1 (ix2 e 0) = Spec.wrap (Spec.srcOf x1 e) := by
  rw [val_main_v28_apply, val_main_v27_apply, val_main_v24_apply, val_main_v26_apply, val_main_v23_apply,
    val_main_v25_apply, val_main_c_apply, val_main_c_3_apply, src_word x1 (idx_main_v28 (ix2 e 0)) e rfl]
  exact wrap_eq _

/-- The wrapped target words the second degree factor is gathered at. -/
theorem v35_at (x1 : CArr S2x600000 .i32) (e : Fin 600000) :
    val_main_v35 (F := Ideal) x1 (ix2 e 0) = Spec.wrap (Spec.dstOf x1 e) := by
  rw [val_main_v35_apply, val_main_v34_apply, val_main_v31_apply, val_main_v33_apply, val_main_v30_apply,
    val_main_v32_apply, val_main_c_4_apply, val_main_c_5_apply, dst_word x1 (idx_main_v35 (ix2 e 0)) e rfl]
  exact wrap_eq _

/-- The wrapped source words the projected rows are gathered at. -/
theorem v43_at (x1 : CArr S2x600000 .i32) (e : Fin 600000) :
    val_main_v43 (F := Ideal) x1 (ix2 e 0) = Spec.wrap (Spec.srcOf x1 e) := by
  rw [val_main_v43_apply, val_main_v42_apply, val_main_v39_apply, val_main_v41_apply, val_main_v38_apply,
    val_main_v40_apply, val_main_c_6_apply, val_main_c_7_apply, src_word x1 (idx_main_v43 (ix2 e 0)) e rfl]
  exact wrap_eq _

/-- The raw target words the messages are scattered to. -/
theorem v49_at (x1 : CArr S2x600000 .i32) (e : Fin 600000) :
    val_main_v49 (F := Ideal) x1 (ix2 e 0) = Spec.dstOf x1 e := by
  rw [val_main_v49_apply]
  exact dst_word x1 _ e rfl

/-- The product of the two degree factors of edge `e`. -/
theorem v37_at (x1 : CArr S2x600000 .i32) (i : S600000.Idx) (e : Fin 600000) (hi : (i 0).val = e.val) :
    val_main_v37 (F := Ideal) x1 i
      = Spec.dsq (Spec.dstOf x1) (Spec.node (Spec.wrap (Spec.srcOf x1 e)))
        * Spec.dsq (Spec.dstOf x1) (Spec.node (Spec.wrap (Spec.dstOf x1 e))) := by
  obtain rfl : i = ix1 e := funext fun a => Fin.ext (by match a with | ⟨0, _⟩ => exact hi)
  rw [val_main_v37_apply]
  unfold val_main_v29 val_main_v36
  rw [gatherVec_at, gatherVec_at, v28_at, v35_at, v10_at x1 _ _ rfl, v10_at x1 _ _ rfl]
  rfl

/-- The projected features: the state times layer 0 of the stacked weights. -/
theorem v22_at (x0 : CArr S50000x128 .f32) (x3 : CArr S128x128 .f32) (x4 : CArr S128 .f32) (x5 : CArr S4x128x128 .f32)
    (n : Fin 50000) (j : Fin 128) :
    val_main_v22 (F := Ideal) x0 x3 x4 x5 (ix2 n j)
      = Spec.mm (val_main_v17 (F := Ideal) x0 x3 x4) (Spec.layer x5 0) n j := by
  have el : ∀ k : Fin 128, lidx_main_v22 (ix2 n j) k = ix2 n k := fun k =>
    funext fun a => Fin.ext (by match a with | ⟨0, _⟩ => rfl | ⟨1, _⟩ => rfl)
  have ew : ∀ k : Fin 128, idx_main_v18 (idx_main_v19 (ridx_main_v22 (ix2 n j) k)) = ix3 0 k j := fun k =>
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v22_apply]
  generalize val_main_v17 (F := Ideal) x0 x3 x4 = h
  simp only [val_main_v19_apply, val_main_v18_apply, el, ew]
  rfl

/-- The bias row: row 0 of the stacked biases. -/
theorem v56_at (x6 : CArr S4x128 .f32) (n : Fin 50000) (j : Fin 128) :
    val_main_v56 (F := Ideal) x6 (ix2 n j) = Spec.layerRow x6 0 (ix2 0 j) := by
  rw [val_main_v56_apply, val_main_v55_apply, val_main_v21_apply, val_main_v20_apply]
  exact congrArg x6 (funext fun a => Fin.ext (by
    match a with
    | ⟨0, _⟩ => rfl
    | ⟨1, _⟩ => show j.val % 128 = j.val; exact Nat.mod_eq_of_lt j.isLt))

/-- One over the degree, along a row. -/
theorem v52_at (x1 : CArr S2x600000 .i32) (n : Fin 50000) (j : Fin 128) :
    val_main_v52 (F := Ideal) x1 (ix2 n j) = Ideal.div Spec.oneF (Spec.deg (Spec.dstOf x1) n) := by
  rw [val_main_v52_apply, val_main_v51_apply]
  exact v12_at x1 _ n rfl

/-- The message of edge `e`: the projected row of its source times both degree factors. -/
theorem v47_at (x0 : CArr S50000x128 .f32) (x1 : CArr S2x600000 .i32) (x3 : CArr S128x128 .f32) (x4 : CArr S128 .f32)
    (x5 : CArr S4x128x128 .f32) (e : Fin 600000) (j : Fin 128) :
    val_main_v47 (F := Ideal) x0 x1 x3 x4 x5 (ix2 e j)
      = Spec.mm (val_main_v17 (F := Ideal) x0 x3 x4) (Spec.layer x5 0) (Spec.node (Spec.wrap (Spec.srcOf x1 e))) j
        * (Spec.dsq (Spec.dstOf x1) (Spec.node (Spec.wrap (Spec.srcOf x1 e)))
          * Spec.dsq (Spec.dstOf x1) (Spec.node (Spec.wrap (Spec.dstOf x1 e)))) := by
  rw [val_main_v47_apply, val_main_v46_apply, val_main_v45_apply, v37_at x1 _ e rfl]
  unfold val_main_v44
  rw [gatherRows_at, v43_at, v22_at]
  rfl

/-- Round 0's convolution buffer is the specification's convolution of the embedding with layer 0. -/
theorem ref_conv0 (x0 : CArr S50000x128 .f32) (x1 : CArr S2x600000 .i32) (x3 : CArr S128x128 .f32) (x4 : CArr S128 .f32)
    (x5 : CArr S4x128x128 .f32) (x6 : CArr S4x128 .f32) :
    val_main_v58 (F := Ideal) x0 x1 x3 x4 x5 x6
      = Spec.arr2 (Spec.stepR (Spec.srcOf x1) (Spec.dstOf x1) (val_main_v17 (F := Ideal) x0 x3 x4)
          (Spec.layer x5 0) (Spec.layerRow x6 0)) := by
  funext i
  obtain ⟨n, j, rfl⟩ : ∃ (n : Fin 50000) (j : Fin 128), i = ix2 n j :=
    ⟨⟨(i 0).val, idx2_lt0 i⟩, ⟨(i 1).val, idx2_lt1 i⟩, eq_ix2 i⟩
  rw [val_main_v58_apply, val_main_v57_apply, val_main_v54_apply, val_main_v53_apply, val_main_call1_v0_apply,
    val_main_call1_cst_apply, v56_at, v52_at, v22_at]
  unfold val_main_v50
  rw [scatterRows_at]
  simp only [v49_at, v47_at, val_main_v48_apply, val_main_cst_8_apply]
  generalize val_main_v17 (F := Ideal) x0 x3 x4 = h
  rfl

/-! ## Round 1 -/

/-- The wrapped source words the first degree factor is gathered at. -/
theorem v107_at (x1 : CArr S2x600000 .i32) (e : Fin 600000) :
    val_main_v107 (F := Ideal) x1 (ix2 e 0) = Spec.wrap (Spec.srcOf x1 e) := by
  rw [val_main_v107_apply, val_main_v106_apply, val_main_v103_apply, val_main_v105_apply, val_main_v102_apply,
    val_main_v104_apply, val_main_c_14_apply, val_main_c_15_apply, src_word x1 (idx_main_v107 (ix2 e 0)) e rfl]
  exact wrap_eq _

/-- The wrapped target words the second degree factor is gathered at. -/
theorem v114_at (x1 : CArr S2x600000 .i32) (e : Fin 600000) :
    val_main_v114 (F := Ideal) x1 (ix2 e 0) = Spec.wrap (Spec.dstOf x1 e) := by
  rw [val_main_v114_apply, val_main_v113_apply, val_main_v110_apply, val_main_v112_apply, val_main_v109_apply,
    val_main_v111_apply, val_main_c_16_apply, val_main_c_17_apply, dst_word x1 (idx_main_v114 (ix2 e 0)) e rfl]
  exact wrap_eq _

/-- The wrapped source words the projected rows are gathered at. -/
theorem v122_at (x1 : CArr S2x600000 .i32) (e : Fin 600000) :
    val_main_v122 (F := Ideal) x1 (ix2 e 0) = Spec.wrap (Spec.srcOf x1 e) := by
  rw [val_main_v122_apply, val_main_v121_apply, val_main_v118_apply, val_main_v120_apply, val_main_v117_apply,
    val_main_v119_apply, val_main_c_18_apply, val_main_c_19_apply, src_word x1 (idx_main_v122 (ix2 e 0)) e rfl]
  exact wrap_eq _

/-- The raw target words the messages are scattered to. -/
theorem v128_at (x1 : CArr S2x600000 .i32) (e : Fin 600000) :
    val_main_v128 (F := Ideal) x1 (ix2 e 0) = Spec.dstOf x1 e := by
  rw [val_main_v128_apply]
  exact dst_word x1 _ e rfl

/-- The product of the two degree factors of edge `e`. -/
theorem v116_at (x1 : CArr S2x600000 .i32) (i : S600000.Idx) (e : Fin 600000) (hi : (i 0).val = e.val) :
    val_main_v116 (F := Ideal) x1 i
      = Spec.dsq (Spec.dstOf x1) (Spec.node (Spec.wrap (Spec.srcOf x1 e)))
        * Spec.dsq (Spec.dstOf x1) (Spec.node (Spec.wrap (Spec.dstOf x1 e))) := by
  obtain rfl : i = ix1 e := funext fun a => Fin.ext (by match a with | ⟨0, _⟩ => exact hi)
  rw [val_main_v116_apply]
  unfold val_main_v108 val_main_v115
  rw [gatherVec_at, gatherVec_at, v107_at, v114_at, v10_at x1 _ _ rfl, v10_at x1 _ _ rfl]
  rfl

/-- The projected features: the state times layer 1 of the stacked weights. -/
theorem v101_at (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32)
    (n : Fin 50000) (j : Fin 128) :
    val_main_v101 (F := Ideal) x0 x1 x3 x4 x5 x6 x7 x8 x9 x10 (ix2 n j)
      = Spec.mm (val_main_v96 (F := Ideal) x0 x1 x3 x4 x5 x6 x7 x8 x9 x10) (Spec.layer x5 1) n j := by
  have el : ∀ k : Fin 128, lidx_main_v101 (ix2 n j) k = ix2 n k := fun k =>
    funext fun a => Fin.ext (by match a with | ⟨0, _⟩ => rfl | ⟨1, _⟩ => rfl)
  have ew : ∀ k : Fin 128, idx_main_v97 (idx_main_v98 (ridx_main_v101 (ix2 n j) k)) = ix3 1 k j := fun k =>
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v101_apply]
  generalize val_main_v96 (F := Ideal) x0 x1 x3 x4 x5 x6 x7 x8 x9 x10 = h
  simp only [val_main_v98_apply, val_main_v97_apply, el, ew]
  rfl

/-- The bias row: row 1 of the stacked biases. -/
theorem v135_at (x6 : CArr S4x128 .f32) (n : Fin 50000) (j : Fin 128) :
    val_main_v135 (F := Ideal) x6 (ix2 n j) = Spec.layerRow x6 1 (ix2 0 j) := by
  rw [val_main_v135_apply, val_main_v134_apply, val_main_v100_apply, val_main_v99_apply]
  exact congrArg x6 (funext fun a => Fin.ext (by
    match a with
    | ⟨0, _⟩ => rfl
    | ⟨1, _⟩ => show j.val % 128 = j.val; exact Nat.mod_eq_of_lt j.isLt))

/-- One over the degree, along a row. -/
theorem v131_at (x1 : CArr S2x600000 .i32) (n : Fin 50000) (j : Fin 128) :
    val_main_v131 (F := Ideal) x1 (ix2 n j) = Ideal.div Spec.oneF (Spec.deg (Spec.dstOf x1) n) := by
  rw [val_main_v131_apply, val_main_v130_apply]
  exact v12_at x1 _ n rfl

/-- The message of edge `e`: the projected row of its source times both degree factors. -/
theorem v126_at (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32)
    (e : Fin 600000) (j : Fin 128) :
    val_main_v126 (F := Ideal) x0 x1 x3 x4 x5 x6 x7 x8 x9 x10 (ix2 e j)
      = Spec.mm (val_main_v96 (F := Ideal) x0 x1 x3 x4 x5 x6 x7 x8 x9 x10) (Spec.layer x5 1)
          (Spec.node (Spec.wrap (Spec.srcOf x1 e))) j
        * (Spec.dsq (Spec.dstOf x1) (Spec.node (Spec.wrap (Spec.srcOf x1 e)))
          * Spec.dsq (Spec.dstOf x1) (Spec.node (Spec.wrap (Spec.dstOf x1 e)))) := by
  rw [val_main_v126_apply, val_main_v125_apply, val_main_v124_apply, v116_at x1 _ e rfl]
  unfold val_main_v123
  rw [gatherRows_at, v122_at, v101_at]
  rfl

/-- Round 1's convolution buffer is the specification's convolution of the state with layer 1. -/
theorem ref_conv1 (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32) :
    val_main_v137 (F := Ideal) x0 x1 x3 x4 x5 x6 x7 x8 x9 x10
      = Spec.arr2 (Spec.stepR (Spec.srcOf x1) (Spec.dstOf x1)
          (val_main_v96 (F := Ideal) x0 x1 x3 x4 x5 x6 x7 x8 x9 x10) (Spec.layer x5 1) (Spec.layerRow x6 1)) := by
  funext i
  obtain ⟨n, j, rfl⟩ : ∃ (n : Fin 50000) (j : Fin 128), i = ix2 n j :=
    ⟨⟨(i 0).val, idx2_lt0 i⟩, ⟨(i 1).val, idx2_lt1 i⟩, eq_ix2 i⟩
  rw [val_main_v137_apply, val_main_v136_apply, val_main_v133_apply, val_main_v132_apply, val_main_call2_v0_apply,
    val_main_call2_cst_apply, v135_at, v131_at, v101_at]
  unfold val_main_v129
  rw [scatterRows_at]
  simp only [v128_at, v126_at, val_main_v127_apply, val_main_cst_20_apply]
  generalize val_main_v96 (F := Ideal) x0 x1 x3 x4 x5 x6 x7 x8 x9 x10 = h
  rfl

/-! ## Round 2 -/

/-- The wrapped source words the first degree factor is gathered at. -/
theorem v186_at (x1 : CArr S2x600000 .i32) (e : Fin 600000) :
    val_main_v186 (F := Ideal) x1 (ix2 e 0) = Spec.wrap (Spec.srcOf x1 e) := by
  rw [val_main_v186_apply, val_main_v185_apply, val_main_v182_apply, val_main_v184_apply, val_main_v181_apply,
    val_main_v183_apply, val_main_c_26_apply, val_main_c_27_apply, src_word x1 (idx_main_v186 (ix2 e 0)) e rfl]
  exact wrap_eq _

/-- The wrapped target words the second degree factor is gathered at. -/
theorem v193_at (x1 : CArr S2x600000 .i32) (e : Fin 600000) :
    val_main_v193 (F := Ideal) x1 (ix2 e 0) = Spec.wrap (Spec.dstOf x1 e) := by
  rw [val_main_v193_apply, val_main_v192_apply, val_main_v189_apply, val_main_v191_apply, val_main_v188_apply,
    val_main_v190_apply, val_main_c_28_apply, val_main_c_29_apply, dst_word x1 (idx_main_v193 (ix2 e 0)) e rfl]
  exact wrap_eq _

/-- The wrapped source words the projected rows are gathered at. -/
theorem v201_at (x1 : CArr S2x600000 .i32) (e : Fin 600000) :
    val_main_v201 (F := Ideal) x1 (ix2 e 0) = Spec.wrap (Spec.srcOf x1 e) := by
  rw [val_main_v201_apply, val_main_v200_apply, val_main_v197_apply, val_main_v199_apply, val_main_v196_apply,
    val_main_v198_apply, val_main_c_30_apply, val_main_c_31_apply, src_word x1 (idx_main_v201 (ix2 e 0)) e rfl]
  exact wrap_eq _

/-- The raw target words the messages are scattered to. -/
theorem v207_at (x1 : CArr S2x600000 .i32) (e : Fin 600000) :
    val_main_v207 (F := Ideal) x1 (ix2 e 0) = Spec.dstOf x1 e := by
  rw [val_main_v207_apply]
  exact dst_word x1 _ e rfl

/-- The product of the two degree factors of edge `e`. -/
theorem v195_at (x1 : CArr S2x600000 .i32) (i : S600000.Idx) (e : Fin 600000) (hi : (i 0).val = e.val) :
    val_main_v195 (F := Ideal) x1 i
      = Spec.dsq (Spec.dstOf x1) (Spec.node (Spec.wrap (Spec.srcOf x1 e)))
        * Spec.dsq (Spec.dstOf x1) (Spec.node (Spec.wrap (Spec.dstOf x1 e))) := by
  obtain rfl : i = ix1 e := funext fun a => Fin.ext (by match a with | ⟨0, _⟩ => exact hi)
  rw [val_main_v195_apply]
  unfold val_main_v187 val_main_v194
  rw [gatherVec_at, gatherVec_at, v186_at, v193_at, v10_at x1 _ _ rfl, v10_at x1 _ _ rfl]
  rfl

/-- The projected features: the state times layer 2 of the stacked weights. -/
theorem v180_at (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32)
    (n : Fin 50000) (j : Fin 128) :
    val_main_v180 (F := Ideal) x0 x1 x3 x4 x5 x6 x7 x8 x9 x10 (ix2 n j)
      = Spec.mm (val_main_v175 (F := Ideal) x0 x1 x3 x4 x5 x6 x7 x8 x9 x10) (Spec.layer x5 2) n j := by
  have el : ∀ k : Fin 128, lidx_main_v180 (ix2 n j) k = ix2 n k := fun k =>
    funext fun a => Fin.ext (by match a with | ⟨0, _⟩ => rfl | ⟨1, _⟩ => rfl)
  have ew : ∀ k : Fin 128, idx_main_v176 (idx_main_v177 (ridx_main_v180 (ix2 n j) k)) = ix3 2 k j := fun k =>
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v180_apply]
  generalize val_main_v175 (F := Ideal) x0 x1 x3 x4 x5 x6 x7 x8 x9 x10 = h
  simp only [val_main_v177_apply, val_main_v176_apply, el, ew]
  rfl

/-- The bias row: row 2 of the stacked biases. -/
theorem v214_at (x6 : CArr S4x128 .f32) (n : Fin 50000) (j : Fin 128) :
    val_main_v214 (F := Ideal) x6 (ix2 n j) = Spec.layerRow x6 2 (ix2 0 j) := by
  rw [val_main_v214_apply, val_main_v213_apply, val_main_v179_apply, val_main_v178_apply]
  exact congrArg x6 (funext fun a => Fin.ext (by
    match a with
    | ⟨0, _⟩ => rfl
    | ⟨1, _⟩ => show j.val % 128 = j.val; exact Nat.mod_eq_of_lt j.isLt))

/-- One over the degree, along a row. -/
theorem v210_at (x1 : CArr S2x600000 .i32) (n : Fin 50000) (j : Fin 128) :
    val_main_v210 (F := Ideal) x1 (ix2 n j) = Ideal.div Spec.oneF (Spec.deg (Spec.dstOf x1) n) := by
  rw [val_main_v210_apply, val_main_v209_apply]
  exact v12_at x1 _ n rfl

/-- The message of edge `e`: the projected row of its source times both degree factors. -/
theorem v205_at (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32)
    (e : Fin 600000) (j : Fin 128) :
    val_main_v205 (F := Ideal) x0 x1 x3 x4 x5 x6 x7 x8 x9 x10 (ix2 e j)
      = Spec.mm (val_main_v175 (F := Ideal) x0 x1 x3 x4 x5 x6 x7 x8 x9 x10) (Spec.layer x5 2)
          (Spec.node (Spec.wrap (Spec.srcOf x1 e))) j
        * (Spec.dsq (Spec.dstOf x1) (Spec.node (Spec.wrap (Spec.srcOf x1 e)))
          * Spec.dsq (Spec.dstOf x1) (Spec.node (Spec.wrap (Spec.dstOf x1 e)))) := by
  rw [val_main_v205_apply, val_main_v204_apply, val_main_v203_apply, v195_at x1 _ e rfl]
  unfold val_main_v202
  rw [gatherRows_at, v201_at, v180_at]
  rfl

/-- Round 2's convolution buffer is the specification's convolution of the state with layer 2. -/
theorem ref_conv2 (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32) :
    val_main_v216 (F := Ideal) x0 x1 x3 x4 x5 x6 x7 x8 x9 x10
      = Spec.arr2 (Spec.stepR (Spec.srcOf x1) (Spec.dstOf x1)
          (val_main_v175 (F := Ideal) x0 x1 x3 x4 x5 x6 x7 x8 x9 x10) (Spec.layer x5 2) (Spec.layerRow x6 2)) := by
  funext i
  obtain ⟨n, j, rfl⟩ : ∃ (n : Fin 50000) (j : Fin 128), i = ix2 n j :=
    ⟨⟨(i 0).val, idx2_lt0 i⟩, ⟨(i 1).val, idx2_lt1 i⟩, eq_ix2 i⟩
  rw [val_main_v216_apply, val_main_v215_apply, val_main_v212_apply, val_main_v211_apply, val_main_call3_v0_apply,
    val_main_call3_cst_apply, v214_at, v210_at, v180_at]
  unfold val_main_v208
  rw [scatterRows_at]
  simp only [v207_at, v205_at, val_main_v206_apply, val_main_cst_32_apply]
  generalize val_main_v175 (F := Ideal) x0 x1 x3 x4 x5 x6 x7 x8 x9 x10 = h
  rfl

/-! ## Round 3 -/

/-- The wrapped source words the first degree factor is gathered at. -/
theorem v265_at (x1 : CArr S2x600000 .i32) (e : Fin 600000) :
    val_main_v265 (F := Ideal) x1 (ix2 e 0) = Spec.wrap (Spec.srcOf x1 e) := by
  rw [val_main_v265_apply, val_main_v264_apply, val_main_v261_apply, val_main_v263_apply, val_main_v260_apply,
    val_main_v262_apply, val_main_c_38_apply, val_main_c_39_apply, src_word x1 (idx_main_v265 (ix2 e 0)) e rfl]
  exact wrap_eq _

/-- The wrapped target words the second degree factor is gathered at. -/
theorem v272_at (x1 : CArr S2x600000 .i32) (e : Fin 600000) :
    val_main_v272 (F := Ideal) x1 (ix2 e 0) = Spec.wrap (Spec.dstOf x1 e) := by
  rw [val_main_v272_apply, val_main_v271_apply, val_main_v268_apply, val_main_v270_apply, val_main_v267_apply,
    val_main_v269_apply, val_main_c_40_apply, val_main_c_41_apply, dst_word x1 (idx_main_v272 (ix2 e 0)) e rfl]
  exact wrap_eq _

/-- The wrapped source words the projected rows are gathered at. -/
theorem v280_at (x1 : CArr S2x600000 .i32) (e : Fin 600000) :
    val_main_v280 (F := Ideal) x1 (ix2 e 0) = Spec.wrap (Spec.srcOf x1 e) := by
  rw [val_main_v280_apply, val_main_v279_apply, val_main_v276_apply, val_main_v278_apply, val_main_v275_apply,
    val_main_v277_apply, val_main_c_42_apply, val_main_c_43_apply, src_word x1 (idx_main_v280 (ix2 e 0)) e rfl]
  exact wrap_eq _

/-- The raw target words the messages are scattered to. -/
theorem v286_at (x1 : CArr S2x600000 .i32) (e : Fin 600000) :
    val_main_v286 (F := Ideal) x1 (ix2 e 0) = Spec.dstOf x1 e := by
  rw [val_main_v286_apply]
  exact dst_word x1 _ e rfl

/-- The product of the two degree factors of edge `e`. -/
theorem v274_at (x1 : CArr S2x600000 .i32) (i : S600000.Idx) (e : Fin 600000) (hi : (i 0).val = e.val) :
    val_main_v274 (F := Ideal) x1 i
      = Spec.dsq (Spec.dstOf x1) (Spec.node (Spec.wrap (Spec.srcOf x1 e)))
        * Spec.dsq (Spec.dstOf x1) (Spec.node (Spec.wrap (Spec.dstOf x1 e))) := by
  obtain rfl : i = ix1 e := funext fun a => Fin.ext (by match a with | ⟨0, _⟩ => exact hi)
  rw [val_main_v274_apply]
  unfold val_main_v266 val_main_v273
  rw [gatherVec_at, gatherVec_at, v265_at, v272_at, v10_at x1 _ _ rfl, v10_at x1 _ _ rfl]
  rfl

/-- The projected features: the state times layer 3 of the stacked weights. -/
theorem v259_at (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32)
    (n : Fin 50000) (j : Fin 128) :
    val_main_v259 (F := Ideal) x0 x1 x3 x4 x5 x6 x7 x8 x9 x10 (ix2 n j)
      = Spec.mm (val_main_v254 (F := Ideal) x0 x1 x3 x4 x5 x6 x7 x8 x9 x10) (Spec.layer x5 3) n j := by
  have el : ∀ k : Fin 128, lidx_main_v259 (ix2 n j) k = ix2 n k := fun k =>
    funext fun a => Fin.ext (by match a with | ⟨0, _⟩ => rfl | ⟨1, _⟩ => rfl)
  have ew : ∀ k : Fin 128, idx_main_v255 (idx_main_v256 (ridx_main_v259 (ix2 n j) k)) = ix3 3 k j := fun k =>
    funext fun a => Fin.ext (by
      have hk := k.isLt
      have hj := j.isLt
      match a with
      | ⟨0, _⟩ => rfl
      | ⟨1, _⟩ => show (k.val * 128 + j.val) / 128 % 128 = k.val; omega
      | ⟨2, _⟩ => show (k.val * 128 + j.val) % 128 = j.val; omega)
  rw [val_main_v259_apply]
  generalize val_main_v254 (F := Ideal) x0 x1 x3 x4 x5 x6 x7 x8 x9 x10 = h
  simp only [val_main_v256_apply, val_main_v255_apply, el, ew]
  rfl

/-- The bias row: row 3 of the stacked biases. -/
theorem v293_at (x6 : CArr S4x128 .f32) (n : Fin 50000) (j : Fin 128) :
    val_main_v293 (F := Ideal) x6 (ix2 n j) = Spec.layerRow x6 3 (ix2 0 j) := by
  rw [val_main_v293_apply, val_main_v292_apply, val_main_v258_apply, val_main_v257_apply]
  exact congrArg x6 (funext fun a => Fin.ext (by
    match a with
    | ⟨0, _⟩ => rfl
    | ⟨1, _⟩ => show j.val % 128 = j.val; exact Nat.mod_eq_of_lt j.isLt))

/-- One over the degree, along a row. -/
theorem v289_at (x1 : CArr S2x600000 .i32) (n : Fin 50000) (j : Fin 128) :
    val_main_v289 (F := Ideal) x1 (ix2 n j) = Ideal.div Spec.oneF (Spec.deg (Spec.dstOf x1) n) := by
  rw [val_main_v289_apply, val_main_v288_apply]
  exact v12_at x1 _ n rfl

/-- The message of edge `e`: the projected row of its source times both degree factors. -/
theorem v284_at (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32)
    (e : Fin 600000) (j : Fin 128) :
    val_main_v284 (F := Ideal) x0 x1 x3 x4 x5 x6 x7 x8 x9 x10 (ix2 e j)
      = Spec.mm (val_main_v254 (F := Ideal) x0 x1 x3 x4 x5 x6 x7 x8 x9 x10) (Spec.layer x5 3)
          (Spec.node (Spec.wrap (Spec.srcOf x1 e))) j
        * (Spec.dsq (Spec.dstOf x1) (Spec.node (Spec.wrap (Spec.srcOf x1 e)))
          * Spec.dsq (Spec.dstOf x1) (Spec.node (Spec.wrap (Spec.dstOf x1 e)))) := by
  rw [val_main_v284_apply, val_main_v283_apply, val_main_v282_apply, v274_at x1 _ e rfl]
  unfold val_main_v281
  rw [gatherRows_at, v280_at, v259_at]
  rfl

/-- Round 3's convolution buffer is the specification's convolution of the state with layer 3. -/
theorem ref_conv3 (x0 : CArr S50000x128 .f32) (x1 : CArr S2x600000 .i32) (x3 : CArr S128x128 .f32) (x4 : CArr S128 .f32)
    (x5 : CArr S4x128x128 .f32) (x6 : CArr S4x128 .f32) (x7 x8 : CArr S384x128 .f32) (x9 x10 : CArr S384 .f32) :
    val_main_v295 (F := Ideal) x0 x1 x3 x4 x5 x6 x7 x8 x9 x10
      = Spec.arr2 (Spec.stepR (Spec.srcOf x1) (Spec.dstOf x1)
          (val_main_v254 (F := Ideal) x0 x1 x3 x4 x5 x6 x7 x8 x9 x10) (Spec.layer x5 3) (Spec.layerRow x6 3)) := by
  funext i
  obtain ⟨n, j, rfl⟩ : ∃ (n : Fin 50000) (j : Fin 128), i = ix2 n j :=
    ⟨⟨(i 0).val, idx2_lt0 i⟩, ⟨(i 1).val, idx2_lt1 i⟩, eq_ix2 i⟩
  rw [val_main_v295_apply, val_main_v294_apply, val_main_v291_apply, val_main_v290_apply, val_main_call4_v0_apply,
    val_main_call4_cst_apply, v293_at, v289_at, v259_at]
  unfold val_main_v287
  rw [scatterRows_at]
  simp only [v286_at, v284_at, val_main_v285_apply, val_main_cst_44_apply]
  generalize val_main_v254 (F := Ideal) x0 x1 x3 x4 x5 x6 x7 x8 x9 x10 = h
  rfl

end Cert.ReferenceIdeal.RefValue

end
-- ==== Proof.RefGru.lean ====
import proofs.«171838_j74071005987300_2_alg».proof.Proof.Spec
import proofs.«171838_j74071005987300_2_alg».proof.Proof.RefRead
import proofs.«171838_j74071005987300_2_alg».proof.Proof.GraphOps
import Idealize.ShloMosaic.Lib.Pipeline.Value
import Idealize.ShloMosaic.Lib.ValueIdx
import Idealize.ShloMosaic.PureOps.Ideal.Laws
import Idealize.ShloMosaic.Lib.IdealHost

/-!
# The reference's gated updates and its tail, read to the shared specification

Each of the reference's four rounds ends with a gated recurrent update of the state by the convolution's output; after the
fourth the program takes the mean of the state over each graph's nodes and applies a last linear map. The update is one
function of the convolution's output and the previous state, the same in every round; it is read once, entry by entry,
over two arbitrary arrays, and each round's value is that function of the round's two inputs. The tail is read the same
way over an arbitrary last state.
-/

noncomputable section

namespace Cert.ReferenceIdeal.RefValue

open Cert.ReferenceIdeal Cert.ReferenceIdeal.Gen Idealize.ShloMosaic Idealize.ShloMosaic.TcCoe Idealize.SL.Sem Idealize.ShloMosaic.StableHlo Idealize.ShloMosaic.ValueIdx
open scoped BigOperators

/-- A float array over the extended reals. -/
abbrev FA (s : Shape) : Type := FVec Ideal s .f32

/-! ## The layout operations of a round's gated update, read at literal coordinates -/

/-- The transposed weights at (k, q) are the weights at (q, k). -/
theorem transpose_read (W : FA S384x128) (k : Fin 128) (q : Fin 384) :
    transpose S128x384 [1, 0] W transposes_S384x128_S128x384_1_0 (ix2 k q) = Spec.tr W (ix2 k q) :=
  transpose_apply [1, 0] W transposes_S384x128_S128x384_1_0 (ix2 k q) (ix2 q k) (fun b => match b with
    | ⟨0, _⟩ => rfl
    | ⟨1, _⟩ => rfl)

/-- The bias, broadcast to a row and then to every node, at (n, q) is its lane q. -/
theorem bias_read (b : FA S384) (n : Fin 50000) (q : Fin 384) :
    broadcastInDim S50000x384 ![0, 1] bcast_S1x384_S50000x384_0_1 (broadcastInDim S1x384 ![1] bcast_S384_S1x384_1 b) (ix2 n q)
      = Spec.rowOf b (ix2 0 q) := by
  refine (broadcastInDim_apply _ bcast_S1x384_S50000x384_0_1 _ (ix2 n q) (ix2 0 q) (fun a => match a with
    | ⟨0, _⟩ => by show 0 = if (1 : Nat) = 1 then 0 else n.val; rw [if_pos rfl]
    | ⟨1, _⟩ => by show q.val = if (384 : Nat) = 1 then 0 else q.val; rw [if_neg (by decide)])).trans ?_
  exact broadcastInDim_apply _ bcast_S384_S1x384_1 b (ix2 0 q) (ix1 q) (fun a => match a with
    | ⟨0, _⟩ => by show q.val = if (384 : Nat) = 1 then 0 else q.val; rw [if_neg (by decide)])

/-- The three lane slices of the 384 gate lanes. -/
theorem slice0_read (y : FA S50000x384) (n : Fin 50000) (j : Fin 128) :
    extractStridedSlice S50000x128 ![0, 0] y slices_S50000x384_S50000x128_0_0 (ix2 n j) = y (ix2 n (Spec.q0 j)) :=
  extractStridedSlice_apply ![0, 0] y slices_S50000x384_S50000x128_0_0 (ix2 n j) (ix2 n (Spec.q0 j)) (fun a => match a with
    | ⟨0, _⟩ => by show n.val = 0 + n.val; omega
    | ⟨1, _⟩ => by show j.val = 0 + j.val; omega)
theorem slice1_read (y : FA S50000x384) (n : Fin 50000) (j : Fin 128) :
    extractStridedSlice S50000x128 ![0, 128] y slices_S50000x384_S50000x128_0_128 (ix2 n j) = y (ix2 n (Spec.q1 j)) :=
  extractStridedSlice_apply ![0, 128] y slices_S50000x384_S50000x128_0_128 (ix2 n j) (ix2 n (Spec.q1 j)) (fun a => match a with
    | ⟨0, _⟩ => by show n.val = 0 + n.val; omega
    | ⟨1, _⟩ => by show 128 + j.val = 128 + j.val; rfl)
theorem slice2_read (y : FA S50000x384) (n : Fin 50000) (j : Fin 128) :
    extractStridedSlice S50000x128 ![0, 256] y slices_S50000x384_S50000x128_0_256 (ix2 n j) = y (ix2 n (Spec.q2 j)) :=
  extractStridedSlice_apply ![0, 256] y slices_S50000x384_S50000x128_0_256 (ix2 n j) (ix2 n (Spec.q2 j)) (fun a => match a with
    | ⟨0, _⟩ => by show n.val = 0 + n.val; omega
    | ⟨1, _⟩ => by show 256 + j.val = 256 + j.val; rfl)

/-- The word 1.0 broadcast to every entry. -/
theorem one_read (i : S50000x128.Idx) :
    broadcastInDim S50000x128 ![] bcast_S_S50000x128 (constant (F := Ideal) S_ .f32 0x3F800000#32) i = Spec.oneF :=
  broadcastInDim_apply _ bcast_S_S50000x128 (constant (F := Ideal) S_ .f32 0x3F800000#32) i (fun a => a.elim0) (fun a => a.elim0)

/-! ## The product with the transposed weights -/

theorem dotG_lhs0 (i : S50000x384.Idx) (q : dot_S50000x128_S128x384_S50000x384_1_0_0_1_n_n.contr.Idx) :
    (dot_S50000x128_S128x384_S50000x384_1_0_0_1_n_n.lhsIdx i q 0).val = (i 0).val := by
  unfold DotDims.lhsIdx
  rw [dif_neg (show ¬(0 : Fin S50000x128.rank) ∈ dot_S50000x128_S128x384_S50000x384_1_0_0_1_n_n.lhsBatch by decide), dif_pos (show (0 : Fin S50000x128.rank) ∈ dot_S50000x128_S128x384_S50000x384_1_0_0_1_n_n.lhsNonContracting by decide)]
  rfl
theorem dotG_rhs1 (i : S50000x384.Idx) (q : dot_S50000x128_S128x384_S50000x384_1_0_0_1_n_n.contr.Idx) :
    (dot_S50000x128_S128x384_S50000x384_1_0_0_1_n_n.rhsIdx i q 1).val = (i 1).val := by
  unfold DotDims.rhsIdx
  rw [dif_neg (show ¬(1 : Fin S128x384.rank) ∈ dot_S50000x128_S128x384_S50000x384_1_0_0_1_n_n.rhsBatch by decide), dif_pos (show (1 : Fin S128x384.rank) ∈ dot_S50000x128_S128x384_S50000x384_1_0_0_1_n_n.rhsNonContracting by decide)]
  rfl

/-- The contraction of the node's 128 features with a column of a [128, 384] matrix. -/
theorem dotG_read (x : FA S50000x128) (T : FA S128x384) (n : Fin 50000) (q : Fin 384) :
    Host.dotGeneral (F := Ideal) dot_S50000x128_S128x384_S50000x384_1_0_0_1_n_n none x T (ix2 n q) = ∑ k : Fin 128, x (ix2 n k) * T (ix2 k q) := by
  simp only [Host.dotGeneral]
  rw [Ideal.dotGeneral_apply, ← Equiv.sum_comp (ValueIdx.contrEquiv1 dot_S50000x128_S128x384_S50000x384_1_0_0_1_n_n 128 rfl rfl).symm]
  refine Finset.sum_congr rfl fun k _ => ?_
  have hk := ValueIdx.contrEquiv1_symm_val dot_S50000x128_S128x384_S50000x384_1_0_0_1_n_n 128 rfl rfl k
  have el : dot_S50000x128_S128x384_S50000x384_1_0_0_1_n_n.lhsIdx (ix2 n q) ((ValueIdx.contrEquiv1 dot_S50000x128_S128x384_S50000x384_1_0_0_1_n_n 128 rfl rfl).symm k) = ix2 n k := funext fun a => Fin.ext (by
    match a with
    | ⟨0, _⟩ => exact dotG_lhs0 _ _
    | ⟨1, _⟩ => exact (dot_S50000x128_S128x384_S50000x384_1_0_0_1_n_n.lhsIdx_val_of_single rfl _ _).trans hk)
  have er : dot_S50000x128_S128x384_S50000x384_1_0_0_1_n_n.rhsIdx (ix2 n q) ((ValueIdx.contrEquiv1 dot_S50000x128_S128x384_S50000x384_1_0_0_1_n_n 128 rfl rfl).symm k) = ix2 k q := funext fun a => Fin.ext (by
    match a with
    | ⟨0, _⟩ => exact (dot_S50000x128_S128x384_S50000x384_1_0_0_1_n_n.rhsIdx_val_of_single rfl _ _).trans hk
    | ⟨1, _⟩ => exact dotG_rhs1 _ _)
  rw [el, er]

/-! ## A round's gated update as one function of the convolution's output and the state -/

/-- One affine map into the 384 gate lanes, as the program spells it. -/
def linRef (x : FA S50000x128) (W : FA S384x128) (b : FA S384) : FA S50000x384 :=
  addf (F := Ideal) (Host.dotGeneral (F := Ideal) dot_S50000x128_S128x384_S50000x384_1_0_0_1_n_n none x (transpose S128x384 [1, 0] W transposes_S384x128_S128x384_1_0))
    (broadcastInDim S50000x384 ![0, 1] bcast_S1x384_S50000x384_0_1 (broadcastInDim S1x384 ![1] bcast_S384_S1x384_1 b))

theorem linRef_apply (x : FA S50000x128) (W : FA S384x128) (b : FA S384) (n : Fin 50000) (q : Fin 384) :
    linRef x W b (ix2 n q) = Spec.lin x (Spec.tr W) (Spec.rowOf b) n q := by
  show Host.dotGeneral (F := Ideal) dot_S50000x128_S128x384_S50000x384_1_0_0_1_n_n none x (transpose S128x384 [1, 0] W transposes_S384x128_S128x384_1_0) (ix2 n q)
      + broadcastInDim S50000x384 ![0, 1] bcast_S1x384_S50000x384_0_1 (broadcastInDim S1x384 ![1] bcast_S384_S1x384_1 b) (ix2 n q) = _
  rw [dotG_read, bias_read]
  unfold Spec.lin Spec.mm
  refine congrArg (· + Spec.rowOf b (ix2 0 q)) (Finset.sum_congr rfl fun k _ => ?_)
  rw [transpose_read]

/-- The word 1.0 at every entry. -/
def oneRef : FA S50000x128 := broadcastInDim S50000x128 ![] bcast_S_S50000x128 (constant (F := Ideal) S_ .f32 0x3F800000#32)

/-- The three lane slices. -/
def sl0 (y : FA S50000x384) : FA S50000x128 := extractStridedSlice S50000x128 ![0, 0] y slices_S50000x384_S50000x128_0_0
def sl1 (y : FA S50000x384) : FA S50000x128 := extractStridedSlice S50000x128 ![0, 128] y slices_S50000x384_S50000x128_0_128
def sl2 (y : FA S50000x384) : FA S50000x128 := extractStridedSlice S50000x128 ![0, 256] y slices_S50000x384_S50000x128_0_256

/-- A gate: 1 / (1 + exp (-(a + b))), entry by entry. -/
def sigRef (a b : FA S50000x128) : FA S50000x128 :=
  Host.divf (F := Ideal) oneRef (addf (F := Ideal) oneRef (Host.exp (F := Ideal) (Host.negf (F := Ideal) (addf (F := Ideal) a b))))

theorem sigRef_apply (a b : FA S50000x128) (i : S50000x128.Idx) : sigRef a b i = Ideal.logistic (a i + b i) := by
  show Ideal.div (oneRef i) (oneRef i + Ideal.exp (-(a i + b i))) = _
  unfold oneRef
  rw [one_read, show Spec.oneF = 1 from Ideal.ofBits_one_f32]
  rfl

/-- The gated update, in the program's order of operations, as a function of the convolution's output xn and the state h. -/
def gruRef (xn h : FA S50000x128) (x7 x8 : FA S384x128) (x9 x10 : FA S384) : FA S50000x128 :=
  addf (F := Ideal)
    (mulf (F := Ideal) (subf (F := Ideal) oneRef (sigRef (sl1 (linRef xn x7 x9)) (sl1 (linRef h x8 x10))))
      (Host.tanh (F := Ideal) (addf (F := Ideal) (sl2 (linRef xn x7 x9))
        (mulf (F := Ideal) (sigRef (sl0 (linRef xn x7 x9)) (sl0 (linRef h x8 x10))) (sl2 (linRef h x8 x10))))))
    (mulf (F := Ideal) (sigRef (sl1 (linRef xn x7 x9)) (sl1 (linRef h x8 x10))) h)

theorem gruRef_apply (xn h : FA S50000x128) (x7 x8 : FA S384x128) (x9 x10 : FA S384) (n : Fin 50000) (j : Fin 128) :
    gruRef xn h x7 x8 x9 x10 (ix2 n j)
      = Spec.gru xn h (Spec.tr x7) (Spec.tr x8) (Spec.rowOf x9) (Spec.rowOf x10) n j := by
  show (oneRef (ix2 n j) - sigRef (sl1 (linRef xn x7 x9)) (sl1 (linRef h x8 x10)) (ix2 n j))
        * Ideal.tanh (sl2 (linRef xn x7 x9) (ix2 n j)
            + sigRef (sl0 (linRef xn x7 x9)) (sl0 (linRef h x8 x10)) (ix2 n j) * sl2 (linRef h x8 x10) (ix2 n j))
      + sigRef (sl1 (linRef xn x7 x9)) (sl1 (linRef h x8 x10)) (ix2 n j) * h (ix2 n j) = _
  rw [sigRef_apply, sigRef_apply]
  unfold oneRef sl0 sl1 sl2
  rw [one_read, slice0_read, slice0_read, slice1_read, slice1_read, slice2_read, slice2_read]
  simp only [linRef_apply]
  rfl

/-- The gated update of a round is the specification's, whatever the convolution's output and the state. -/
theorem gru_read (xn h : FA S50000x128) (x7 x8 : FA S384x128) (x9 x10 : FA S384) :
    gruRef xn h x7 x8 x9 x10
      = Spec.arr2 (Spec.gru xn h (Spec.tr x7) (Spec.tr x8) (Spec.rowOf x9) (Spec.rowOf x10)) := by
  funext i
  obtain ⟨n, j, rfl⟩ : ∃ (n : Fin 50000) (j : Fin 128), i = ix2 n j := ⟨⟨(i 0).val, idx2_lt0 i⟩, ⟨(i 1).val, idx2_lt1 i⟩, eq_ix2 i⟩
  exact gruRef_apply xn h x7 x8 x9 x10 n j

/-! ## The tail: the mean over each graph's nodes, then the last linear map -/

/-- The two scatter-adds of the tail, at the dimension numbers their read-at-an-index lemmas are stated for. -/
theorem scatter_rows_eq (x : FA S512x128) (idx : IVec S50000x1 32) (upd : FA S50000x128) :
    Host.scatterAdd (F := Ideal) scatter_S512x128_S50000x1_S50000x128_1_0_0_1 x idx upd
      = Ideal.hostScatterAdd (Cert.GraphOps.rowsS 512 50000 128 Facts₀.scatter_S512x128_S50000x1_S50000x128_1_0_0_1_wf) x idx upd := rfl
theorem scatter_vec_eq (x : FA S512) (idx : IVec S50000x1 32) (upd : FA S50000) :
    Host.scatterAdd (F := Ideal) scatter_S512_S50000x1_S50000_n_0_0_1 x idx upd
      = Ideal.hostScatterAdd (Cert.GraphOps.vecS 512 50000 Facts₀.scatter_S512_S50000x1_S50000_n_0_0_1_wf) x idx upd := rfl

/-- The graph words as a column: entry (n, 0) is word n. -/
theorem batch_read (x2 : IVec S50000 32) (n : Fin 50000) :
    broadcastInDim S50000x1 ![0] bcast_S50000_S50000x1_0 x2 (ix2 n 0) = x2 (ix1 n) :=
  broadcastInDim_apply _ bcast_S50000_S50000x1_0 x2 (ix2 n 0) (ix1 n) (fun a => match a with
    | ⟨0, _⟩ => by show n.val = if (50000 : Nat) = 1 then 0 else n.val; rw [if_neg (by decide)])

/-- The number of nodes of each graph: ones scattered at the graph words into zeros. -/
def cntRef (x2 : IVec S50000 32) : FA S512 :=
  Host.scatterAdd (F := Ideal) scatter_S512_S50000x1_S50000_n_0_0_1
    (broadcastInDim S512 ![] bcast_S_S512 (constant (F := Ideal) S_ .f32 0x00000000#32))
    (broadcastInDim S50000x1 ![0] bcast_S50000_S50000x1_0 x2)
    (broadcastInDim S50000 ![] bcast_S_S50000 (constant (F := Ideal) S_ .f32 0x3F800000#32))

theorem cntRef_apply (x2 : IVec S50000 32) (g : Fin 512) :
    cntRef x2 (ix1 g)
      = Spec.zeroF + ∑ _n ∈ Finset.univ.filter (fun n : Fin 50000 => Spec.lands (x2 (ix1 n)) g), Spec.oneF := by
  unfold cntRef
  rw [scatter_vec_eq, Cert.GraphOps.scatter_vec_apply]
  have h0 : broadcastInDim S512 ![] bcast_S_S512 (constant (F := Ideal) S_ .f32 0x00000000#32) (ix1 g) = Spec.zeroF :=
    broadcastInDim_apply _ bcast_S_S512 (constant (F := Ideal) S_ .f32 0x00000000#32) (ix1 g) (fun a => a.elim0) (fun a => a.elim0)
  have h1 : ∀ e : Fin 50000, broadcastInDim S50000 ![] bcast_S_S50000 (constant (F := Ideal) S_ .f32 0x3F800000#32) (ix1 e) = Spec.oneF :=
    fun e => broadcastInDim_apply _ bcast_S_S50000 (constant (F := Ideal) S_ .f32 0x3F800000#32) (ix1 e) (fun a => a.elim0) (fun a => a.elim0)
  rw [h0]
  refine congrArg (Spec.zeroF + ·) (Finset.sum_congr (Finset.filter_congr fun e _ => by rw [batch_read]) fun e _ => h1 e)

/-- The sum of each graph's rows: the state's rows scattered at the graph words into zeros. -/
def sumRef (h : FA S50000x128) (x2 : IVec S50000 32) : FA S512x128 :=
  Host.scatterAdd (F := Ideal) scatter_S512x128_S50000x1_S50000x128_1_0_0_1
    (broadcastInDim S512x128 ![] bcast_S_S512x128 (constant (F := Ideal) S_ .f32 0x00000000#32))
    (broadcastInDim S50000x1 ![0] bcast_S50000_S50000x1_0 x2) h

theorem sumRef_apply (h : FA S50000x128) (x2 : IVec S50000 32) (g : Fin 512) (k : Fin 128) :
    sumRef h x2 (ix2 g k)
      = Spec.zeroF + ∑ n ∈ Finset.univ.filter (fun n : Fin 50000 => Spec.lands (x2 (ix1 n)) g), h (ix2 n k) := by
  unfold sumRef
  rw [scatter_rows_eq, Cert.GraphOps.scatter_rows_apply]
  have h0 : broadcastInDim S512x128 ![] bcast_S_S512x128 (constant (F := Ideal) S_ .f32 0x00000000#32) (ix2 g k) = Spec.zeroF :=
    broadcastInDim_apply _ bcast_S_S512x128 (constant (F := Ideal) S_ .f32 0x00000000#32) (ix2 g k) (fun a => a.elim0) (fun a => a.elim0)
  rw [h0]
  refine congrArg (Spec.zeroF + ·) (Finset.sum_congr (Finset.filter_congr fun e _ => by rw [batch_read]) fun e _ => rfl)

/-- The divisor: max (count, 1), as a column, then along the features. -/
def denRef (x2 : IVec S50000 32) : FA S512x128 :=
  broadcastInDim S512x128 ![0, 1] bcast_S512x1_S512x128_0_1
    (broadcastInDim S512x1 ![0] bcast_S512_S512x1_0
      (maximumf (F := Ideal) (cntRef x2) (broadcastInDim S512 ![] bcast_S_S512 (constant (F := Ideal) S_ .f32 0x3F800000#32))))

theorem denRef_apply (x2 : IVec S50000 32) (g : Fin 512) (k : Fin 128) :
    denRef x2 (ix2 g k)
      = max (Spec.zeroF + ∑ _n ∈ Finset.univ.filter (fun n : Fin 50000 => Spec.lands (x2 (ix1 n)) g), Spec.oneF) Spec.oneF := by
  unfold denRef
  refine (broadcastInDim_apply _ bcast_S512x1_S512x128_0_1 _ (ix2 g k) (ix2 g 0) (fun a => match a with
    | ⟨0, _⟩ => by show g.val = if (512 : Nat) = 1 then 0 else g.val; rw [if_neg (by decide)]
    | ⟨1, _⟩ => by show 0 = if (1 : Nat) = 1 then 0 else k.val; rw [if_pos rfl])).trans ?_
  refine (broadcastInDim_apply _ bcast_S512_S512x1_0 _ (ix2 g 0) (ix1 g) (fun a => match a with
    | ⟨0, _⟩ => by show g.val = if (512 : Nat) = 1 then 0 else g.val; rw [if_neg (by decide)])).trans ?_
  show FloatOps.maximumf (cntRef x2 (ix1 g)) (broadcastInDim S512 ![] bcast_S_S512 (constant (F := Ideal) S_ .f32 0x3F800000#32) (ix1 g)) = _
  have h1 : broadcastInDim S512 ![] bcast_S_S512 (constant (F := Ideal) S_ .f32 0x3F800000#32) (ix1 g) = Spec.oneF :=
    broadcastInDim_apply _ bcast_S_S512 (constant (F := Ideal) S_ .f32 0x3F800000#32) (ix1 g) (fun a => a.elim0) (fun a => a.elim0)
  rw [cntRef_apply, h1]
  rfl

/-- The mean over each graph's nodes, as the program spells it. -/
def poolRef (h : FA S50000x128) (x2 : IVec S50000 32) : FA S512x128 := Host.divf (F := Ideal) (sumRef h x2) (denRef x2)

theorem poolRef_apply (h : FA S50000x128) (x2 : IVec S50000 32) (g : Fin 512) (k : Fin 128) :
    poolRef h x2 (ix2 g k) = Spec.pool (fun n => x2 (ix1 n)) h g k := by
  unfold poolRef Host.divf
  rw [sumRef_apply, denRef_apply]
  rfl

theorem dotO_lhs0 (i : S512x128.Idx) (q : dot_S512x128_S128x128_S512x128_1_0_0_1_n_n.contr.Idx) :
    (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem dotO_rhs1 (i : S512x128.Idx) (q : dot_S512x128_S128x128_S512x128_1_0_0_1_n_n.contr.Idx) :
    (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- The contraction of a graph's 128 pooled features with a column of the last weights. -/
theorem dotO_read (p : FA S512x128) (W : FA S128x128) (g : Fin 512) (j : Fin 128) :
    Host.dotGeneral (F := Ideal) dot_S512x128_S128x128_S512x128_1_0_0_1_n_n none p W (ix2 g j) = ∑ k : Fin 128, p (ix2 g k) * W (ix2 k j) := by
  simp only [Host.dotGeneral]
  rw [Ideal.dotGeneral_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx (ix2 g j) ((ValueIdx.contrEquiv1 dot_S512x128_S128x128_S512x128_1_0_0_1_n_n 128 rfl rfl).symm k) = ix2 g k := funext fun a => Fin.ext (by
    match a with
    | ⟨0, _⟩ => exact dotO_lhs0 _ _
    | ⟨1, _⟩ => exact (dot_S512x128_S128x128_S512x128_1_0_0_1_n_n.lhsIdx_val_of_single rfl _ _).trans hk)
  have er : dot_S512x128_S128x128_S512x128_1_0_0_1_n_n.rhsIdx (ix2 g j) ((ValueIdx.contrEquiv1 dot_S512x128_S128x128_S512x128_1_0_0_1_n_n 128 rfl rfl).symm k) = ix2 k j := funext fun a => Fin.ext (by
    match a with
    | ⟨0, _⟩ => exact (dot_S512x128_S128x128_S512x128_1_0_0_1_n_n.rhsIdx_val_of_single rfl _ _).trans hk
    | ⟨1, _⟩ => exact dotO_rhs1 _ _)
  rw [el, er]

/-- The last bias, broadcast to a row and then to every graph, at (g, j) is its lane j. -/
theorem biasO_read (b : FA S128) (g : Fin 512) (j : Fin 128) :
    broadcastInDim S512x128 ![0, 1] bcast_S1x128_S512x128_0_1 (broadcastInDim S1x128 ![1] bcast_S128_S1x128_1 b) (ix2 g j)
      = Spec.rowOf b (ix2 0 j) := by
  refine (broadcastInDim_apply _ bcast_S1x128_S512x128_0_1 _ (ix2 g j) (ix2 0 j) (fun a => match a with
    | ⟨0, _⟩ => by show 0 = if (1 : Nat) = 1 then 0 else g.val; rw [if_pos rfl]
    | ⟨1, _⟩ => by show j.val = if (128 : Nat) = 1 then 0 else j.val; rw [if_neg (by decide)])).trans ?_
  exact broadcastInDim_apply _ bcast_S128_S1x128_1 b (ix2 0 j) (ix1 j) (fun a => match a with
    | ⟨0, _⟩ => by show j.val = if (128 : Nat) = 1 then 0 else j.val; rw [if_neg (by decide)])

/-- The tail as one function of the last state. -/
def tailRef (h : FA S50000x128) (x2 : IVec S50000 32) (x11 : FA S128x128) (x12 : FA S128) : FA S512x128 :=
  addf (F := Ideal) (Host.dotGeneral (F := Ideal) dot_S512x128_S128x128_S512x128_1_0_0_1_n_n none (poolRef h x2) x11)
    (broadcastInDim S512x128 ![0, 1] bcast_S1x128_S512x128_0_1 (broadcastInDim S1x128 ![1] bcast_S128_S1x128_1 x12))

/-- The tail is the specification's mean and last linear map, whatever the last state. -/
theorem tail_read (h : FA S50000x128) (x2 : IVec S50000 32) (x11 : FA S128x128) (x12 : FA S128) :
    tailRef h x2 x11 x12
      = Spec.arr2 (Spec.outp (Spec.arr2 (Spec.pool (fun n => x2 (ix1 n)) h)) x11 (Spec.rowOf x12)) := by
  funext i
  obtain ⟨g, j, rfl⟩ : ∃ (g : Fin 512) (j : Fin 128), i = ix2 g j := ⟨⟨(i 0).val, idx2_lt0 i⟩, ⟨(i 1).val, idx2_lt1 i⟩, eq_ix2 i⟩
  show Host.dotGeneral (F := Ideal) dot_S512x128_S128x128_S512x128_1_0_0_1_n_n none (poolRef h x2) x11 (ix2 g j)
      + broadcastInDim S512x128 ![0, 1] bcast_S1x128_S512x128_0_1 (broadcastInDim S1x128 ![1] bcast_S128_S1x128_1 x12) (ix2 g j) = _
  rw [dotO_read, biasO_read]
  simp only [poolRef_apply]
  rfl

/-! ## Each round's gated update, and the tail, as those functions of their inputs -/

theorem ref_gru0 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Read.val_main_v96 (F := Ideal) x0 x1 x3 x4 x5 x6 x7 x8 x9 x10
      = Spec.arr2 (Spec.gru (Read.val_main_v58 (F := Ideal) x0 x1 x3 x4 x5 x6) (Read.val_main_v17 (F := Ideal) x0 x3 x4)
          (Spec.tr x7) (Spec.tr x8) (Spec.rowOf x9) (Spec.rowOf x10)) := by
  have e : Read.val_main_v96 (F := Ideal) x0 x1 x3 x4 x5 x6 x7 x8 x9 x10
      = gruRef (Read.val_main_v58 (F := Ideal) x0 x1 x3 x4 x5 x6) (Read.val_main_v17 (F := Ideal) x0 x3 x4) x7 x8 x9 x10 := by
    unfold Read.val_main_v96 Read.val_main_v95 Read.val_main_v94 Read.val_main_v93 Read.val_main_v92 Read.val_main_v91
      Read.val_main_v90 Read.val_main_v89 Read.val_main_v88 Read.val_main_v87 Read.val_main_v86 Read.val_main_v85
      Read.val_main_v84 Read.val_main_v83 Read.val_main_v82 Read.val_main_v81 Read.val_main_v80 Read.val_main_v79
      Read.val_main_v78 Read.val_main_v77 Read.val_main_v76 Read.val_main_v75 Read.val_main_v74 Read.val_main_v73
      Read.val_main_v72 Read.val_main_v71 Read.val_main_v70 Read.val_main_v69 Read.val_main_v68 Read.val_main_v67
      Read.val_main_v66 Read.val_main_v65 Read.val_main_v64 Read.val_main_v63 Read.val_main_v62 Read.val_main_v61
      Read.val_main_v60 Read.val_main_v59 Read.val_main_cst_9 Read.val_main_cst_10 Read.val_main_cst_11
      Read.val_main_cst_12 Read.val_main_cst_13 gruRef sigRef oneRef sl0 sl1 sl2 linRef
    rfl
  rw [e]
  exact gru_read _ _ x7 x8 x9 x10

theorem ref_gru1 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Read.val_main_v175 (F := Ideal) x0 x1 x3 x4 x5 x6 x7 x8 x9 x10
      = Spec.arr2 (Spec.gru (Read.val_main_v137 (F := Ideal) x0 x1 x3 x4 x5 x6 x7 x8 x9 x10)
          (Read.val_main_v96 (F := Ideal) x0 x1 x3 x4 x5 x6 x7 x8 x9 x10)
          (Spec.tr x7) (Spec.tr x8) (Spec.rowOf x9) (Spec.rowOf x10)) := by
  have e : Read.val_main_v175 (F := Ideal) x0 x1 x3 x4 x5 x6 x7 x8 x9 x10
      = gruRef (Read.val_main_v137 (F := Ideal) x0 x1 x3 x4 x5 x6 x7 x8 x9 x10)
          (Read.val_main_v96 (F := Ideal) x0 x1 x3 x4 x5 x6 x7 x8 x9 x10) x7 x8 x9 x10 := by
    unfold Read.val_main_v175 Read.val_main_v174 Read.val_main_v173 Read.val_main_v172 Read.val_main_v171 Read.val_main_v170
      Read.val_main_v169 Read.val_main_v168 Read.val_main_v167 Read.val_main_v166 Read.val_main_v165 Read.val_main_v164
      Read.val_main_v163 Read.val_main_v162 Read.val_main_v161 Read.val_main_v160 Read.val_main_v159 Read.val_main_v158
      Read.val_main_v157 Read.val_main_v156 Read.val_main_v155 Read.val_main_v154 Read.val_main_v153 Read.val_main_v152
      Read.val_main_v151 Read.val_main_v150 Read.val_main_v149 Read.val_main_v148 Read.val_main_v147 Read.val_main_v146
      Read.val_main_v145 Read.val_main_v144 Read.val_main_v143 Read.val_main_v142 Read.val_main_v141 Read.val_main_v140
      Read.val_main_v139 Read.val_main_v138 Read.val_main_cst_21 Read.val_main_cst_22 Read.val_main_cst_23
      Read.val_main_cst_24 Read.val_main_cst_25 gruRef sigRef oneRef sl0 sl1 sl2 linRef
    rfl
  rw [e]
  exact gru_read _ _ x7 x8 x9 x10

theorem ref_gru2 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Read.val_main_v254 (F := Ideal) x0 x1 x3 x4 x5 x6 x7 x8 x9 x10
      = Spec.arr2 (Spec.gru (Read.val_main_v216 (F := Ideal) x0 x1 x3 x4 x5 x6 x7 x8 x9 x10)
          (Read.val_main_v175 (F := Ideal) x0 x1 x3 x4 x5 x6 x7 x8 x9 x10)
          (Spec.tr x7) (Spec.tr x8) (Spec.rowOf x9) (Spec.rowOf x10)) := by
  have e : Read.val_main_v254 (F := Ideal) x0 x1 x3 x4 x5 x6 x7 x8 x9 x10
      = gruRef (Read.val_main_v216 (F := Ideal) x0 x1 x3 x4 x5 x6 x7 x8 x9 x10)
          (Read.val_main_v175 (F := Ideal) x0 x1 x3 x4 x5 x6 x7 x8 x9 x10) x7 x8 x9 x10 := by
    unfold Read.val_main_v254 Read.val_main_v253 Read.val_main_v252 Read.val_main_v251 Read.val_main_v250 Read.val_main_v249
      Read.val_main_v248 Read.val_main_v247 Read.val_main_v246 Read.val_main_v245 Read.val_main_v244 Read.val_main_v243
      Read.val_main_v242 Read.val_main_v241 Read.val_main_v240 Read.val_main_v239 Read.val_main_v238 Read.val_main_v237
      Read.val_main_v236 Read.val_main_v235 Read.val_main_v234 Read.val_main_v233 Read.val_main_v232 Read.val_main_v231
      Read.val_main_v230 Read.val_main_v229 Read.val_main_v228 Read.val_main_v227 Read.val_main_v226 Read.val_main_v225
      Read.val_main_v224 Read.val_main_v223 Read.val_main_v222 Read.val_main_v221 Read.val_main_v220 Read.val_main_v219
      Read.val_main_v218 Read.val_main_v217 Read.val_main_cst_33 Read.val_main_cst_34 Read.val_main_cst_35
      Read.val_main_cst_36 Read.val_main_cst_37 gruRef sigRef oneRef sl0 sl1 sl2 linRef
    rfl
  rw [e]
  exact gru_read _ _ x7 x8 x9 x10

theorem ref_gru3 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Read.val_main_v333 (F := Ideal) x0 x1 x3 x4 x5 x6 x7 x8 x9 x10
      = Spec.arr2 (Spec.gru (Read.val_main_v295 (F := Ideal) x0 x1 x3 x4 x5 x6 x7 x8 x9 x10)
          (Read.val_main_v254 (F := Ideal) x0 x1 x3 x4 x5 x6 x7 x8 x9 x10)
          (Spec.tr x7) (Spec.tr x8) (Spec.rowOf x9) (Spec.rowOf x10)) := by
  have e : Read.val_main_v333 (F := Ideal) x0 x1 x3 x4 x5 x6 x7 x8 x9 x10
      = gruRef (Read.val_main_v295 (F := Ideal) x0 x1 x3 x4 x5 x6 x7 x8 x9 x10)
          (Read.val_main_v254 (F := Ideal) x0 x1 x3 x4 x5 x6 x7 x8 x9 x10) x7 x8 x9 x10 := by
    unfold Read.val_main_v333 Read.val_main_v332 Read.val_main_v331 Read.val_main_v330 Read.val_main_v329 Read.val_main_v328
      Read.val_main_v327 Read.val_main_v326 Read.val_main_v325 Read.val_main_v324 Read.val_main_v323 Read.val_main_v322
      Read.val_main_v321 Read.val_main_v320 Read.val_main_v319 Read.val_main_v318 Read.val_main_v317 Read.val_main_v316
      Read.val_main_v315 Read.val_main_v314 Read.val_main_v313 Read.val_main_v312 Read.val_main_v311 Read.val_main_v310
      Read.val_main_v309 Read.val_main_v308 Read.val_main_v307 Read.val_main_v306 Read.val_main_v305 Read.val_main_v304
      Read.val_main_v303 Read.val_main_v302 Read.val_main_v301 Read.val_main_v300 Read.val_main_v299 Read.val_main_v298
      Read.val_main_v297 Read.val_main_v296 Read.val_main_cst_45 Read.val_main_cst_46 Read.val_main_cst_47
      Read.val_main_cst_48 Read.val_main_cst_49 gruRef sigRef oneRef sl0 sl1 sl2 linRef
    rfl
  rw [e]
  exact gru_read _ _ x7 x8 x9 x10

theorem ref_tail (x0 : (⟨S50000x128, .f32⟩ : BufTy).Contents (Elt Ideal)) (x1 : (⟨S2x600000, .i32⟩ : BufTy).Contents (Elt Ideal))
    (x2 : (⟨S50000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal))
    (x11 : (⟨S128x128, .f32⟩ : BufTy).Contents (Elt Ideal)) (x12 : (⟨S128, .f32⟩ : BufTy).Contents (Elt Ideal)) :
    Read.val_main_v349 (F := Ideal) x0 x1 x2 x3 x4 x5 x6 x7 x8 x9 x10 x11 x12
      = Spec.arr2 (Spec.outp (Spec.arr2 (Spec.pool (fun n => x2 (ix1 n))
          (Read.val_main_v333 (F := Ideal) x0 x1 x3 x4 x5 x6 x7 x8 x9 x10))) x11 (Spec.rowOf x12)) := by
  have e : Read.val_main_v349 (F := Ideal) x0 x1 x2 x3 x4 x5 x6 x7 x8 x9 x10 x11 x12
      = tailRef (Read.val_main_v333 (F := Ideal) x0 x1 x3 x4 x5 x6 x7 x8 x9 x10) x2 x11 x12 := by
    unfold Read.val_main_v349 Read.val_main_v348 Read.val_main_v347 Read.val_main_v346 Read.val_main_v345 Read.val_main_v344
      Read.val_main_v343 Read.val_main_v342 Read.val_main_v341 Read.val_main_v340 Read.val_main_v339 Read.val_main_v338
      Read.val_main_v337 Read.val_main_v336 Read.val_main_v335 Read.val_main_v334 Read.val_main_cst_50 Read.val_main_cst_51
      Read.val_main_cst_52 Read.val_main_cst_53 tailRef poolRef sumRef denRef cntRef
    rfl
  rw [e]
  exact tail_read _ x2 x11 x12

end Cert.ReferenceIdeal.RefValue

end
-- ==== Proof.RefJoin.lean ====
import proofs.«171838_j74071005987300_2_alg».proof.Proof.Spec
import proofs.«171838_j74071005987300_2_alg».proof.Proof.RefRead
import proofs.«171838_j74071005987300_2_alg».proof.Proof.RefConv
import proofs.«171838_j74071005987300_2_alg».proof.Proof.RefGru

/-!
# The reference's result is the specification's network

The reference's embedding, its four convolutions (each message scaled by both degree factors), its four gated updates
and its tail have each been identified with the matching stage of the specification, as a function of the stages
before it. Here they are composed: the state after k rounds, as the specification defines it by recursion on k, is
the reference's buffer after its k-th gated update, for k = 0, 1, 2, 3, 4; the mean over each graph's nodes and the
last linear map of the state after four rounds is then the reference's result.
-/

noncomputable section

namespace Cert.ReferenceIdeal.RefValue

open Cert.ReferenceIdeal Cert.ReferenceIdeal.Gen Idealize.ShloMosaic Idealize.ShloMosaic.StableHlo
  Idealize.ShloMosaic.ValueIdx

/-- The state before any round is the embedding buffer. -/
theorem ref_state0 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Spec.state Spec.stepR x0 x1 x3 x4 x5 x6 x7 x8 x9 x10 0 = Read.val_main_v17 (F := Ideal) x0 x3 x4 :=
  (ref_embed x0 x3 x4).symm

/-- The state after one round is the buffer the first gated update leaves. -/
theorem ref_state1 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Spec.state Spec.stepR x0 x1 x3 x4 x5 x6 x7 x8 x9 x10 1 = Read.val_main_v96 (F := Ideal) x0 x1 x3 x4 x5 x6 x7 x8 x9 x10 := by
  rw [ref_gru0, ref_conv0, ← ref_state0 x0 x1 x3 x4 x5 x6 x7 x8 x9 x10]
  rfl

/-- The state after two rounds is the buffer the second gated update leaves. -/
theorem ref_state2 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Spec.state Spec.stepR x0 x1 x3 x4 x5 x6 x7 x8 x9 x10 2 = Read.val_main_v175 (F := Ideal) x0 x1 x3 x4 x5 x6 x7 x8 x9 x10 := by
  rw [ref_gru1, ref_conv1, ← ref_state1 x0 x1 x3 x4 x5 x6 x7 x8 x9 x10]
  rfl

/-- The state after three rounds is the buffer the third gated update leaves. -/
theorem ref_state3 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Spec.state Spec.stepR x0 x1 x3 x4 x5 x6 x7 x8 x9 x10 3 = Read.val_main_v254 (F := Ideal) x0 x1 x3 x4 x5 x6 x7 x8 x9 x10 := by
  rw [ref_gru2, ref_conv2, ← ref_state2 x0 x1 x3 x4 x5 x6 x7 x8 x9 x10]
  rfl

/-- The state after four rounds is the buffer the fourth gated update leaves. -/
theorem ref_state4 (x0 : (⟨S50000x128, .f32⟩ : BufTy).Contents (Elt Ideal)) (x1 : (⟨S2x600000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal)) :
    Spec.state Spec.stepR x0 x1 x3 x4 x5 x6 x7 x8 x9 x10 4 = Read.val_main_v333 (F := Ideal) x0 x1 x3 x4 x5 x6 x7 x8 x9 x10 := by
  rw [ref_gru3, ref_conv3, ← ref_state3 x0 x1 x3 x4 x5 x6 x7 x8 x9 x10]
  rfl

/-- The reference's result is the specification's network, each round's convolution in the arrangement that scales
    every message by both degree factors. -/
theorem ref_value (x0 : (⟨S50000x128, .f32⟩ : BufTy).Contents (Elt Ideal)) (x1 : (⟨S2x600000, .i32⟩ : BufTy).Contents (Elt Ideal))
    (x2 : (⟨S50000, .i32⟩ : BufTy).Contents (Elt Ideal))
    (x3 : (⟨S128x128, .f32⟩ : BufTy).Contents (Elt Ideal)) (x4 : (⟨S128, .f32⟩ : BufTy).Contents (Elt Ideal))
    (x5 : (⟨S4x128x128, .f32⟩ : BufTy).Contents (Elt Ideal)) (x6 : (⟨S4x128, .f32⟩ : BufTy).Contents (Elt Ideal))
    (x7 x8 : (⟨S384x128, .f32⟩ : BufTy).Contents (Elt Ideal)) (x9 x10 : (⟨S384, .f32⟩ : BufTy).Contents (Elt Ideal))
    (x11 : (⟨S128x128, .f32⟩ : BufTy).Contents (Elt Ideal)) (x12 : (⟨S128, .f32⟩ : BufTy).Contents (Elt Ideal)) :
    Cert.ReferenceIdeal.Read.val_main_v349 (F := Ideal) x0 x1 x2 x3 x4 x5 x6 x7 x8 x9 x10 x11 x12
      = Cert.Spec.model Cert.Spec.stepR x0 x1 x2 x3 x4 x5 x6 x7 x8 x9 x10 x11 x12 := by
  rw [ref_tail, ← ref_state4 x0 x1 x3 x4 x5 x6 x7 x8 x9 x10]
  rfl

end Cert.ReferenceIdeal.RefValue

end
-- ==== Proof.lean ====
/-
  Two programs for one graph network are equal at the ideal instance.

  The network: an embedding `max (x W + b) 0` of 50000 nodes with 128 features; four rounds, each a graph convolution
  over 600000 edges followed by a gated recurrent update of the node states; the mean of the final states over each of
  512 graphs; a last linear map. One program runs the dense stages as ten kernel regions among host gathers and
  scatter-adds and scales each projected feature row by `d⁻¹ᐟ²` of its node before the edge sum and by `d⁻¹ᐟ²` of the
  target node after it; the other is plain host code that multiplies each edge's message by the product of the two
  factors and adds the self term with `1 / d`. Here `d` is the number of edges landing on a node, plus one: a real number
  at least one, so `d⁻¹ᐟ²` is a positive real whose square is `1 / d`, and a nonnegative real factor distributes over any
  sum of extended reals: the two arrangements agree with no finiteness assumed of the inputs. An edge whose target word
  lands on no node is dropped by the scatter-add in both programs; for one that lands on node `n` the wrapped and
  clamped word a gather reads is `n` again. Changes of float format are the identity at this instance, and the kernel's
  one-operation logistic is the reference's `1 / (1 + exp (-x))` by definition.

  The pieces: Spec (the network as one function `model step` of the argument arrays, entry by entry, over a round's
  convolution `step`), StepEq (the two arrangements are one function), KRun and KWalk (the kernel program's run, and its
  result buffer followed through the twenty segment boundaries to `model stepK`), KReg0 … KOut9 (each region's output
  array as one function of its input arrays), KHost and GraphOps (the host gathers and scatter-adds read at an index),
  RefRead and RefRun (the reference's operations as stage functions, and its run), RefConv, RefGru and RefJoin (those stages read to `model stepR`). The three frames are the generated
  ones; the ideal pass rewrote nothing, so there is nothing to preserve.
-/
import proofs.«171838_j74071005987300_2_alg».proof.Defs
import proofs.«171838_j74071005987300_2_alg».proof.Proof.Gen.Kernel
import proofs.«171838_j74071005987300_2_alg».proof.Proof.Gen.Kernel.Frame
import proofs.«171838_j74071005987300_2_alg».proof.Proof.Gen.KernelIdeal
import proofs.«171838_j74071005987300_2_alg».proof.Proof.Gen.KernelIdeal.Frame
import proofs.«171838_j74071005987300_2_alg».proof.Proof.Gen.ReferenceIdeal
import proofs.«171838_j74071005987300_2_alg».proof.Proof.RefRun
import proofs.«171838_j74071005987300_2_alg».proof.Proof.Gen.Pre_finite_inputs
import proofs.«171838_j74071005987300_2_alg».proof.Proof.StepEq
import proofs.«171838_j74071005987300_2_alg».proof.Proof.KRun
import proofs.«171838_j74071005987300_2_alg».proof.Proof.KWalk
import proofs.«171838_j74071005987300_2_alg».proof.Proof.RefJoin
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's value at their own arrangement of a round's convolution, of arguments that
    agree; the two arrangements are one function. -/
theorem algebraic : Cert.algebraic_KernelIdeal_ReferenceIdeal := by
  intro m ρ m' ρ' _ hagree
  refine ⟨_, (θ_run Cert.KernelIdeal.defs _ _).mono (fun _ h c => ⟨(h c).1.trans (Cert.KernelIdeal.KWalk.result m ρ c), (h c).2⟩)
    (Cert.KernelIdeal.KRun.run_value (F := Ideal) m ρ), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Value.res_main_v349_eq, Cert.ReferenceIdeal.RefValue.ref_value,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2.1, (hagree c).2.2.2.2.2.2.2.2.2.1,
    (hagree c).2.2.2.2.2.2.2.2.2.2.1, (hagree c).2.2.2.2.2.2.2.2.2.2.2.1, (hagree c).2.2.2.2.2.2.2.2.2.2.2.2]
  exact (Cert.Spec.model_eq _ _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
